-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S1024x1024 : Shape := ⟨2, ![1024, 1024]⟩
abbrev S1024 : Shape := ⟨1, ![1024]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024 .f32) (main_arg12 : FVec F S1024 .f32) (main_arg13 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_v63 main_v67

def fn_part2 {F : FTy → Type} [FloatOps F] (main_arg7 : FVec F S1024x1024 .f32) (main_arg8 : FVec F S1024x1024 .f32) (main_arg9 : FVec F S1024 .f32) (main_arg10 : FVec F S1024x1024 .f32) (main_arg11 : FVec F S1024 .f32) (main_arg12 : FVec F S1024 .f32) (main_arg13 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_v48 main_v49 main_v50

def fn_part1 {F : FTy → Type} [FloatOps F] (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024 .f32) (main_arg10 : FVec F S1024x1024 .f32) (main_arg11 : FVec F S1024 .f32) (main_arg12 : FVec F S1024 .f32) (main_arg13 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S8x1024x1024 .f32) (main_arg1 : FVec F S8x1024x1024 .f32) (main_arg2 : FVec F S1024x1024 .f32) (main_arg3 : FVec F S1024x1024 .f32) (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024 .f32) (main_arg10 : FVec F S1024x1024 .f32) (main_arg11 : FVec F S1024 .f32) (main_arg12 : FVec F S1024 .f32) (main_arg13 : FVec F S1024 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S8x1024x1024 .f32 := Host.absf main_arg1
  let main_cst_0 : FVec F S_ .f32 := constant S_ .f32 0x7F800000#32
  let main_v5 : FVec F S8x1024x1024 .f32 := broadcastInDim S8x1024x1024 ![] bcast_S_S8x1024x1024 main_cst_0
  let main_v6 : IVec S8x1024x1024 1 := cmpf .olt main_v4 main_v5
  let main_c_1 : IVec S_ 1 := constantI S_ 1 1#1
  let main_v7 : IVec S_ 1 := (fun x v => Host.reduce IntOp.andi x v reducesTo_S8x1024x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S8x1024x1024 : Shape := ⟨3, ![8, 1024, 1024]⟩
abbrev S1024x1024 : Shape := ⟨2, ![1024, 1024]⟩
abbrev S1024 : Shape := ⟨1, ![1024]⟩
abbrev S1x1024 : Shape := ⟨2, ![1, 1024]⟩
abbrev S1024x3072 : Shape := ⟨2, ![1024, 3072]⟩
abbrev S1024x2048 : Shape := ⟨2, ![1024, 2048]⟩
abbrev S8192x1024 : Shape := ⟨2, ![8192, 1024]⟩
abbrev S8192x3072 : Shape := ⟨2, ![8192, 3072]⟩
abbrev S256x1024 : Shape := ⟨2, ![256, 1024]⟩
abbrev S256x3072 : Shape := ⟨2, ![256, 3072]⟩
abbrev S8x1024x3072 : Shape := ⟨3, ![8, 1024, 3072]⟩
abbrev S1x256x1024 : Shape := ⟨3, ![1, 256, 1024]⟩
abbrev S1x1024x1024 : Shape := ⟨3, ![1, 1024, 1024]⟩
abbrev S256 : Shape := ⟨1, ![256]⟩
abbrev S256x1 : Shape := ⟨2, ![256, 1]⟩
abbrev S8192x2048 : Shape := ⟨2, ![8192, 2048]⟩
abbrev S256x2048 : Shape := ⟨2, ![256, 2048]⟩
abbrev S8x1024x2048 : Shape := ⟨3, ![8, 1024, 2048]⟩
abbrev S512x1024 : Shape := ⟨2, ![512, 1024]⟩
abbrev S512 : Shape := ⟨1, ![512]⟩
abbrev S512x1 : Shape := ⟨2, ![512, 1]⟩

abbrev nBuf : Space → Nat
  | .hbm => 39
  | .vmem => 49
  | .smem => 0
  | _ => 0

abbrev bufTy : (tb : Table) → Fin (tcTables nBuf tb) → BufTy
  | .hbm, ⟨0, _⟩ => ⟨S8x1024x1024, .f32⟩
  | .hbm, ⟨1, _⟩ => ⟨S8x1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1024x3072, .f32⟩
  | .hbm, ⟨19, _⟩ => ⟨S1024x3072, .bf16⟩
  | .hbm, ⟨20, _⟩ => ⟨S1024x2048, .f32⟩
  | .hbm, ⟨21, _⟩ => ⟨S1024x2048, .bf16⟩
  | .hbm, ⟨22, _⟩ => ⟨S1024x1024, .bf16⟩
  | .hbm, ⟨23, _⟩ => ⟨S1024x1024, .bf16⟩
  | .hbm, ⟨24, _⟩ => ⟨S1024x1024, .bf16⟩
  | .hbm, ⟨25, _⟩ => ⟨S8192x1024, .f32⟩
  | .hbm, ⟨26, _⟩ => ⟨S8192x3072, .bf16⟩
  | .hbm, ⟨27, _⟩ => ⟨S8x1024x3072, .bf16⟩
  | .hbm, ⟨28, _⟩ => ⟨S8x1024x1024, .f32⟩
  | .hbm, ⟨29, _⟩ => ⟨S8192x1024, .f32⟩
  | .hbm, ⟨30, _⟩ => ⟨S8192x2048, .bf16⟩
  | .hbm, ⟨31, _⟩ => ⟨S8x1024x2048, .bf16⟩
  | .hbm, ⟨32, _⟩ => ⟨S8192x1024, .f32⟩
  | .hbm, ⟨33, _⟩ => ⟨S8192x1024, .bf16⟩
  | .hbm, ⟨34, _⟩ => ⟨S8x1024x1024, .bf16⟩
  | .hbm, ⟨35, _⟩ => ⟨S8x1024x1024, .f32⟩
  | .hbm, ⟨36, _⟩ => ⟨S8192x1024, .f32⟩
  | .hbm, ⟨37, _⟩ => ⟨S8192x1024, .f32⟩
  | .hbm, ⟨38, _⟩ => ⟨S8x1024x1024, .f32⟩
  | .local _ .vmem, ⟨0, _⟩ => ⟨S256x1024, .f32⟩
  | .local _ .vmem, ⟨1, _⟩ => ⟨S256x1024, .f32⟩
  | .local _ .vmem, ⟨2, _⟩ => ⟨S1024x3072, .bf16⟩
  | .local _ .vmem, ⟨3, _⟩ => ⟨S256x3072, .bf16⟩
  | .local _ .vmem, ⟨4, _⟩ => ⟨S256x3072, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x256x1024, .f32⟩
  | .local _ .vmem, ⟨12, _⟩ => ⟨S1x256x1024, .f32⟩
  | .local _ .vmem, ⟨13, _⟩ => ⟨S1x1024, .f32⟩
  | .local _ .vmem, ⟨14, _⟩ => ⟨S1x1024, .f32⟩
  | .local _ .vmem, ⟨15, _⟩ => ⟨S1x256x1024, .f32⟩
  | .local _ .vmem, ⟨16, _⟩ => ⟨S1x256x1024, .f32⟩
  | .local _ .vmem, ⟨17, _⟩ => ⟨S256x1024, .f32⟩
  | .local _ .vmem, ⟨18, _⟩ => ⟨S256x1024, .f32⟩
  | .local _ .vmem, ⟨19, _⟩ => ⟨S1024x2048, .bf16⟩
  | .local _ .vmem, ⟨20, _⟩ => ⟨S256x2048, .bf16⟩
  | .local _ .vmem, ⟨21, _⟩ => ⟨S256x2048, .bf16⟩
  | .local _ .vmem, ⟨22, _⟩ => ⟨S512x1024, .f32⟩
  | .local _ .vmem, ⟨23, _⟩ => ⟨S512x1024, .f32⟩
  | .local _ .vmem, ⟨24, _⟩ => ⟨S1024x1024, .bf16⟩
  | .local _ .vmem, ⟨25, _⟩ => ⟨S512x1024, .bf16⟩
  | .local _ .vmem, ⟨26, _⟩ => ⟨S512x1024, .bf16⟩
  | .local _ .vmem, ⟨27, _⟩ => ⟨S1x256x1024, .bf16⟩
  | .local _ .vmem, ⟨28, _⟩ => ⟨S1x256x1024, .bf16⟩
  | .local _ .vmem, ⟨29, _⟩ => ⟨S1x1024x1024, .bf16⟩
  | .local _ .vmem, ⟨30, _⟩ => ⟨S1x1024x1024, .bf16⟩
  | .local _ .vmem, ⟨31, _⟩ => ⟨S1x1024x1024, .bf16⟩
  | .local _ .vmem, ⟨32, _⟩ => ⟨S1x1024x1024, .bf16⟩
  | .local _ .vmem, ⟨33, _⟩ => ⟨S1x256x1024, .f32⟩
  | .local _ .vmem, ⟨34, _⟩ => ⟨S1x256x1024, .f32⟩
  | .local _ .vmem, ⟨35, _⟩ => ⟨S1x1024, .f32⟩
  | .local _ .vmem, ⟨36, _⟩ => ⟨S1x1024, .f32⟩
  | .local _ .vmem, ⟨37, _⟩ => ⟨S1x256x1024, .f32⟩
  | .local _ .vmem, ⟨38, _⟩ => ⟨S1x256x1024, .f32⟩
  | .local _ .vmem, ⟨39, _⟩ => ⟨S512x1024, .f32⟩
  | .local _ .vmem, ⟨40, _⟩ => ⟨S512x1024, .f32⟩
  | .local _ .vmem, ⟨41, _⟩ => ⟨S1024x1024, .bf16⟩
  | .local _ .vmem, ⟨42, _⟩ => ⟨S1x1024, .f32⟩
  | .local _ .vmem, ⟨43, _⟩ => ⟨S1024x1024, .bf16⟩
  | .local _ .vmem, ⟨44, _⟩ => ⟨S1x1024, .f32⟩
  | .local _ .vmem, ⟨45, _⟩ => ⟨S1x1024, .f32⟩
  | .local _ .vmem, ⟨46, _⟩ => ⟨S1x1024, .f32⟩
  | .local _ .vmem, ⟨47, _⟩ => ⟨S512x1024, .f32⟩
  | .local _ .vmem, ⟨48, _⟩ => ⟨S512x1024, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc4_stg4_0 : Ref sig .tc := ⟨.vmem, 35, rfl⟩
abbrev cc4_stg5_0 : Ref sig .tc := ⟨.vmem, 36, rfl⟩
abbrev cc4_stg6_0 : Ref sig .tc := ⟨.vmem, 37, rfl⟩
abbrev cc4_stg6_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg5_0 : Ref sig .tc := ⟨.vmem, 45, rfl⟩
abbrev cc5_stg6_0 : Ref sig .tc := ⟨.vmem, 46, rfl⟩
abbrev cc5_stg7_0 : Ref sig .tc := ⟨.vmem, 47, rfl⟩
abbrev cc5_stg7_1 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc4_sem3_0 : DmaSem sig := 33
abbrev cc4_sem3_1 : DmaSem sig := 34
abbrev cc4_sem4_0 : DmaSem sig := 35
abbrev cc4_sem5_0 : DmaSem sig := 36
abbrev cc4_sem6_0 : DmaSem sig := 37
abbrev cc4_sem6_1 : DmaSem sig := 38
abbrev cc5_sem0_0 : DmaSem sig := 39
abbrev cc5_sem0_1 : DmaSem sig := 40
abbrev cc5_sem1_0 : DmaSem sig := 41
abbrev cc5_sem2_0 : DmaSem sig := 42
abbrev cc5_sem3_0 : DmaSem sig := 43
abbrev cc5_sem4_0 : DmaSem sig := 44
abbrev cc5_sem5_0 : DmaSem sig := 45
abbrev cc5_sem6_0 : DmaSem sig := 46
abbrev cc5_sem7_0 : DmaSem sig := 47
abbrev cc5_sem7_1 : DmaSem sig := 48

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![8, 4], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S1x256x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x1024x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1x256x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 1 → Memref sig .tc .vmem S1x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .vmem S1x1024 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 2 → Memref sig .tc .vmem S1x256x1024 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1024x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1024x1024 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1024 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x1024 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x1024 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S512x1024 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  shapeCasts_S1024_S1x1024 : S1024.ShapeCasts S1x1024
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024x1024_S1024x1024_S1024x2048_d1 : Shape.Concatenates [S1024x1024, S1024x1024] S1024x2048 1
  shapeCasts_S8x1024x1024_S8192x1024 : S8x1024x1024.ShapeCasts S8192x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S256x3072_S256x3072_0_0 : ∀ a, (![0, 0] : Fin 2 → Nat) a + S256x3072.size a ≤ S256x3072.size a
  h_S256x3072 : 0 < S256x3072.numel
  packedbf16_S256x3072_S256x3072_0_0 : (Rect.unit (s := S256x3072) ![0, 0] S256x3072.size inb_S256x3072_S256x3072_0_0).PackedRows (EltTy.packing .bf16)
  shapeCasts_S8192x3072_S8x1024x3072 : S8192x3072.ShapeCasts S8x1024x3072
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  transposes_S1024x1024_p1_0_S1024x1024 : S1024x1024.Transposes [1, 0] S1024x1024
  iota_S256x1024_d0_w32 : S256x1024.Iotas .tc 32 [0]
  iota_S256x1024_d1_w32 : S256x1024.Iotas .tc 32 [1]
  reduces_S256x1024_S256 : S256x1024.Reduces [1] S256
  shapeCasts_S256_S256x1 : S256.ShapeCasts S256x1
  broadcasts_S256x1_S256x1024 : S256x1.Broadcasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S256x1024_S1x256x1024 : S256x1024.ShapeCasts S1x256x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S256x2048_S256x2048_0_0 : ∀ a, (![0, 0] : Fin 2 → Nat) a + S256x2048.size a ≤ S256x2048.size a
  h_S256x2048 : 0 < S256x2048.numel
  packedbf16_S256x2048_S256x2048_0_0 : (Rect.unit (s := S256x2048) ![0, 0] S256x2048.size inb_S256x2048_S256x2048_0_0).PackedRows (EltTy.packing .bf16)
  shapeCasts_S8192x2048_S8x1024x2048 : S8192x2048.ShapeCasts S8x1024x2048
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  shapeCasts_S8192x1024_S8x1024x1024 : S8192x1024.ShapeCasts S8x1024x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  dot_S256x1024_S1024x3072_S256x3072_1_0_0_1_n_n_wf : DotDims.WF S256x1024 S1024x3072 S256x3072 [1] [0] [0] [1] [] []
  dot_S256x1024_S1024x1024_S256x1024_1_0_0_1_n_n_wf : DotDims.WF S256x1024 S1024x1024 S256x1024 [1] [0] [0] [1] [] []
  dot_S256x1024_S1024x2048_S256x2048_1_0_0_1_n_n_wf : DotDims.WF S256x1024 S1024x2048 S256x2048 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x3072.size a ≤ S8192x3072.size a
  hwx0_2 : ∀ i : grid0.Coords, EltTy.bits .bf16 = 32 ∨ (Rect.block (s := S8192x3072) S256x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S8x1024x3072.size a
  hwx1_0 : ∀ i : grid1.Coords, EltTy.bits .bf16 = 32 ∨ (Rect.block (s := S8x1024x3072) S1x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S8x1024x3072.size a
  hwx1_1 : ∀ i : grid1.Coords, EltTy.bits .bf16 = 32 ∨ (Rect.block (s := S8x1024x3072) S1x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S8x1024x3072.size a
  hwx1_2 : ∀ i : grid1.Coords, EltTy.bits .bf16 = 32 ∨ (Rect.block (s := S8x1024x3072) S1x1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x1024.size a ≤ S8x1024x1024.size a
  hwx1_3 : ∀ i : grid1.Coords, EltTy.bits .f32 = 32 ∨ (Rect.block (s := S8x1024x1024) S1x256x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256x1024.size a ≤ S8x1024x1024.size a
  hwx1_6 : ∀ i : grid1.Coords, EltTy.bits .f32 = 32 ∨ (Rect.block (s := S8x1024x1024) S1x256x1024.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x1024.size a ≤ S8192x1024.size a
  hwx2_0 : ∀ i : grid2.Coords, EltTy.bits .f32 = 32 ∨ (Rect.block (s := S8192x1024) S256x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x2048.size a ≤ S1024x2048.size a
  hwx2_1 : ∀ i : grid2.Coords, EltTy.bits .bf16 = 32 ∨ (Rect.block (s := S1024x2048) S1024x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x2048.size a ≤ S8192x2048.size a
  hwx2_2 : ∀ i : grid2.Coords, EltTy.bits .bf16 = 32 ∨ (Rect.block (s := S8192x2048) S256x2048.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S8192x1024.size a
  hwx3_0 : ∀ i : grid3.Coords, EltTy.bits .f32 = 32 ∨ (Rect.block (s := S8192x1024) S512x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S1024x1024.size a
  hwx3_1 : ∀ i : grid3.Coords, EltTy.bits .bf16 = 32 ∨ (Rect.block (s := S1024x1024) S1024x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x1024.size a ≤ S8192x1024.size a
  hwx3_2 : ∀ i : grid3.Coords, EltTy.bits .bf16 = 32 ∨ (Rect.block (s := S8192x1024) S512x1024.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x256x1024.size a ≤ S8x1024x1024.size a
  hwx4_0 : ∀ i : grid4.Coords, EltTy.bits .bf16 = 32 ∨ (Rect.block (s := S8x1024x1024) S1x256x1024.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x1024x1024.size a ≤ S8x1024x2048.size a
  hwx4_1 : ∀ i : grid4.Coords, EltTy.bits .bf16 = 32 ∨ (Rect.block (s := S8x1024x2048) S1x1024x1024.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x1024x1024.size a ≤ S8x1024x2048.size a
  hwx4_2 : ∀ i : grid4.Coords, EltTy.bits .bf16 = 32 ∨ (Rect.block (s := S8x1024x2048) S1x1024x1024.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x256x1024.size a ≤ S8x1024x1024.size a
  hwx4_3 : ∀ i : grid4.Coords, EltTy.bits .f32 = 32 ∨ (Rect.block (s := S8x1024x1024) S1x256x1024.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1024.size a ≤ S1x1024.size a
  hwx4_4 : ∀ i : grid4.Coords, EltTy.bits .f32 = 32 ∨ (Rect.block (s := S1x1024) S1x1024.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x1024.size a ≤ S1x1024.size a
  hwx4_5 : ∀ i : grid4.Coords, EltTy.bits .f32 = 32 ∨ (Rect.block (s := S1x1024) S1x1024.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S1x256x1024.size a ≤ S8x1024x1024.size a
  hwx4_6 : ∀ i : grid4.Coords, EltTy.bits .f32 = 32 ∨ (Rect.block (s := S8x1024x1024) S1x256x1024.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x1024.size a ≤ S8192x1024.size a
  hwx5_0 : ∀ i : grid5.Coords, EltTy.bits .f32 = 32 ∨ (Rect.block (s := S8192x1024) S512x1024.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1024x1024.size a ≤ S1024x1024.size a
  hwx5_1 : ∀ i : grid5.Coords, EltTy.bits .bf16 = 32 ∨ (Rect.block (s := S1024x1024) S1024x1024.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1024.size a ≤ S1x1024.size a
  hwx5_2 : ∀ i : grid5.Coords, EltTy.bits .f32 = 32 ∨ (Rect.block (s := S1x1024) S1x1024.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1024x1024.size a ≤ S1024x1024.size a
  hwx5_3 : ∀ i : grid5.Coords, EltTy.bits .bf16 = 32 ∨ (Rect.block (s := S1024x1024) S1024x1024.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x1024.size a ≤ S1x1024.size a
  hwx5_4 : ∀ i : grid5.Coords, EltTy.bits .f32 = 32 ∨ (Rect.block (s := S1x1024) S1x1024.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x1024.size a ≤ S1x1024.size a
  hwx5_5 : ∀ i : grid5.Coords, EltTy.bits .f32 = 32 ∨ (Rect.block (s := S1x1024) S1x1024.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x1024.size a ≤ S1x1024.size a
  hwx5_6 : ∀ i : grid5.Coords, EltTy.bits .f32 = 32 ∨ (Rect.block (s := S1x1024) S1x1024.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S512x1024.size a ≤ S8192x1024.size a
  hwx5_7 : ∀ i : grid5.Coords, EltTy.bits .f32 = 32 ∨ (Rect.block (s := S8192x1024) S512x1024.size (cc5_transform_7 i) (hinb5_7 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v11) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S256x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S1x256x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14) S1x256x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v15) S256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1024x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S256x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v18) S512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S1024x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v19) S512x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v20) S1x256x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v17) S1x1024x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v17) S1x1024x1024.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v14) S1x256x1024.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v0) S1x1024.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v1) S1x1024.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v21) S1x256x1024.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v22) S512x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v9) S1024x1024.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v2) S1x1024.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v10) S1024x1024.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v3) S1x1024.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v0) S1x1024.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v1) S1x1024.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v23) S512x1024.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S8x1024x1024 : Shape := ⟨3, ![8, 1024, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩
abbrev S1024x1 : Shape := ⟨2, ![1024, 1]⟩
abbrev S1x1024x1024 : Shape := ⟨3, ![1, 1024, 1024]⟩
abbrev S8x1024 : Shape := ⟨2, ![8, 1024]⟩
abbrev S8x1024x1 : Shape := ⟨3, ![8, 1024, 1]⟩
abbrev S1x1x1024 : Shape := ⟨3, ![1, 1, 1024]⟩

abbrev nBuf : Space → Nat
  | .hbm => 178
  | .vmem => 0
  | .smem => 0
  | _ => 0

abbrev hbmTy0_0 (i : Nat) : BufTy := match i % 128 with
  | 0 => ⟨S8x1024x1024, .f32⟩
  | 1 => ⟨S8x1024x1024, .f32⟩
  | 2 => ⟨S1024x1024, .f32⟩
  | 3 => ⟨S1024x1024, .f32⟩
  | 4 => ⟨S1024x1024, .f32⟩
  | 5 => ⟨S1024x1024, .f32⟩
  | 6 => ⟨S1024x1024, .f32⟩
  | 7 => ⟨S1024x1024, .f32⟩
  | 8 => ⟨S1024x1024, .f32⟩
  | 9 => ⟨S1024, .f32⟩
  | 10 => ⟨S1024x1024, .f32⟩
  | 11 => ⟨S1024, .f32⟩
  | 12 => ⟨S1024, .f32⟩
  | 13 => ⟨S1024, .f32⟩
  | 14 => ⟨S8x1024x1024, .f32⟩
  | 15 => ⟨S8x1024x1024, .f32⟩
  | 16 => ⟨S8x1024x1024, .f32⟩
  | 17 => ⟨S8x1024x1024, .f32⟩
  | 18 => ⟨S_, .f32⟩
  | 19 => ⟨S8x1024x1024, .f32⟩
  | 20 => ⟨S8x1024x1024, .f32⟩
  | 21 => ⟨S1024, .i32⟩
  | 22 => ⟨S1x1024, .i32⟩
  | 23 => ⟨S1024, .i32⟩
  | 24 => ⟨S1024x1, .i32⟩
  | 25 => ⟨S1024x1024, .i32⟩
  | 26 => ⟨S1024x1024, .i32⟩
  | 27 => ⟨S1024x1024, .i1⟩
  | 28 => ⟨S_, .f32⟩
  | 29 => ⟨S_, .f32⟩
  | 30 => ⟨S1024x1024, .f32⟩
  | 31 => ⟨S1024x1024, .f32⟩
  | 32 => ⟨S1024x1024, .f32⟩
  | 33 => ⟨S1024x1024, .f32⟩
  | 34 => ⟨S1x1024x1024, .f32⟩
  | 35 => ⟨S8x1024x1024, .f32⟩
  | 36 => ⟨S8x1024x1024, .f32⟩
  | 37 => ⟨S_, .f32⟩
  | 38 => ⟨S8x1024, .f32⟩
  | 39 => ⟨S_, .f32⟩
  | 40 => ⟨S8x1024, .f32⟩
  | 41 => ⟨S8x1024, .f32⟩
  | 42 => ⟨S8x1024x1, .f32⟩
  | 43 => ⟨S8x1024x1024, .f32⟩
  | 44 => ⟨S8x1024x1024, .f32⟩
  | 45 => ⟨S8x1024x1024, .f32⟩
  | 46 => ⟨S_, .f32⟩
  | 47 => ⟨S8x1024, .f32⟩
  | 48 => ⟨S8x1024x1, .f32⟩
  | 49 => ⟨S8x1024x1024, .f32⟩
  | 50 => ⟨S8x1024x1024, .f32⟩
  | 51 => ⟨S8x1024x1024, .f32⟩
  | 52 => ⟨S8x1024x1024, .f32⟩
  | 53 => ⟨S_, .f32⟩
  | 54 => ⟨S8x1024, .f32⟩
  | 55 => ⟨S8x1024x1, .f32⟩
  | 56 => ⟨S_, .f32⟩
  | 57 => ⟨S8x1024x1, .f32⟩
  | 58 => ⟨S8x1024x1, .f32⟩
  | 59 => ⟨S8x1024x1024, .f32⟩
  | 60 => ⟨S8x1024x1024, .f32⟩
  | 61 => ⟨S8x1024x1024, .f32⟩
  | 62 => ⟨S_, .f32⟩
  | 63 => ⟨S8x1024, .f32⟩
  | 64 => ⟨S8x1024x1, .f32⟩
  | 65 => ⟨S_, .f32⟩
  | 66 => ⟨S8x1024x1, .f32⟩
  | 67 => ⟨S8x1024x1, .f32⟩
  | 68 => ⟨S8x1024x1024, .f32⟩
  | 69 => ⟨S8x1024x1024, .f32⟩
  | 70 => ⟨S_, .f32⟩
  | 71 => ⟨S8x1024x1, .f32⟩
  | 72 => ⟨S8x1024x1, .f32⟩
  | 73 => ⟨S8x1024x1, .f32⟩
  | 74 => ⟨S8x1024x1024, .f32⟩
  | 75 => ⟨S8x1024x1024, .f32⟩
  | 76 => ⟨S1x1x1024, .f32⟩
  | 77 => ⟨S8x1024x1024, .f32⟩
  | 78 => ⟨S8x1024x1024, .f32⟩
  | 79 => ⟨S1x1x1024, .f32⟩
  | 80 => ⟨S8x1024x1024, .f32⟩
  | 81 => ⟨S8x1024x1024, .f32⟩
  | 82 => ⟨S8x1024x1024, .f32⟩
  | 83 => ⟨S8x1024x1024, .f32⟩
  | 84 => ⟨S8x1024x1024, .f32⟩
  | 85 => ⟨S8x1024x1024, .f32⟩
  | 86 => ⟨S_, .f32⟩
  | 87 => ⟨S8x1024x1024, .f32⟩
  | 88 => ⟨S8x1024x1024, .f32⟩
  | 89 => ⟨S_, .f32⟩
  | 90 => ⟨S8x1024, .f32⟩
  | 91 => ⟨S_, .f32⟩
  | 92 => ⟨S8x1024, .f32⟩
  | 93 => ⟨S8x1024, .f32⟩
  | 94 => ⟨S8x1024x1, .f32⟩
  | 95 => ⟨S8x1024x1024, .f32⟩
  | 96 => ⟨S8x1024x1024, .f32⟩
  | 97 => ⟨S8x1024x1024, .f32⟩
  | 98 => ⟨S_, .f32⟩
  | 99 => ⟨S8x1024, .f32⟩
  | 100 => ⟨S8x1024x1, .f32⟩
  | 101 => ⟨S8x1024x1024, .f32⟩
  | 102 => ⟨S8x1024x1024, .f32⟩
  | 103 => ⟨S8x1024x1024, .f32⟩
  | 104 => ⟨S8x1024x1024, .f32⟩
  | 105 => ⟨S_, .f32⟩
  | 106 => ⟨S8x1024, .f32⟩
  | 107 => ⟨S8x1024x1, .f32⟩
  | 108 => ⟨S_, .f32⟩
  | 109 => ⟨S8x1024x1, .f32⟩
  | 110 => ⟨S8x1024x1, .f32⟩
  | 111 => ⟨S8x1024x1024, .f32⟩
  | 112 => ⟨S8x1024x1024, .f32⟩
  | 113 => ⟨S8x1024x1024, .f32⟩
  | 114 => ⟨S_, .f32⟩
  | 115 => ⟨S8x1024, .f32⟩
  | 116 => ⟨S8x1024x1, .f32⟩
  | 117 => ⟨S_, .f32⟩
  | 118 => ⟨S8x1024x1, .f32⟩
  | 119 => ⟨S8x1024x1, .f32⟩
  | 120 => ⟨S8x1024x1024, .f32⟩
  | 121 => ⟨S8x1024x1024, .f32⟩
  | 122 => ⟨S_, .f32⟩
  | 123 => ⟨S8x1024x1, .f32⟩
  | 124 => ⟨S8x1024x1, .f32⟩
  | 125 => ⟨S8x1024x1, .f32⟩
  | 126 => ⟨S8x1024x1024, .f32⟩
  | 127 => ⟨S8x1024x1024, .f32⟩
  | _ => ⟨S8x1024x1024, .f32⟩

abbrev hbmTy0_1 (i : Nat) : BufTy := match i % 128 with
  | 0 => ⟨S1x1x1024, .f32⟩
  | 1 => ⟨S8x1024x1024, .f32⟩
  | 2 => ⟨S8x1024x1024, .f32⟩
  | 3 => ⟨S1x1x1024, .f32⟩
  | 4 => ⟨S8x1024x1024, .f32⟩
  | 5 => ⟨S8x1024x1024, .f32⟩
  | 6 => ⟨S8x1024x1024, .f32⟩
  | 7 => ⟨S1x1x1024, .f32⟩
  | 8 => ⟨S8x1024x1024, .f32⟩
  | 9 => ⟨S8x1024x1024, .f32⟩
  | 10 => ⟨S_, .f32⟩
  | 11 => ⟨S8x1024x1024, .f32⟩
  | 12 => ⟨S8x1024x1024, .f32⟩
  | 13 => ⟨S8x1024x1024, .f32⟩
  | 14 => ⟨S1x1x1024, .f32⟩
  | 15 => ⟨S8x1024x1024, .f32⟩
  | 16 => ⟨S8x1024x1024, .f32⟩
  | 17 => ⟨S8x1024x1024, .f32⟩
  | 18 => ⟨S_, .f32⟩
  | 19 => ⟨S8x1024, .f32⟩
  | 20 => ⟨S8x1024x1, .f32⟩
  | 21 => ⟨S_, .f32⟩
  | 22 => ⟨S8x1024x1, .f32⟩
  | 23 => ⟨S8x1024x1, .f32⟩
  | 24 => ⟨S8x1024x1024, .f32⟩
  | 25 => ⟨S8x1024x1024, .f32⟩
  | 26 => ⟨S8x1024x1024, .f32⟩
  | 27 => ⟨S_, .f32⟩
  | 28 => ⟨S8x1024, .f32⟩
  | 29 => ⟨S8x1024x1, .f32⟩
  | 30 => ⟨S_, .f32⟩
  | 31 => ⟨S8x1024x1, .f32⟩
  | 32 => ⟨S8x1024x1, .f32⟩
  | 33 => ⟨S8x1024x1024, .f32⟩
  | 34 => ⟨S8x1024x1024, .f32⟩
  | 35 => ⟨S_, .f32⟩
  | 36 => ⟨S8x1024x1, .f32⟩
  | 37 => ⟨S8x1024x1, .f32⟩
  | 38 => ⟨S8x1024x1, .f32⟩
  | 39 => ⟨S8x1024x1024, .f32⟩
  | 40 => ⟨S8x1024x1024, .f32⟩
  | 41 => ⟨S1x1x1024, .f32⟩
  | 42 => ⟨S8x1024x1024, .f32⟩
  | 43 => ⟨S8x1024x1024, .f32⟩
  | 44 => ⟨S1x1x1024, .f32⟩
  | 45 => ⟨S8x1024x1024, .f32⟩
  | 46 => ⟨S8x1024x1024, .f32⟩
  | 47 => ⟨S_, .f32⟩
  | 48 => ⟨S8x1024x1024, .f32⟩
  | 49 => ⟨S8x1024x1024, .f32⟩
  | _ => ⟨S8x1024x1024, .f32⟩

abbrev hbmTy (i : Nat) : BufTy := match i / 128 with
  | 0 => hbmTy0_0 i
  | 1 => hbmTy0_1 i
  | _ => ⟨S8x1024x1024, .f32⟩

abbrev bufTy : (tb : Table) → Fin (tcTables nBuf tb) → BufTy
  | .hbm, ⟨i, _⟩ => hbmTy i
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_cst_1 : Ref sig .tc := ⟨.hbm, 29, rfl⟩
abbrev main_call0_v0 : Ref sig .tc := ⟨.hbm, 30, rfl⟩
abbrev main_call0_v1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_v32 : Ref sig .tc := ⟨.hbm, 55, rfl⟩
abbrev main_cst_6 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_7 : Ref sig .tc := ⟨.hbm, 62, rfl⟩
abbrev main_v38 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_10 : Ref sig .tc := ⟨.hbm, 86, rfl⟩
abbrev main_v59 : Ref sig .tc := ⟨.hbm, 87, rfl⟩
abbrev main_v60 : Ref sig .tc := ⟨.hbm, 88, rfl⟩
abbrev main_cst_11 : Ref sig .tc := ⟨.hbm, 89, rfl⟩
abbrev main_v61 : Ref sig .tc := ⟨.hbm, 90, rfl⟩
abbrev main_cst_12 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_13 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_14 : Ref sig .tc := ⟨.hbm, 105, rfl⟩
abbrev main_v74 : Ref sig .tc := ⟨.hbm, 106, rfl⟩
abbrev main_v75 : Ref sig .tc := ⟨.hbm, 107, rfl⟩
abbrev main_cst_15 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_16 : Ref sig .tc := ⟨.hbm, 114, rfl⟩
abbrev main_v81 : Ref sig .tc := ⟨.hbm, 115, rfl⟩
abbrev main_v82 : Ref sig .tc := ⟨.hbm, 116, rfl⟩
abbrev main_cst_17 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_18 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_call1_cst : Ref sig .tc := ⟨.hbm, 138, rfl⟩
abbrev main_call1_v0 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_19 : Ref sig .tc := ⟨.hbm, 146, rfl⟩
abbrev main_v108 : Ref sig .tc := ⟨.hbm, 147, rfl⟩
abbrev main_v109 : Ref sig .tc := ⟨.hbm, 148, rfl⟩
abbrev main_cst_20 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_21 : Ref sig .tc := ⟨.hbm, 155, rfl⟩
abbrev main_v115 : Ref sig .tc := ⟨.hbm, 156, rfl⟩
abbrev main_v116 : Ref sig .tc := ⟨.hbm, 157, rfl⟩
abbrev main_cst_22 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_cst_23 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_call2_cst : Ref sig .tc := ⟨.hbm, 175, rfl⟩
abbrev main_call2_v0 : Ref sig .tc := ⟨.hbm, 176, rfl⟩
abbrev main_v132 : Ref sig .tc := ⟨.hbm, 177, rfl⟩

abbrev nD : Nat := 1
abbrev τ : Topo := Topo.v7x

variable {F : FTy → Type} [FloatOps F]

class Facts₀ : Prop where
  bcast_S_S8x1024x1024 : S_.BroadcastsInDim S8x1024x1024 (![] : Fin 0 → Fin S8x1024x1024.rank)
  bcast_S1024_S1x1024_1 : S1024.BroadcastsInDim S1x1024 (![1] : Fin 1 → Fin S1x1024.rank)
  bcast_S1024_S1024x1_0 : S1024.BroadcastsInDim S1024x1 (![0] : Fin 1 → Fin S1024x1.rank)
  bcast_S1x1024_S1024x1024_0_1 : S1x1024.BroadcastsInDim S1024x1024 (![0, 1] : Fin 2 → Fin S1024x1024.rank)
  bcast_S1024x1_S1024x1024_0_1 : S1024x1.BroadcastsInDim S1024x1024 (![0, 1] : Fin 2 → Fin S1024x1024.rank)
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S8x1024x1024_0_1_2 : S1x1024x1024.BroadcastsInDim S8x1024x1024 (![0, 1, 2] : Fin 3 → Fin S8x1024x1024.rank)
  reducesTo_S8x1024x1024_S8x1024_d2 : S8x1024x1024.ReducesTo [2] S8x1024
  h_S_ : 0 < S_.numel
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  bcast_S8x1024x1_S8x1024x1024_0_1_2 : S8x1024x1.BroadcastsInDim S8x1024x1024 (![0, 1, 2] : Fin 3 → Fin S8x1024x1024.rank)
  bcast_S_S8x1024x1 : S_.BroadcastsInDim S8x1024x1 (![] : Fin 0 → Fin S8x1024x1.rank)
  bcast_S1024_S1x1x1024_2 : S1024.BroadcastsInDim S1x1x1024 (![2] : Fin 1 → Fin S1x1x1024.rank)
  bcast_S1x1x1024_S8x1024x1024_0_1_2 : S1x1x1024.BroadcastsInDim S8x1024x1024 (![0, 1, 2] : Fin 3 → Fin S8x1024x1024.rank)
  dot_S8x1024x1024_S1024x1024_S8x1024x1024_2_0_01_1_n_n_wf : DotDims.WF S8x1024x1024 S1024x1024 S8x1024x1024 [2] [0] [0, 1] [1] [] []
  dot_S8x1024x1024_S8x1024x1024_S8x1024x1024_2_2_1_1_0_0_wf : DotDims.WF S8x1024x1024 S8x1024x1024 S8x1024x1024 [2] [2] [1] [1] [0] [0]
  dot_S8x1024x1024_S8x1024x1024_S8x1024x1024_2_1_1_2_0_0_wf : DotDims.WF S8x1024x1024 S8x1024x1024 S8x1024x1024 [2] [1] [1] [2] [0] [0]

variable [Facts₀]

def dot_S8x1024x1024_S1024x1024_S8x1024x1024_2_0_01_1_n_n : DotDims S8x1024x1024 S1024x1024 S8x1024x1024 where
  lhsContracting := [2]
  rhsContracting := [0]
  lhsNonContracting := [0, 1]
  rhsNonContracting := [1]
  lhsBatch := []
  rhsBatch := []
  wf := dot_S8x1024x1024_S1024x1024_S8x1024x1024_2_0_01_1_n_n_wf
def dot_S8x1024x1024_S8x1024x1024_S8x1024x1024_2_2_1_1_0_0 : DotDims S8x1024x1024 S8x1024x1024 S8x1024x1024 where
  lhsContracting := [2]
  rhsContracting := [2]
  lhsNonContracting := [1]
  rhsNonContracting := [1]
  lhsBatch := [0]
  rhsBatch := [0]
  wf := dot_S8x1024x1024_S8x1024x1024_S8x1024x1024_2_2_1_1_0_0_wf
def dot_S8x1024x1024_S8x1024x1024_S8x1024x1024_2_1_1_2_0_0 : DotDims S8x1024x1024 S8x1024x1024 S8x1024x1024 where
  lhsContracting := [2]
  rhsContracting := [1]
  lhsNonContracting := [1]
  rhsNonContracting := [2]
  lhsBatch := [0]
  rhsBatch := [0]
  wf := dot_S8x1024x1024_S8x1024x1024_S8x1024x1024_2_1_1_2_0_0_wf

class Facts : Prop extends Facts₀ where

variable [Facts]
-- ==== Proof.Region0.lean ====
/-
  Region 0 of the idealized kernel: the packed projection `inputs2 · [wq1 | wk1 | wv1]`, rows 256 at a time.
  The grid walks the row blocks of the left operand; at a point the body loads the point's row block and the whole
  weight, multiplies them into a zero accumulator and stores the product over the whole output block. So the output
  block after the body is one function of the two input blocks (`out0_2`), every input buffer is left as it was
  found, and nothing else is touched: that is the body's obligation to the pipeline at every grid point.
-/
import proofs.«105197_j1417339207765_2_alg».proof.Proof.Gen.KernelIdeal.Launch
import proofs.«105197_j1417339207765_2_alg».proof.Proof.Gen.KernelIdeal.Skeleton
import proofs.«105197_j1417339207765_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's buffer holds the point's block when the body runs. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's buffer holds the whole weight at every point: it is fetched once and its index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read or written whole -/

abbrev r0_x : Rect S256x1024 := Rect.unit (s := S256x1024) ![0, 0] S256x1024.size inb_S256x1024_S256x1024_0_0
abbrev r0_w : Rect S1024x3072 := Rect.unit (s := S1024x3072) ![0, 0] S1024x3072.size inb_S1024x3072_S1024x3072_0_0
abbrev r0_o : Rect S256x3072 := Rect.unit (s := S256x3072) ![0, 0] S256x3072.size inb_S256x3072_S256x3072_0_0

/-- The output block after the body, from the two input blocks: the product, stored over the whole block. -/
def out0_2 (x0 : Vec F S256x1024 .f32) (x1 : Vec F S1024x3072 .bf16) : Vec F S256x3072 .bf16 :=
  View.canon [⟨r0_o, k0_pay1 (View.ld x0 r0_x) (View.ld x1 r0_w)⟩]

/-- The one store covers the block. -/
theorem cover0_2 (p0 : Vec F S256x3072 .bf16) (y : S256x3072.Idx) :
    ∃ pc ∈ ([⟨r0_o, p0⟩] : List (View.Piece (Elt F) S256x3072 .bf16)), y ∈ pc.1.set :=
  View.cover_of_tiled [⟨r0_o, p0⟩] S256x3072.size (by rfl) y

/-! ## The body's triple -/

set_option maxHeartbeats 1000000 in
/-- On whole staging buffers, the inputs' at `x0`, `x1` and the output's at anything, the body runs to its return
    with the inputs' buffers as they were and the output's at `out0_2 x0 x1`. -/
theorem sound_kernel0 (c : Dev nD) (E : Set ℕ) (i : grid0.Coords) (arg1 : Memref sig .tc .vmem S256x1024 .f32) (harg1 : arg1.IsWhole) (arg2 : Memref sig .tc .vmem S1024x3072 .bf16) (harg2 : arg2.IsWhole) (arg3 : Memref sig .tc .vmem S256x3072 .bf16) (harg3 : arg3.IsWhole)
    (x0 : Vec F S256x1024 .f32) (x1 : Vec F S1024x3072 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body at point `t` each input's buffer at its block and the output's
    at `out0_2` of the two input blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.Region1.lean ====
/-
  Region 1 of the idealized kernel: causal self-attention over the packed projections, then the residual and the layer normalisation.
  The grid walks (batch, block of 256 query rows). At a point the body loads the query block, that batch's whole key and
  value blocks (three windows on the ONE packed array, at column blocks 0, 1, 2), the residual block and the two
  normalisation vectors, and stores the normalised rows over the whole output block. The causal mask compares a key's
  position with the query row's position in the sequence, which depends on the grid point: the output block is a function
  of the six input blocks AND the point.
-/
import proofs.«105197_j1417339207765_2_alg».proof.Proof.Gen.KernelIdeal.Launch
import proofs.«105197_j1417339207765_2_alg».proof.Proof.Gen.KernelIdeal.Skeleton
import proofs.«105197_j1417339207765_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds the point's block when the body runs, fetched at that point or kept from an earlier one. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's buffer holds the point's block when the body runs, fetched at that point or kept from an earlier one. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's buffer holds the point's block when the body runs, fetched at that point or kept from an earlier one. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's buffer holds the point's block when the body runs, fetched at that point or kept from an earlier one. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's buffer holds the point's block when the body runs, fetched at that point or kept from an earlier one. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's buffer holds the point's block when the body runs, fetched at that point or kept from an earlier one. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read or written whole -/

abbrev r1_0 : Rect S1x256x1024 := Rect.unit (s := S1x256x1024) ![0, 0, 0] S1x256x1024.size inb_S1x256x1024_S1x256x1024_0_0_0
abbrev r1_1 : Rect S1x1024x1024 := Rect.unit (s := S1x1024x1024) ![0, 0, 0] S1x1024x1024.size inb_S1x1024x1024_S1x1024x1024_0_0_0
abbrev r1_2 : Rect S1x1024x1024 := Rect.unit (s := S1x1024x1024) ![0, 0, 0] S1x1024x1024.size inb_S1x1024x1024_S1x1024x1024_0_0_0
abbrev r1_3 : Rect S1x256x1024 := Rect.unit (s := S1x256x1024) ![0, 0, 0] S1x256x1024.size inb_S1x256x1024_S1x256x1024_0_0_0
abbrev r1_4 : Rect S1x1024 := Rect.unit (s := S1x1024) ![0, 0] S1x1024.size inb_S1x1024_S1x1024_0_0
abbrev r1_5 : Rect S1x1024 := Rect.unit (s := S1x1024) ![0, 0] S1x1024.size inb_S1x1024_S1x1024_0_0
abbrev r1_6 : Rect S1x256x1024 := Rect.unit (s := S1x256x1024) ![0, 0, 0] S1x256x1024.size inb_S1x256x1024_S1x256x1024_0_0_0

/-- The output block after the body, as one function of the input blocks and the grid point. -/
def out1_6 (i : grid1.Coords) (x0 : Vec F S1x256x1024 .bf16) (x1 : Vec F S1x1024x1024 .bf16) (x2 : Vec F S1x1024x1024 .bf16) (x3 : Vec F S1x256x1024 .f32) (x4 : Vec F S1x1024 .f32) (x5 : Vec F S1x1024 .f32) : Vec F S1x256x1024 .f32 :=
  View.canon [⟨r1_6, k1_pay1 (k1_pay2 i (View.ld x0 r1_0) (View.ld x1 r1_1) (View.ld x2 r1_2) (View.ld x3 r1_3)) (k1_pay3 i (View.ld x0 r1_0) (View.ld x1 r1_1) (View.ld x2 r1_2) (View.ld x3 r1_3)) (k1_pay4 i (View.ld x0 r1_0) (View.ld x1 r1_1) (View.ld x2 r1_2) (View.ld x3 r1_3)) (View.ld x4 r1_4) (View.ld x5 r1_5)⟩]

/-- The one store covers the block. -/
theorem cover1_6 (p0 : Vec F S1x256x1024 .f32) (y : S1x256x1024.Idx) :
    ∃ pc ∈ ([⟨r1_6, p0⟩] : List (View.Piece (Elt F) S1x256x1024 .f32)), y ∈ pc.1.set :=
  View.cover_of_tiled [⟨r1_6, p0⟩] S1x256x1024.size (by rfl) y

/-! ## The body's triple -/

set_option maxHeartbeats 4000000 in
/-- On whole staging buffers, the inputs' at `x0 …` and the output's at anything, the body runs to its return with the
    inputs' buffers as they were and the output's at `out1_6` of them. -/
theorem sound_kernel1 (c : Dev nD) (E : Set ℕ) (i : grid1.Coords) (arg2 : Memref sig .tc .vmem S1x256x1024 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1x256x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x256x1024 .f32) (harg8 : arg8.IsWhole)
    (x0 : Vec F S1x256x1024 .bf16) (x1 : Vec F S1x1024x1024 .bf16) (x2 : Vec F S1x1024x1024 .bf16) (x3 : Vec F S1x256x1024 .f32) (x4 : Vec F S1x1024 .f32) (x5 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out1_6 i x0 x1 x2 x3 x4 x5)) -∗ K ⟨⟩))
      ⊢ wp frame (wpE (defs₀ (F := F)) Variants.none c none) E (cc1_kernel i arg2 harg2 arg3 harg3 arg4 harg4 arg5 harg5 arg6 harg6 arg7 harg7 arg8 harg8) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover1_6 _)

/-! ## The pipeline's proof data -/

/-- The arrays as the region finds them; after the body at point `t` each input's buffer at its block and the output's
    at `out1_6` of the input blocks; the scoped rest and the generator register untouched; nothing owed. The
    share each input window holds of its array is the parameter `q`. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (grid1.coords t) (iblk1 V c 0 t) (iblk1 V c 1 t) (iblk1 V c 2 t) (iblk1 V c 3 t) (iblk1 V c 4 t) (iblk1 V c 5 t)
  Φ _ := Pipeline.ΦA spec1 c
  q := q
  owed _ := 0

variable (q : Fin cfg1.W → PosShare TreeShare)

theorem A_eq1 (c : Dev nD) (w : Fin cfg1.W) : (dat1 V q c).A w = V c (Pipeline.arrRef spec1 w) := by
  dsimp only [dat1]

theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = iblk1 V c 2 t := by dsimp only [dat1]
theorem after1_3 (c : Dev nD) (t : Fin cfg1.N) : (dat1 V q c).after 3 t = iblk1 V c 3 t := by dsimp only [dat1]
theorem after1_4 (c : Dev nD) (t : Fin cfg1.N) : (dat1 V q c).after 4 t = iblk1 V c 4 t := by dsimp only [dat1]
theorem after1_5 (c : Dev nD) (t : Fin cfg1.N) : (dat1 V q c).after 5 t = iblk1 V c 5 t := by dsimp only [dat1]
theorem after1_6 (c : Dev nD) (t : Fin cfg1.N) : (dat1 V q c).after 6 t = out1_6 (grid1.coords t) (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V q c).before 0 t d = iblk1 V c 0 t :=
  before1_0_of V (dat1 V q c) (A_eq1 V q c 0) (after1_0 V q c) t d
theorem before1_1 (c : Dev nD) (t : Fin cfg1.N) (d) : (dat1 V q c).before 1 t d = iblk1 V c 1 t :=
  before1_1_of V (dat1 V q c) (A_eq1 V q c 1) (after1_1 V q c) t d
theorem before1_2 (c : Dev nD) (t : Fin cfg1.N) (d) : (dat1 V q c).before 2 t d = iblk1 V c 2 t :=
  before1_2_of V (dat1 V q c) (A_eq1 V q c 2) (after1_2 V q c) t d
theorem before1_3 (c : Dev nD) (t : Fin cfg1.N) (d) : (dat1 V q c).before 3 t d = iblk1 V c 3 t :=
  before1_3_of V (dat1 V q c) (A_eq1 V q c 3) (after1_3 V q c) t d
theorem before1_4 (c : Dev nD) (t : Fin cfg1.N) (d) : (dat1 V q c).before 4 t d = iblk1 V c 4 t :=
  before1_4_of V (dat1 V q c) (A_eq1 V q c 4) (after1_4 V q c) t d
theorem before1_5 (c : Dev nD) (t : Fin cfg1.N) (d) : (dat1 V q c).before 5 t d = iblk1 V c 5 t :=
  before1_5_of V (dat1 V q c) (A_eq1 V q c 5) (after1_5 V q c) t d

/-! ## The body obligation, at a generic point -/

/-- What the body is called with at point `t`, the windows one by one, -/
def bodyPre1 (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d))
    ∗ (∃ d, owns (c : Thread nD τ) (st1_3 t) fullShare ((dat1 V q c).before 3 t d))
    ∗ (∃ d, owns (c : Thread nD τ) (st1_4 t) fullShare ((dat1 V q c).before 4 t d))
    ∗ (∃ d, owns (c : Thread nD τ) (st1_5 t) fullShare ((dat1 V q c).before 5 t d))
    ∗ (∃ d, owns (c : Thread nD τ) (st1_6 t) fullShare ((dat1 V q c).before 6 t d)))

/-- and what it returns. -/
def bodyPost1 (c : Dev nD) (t : Fin cfg1.N) : sProp 𝕄 :=
  iprop((dat1 V q c).Φ t.succ ∗ (dat1 V q c).owesAt () t.succ
    ∗ owns (c : Thread nD τ) (st1_0 t) fullShare ((dat1 V q c).after 0 t)
    ∗ owns (c : Thread nD τ) (st1_1 t) fullShare ((dat1 V q c).after 1 t)
    ∗ owns (c : Thread nD τ) (st1_2 t) fullShare ((dat1 V q c).after 2 t)
    ∗ owns (c : Thread nD τ) (st1_3 t) fullShare ((dat1 V q c).after 3 t)
    ∗ owns (c : Thread nD τ) (st1_4 t) fullShare ((dat1 V q c).after 4 t)
    ∗ owns (c : Thread nD τ) (st1_5 t) fullShare ((dat1 V q c).after 5 t)
    ∗ owns (c : Thread nD τ) (st1_6 t) fullShare ((dat1 V q c).after 6 t))

/-- The body at any point: the inputs' buffers hold their blocks, so the body's triple applies; the invariant and the
    core's dues pass through unread. -/
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2, before1_3, before1_4, before1_5]
  rw [show (dat1 V q c).Φ t.succ = (dat1 V q c).Φ t.castSucc from rfl,
    show (dat1 V q c).owesAt () t.succ = (dat1 V q c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation1 (c : Dev nD) : BodyObligation (dat1 (F := F) V q c) (defs₀ (F := F)) Variants.none () Set.univ := fun t => by
  rw [bigSep_W1, bigSep_W1]
  exact sound_body1 V q c t

end Cert.KernelIdeal.Gen

end
-- ==== Proof.Region2.lean ====
/-
  Region 2 of the idealized kernel: the packed projection `context2 · [wk2 | wv2]`, rows 256 at a time.
  The grid walks the row blocks of the left operand; at a point the body loads the point's row block and the whole
  weight, multiplies them into a zero accumulator and stores the product over the whole output block. So the output
  block after the body is one function of the two input blocks (`out2_2`), every input buffer is left as it was
  found, and nothing else is touched: that is the body's obligation to the pipeline at every grid point.
-/
import proofs.«105197_j1417339207765_2_alg».proof.Proof.Gen.KernelIdeal.Launch
import proofs.«105197_j1417339207765_2_alg».proof.Proof.Gen.KernelIdeal.Skeleton
import proofs.«105197_j1417339207765_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row-block window's buffer holds the point's block when the body runs. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight window's buffer holds the whole weight at every point: it is fetched once and its index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read or written whole -/

abbrev r2_x : Rect S256x1024 := Rect.unit (s := S256x1024) ![0, 0] S256x1024.size inb_S256x1024_S256x1024_0_0
abbrev r2_w : Rect S1024x2048 := Rect.unit (s := S1024x2048) ![0, 0] S1024x2048.size inb_S1024x2048_S1024x2048_0_0
abbrev r2_o : Rect S256x2048 := Rect.unit (s := S256x2048) ![0, 0] S256x2048.size inb_S256x2048_S256x2048_0_0

/-- The output block after the body, from the two input blocks: the product, stored over the whole block. -/
def out2_2 (x0 : Vec F S256x1024 .f32) (x1 : Vec F S1024x2048 .bf16) : Vec F S256x2048 .bf16 :=
  View.canon [⟨r2_o, k2_pay1 (View.ld x0 r2_x) (View.ld x1 r2_w)⟩]

/-- The one store covers the block. -/
theorem cover2_2 (p0 : Vec F S256x2048 .bf16) (y : S256x2048.Idx) :
    ∃ pc ∈ ([⟨r2_o, p0⟩] : List (View.Piece (Elt F) S256x2048 .bf16)), y ∈ pc.1.set :=
  View.cover_of_tiled [⟨r2_o, p0⟩] S256x2048.size (by rfl) y

/-! ## The body's triple -/

set_option maxHeartbeats 1000000 in
/-- On whole staging buffers, the inputs' at `x0`, `x1` and the output's at anything, the body runs to its return
    with the inputs' buffers as they were and the output's at `out2_2 x0 x1`. -/
theorem sound_kernel2 (c : Dev nD) (E : Set ℕ) (i : grid2.Coords) (arg1 : Memref sig .tc .vmem S256x1024 .f32) (harg1 : arg1.IsWhole) (arg2 : Memref sig .tc .vmem S1024x2048 .bf16) (harg2 : arg2.IsWhole) (arg3 : Memref sig .tc .vmem S256x2048 .bf16) (harg3 : arg3.IsWhole)
    (x0 : Vec F S256x1024 .f32) (x1 : Vec F S1024x2048 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2_kernel i arg1 harg1 arg2 harg2 arg3 harg3) K := by
  simp only [cc2_kernel_eq_skeleton]; unfold cc2_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The arrays as the region finds them; after the body at point `t` each input's buffer at its block and the output's
    at `out2_2` of the two input blocks; the scoped rest and the generator register untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Gen

end
-- ==== Proof.Region3.lean ====
/-
  Region 3 of the idealized kernel: the query projection `x · wq2` of the first block's output, rows 512 at a time.
  The grid walks the row blocks of the left operand; at a point the body loads the point's row block and the whole
  weight, multiplies them into a zero accumulator and stores the product over the whole output block. So the output
  block after the body is one function of the two input blocks (`out3_2`), every input buffer is left as it was
  found, and nothing else is touched: that is the body's obligation to the pipeline at every grid point.
-/
import proofs.«105197_j1417339207765_2_alg».proof.Proof.Gen.KernelIdeal.Launch
import proofs.«105197_j1417339207765_2_alg».proof.Proof.Gen.KernelIdeal.Skeleton
import proofs.«105197_j1417339207765_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row-block window's buffer holds the point's block when the body runs. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weight window's buffer holds the whole weight at every point: it is fetched once and its index never moves. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer is read or written whole -/

abbrev r3_x : Rect S512x1024 := Rect.unit (s := S512x1024) ![0, 0] S512x1024.size inb_S512x1024_S512x1024_0_0
abbrev r3_w : Rect S1024x1024 := Rect.unit (s := S1024x1024) ![0, 0] S1024x1024.size inb_S1024x1024_S1024x1024_0_0
abbrev r3_o : Rect S512x1024 := Rect.unit (s := S512x1024) ![0, 0] S512x1024.size inb_S512x1024_S512x1024_0_0

/-- The output block after the body, from the two input blocks: the product, stored over the whole block. -/
def out3_2 (x0 : Vec F S512x1024 .f32) (x1 : Vec F S1024x1024 .bf16) : Vec F S512x1024 .bf16 :=
  View.canon [⟨r3_o, k3_pay1 (View.ld x0 r3_x) (View.ld x1 r3_w)⟩]

/-- The one store covers the block. -/
theorem cover3_2 (p0 : Vec F S512x1024 .bf16) (y : S512x1024.Idx) :
    ∃ pc ∈ ([⟨r3_o, p0⟩] : List (View.Piece (Elt F) S512x1024 .bf16)), y ∈ pc.1.set :=
  View.cover_of_tiled [⟨r3_o, p0⟩] S512x1024.size (by rfl) y

/-! ## The body's triple -/

set_option maxHeartbeats 1000000 in
/-- On whole staging buffers, the inputs' at `x0`, `x1` and the output's at anything, the body runs to its return
    with the inputs' buffers as they were and the output's at `out3_2 x0 x1`. -/
theorem sound_kernel3 (c : Dev nD) (E : Set ℕ) (i : grid3.Coords) (arg1 : Memref sig .tc .vmem S512x1024 .f32) (harg1 : arg1.IsWhole) (arg2 : Memref sig .tc .vmem S1024x1024 .bf16) (harg2 : arg2.IsWhole) (arg3 : Memref sig .tc .vmem S512x1024 .bf16) (harg3 : arg3.IsWhole)
    (x0 : Vec F S512x1024 .f32) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3_kernel i arg1 harg1 arg2 harg2 arg3 harg3) K := by
  simp only [cc3_kernel_eq_skeleton]; unfold cc3_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The arrays as the region finds them; after the body at point `t` each input's buffer at its block and the output's
    at `out3_2` of the two input blocks; the scoped rest and the generator register untouched; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Gen

end
-- ==== Proof.Region4.lean ====
/-
  Region 4 of the idealized kernel: unmasked cross-attention (queries from the first block's output, keys and values
  from the context's packed projection), then the residual and the layer normalisation.
  The grid walks (batch, block of 256 query rows). At a point the body loads the query block, that batch's whole key and
  value blocks (two windows on the ONE packed array, at column blocks 0 and 1), the residual block and the two
  normalisation vectors, and stores the normalised rows over the whole output block.
-/
import proofs.«105197_j1417339207765_2_alg».proof.Proof.Gen.KernelIdeal.Launch
import proofs.«105197_j1417339207765_2_alg».proof.Proof.Gen.KernelIdeal.Skeleton
import proofs.«105197_j1417339207765_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's buffer holds the point's block when the body runs, fetched at that point or kept from an earlier one. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's buffer holds the point's block when the body runs, fetched at that point or kept from an earlier one. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's buffer holds the point's block when the body runs, fetched at that point or kept from an earlier one. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's buffer holds the point's block when the body runs, fetched at that point or kept from an earlier one. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's buffer holds the point's block when the body runs, fetched at that point or kept from an earlier one. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's buffer holds the point's block when the body runs, fetched at that point or kept from an earlier one. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer is read or written whole -/

abbrev r4_0 : Rect S1x256x1024 := Rect.unit (s := S1x256x1024) ![0, 0, 0] S1x256x1024.size inb_S1x256x1024_S1x256x1024_0_0_0
abbrev r4_1 : Rect S1x1024x1024 := Rect.unit (s := S1x1024x1024) ![0, 0, 0] S1x1024x1024.size inb_S1x1024x1024_S1x1024x1024_0_0_0
abbrev r4_2 : Rect S1x1024x1024 := Rect.unit (s := S1x1024x1024) ![0, 0, 0] S1x1024x1024.size inb_S1x1024x1024_S1x1024x1024_0_0_0
abbrev r4_3 : Rect S1x256x1024 := Rect.unit (s := S1x256x1024) ![0, 0, 0] S1x256x1024.size inb_S1x256x1024_S1x256x1024_0_0_0
abbrev r4_4 : Rect S1x1024 := Rect.unit (s := S1x1024) ![0, 0] S1x1024.size inb_S1x1024_S1x1024_0_0
abbrev r4_5 : Rect S1x1024 := Rect.unit (s := S1x1024) ![0, 0] S1x1024.size inb_S1x1024_S1x1024_0_0
abbrev r4_6 : Rect S1x256x1024 := Rect.unit (s := S1x256x1024) ![0, 0, 0] S1x256x1024.size inb_S1x256x1024_S1x256x1024_0_0_0

/-- The output block after the body, as one function of the input blocks. -/
def out4_6 (x0 : Vec F S1x256x1024 .bf16) (x1 : Vec F S1x1024x1024 .bf16) (x2 : Vec F S1x1024x1024 .bf16) (x3 : Vec F S1x256x1024 .f32) (x4 : Vec F S1x1024 .f32) (x5 : Vec F S1x1024 .f32) : Vec F S1x256x1024 .f32 :=
  View.canon [⟨r4_6, k4_pay1 (k4_pay4 (View.ld x0 r4_0) (View.ld x1 r4_1) (View.ld x2 r4_2) (View.ld x3 r4_3)) (k4_pay5 (View.ld x0 r4_0) (View.ld x1 r4_1) (View.ld x2 r4_2) (View.ld x3 r4_3)) (View.ld x4 r4_4) (View.ld x5 r4_5)⟩]

/-- The one store covers the block. -/
theorem cover4_6 (p0 : Vec F S1x256x1024 .f32) (y : S1x256x1024.Idx) :
    ∃ pc ∈ ([⟨r4_6, p0⟩] : List (View.Piece (Elt F) S1x256x1024 .f32)), y ∈ pc.1.set :=
  View.cover_of_tiled [⟨r4_6, p0⟩] S1x256x1024.size (by rfl) y

/-! ## The body's triple -/

set_option maxHeartbeats 4000000 in
/-- On whole staging buffers, the inputs' at `x0 …` and the output's at anything, the body runs to its return with the
    inputs' buffers as they were and the output's at `out4_6` of them. -/
theorem sound_kernel4 (c : Dev nD) (E : Set ℕ) (i : grid4.Coords) (arg2 : Memref sig .tc .vmem S1x256x1024 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1x256x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x256x1024 .f32) (harg8 : arg8.IsWhole)
    (x0 : Vec F S1x256x1024 .bf16) (x1 : Vec F S1x1024x1024 .bf16) (x2 : Vec F S1x1024x1024 .bf16) (x3 : Vec F S1x256x1024 .f32) (x4 : Vec F S1x1024 .f32) (x5 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out4_6 x0 x1 x2 x3 x4 x5)) -∗ K ⟨⟩))
      ⊢ wp frame (wpE (defs₀ (F := F)) Variants.none c none) E (cc4_kernel i arg2 harg2 arg3 harg3 arg4 harg4 arg5 harg5 arg6 harg6 arg7 harg7 arg8 harg8) K := by
  simp only [cc4_kernel_eq_skeleton]; unfold cc4_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover4_6 _)

/-! ## The pipeline's proof data -/

/-- The arrays as the region finds them; after the body at point `t` each input's buffer at its block and the output's
    at `out4_6` of the input blocks; the scoped rest and the generator register untouched; nothing owed. The
    share each input window holds of its array is the parameter `q`. -/
def dat4 (q : Fin cfg4.W → PosShare TreeShare) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q := q
  owed _ := 0

variable (q : Fin cfg4.W → PosShare TreeShare)

theorem A_eq4 (c : Dev nD) (w : Fin cfg4.W) : (dat4 V q c).A w = V c (Pipeline.arrRef spec4 w) := by
  dsimp only [dat4]

theorem after4_0 (c : Dev nD) (t : Fin cfg4.N) : (dat4 V q c).after 0 t = iblk4 V c 0 t := by dsimp only [dat4]
theorem after4_1 (c : Dev nD) (t : Fin cfg4.N) : (dat4 V q c).after 1 t = iblk4 V c 1 t := by dsimp only [dat4]
theorem after4_2 (c : Dev nD) (t : Fin cfg4.N) : (dat4 V q c).after 2 t = iblk4 V c 2 t := by dsimp only [dat4]
theorem after4_3 (c : Dev nD) (t : Fin cfg4.N) : (dat4 V q c).after 3 t = iblk4 V c 3 t := by dsimp only [dat4]
theorem after4_4 (c : Dev nD) (t : Fin cfg4.N) : (dat4 V q c).after 4 t = iblk4 V c 4 t := by dsimp only [dat4]
theorem after4_5 (c : Dev nD) (t : Fin cfg4.N) : (dat4 V q c).after 5 t = iblk4 V c 5 t := by dsimp only [dat4]
theorem after4_6 (c : Dev nD) (t : Fin cfg4.N) : (dat4 V q c).after 6 t = out4_6 (iblk4 V c 0 t) (iblk4 V c 1 t) (iblk4 V c 2 t) (iblk4 V c 3 t) (iblk4 V c 4 t) (iblk4 V c 5 t) := by dsimp only [dat4]

theorem before4_0 (c : Dev nD) (t : Fin cfg4.N) (d) : (dat4 V q c).before 0 t d = iblk4 V c 0 t :=
  before4_0_of V (dat4 V q c) (A_eq4 V q c 0) (after4_0 V q c) t d
theorem before4_1 (c : Dev nD) (t : Fin cfg4.N) (d) : (dat4 V q c).before 1 t d = iblk4 V c 1 t :=
  before4_1_of V (dat4 V q c) (A_eq4 V q c 1) (after4_1 V q c) t d
theorem before4_2 (c : Dev nD) (t : Fin cfg4.N) (d) : (dat4 V q c).before 2 t d = iblk4 V c 2 t :=
  before4_2_of V (dat4 V q c) (A_eq4 V q c 2) (after4_2 V q c) t d
theorem before4_3 (c : Dev nD) (t : Fin cfg4.N) (d) : (dat4 V q c).before 3 t d = iblk4 V c 3 t :=
  before4_3_of V (dat4 V q c) (A_eq4 V q c 3) (after4_3 V q c) t d
theorem before4_4 (c : Dev nD) (t : Fin cfg4.N) (d) : (dat4 V q c).before 4 t d = iblk4 V c 4 t :=
  before4_4_of V (dat4 V q c) (A_eq4 V q c 4) (after4_4 V q c) t d
theorem before4_5 (c : Dev nD) (t : Fin cfg4.N) (d) : (dat4 V q c).before 5 t d = iblk4 V c 5 t :=
  before4_5_of V (dat4 V q c) (A_eq4 V q c 5) (after4_5 V q c) t d

/-! ## The body obligation, at a generic point -/

/-- What the body is called with at point `t`, the windows one by one, -/
def bodyPre4 (c : Dev nD) (t : Fin cfg4.N) : sProp 𝕄 :=
  iprop((dat4 V q c).Φ t.castSucc ∗ (dat4 V q c).owesAt () t.castSucc
    ∗ (∃ d, owns (c : Thread nD τ) (st4_0 t) fullShare ((dat4 V q c).before 0 t d))
    ∗ (∃ d, owns (c : Thread nD τ) (st4_1 t) fullShare ((dat4 V q c).before 1 t d))
    ∗ (∃ d, owns (c : Thread nD τ) (st4_2 t) fullShare ((dat4 V q c).before 2 t d))
    ∗ (∃ d, owns (c : Thread nD τ) (st4_3 t) fullShare ((dat4 V q c).before 3 t d))
    ∗ (∃ d, owns (c : Thread nD τ) (st4_4 t) fullShare ((dat4 V q c).before 4 t d))
    ∗ (∃ d, owns (c : Thread nD τ) (st4_5 t) fullShare ((dat4 V q c).before 5 t d))
    ∗ (∃ d, owns (c : Thread nD τ) (st4_6 t) fullShare ((dat4 V q c).before 6 t d)))

/-- and what it returns. -/
def bodyPost4 (c : Dev nD) (t : Fin cfg4.N) : sProp 𝕄 :=
  iprop((dat4 V q c).Φ t.succ ∗ (dat4 V q c).owesAt () t.succ
    ∗ owns (c : Thread nD τ) (st4_0 t) fullShare ((dat4 V q c).after 0 t)
    ∗ owns (c : Thread nD τ) (st4_1 t) fullShare ((dat4 V q c).after 1 t)
    ∗ owns (c : Thread nD τ) (st4_2 t) fullShare ((dat4 V q c).after 2 t)
    ∗ owns (c : Thread nD τ) (st4_3 t) fullShare ((dat4 V q c).after 3 t)
    ∗ owns (c : Thread nD τ) (st4_4 t) fullShare ((dat4 V q c).after 4 t)
    ∗ owns (c : Thread nD τ) (st4_5 t) fullShare ((dat4 V q c).after 5 t)
    ∗ owns (c : Thread nD τ) (st4_6 t) fullShare ((dat4 V q c).after 6 t))

/-- The body at any point: the inputs' buffers hold their blocks, so the body's triple applies; the invariant and the
    core's dues pass through unread. -/
theorem sound_body4 (c : Dev nD) (t : Fin cfg4.N) :
    bodyPre4 V q c t ⊢ wp frame (wpE (defs₀ (F := F)) Variants.none c none) Set.univ (bodyAt4 t) (fun _ => bodyPost4 V q c t) := by
  unfold bodyPre4 bodyPost4 bodyAt4
  simp only [before4_0, before4_1, before4_2, before4_3, before4_4, before4_5]
  rw [show (dat4 V q c).Φ t.succ = (dat4 V q c).Φ t.castSucc from rfl,
    show (dat4 V q c).owesAt () t.succ = (dat4 V q c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ (grid4.coords t) _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation4 (c : Dev nD) : BodyObligation (dat4 (F := F) V q c) (defs₀ (F := F)) Variants.none () Set.univ := fun t => by
  rw [bigSep_W4, bigSep_W4]
  exact sound_body4 V q c t

end Cert.KernelIdeal.Gen

end
-- ==== Proof.Region5.lean ====
/-
  Region 5 of the idealized kernel: the feed-forward layer (two products with bias, a rectifier between), the residual,
  the layer normalisation and the final rectifier, rows 512 at a time.
  At a point the body loads the row block (twice: once as the layer's input, once as the residual), the two weights,
  the two biases and the two normalisation vectors, and stores the result over the whole output block.
-/
import proofs.«105197_j1417339207765_2_alg».proof.Proof.Gen.KernelIdeal.Launch
import proofs.«105197_j1417339207765_2_alg».proof.Proof.Gen.KernelIdeal.Skeleton
import proofs.«105197_j1417339207765_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's buffer holds the point's block when the body runs, fetched at that point or kept from an earlier one. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's buffer holds the point's block when the body runs, fetched at that point or kept from an earlier one. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's buffer holds the point's block when the body runs, fetched at that point or kept from an earlier one. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's buffer holds the point's block when the body runs, fetched at that point or kept from an earlier one. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's buffer holds the point's block when the body runs, fetched at that point or kept from an earlier one. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's buffer holds the point's block when the body runs, fetched at that point or kept from an earlier one. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's buffer holds the point's block when the body runs, fetched at that point or kept from an earlier one. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer is read or written whole -/

abbrev r5_0 : Rect S512x1024 := Rect.unit (s := S512x1024) ![0, 0] S512x1024.size inb_S512x1024_S512x1024_0_0
abbrev r5_1 : Rect S1024x1024 := Rect.unit (s := S1024x1024) ![0, 0] S1024x1024.size inb_S1024x1024_S1024x1024_0_0
abbrev r5_2 : Rect S1x1024 := Rect.unit (s := S1x1024) ![0, 0] S1x1024.size inb_S1x1024_S1x1024_0_0
abbrev r5_3 : Rect S1024x1024 := Rect.unit (s := S1024x1024) ![0, 0] S1024x1024.size inb_S1024x1024_S1024x1024_0_0
abbrev r5_4 : Rect S1x1024 := Rect.unit (s := S1x1024) ![0, 0] S1x1024.size inb_S1x1024_S1x1024_0_0
abbrev r5_5 : Rect S1x1024 := Rect.unit (s := S1x1024) ![0, 0] S1x1024.size inb_S1x1024_S1x1024_0_0
abbrev r5_6 : Rect S1x1024 := Rect.unit (s := S1x1024) ![0, 0] S1x1024.size inb_S1x1024_S1x1024_0_0
abbrev r5_7 : Rect S512x1024 := Rect.unit (s := S512x1024) ![0, 0] S512x1024.size inb_S512x1024_S512x1024_0_0

/-- The output block after the body, as one function of the input blocks. -/
def out5_7 (x0 : Vec F S512x1024 .f32) (x1 : Vec F S1024x1024 .bf16) (x2 : Vec F S1x1024 .f32) (x3 : Vec F S1024x1024 .bf16) (x4 : Vec F S1x1024 .f32) (x5 : Vec F S1x1024 .f32) (x6 : Vec F S1x1024 .f32) : Vec F S512x1024 .f32 :=
  View.canon [⟨r5_7, k5_pay1 (k5_pay4 (View.ld x0 r5_0) (View.ld x1 r5_1) (View.ld x2 r5_2) (View.ld x3 r5_3) (View.ld x4 r5_4) (View.ld x0 r5_0)) (k5_pay5 (View.ld x0 r5_0) (View.ld x1 r5_1) (View.ld x2 r5_2) (View.ld x3 r5_3) (View.ld x4 r5_4) (View.ld x0 r5_0)) (View.ld x5 r5_5) (View.ld x6 r5_6)⟩]

/-- The one store covers the block. -/
theorem cover5_7 (p0 : Vec F S512x1024 .f32) (y : S512x1024.Idx) :
    ∃ pc ∈ ([⟨r5_7, p0⟩] : List (View.Piece (Elt F) S512x1024 .f32)), y ∈ pc.1.set :=
  View.cover_of_tiled [⟨r5_7, p0⟩] S512x1024.size (by rfl) y

/-! ## The body's triple -/

set_option maxHeartbeats 4000000 in
/-- On whole staging buffers, the inputs' at `x0 …` and the output's at anything, the body runs to its return with the
    inputs' buffers as they were and the output's at `out5_7` of them. -/
theorem sound_kernel5 (c : Dev nD) (E : Set ℕ) (i : grid5.Coords) (arg1 : Memref sig .tc .vmem S512x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole)
    (x0 : Vec F S512x1024 .f32) (x1 : Vec F S1024x1024 .bf16) (x2 : Vec F S1x1024 .f32) (x3 : Vec F S1024x1024 .bf16) (x4 : Vec F S1x1024 .f32) (x5 : Vec F S1x1024 .f32) (x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out5_7 x0 x1 x2 x3 x4 x5 x6)) -∗ K ⟨⟩))
      ⊢ wp frame (wpE (defs₀ (F := F)) Variants.none c none) E (cc5_kernel i arg1 harg1 arg2 harg2 arg3 harg3 arg4 harg4 arg5 harg5 arg6 harg6 arg7 harg7 arg8 harg8) K := by
  simp only [cc5_kernel_eq_skeleton]; unfold cc5_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover5_7 _)

/-! ## The pipeline's proof data -/

/-- The arrays as the region finds them; after the body at point `t` each input's buffer at its block and the output's
    at `out5_7` of the input blocks; the scoped rest and the generator register untouched; nothing owed. The
    share each input window holds of its array is the parameter `q`. -/
def dat5 (q : Fin cfg5.W → PosShare TreeShare) (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q := q
  owed _ := 0

variable (q : Fin cfg5.W → PosShare TreeShare)

theorem A_eq5 (c : Dev nD) (w : Fin cfg5.W) : (dat5 V q c).A w = V c (Pipeline.arrRef spec5 w) := by
  dsimp only [dat5]

theorem after5_0 (c : Dev nD) (t : Fin cfg5.N) : (dat5 V q c).after 0 t = iblk5 V c 0 t := by dsimp only [dat5]
theorem after5_1 (c : Dev nD) (t : Fin cfg5.N) : (dat5 V q c).after 1 t = iblk5 V c 1 t := by dsimp only [dat5]
theorem after5_2 (c : Dev nD) (t : Fin cfg5.N) : (dat5 V q c).after 2 t = iblk5 V c 2 t := by dsimp only [dat5]
theorem after5_3 (c : Dev nD) (t : Fin cfg5.N) : (dat5 V q c).after 3 t = iblk5 V c 3 t := by dsimp only [dat5]
theorem after5_4 (c : Dev nD) (t : Fin cfg5.N) : (dat5 V q c).after 4 t = iblk5 V c 4 t := by dsimp only [dat5]
theorem after5_5 (c : Dev nD) (t : Fin cfg5.N) : (dat5 V q c).after 5 t = iblk5 V c 5 t := by dsimp only [dat5]
theorem after5_6 (c : Dev nD) (t : Fin cfg5.N) : (dat5 V q c).after 6 t = iblk5 V c 6 t := by dsimp only [dat5]
theorem after5_7 (c : Dev nD) (t : Fin cfg5.N) : (dat5 V q c).after 7 t = out5_7 (iblk5 V c 0 t) (iblk5 V c 1 t) (iblk5 V c 2 t) (iblk5 V c 3 t) (iblk5 V c 4 t) (iblk5 V c 5 t) (iblk5 V c 6 t) := by dsimp only [dat5]

theorem before5_0 (c : Dev nD) (t : Fin cfg5.N) (d) : (dat5 V q c).before 0 t d = iblk5 V c 0 t :=
  before5_0_of V (dat5 V q c) (A_eq5 V q c 0) (after5_0 V q c) t d
theorem before5_1 (c : Dev nD) (t : Fin cfg5.N) (d) : (dat5 V q c).before 1 t d = iblk5 V c 1 t :=
  before5_1_of V (dat5 V q c) (A_eq5 V q c 1) (after5_1 V q c) t d
theorem before5_2 (c : Dev nD) (t : Fin cfg5.N) (d) : (dat5 V q c).before 2 t d = iblk5 V c 2 t :=
  before5_2_of V (dat5 V q c) (A_eq5 V q c 2) (after5_2 V q c) t d
theorem before5_3 (c : Dev nD) (t : Fin cfg5.N) (d) : (dat5 V q c).before 3 t d = iblk5 V c 3 t :=
  before5_3_of V (dat5 V q c) (A_eq5 V q c 3) (after5_3 V q c) t d
theorem before5_4 (c : Dev nD) (t : Fin cfg5.N) (d) : (dat5 V q c).before 4 t d = iblk5 V c 4 t :=
  before5_4_of V (dat5 V q c) (A_eq5 V q c 4) (after5_4 V q c) t d
theorem before5_5 (c : Dev nD) (t : Fin cfg5.N) (d) : (dat5 V q c).before 5 t d = iblk5 V c 5 t :=
  before5_5_of V (dat5 V q c) (A_eq5 V q c 5) (after5_5 V q c) t d
theorem before5_6 (c : Dev nD) (t : Fin cfg5.N) (d) : (dat5 V q c).before 6 t d = iblk5 V c 6 t :=
  before5_6_of V (dat5 V q c) (A_eq5 V q c 6) (after5_6 V q c) t d

/-! ## The body obligation, at a generic point -/

/-- What the body is called with at point `t`, the windows one by one, -/
def bodyPre5 (c : Dev nD) (t : Fin cfg5.N) : sProp 𝕄 :=
  iprop((dat5 V q c).Φ t.castSucc ∗ (dat5 V q c).owesAt () t.castSucc
    ∗ (∃ d, owns (c : Thread nD τ) (st5_0 t) fullShare ((dat5 V q c).before 0 t d))
    ∗ (∃ d, owns (c : Thread nD τ) (st5_1 t) fullShare ((dat5 V q c).before 1 t d))
    ∗ (∃ d, owns (c : Thread nD τ) (st5_2 t) fullShare ((dat5 V q c).before 2 t d))
    ∗ (∃ d, owns (c : Thread nD τ) (st5_3 t) fullShare ((dat5 V q c).before 3 t d))
    ∗ (∃ d, owns (c : Thread nD τ) (st5_4 t) fullShare ((dat5 V q c).before 4 t d))
    ∗ (∃ d, owns (c : Thread nD τ) (st5_5 t) fullShare ((dat5 V q c).before 5 t d))
    ∗ (∃ d, owns (c : Thread nD τ) (st5_6 t) fullShare ((dat5 V q c).before 6 t d))
    ∗ (∃ d, owns (c : Thread nD τ) (st5_7 t) fullShare ((dat5 V q c).before 7 t d)))

/-- and what it returns. -/
def bodyPost5 (c : Dev nD) (t : Fin cfg5.N) : sProp 𝕄 :=
  iprop((dat5 V q c).Φ t.succ ∗ (dat5 V q c).owesAt () t.succ
    ∗ owns (c : Thread nD τ) (st5_0 t) fullShare ((dat5 V q c).after 0 t)
    ∗ owns (c : Thread nD τ) (st5_1 t) fullShare ((dat5 V q c).after 1 t)
    ∗ owns (c : Thread nD τ) (st5_2 t) fullShare ((dat5 V q c).after 2 t)
    ∗ owns (c : Thread nD τ) (st5_3 t) fullShare ((dat5 V q c).after 3 t)
    ∗ owns (c : Thread nD τ) (st5_4 t) fullShare ((dat5 V q c).after 4 t)
    ∗ owns (c : Thread nD τ) (st5_5 t) fullShare ((dat5 V q c).after 5 t)
    ∗ owns (c : Thread nD τ) (st5_6 t) fullShare ((dat5 V q c).after 6 t)
    ∗ owns (c : Thread nD τ) (st5_7 t) fullShare ((dat5 V q c).after 7 t))

/-- The body at any point: the inputs' buffers hold their blocks, so the body's triple applies; the invariant and the
    core's dues pass through unread. -/
theorem sound_body5 (c : Dev nD) (t : Fin cfg5.N) :
    bodyPre5 V q c t ⊢ wp frame (wpE (defs₀ (F := F)) Variants.none c none) Set.univ (bodyAt5 t) (fun _ => bodyPost5 V q c t) := by
  unfold bodyPre5 bodyPost5 bodyAt5
  simp only [before5_0, before5_1, before5_2, before5_3, before5_4, before5_5, before5_6]
  rw [show (dat5 V q c).Φ t.succ = (dat5 V q c).Φ t.castSucc from rfl,
    show (dat5 V q c).owesAt () t.succ = (dat5 V q c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ (grid5.coords t) _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation5 (c : Dev nD) : BodyObligation (dat5 (F := F) V q c) (defs₀ (F := F)) Variants.none () Set.univ := fun t => by
  rw [bigSep_W5, bigSep_W5]
  exact sound_body5 V q c t

end Cert.KernelIdeal.Gen

end
-- ==== Proof.Chain.lean ====
/-
  The buffer contents between the items of the idealized kernel's program. The program is thirteen items: seven stretches
  of host operations (reshapes, two concatenations of weights, conversions to the narrow format) alternating with the
  six kernel regions. A host stretch replaces the contents by its operations' results; a region changes exactly one
  array — its output — to what the pipeline's write-backs leave there. So the contents after every item are a fold from the
  launch memory, and a reference that no item writes (every argument of the program) holds its launch contents throughout.
  Where one array is read through several windows of a region (the packed projections), its full share is dealt among
  those windows: halves, and a half halved again.
-/
import proofs.«105197_j1417339207765_2_alg».proof.Proof.Region0
import proofs.«105197_j1417339207765_2_alg».proof.Proof.Region1
import proofs.«105197_j1417339207765_2_alg».proof.Proof.Region2
import proofs.«105197_j1417339207765_2_alg».proof.Proof.Region3
import proofs.«105197_j1417339207765_2_alg».proof.Proof.Region4
import proofs.«105197_j1417339207765_2_alg».proof.Proof.Region5
import proofs.«105197_j1417339207765_2_alg».proof.Proof.Gen.KernelIdeal.Regions

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The windows' shares -/

/-- Self-attention: the query, key and value windows read the one packed projection; its full share is dealt a half,
    a quarter and a quarter. Every other window has its array to itself. -/
def q1 : Fin cfg1.W → PosShare TreeShare
  | ⟨0, _⟩ => fullShare.left
  | ⟨1, _⟩ => fullShare.right.left
  | ⟨2, _⟩ => fullShare.right.right
  | _ => fullShare

/-- Cross-attention: the key and value windows read the one packed projection of the context, a half each. -/
def q4 : Fin cfg4.W → PosShare TreeShare
  | ⟨1, _⟩ => fullShare.left
  | ⟨2, _⟩ => fullShare.right
  | _ => fullShare

/-- Every window has its array to itself. -/
abbrev qfull : Fin cfg5.W → PosShare TreeShare := fun _ => fullShare

variable (m : (ℓ : Loc nD τ sig) → Buf (Elt F) ℓ)

/-! ## The contents after each item -/

/-- At launch. -/
abbrev B0 (c : Dev nD) : Valuation τ sig (Elt F) := fun b => m (c, b)
/-- After host stretch 0. -/
abbrev B1 (c : Dev nD) : Valuation τ sig (Elt F) := StableHlo.after hostOps0 (B0 m c)
/-- The same, read at the TensorCore's references. -/
abbrev E1 : (c : Dev nD) → (b : Ref sig .tc) → Buf (Elt F) ((c : Thread nD τ).loc b) := fun c b => B1 m c b
/-- After region 0: its output array at what the write-backs leave, every other buffer as entered. -/
def B2 (c : Dev nD) : Valuation τ sig (Elt F) := Function.update (B1 m c) main_v12 ((dat0 (E1 m) c).arrAt 2 cfg0.N)
abbrev E2 : (c : Dev nD) → (b : Ref sig .tc) → Buf (Elt F) ((c : Thread nD τ).loc b) := fun c b => B2 m c b
/-- After host stretch 1. -/
abbrev B3 (c : Dev nD) : Valuation τ sig (Elt F) := StableHlo.after hostOps1 (B2 m c)
/-- The same, read at the TensorCore's references. -/
abbrev E3 : (c : Dev nD) → (b : Ref sig .tc) → Buf (Elt F) ((c : Thread nD τ).loc b) := fun c b => B3 m c b
/-- After region 1: its output array at what the write-backs leave, every other buffer as entered. -/
def B4 (c : Dev nD) : Valuation τ sig (Elt F) := Function.update (B3 m c) main_v14 ((dat1 (E3 m) q1 c).arrAt 6 cfg1.N)
abbrev E4 : (c : Dev nD) → (b : Ref sig .tc) → Buf (Elt F) ((c : Thread nD τ).loc b) := fun c b => B4 m c b
/-- After host stretch 2. -/
abbrev B5 (c : Dev nD) : Valuation τ sig (Elt F) := StableHlo.after hostOps2 (B4 m c)
/-- The same, read at the TensorCore's references. -/
abbrev E5 : (c : Dev nD) → (b : Ref sig .tc) → Buf (Elt F) ((c : Thread nD τ).loc b) := fun c b => B5 m c b
/-- After region 2: its output array at what the write-backs leave, every other buffer as entered. -/
def B6 (c : Dev nD) : Valuation τ sig (Elt F) := Function.update (B5 m c) main_v16 ((dat2 (E5 m) c).arrAt 2 cfg2.N)
abbrev E6 : (c : Dev nD) → (b : Ref sig .tc) → Buf (Elt F) ((c : Thread nD τ).loc b) := fun c b => B6 m c b
/-- After host stretch 3. -/
abbrev B7 (c : Dev nD) : Valuation τ sig (Elt F) := StableHlo.after hostOps3 (B6 m c)
/-- The same, read at the TensorCore's references. -/
abbrev E7 : (c : Dev nD) → (b : Ref sig .tc) → Buf (Elt F) ((c : Thread nD τ).loc b) := fun c b => B7 m c b
/-- After region 3: its output array at what the write-backs leave, every other buffer as entered. -/
def B8 (c : Dev nD) : Valuation τ sig (Elt F) := Function.update (B7 m c) main_v19 ((dat3 (E7 m) c).arrAt 2 cfg3.N)
abbrev E8 : (c : Dev nD) → (b : Ref sig .tc) → Buf (Elt F) ((c : Thread nD τ).loc b) := fun c b => B8 m c b
/-- After host stretch 4. -/
abbrev B9 (c : Dev nD) : Valuation τ sig (Elt F) := StableHlo.after hostOps4 (B8 m c)
/-- The same, read at the TensorCore's references. -/
abbrev E9 : (c : Dev nD) → (b : Ref sig .tc) → Buf (Elt F) ((c : Thread nD τ).loc b) := fun c b => B9 m c b
/-- After region 4: its output array at what the write-backs leave, every other buffer as entered. -/
def B10 (c : Dev nD) : Valuation τ sig (Elt F) := Function.update (B9 m c) main_v21 ((dat4 (E9 m) q4 c).arrAt 6 cfg4.N)
abbrev E10 : (c : Dev nD) → (b : Ref sig .tc) → Buf (Elt F) ((c : Thread nD τ).loc b) := fun c b => B10 m c b
/-- After host stretch 5. -/
abbrev B11 (c : Dev nD) : Valuation τ sig (Elt F) := StableHlo.after hostOps5 (B10 m c)
/-- The same, read at the TensorCore's references. -/
abbrev E11 : (c : Dev nD) → (b : Ref sig .tc) → Buf (Elt F) ((c : Thread nD τ).loc b) := fun c b => B11 m c b
/-- After region 5: its output array at what the write-backs leave, every other buffer as entered. -/
def B12 (c : Dev nD) : Valuation τ sig (Elt F) := Function.update (B11 m c) main_v23 ((dat5 (E11 m) qfull c).arrAt 7 cfg5.N)
abbrev E12 : (c : Dev nD) → (b : Ref sig .tc) → Buf (Elt F) ((c : Thread nD τ).loc b) := fun c b => B12 m c b
/-- After host stretch 6. -/
abbrev B13 (c : Dev nD) : Valuation τ sig (Elt F) := StableHlo.after hostOps6 (B12 m c)
/-- The same, read at the TensorCore's references. -/
abbrev E13 : (c : Dev nD) → (b : Ref sig .tc) → Buf (Elt F) ((c : Thread nD τ).loc b) := fun c b => B13 m c b

/-! ## What each item leaves unchanged -/

theorem B1_of (c : Dev nD) (r : Ref sig .tc) (h : r ∉ hostOps0_W) : B1 m c r = B0 m c r :=
  StableHlo.after_of_writes_sub hostOps0 _ hostOps0_writes h
theorem B2_of (c : Dev nD) (r : Ref sig .tc) (h : r ∉ ([main_v12] : List (Ref sig .tc))) : B2 m c r = B1 m c r := by
  unfold B2
  simp only [Function.update_of_ne (StableHlo.devRef_ne_of_ne (List.ne_of_not_mem_cons h) : (Proc.devRef .tc r : DevRef τ sig) ≠ Proc.devRef .tc main_v12)]
theorem B2_out (c : Dev nD) : B2 m c main_v12 = (dat0 (E1 m) c).arrAt 2 cfg0.N := by
  unfold B2; exact Function.update_self ..
theorem B3_of (c : Dev nD) (r : Ref sig .tc) (h : r ∉ hostOps1_W) : B3 m c r = B2 m c r :=
  StableHlo.after_of_writes_sub hostOps1 _ hostOps1_writes h
theorem B4_of (c : Dev nD) (r : Ref sig .tc) (h : r ∉ ([main_v14] : List (Ref sig .tc))) : B4 m c r = B3 m c r := by
  unfold B4
  simp only [Function.update_of_ne (StableHlo.devRef_ne_of_ne (List.ne_of_not_mem_cons h) : (Proc.devRef .tc r : DevRef τ sig) ≠ Proc.devRef .tc main_v14)]
theorem B4_out (c : Dev nD) : B4 m c main_v14 = (dat1 (E3 m) q1 c).arrAt 6 cfg1.N := by
  unfold B4; exact Function.update_self ..
theorem B5_of (c : Dev nD) (r : Ref sig .tc) (h : r ∉ hostOps2_W) : B5 m c r = B4 m c r :=
  StableHlo.after_of_writes_sub hostOps2 _ hostOps2_writes h
theorem B6_of (c : Dev nD) (r : Ref sig .tc) (h : r ∉ ([main_v16] : List (Ref sig .tc))) : B6 m c r = B5 m c r := by
  unfold B6
  simp only [Function.update_of_ne (StableHlo.devRef_ne_of_ne (List.ne_of_not_mem_cons h) : (Proc.devRef .tc r : DevRef τ sig) ≠ Proc.devRef .tc main_v16)]
theorem B6_out (c : Dev nD) : B6 m c main_v16 = (dat2 (E5 m) c).arrAt 2 cfg2.N := by
  unfold B6; exact Function.update_self ..
theorem B7_of (c : Dev nD) (r : Ref sig .tc) (h : r ∉ hostOps3_W) : B7 m c r = B6 m c r :=
  StableHlo.after_of_writes_sub hostOps3 _ hostOps3_writes h
theorem B8_of (c : Dev nD) (r : Ref sig .tc) (h : r ∉ ([main_v19] : List (Ref sig .tc))) : B8 m c r = B7 m c r := by
  unfold B8
  simp only [Function.update_of_ne (StableHlo.devRef_ne_of_ne (List.ne_of_not_mem_cons h) : (Proc.devRef .tc r : DevRef τ sig) ≠ Proc.devRef .tc main_v19)]
theorem B8_out (c : Dev nD) : B8 m c main_v19 = (dat3 (E7 m) c).arrAt 2 cfg3.N := by
  unfold B8; exact Function.update_self ..
theorem B9_of (c : Dev nD) (r : Ref sig .tc) (h : r ∉ hostOps4_W) : B9 m c r = B8 m c r :=
  StableHlo.after_of_writes_sub hostOps4 _ hostOps4_writes h
theorem B10_of (c : Dev nD) (r : Ref sig .tc) (h : r ∉ ([main_v21] : List (Ref sig .tc))) : B10 m c r = B9 m c r := by
  unfold B10
  simp only [Function.update_of_ne (StableHlo.devRef_ne_of_ne (List.ne_of_not_mem_cons h) : (Proc.devRef .tc r : DevRef τ sig) ≠ Proc.devRef .tc main_v21)]
theorem B10_out (c : Dev nD) : B10 m c main_v21 = (dat4 (E9 m) q4 c).arrAt 6 cfg4.N := by
  unfold B10; exact Function.update_self ..
theorem B11_of (c : Dev nD) (r : Ref sig .tc) (h : r ∉ hostOps5_W) : B11 m c r = B10 m c r :=
  StableHlo.after_of_writes_sub hostOps5 _ hostOps5_writes h
theorem B12_of (c : Dev nD) (r : Ref sig .tc) (h : r ∉ ([main_v23] : List (Ref sig .tc))) : B12 m c r = B11 m c r := by
  unfold B12
  simp only [Function.update_of_ne (StableHlo.devRef_ne_of_ne (List.ne_of_not_mem_cons h) : (Proc.devRef .tc r : DevRef τ sig) ≠ Proc.devRef .tc main_v23)]
theorem B12_out (c : Dev nD) : B12 m c main_v23 = (dat5 (E11 m) qfull c).arrAt 7 cfg5.N := by
  unfold B12; exact Function.update_self ..
theorem B13_of (c : Dev nD) (r : Ref sig .tc) (h : r ∉ hostOps6_W) : B13 m c r = B12 m c r :=
  StableHlo.after_of_writes_sub hostOps6 _ hostOps6_writes h

/-- A reference no item writes holds its launch contents at the end. -/
theorem B13_unwritten (c : Dev nD) (r : Ref sig .tc) (g1 : r ∉ hostOps0_W) (g2 : r ∉ ([main_v12] : List (Ref sig .tc))) (g3 : r ∉ hostOps1_W) (g4 : r ∉ ([main_v14] : List (Ref sig .tc))) (g5 : r ∉ hostOps2_W) (g6 : r ∉ ([main_v16] : List (Ref sig .tc))) (g7 : r ∉ hostOps3_W) (g8 : r ∉ ([main_v19] : List (Ref sig .tc))) (g9 : r ∉ hostOps4_W) (g10 : r ∉ ([main_v21] : List (Ref sig .tc))) (g11 : r ∉ hostOps5_W) (g12 : r ∉ ([main_v23] : List (Ref sig .tc))) (g13 : r ∉ hostOps6_W) :
    B13 m c r = m ((c : Thread nD τ).loc r) :=
  (B13_of m c r g13).trans <| (B12_of m c r g12).trans <| (B11_of m c r g11).trans <| (B10_of m c r g10).trans <| (B9_of m c r g9).trans <| (B8_of m c r g8).trans <| (B7_of m c r g7).trans <| (B6_of m c r g6).trans <| (B5_of m c r g5).trans <| (B4_of m c r g4).trans <| (B3_of m c r g3).trans <| (B2_of m c r g2).trans <| (B1_of m c r g1).trans rfl

/-! ## The proof data family -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) q1 c
  | ⟨2, _⟩ => fun c => dat2 (E5 m) c
  | ⟨3, _⟩ => fun c => dat3 (E7 m) c
  | ⟨4, _⟩ => fun c => dat4 (E9 m) q4 c
  | ⟨5, _⟩ => fun c => dat5 (E11 m) qfull c

end Cert.KernelIdeal.Gen

end
-- ==== Proof.ChainFacts.lean ====
/-
  What rides beside the buffers through every item of the program, and the facts every region's record needs of the
  chain of contents: at a region's exit each of its arrays holds what the pipeline leaves (an input's array what it held,
  the output's array the folded write-backs), and every other buffer what it held at entry.
-/
import proofs.«105197_j1417339207765_2_alg».proof.Proof.Chain

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

abbrev 𝒱₀ : Variants := Variants.none
/-- No core owes another anything: no level is assigned. -/
abbrev L : GSem nD τ sig → Finset Unit := fun _ => ∅
abbrev lv : GSem nD τ sig → Unit → ℕ := fun _ _ => 0
/-- Beside the buffers: the core's generator register at some state, and its dues, at nothing. -/
abbrev R (c : Dev nD) : sProp 𝕄 := iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Region 0, at its exit: each window's array holds what the pipeline leaves. -/
theorem hF0 (c : Dev nD) (w : Fin cfg0.W) : (dat0 (E1 m) c).arrAt w cfg0.N = E2 m c (Pipeline.arrRef spec0 w) := by
  fin_cases w
  · exact ((dat0 (E1 m) c).arrAt_in 0 rfl _).trans ((A_eq0 (E1 m) c 0).trans (B2_of m c _ (by decide)).symm)
  · exact ((dat0 (E1 m) c).arrAt_in 1 rfl _).trans ((A_eq0 (E1 m) c 1).trans (B2_of m c _ (by decide)).symm)
  · exact (B2_out m c).symm
/-- Every buffer that is no window's array is as the region found it. -/
theorem hrest0 (c : Dev nD) : ∀ b, b ∉ Finset.univ.image (Pipeline.arrRef spec0) → E2 m c b = E1 m c b :=
  fun b hb => B2_of m c b fun h => hb (by
    rw [List.mem_singleton] at h; subst h
    exact Finset.mem_image.mpr ⟨2, Finset.mem_univ _, rfl⟩)

/-- Region 1, at its exit: each window's array holds what the pipeline leaves. -/
theorem hF1 (c : Dev nD) (w : Fin cfg1.W) : (dat1 (E3 m) q1 c).arrAt w cfg1.N = E4 m c (Pipeline.arrRef spec1 w) := by
  fin_cases w
  · exact ((dat1 (E3 m) q1 c).arrAt_in 0 rfl _).trans ((A_eq1 (E3 m) q1 c 0).trans (B4_of m c _ (by decide)).symm)
  · exact ((dat1 (E3 m) q1 c).arrAt_in 1 rfl _).trans ((A_eq1 (E3 m) q1 c 1).trans (B4_of m c _ (by decide)).symm)
  · exact ((dat1 (E3 m) q1 c).arrAt_in 2 rfl _).trans ((A_eq1 (E3 m) q1 c 2).trans (B4_of m c _ (by decide)).symm)
  · exact ((dat1 (E3 m) q1 c).arrAt_in 3 rfl _).trans ((A_eq1 (E3 m) q1 c 3).trans (B4_of m c _ (by decide)).symm)
  · exact ((dat1 (E3 m) q1 c).arrAt_in 4 rfl _).trans ((A_eq1 (E3 m) q1 c 4).trans (B4_of m c _ (by decide)).symm)
  · exact ((dat1 (E3 m) q1 c).arrAt_in 5 rfl _).trans ((A_eq1 (E3 m) q1 c 5).trans (B4_of m c _ (by decide)).symm)
  · exact (B4_out m c).symm
/-- Every buffer that is no window's array is as the region found it. -/
theorem hrest1 (c : Dev nD) : ∀ b, b ∉ Finset.univ.image (Pipeline.arrRef spec1) → E4 m c b = E3 m c b :=
  fun b hb => B4_of m c b fun h => hb (by
    rw [List.mem_singleton] at h; subst h
    exact Finset.mem_image.mpr ⟨6, Finset.mem_univ _, rfl⟩)

/-- Region 2, at its exit: each window's array holds what the pipeline leaves. -/
theorem hF2 (c : Dev nD) (w : Fin cfg2.W) : (dat2 (E5 m) c).arrAt w cfg2.N = E6 m c (Pipeline.arrRef spec2 w) := by
  fin_cases w
  · exact ((dat2 (E5 m) c).arrAt_in 0 rfl _).trans ((A_eq2 (E5 m) c 0).trans (B6_of m c _ (by decide)).symm)
  · exact ((dat2 (E5 m) c).arrAt_in 1 rfl _).trans ((A_eq2 (E5 m) c 1).trans (B6_of m c _ (by decide)).symm)
  · exact (B6_out m c).symm
/-- Every buffer that is no window's array is as the region found it. -/
theorem hrest2 (c : Dev nD) : ∀ b, b ∉ Finset.univ.image (Pipeline.arrRef spec2) → E6 m c b = E5 m c b :=
  fun b hb => B6_of m c b fun h => hb (by
    rw [List.mem_singleton] at h; subst h
    exact Finset.mem_image.mpr ⟨2, Finset.mem_univ _, rfl⟩)

/-- Region 3, at its exit: each window's array holds what the pipeline leaves. -/
theorem hF3 (c : Dev nD) (w : Fin cfg3.W) : (dat3 (E7 m) c).arrAt w cfg3.N = E8 m c (Pipeline.arrRef spec3 w) := by
  fin_cases w
  · exact ((dat3 (E7 m) c).arrAt_in 0 rfl _).trans ((A_eq3 (E7 m) c 0).trans (B8_of m c _ (by decide)).symm)
  · exact ((dat3 (E7 m) c).arrAt_in 1 rfl _).trans ((A_eq3 (E7 m) c 1).trans (B8_of m c _ (by decide)).symm)
  · exact (B8_out m c).symm
/-- Every buffer that is no window's array is as the region found it. -/
theorem hrest3 (c : Dev nD) : ∀ b, b ∉ Finset.univ.image (Pipeline.arrRef spec3) → E8 m c b = E7 m c b :=
  fun b hb => B8_of m c b fun h => hb (by
    rw [List.mem_singleton] at h; subst h
    exact Finset.mem_image.mpr ⟨2, Finset.mem_univ _, rfl⟩)

/-- Region 4, at its exit: each window's array holds what the pipeline leaves. -/
theorem hF4 (c : Dev nD) (w : Fin cfg4.W) : (dat4 (E9 m) q4 c).arrAt w cfg4.N = E10 m c (Pipeline.arrRef spec4 w) := by
  fin_cases w
  · exact ((dat4 (E9 m) q4 c).arrAt_in 0 rfl _).trans ((A_eq4 (E9 m) q4 c 0).trans (B10_of m c _ (by decide)).symm)
  · exact ((dat4 (E9 m) q4 c).arrAt_in 1 rfl _).trans ((A_eq4 (E9 m) q4 c 1).trans (B10_of m c _ (by decide)).symm)
  · exact ((dat4 (E9 m) q4 c).arrAt_in 2 rfl _).trans ((A_eq4 (E9 m) q4 c 2).trans (B10_of m c _ (by decide)).symm)
  · exact ((dat4 (E9 m) q4 c).arrAt_in 3 rfl _).trans ((A_eq4 (E9 m) q4 c 3).trans (B10_of m c _ (by decide)).symm)
  · exact ((dat4 (E9 m) q4 c).arrAt_in 4 rfl _).trans ((A_eq4 (E9 m) q4 c 4).trans (B10_of m c _ (by decide)).symm)
  · exact ((dat4 (E9 m) q4 c).arrAt_in 5 rfl _).trans ((A_eq4 (E9 m) q4 c 5).trans (B10_of m c _ (by decide)).symm)
  · exact (B10_out m c).symm
/-- Every buffer that is no window's array is as the region found it. -/
theorem hrest4 (c : Dev nD) : ∀ b, b ∉ Finset.univ.image (Pipeline.arrRef spec4) → E10 m c b = E9 m c b :=
  fun b hb => B10_of m c b fun h => hb (by
    rw [List.mem_singleton] at h; subst h
    exact Finset.mem_image.mpr ⟨6, Finset.mem_univ _, rfl⟩)

/-- Region 5, at its exit: each window's array holds what the pipeline leaves. -/
theorem hF5 (c : Dev nD) (w : Fin cfg5.W) : (dat5 (E11 m) qfull c).arrAt w cfg5.N = E12 m c (Pipeline.arrRef spec5 w) := by
  fin_cases w
  · exact ((dat5 (E11 m) qfull c).arrAt_in 0 rfl _).trans ((A_eq5 (E11 m) qfull c 0).trans (B12_of m c _ (by decide)).symm)
  · exact ((dat5 (E11 m) qfull c).arrAt_in 1 rfl _).trans ((A_eq5 (E11 m) qfull c 1).trans (B12_of m c _ (by decide)).symm)
  · exact ((dat5 (E11 m) qfull c).arrAt_in 2 rfl _).trans ((A_eq5 (E11 m) qfull c 2).trans (B12_of m c _ (by decide)).symm)
  · exact ((dat5 (E11 m) qfull c).arrAt_in 3 rfl _).trans ((A_eq5 (E11 m) qfull c 3).trans (B12_of m c _ (by decide)).symm)
  · exact ((dat5 (E11 m) qfull c).arrAt_in 4 rfl _).trans ((A_eq5 (E11 m) qfull c 4).trans (B12_of m c _ (by decide)).symm)
  · exact ((dat5 (E11 m) qfull c).arrAt_in 5 rfl _).trans ((A_eq5 (E11 m) qfull c 5).trans (B12_of m c _ (by decide)).symm)
  · exact ((dat5 (E11 m) qfull c).arrAt_in 6 rfl _).trans ((A_eq5 (E11 m) qfull c 6).trans (B12_of m c _ (by decide)).symm)
  · exact (B12_out m c).symm
/-- Every buffer that is no window's array is as the region found it. -/
theorem hrest5 (c : Dev nD) : ∀ b, b ∉ Finset.univ.image (Pipeline.arrRef spec5) → E12 m c b = E11 m c b :=
  fun b hb => B12_of m c b fun h => hb (by
    rw [List.mem_singleton] at h; subst h
    exact Finset.mem_image.mpr ⟨7, Finset.mem_univ _, rfl⟩)

end Cert.KernelIdeal.Gen

end
-- ==== Proof.Seg0.lean ====
/-
  Region 0 of the idealized kernel as an item of the program's run: what of the thread state goes into the pipeline, what
  comes back, and what passes the region by.
-/
import proofs.«105197_j1417339207765_2_alg».proof.Proof.ChainFacts

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

set_option backward.isDefEq.respectTransparency.types false in
/-- Region 0 over the thread state: entered from every unscoped buffer at the contents before it, left at the contents
    after it. Its arrays are split out of the unscoped buffers and put back at the exit contents; the generator register
    goes into the pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Shared1.lean ====
/-
  Region 1 of the idealized kernel as an item of the program's run. Several of its input windows read ONE array (the packed
  projection). The thread state holds that array once, whole, at the full share; the pipeline wants it once per window. So at
  entry the full share is dealt among the windows that read it, each window holding the whole array at its part of the share
  (reading needs no more), and at exit the parts are put together again: the array was only read, so every part still holds
  what was dealt. The output array, and every array read through one window only, goes in and comes out at the full share.
-/
import proofs.«105197_j1417339207765_2_alg».proof.Proof.ChainFacts

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The distinct buffers behind region 1's windows. -/
theorem arrImage1 : Finset.univ.image (Pipeline.arrRef spec1) = ([main_v13, main_arg0, main_v0, main_v1, main_v14] : List (Ref sig .tc)).toFinset := by
  apply Finset.ext; intro b
  simp only [Finset.mem_image, Finset.mem_univ, true_and, List.mem_toFinset, List.mem_cons, List.not_mem_nil, or_false]
  constructor
  · rintro ⟨w, rfl⟩
    fin_cases w
    · exact Or.inl rfl
    · exact Or.inl rfl
    · exact Or.inl rfl
    · exact Or.inr (Or.inl rfl)
    · exact Or.inr (Or.inr (Or.inl rfl))
    · exact Or.inr (Or.inr (Or.inr (Or.inl rfl)))
    · exact Or.inr (Or.inr (Or.inr (Or.inr (rfl))))
  · rintro (rfl | rfl | rfl | rfl | rfl)
    · exact ⟨0, rfl⟩
    · exact ⟨3, rfl⟩
    · exact ⟨4, rfl⟩
    · exact ⟨5, rfl⟩
    · exact ⟨6, rfl⟩

/-- Those buffers one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v13) ↦{fullShare} V main_v13) ∗ (((c : Thread nD τ).loc main_arg0) ↦{fullShare} V main_arg0) ∗ (((c : Thread nD τ).loc main_v0) ↦{fullShare} V main_v0) ∗ (((c : Thread nD τ).loc main_v1) ↦{fullShare} V main_v1) ∗ (((c : Thread nD τ).loc main_v14) ↦{fullShare} V main_v14)) := by
  unfold Pipeline.arrBufs
  exact bigSep_eq_bigSepL_of_eq [main_v13, main_arg0, main_v0, main_v1, main_v14] arrImage1 (by decide) _

section Shares

variable (V V' : (c : Dev nD) → (b : Ref sig .tc) → Buf (Elt F) ((c : Thread nD τ).loc b))

theorem share1_0 (c : Dev nD) : (dat1 V q1 c).share 0 = fullShare.left := by
  unfold Pipeline.Dat.share; dsimp only [dat1]; rfl
theorem share1_1 (c : Dev nD) : (dat1 V q1 c).share 1 = fullShare.right.left := by
  unfold Pipeline.Dat.share; dsimp only [dat1]; rfl
theorem share1_2 (c : Dev nD) : (dat1 V q1 c).share 2 = fullShare.right.right := by
  unfold Pipeline.Dat.share; dsimp only [dat1]; rfl
theorem share1_3 (c : Dev nD) : (dat1 V q1 c).share 3 = fullShare := by
  unfold Pipeline.Dat.share; dsimp only [dat1]; rfl
theorem share1_4 (c : Dev nD) : (dat1 V q1 c).share 4 = fullShare := by
  unfold Pipeline.Dat.share; dsimp only [dat1]; rfl
theorem share1_5 (c : Dev nD) : (dat1 V q1 c).share 5 = fullShare := by
  unfold Pipeline.Dat.share; dsimp only [dat1]; rfl
theorem share1_6 (c : Dev nD) : (dat1 V q1 c).share 6 = fullShare := by
  unfold Pipeline.Dat.share; dsimp only [dat1]; rfl

/-- Each window's array is a whole buffer, so holding its element set is holding the buffer, at the window's share. -/
theorem arrays1_eq (c : Dev nD) (Fa : (w : Fin cfg1.W) → Buf (Elt F) ((cfg1.win w).arr.view.loc (c : Thread nD τ))) :
    ((dat1 V q1 c).arrays Fa : sProp 𝕄)
      = bigSep Finset.univ fun w : Fin cfg1.W => (((c : Thread nD τ).loc (Pipeline.arrRef spec1 w)) ↦{(dat1 V q1 c).share w} Fa w : sProp 𝕄) := by
  unfold Pipeline.Dat.arrays
  exact bigSep_congr fun w _ => by rw [(arr_whole1 w).set_eq_univ]

/-- Before any write-back a window's array holds the entry contents. -/
theorem arrAt0_1 (c : Dev nD) (w : Fin cfg1.W) : (dat1 V q1 c).arrAt w 0 = V c (Pipeline.arrRef spec1 w) := A_eq1 V q1 c w

set_option maxHeartbeats 1000000 in
/-- ENTRY: the distinct buffers, each whole at the full share at the entry contents, make the pipeline's arrays at the
    entry contents: the packed array's full share is dealt among the windows that read it. -/
theorem deal1 (c : Dev nD) :
    (Pipeline.arrBufs (Ix := Unit) (Name := ℕ) (U := UR sig nD τ) (Lvl := ℕ) spec1 c (V c) : sProp 𝕄)
      ⊢ (dat1 V q1 c).arrays ((dat1 V q1 c).arrAt · 0) := by
  rw [arrays1_eq, bigSep_W1, share1_0 V c, share1_1 V c, share1_2 V c, share1_3 V c, share1_4 V c, share1_5 V c, share1_6 V c, arrBufs1_eq]
  simp only [arrAt0_1]
  iintro ⟨H0, H1, H2, H3, H4⟩
  ihave Hs := (pointsTo_share (PosShare.mem_left_op_right fullShare)).1 $$ H0
  icases Hs with ⟨Ha, Hr⟩
  ihave Hs := (pointsTo_share (PosShare.mem_left_op_right fullShare.right)).1 $$ Hr
  icases Hs with ⟨Hb, Hc⟩
  isplitl [Ha]; · iexact Ha
  isplitl [Hb]; · iexact Hb
  isplitl [Hc]; · iexact Hc
  isplitl [H1]; · iexact H1
  isplitl [H2]; · iexact H2
  isplitl [H3]; · iexact H3
  iexact H4

set_option maxHeartbeats 1000000 in
/-- EXIT: the pipeline's arrays at their final contents make the distinct buffers, each whole at the full share at the
    exit contents `V'` — given that each window's array ends at `V'` there —: the parts of the packed array's share are put
    together again (it was only read, so every part holds what was dealt), the output array holds the folded write-backs. -/
theorem gather1 (c : Dev nD) (hF : ∀ w, (dat1 V q1 c).arrAt w cfg1.N = V' c (Pipeline.arrRef spec1 w)) :
    ((dat1 V q1 c).arrays ((dat1 V q1 c).arrAt · cfg1.N) : sProp 𝕄)
      ⊢ Pipeline.arrBufs (Ix := Unit) (Name := ℕ) (U := UR sig nD τ) (Lvl := ℕ) spec1 c (V' c) := by
  rw [arrays1_eq, bigSep_W1, share1_0 V c, share1_1 V c, share1_2 V c, share1_3 V c, share1_4 V c, share1_5 V c, share1_6 V c, arrBufs1_eq]
  simp only [hF]
  iintro ⟨G0, G1, G2, G3, G4, G5, G6⟩
  ihave Hr := (pointsTo_share (PosShare.mem_left_op_right fullShare.right)).2 $$ [G1 G2]
  · isplitl [G1] <;> iassumption
  ihave Hm := (pointsTo_share (PosShare.mem_left_op_right fullShare)).2 $$ [G0 Hr]
  · isplitl [G0] <;> iassumption
  isplitl [Hm]; · iexact Hm
  isplitl [G3]; · iexact G3
  isplitl [G4]; · iexact G4
  isplitl [G5]; · iexact G5
  iexact G6

end Shares

set_option backward.isDefEq.respectTransparency.types false in
/-- Region 1 over the thread state: entered from every unscoped buffer at the contents before it, left at the contents
    after it. The distinct buffers behind its windows are split out of the unscoped buffers, the packed array's share dealt
    among its readers, and at the exit gathered and put back; the generator register goes into the pipeline's invariant and
    comes back; nothing is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E3 m) q1 c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit : (unscopedBufs c (E3 m c) : sProp 𝕄)
        ⊢ iprop((pdats m 1 c).arrays ((pdats m 1 c).arrAt · 0) ∗ Pipeline.unscopedRest (Ix := Unit) (Name := ℕ) (U := UR sig nD τ) (Lvl := ℕ) spec1 c (E3 m c)) := by
      rw [Pipeline.unscopedBufs_split₀ (Pipeline.pin (pcfgs (F := F)) adm) 1 winFacts₀1.arr_unscoped c (E3 m c)]
      exact sep_mono (deal1 (E3 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (E3 m c))
        ⊢ (unscopedBufs c (E4 m c) : sProp 𝕄) := by
      rw [Pipeline.unscopedBufs_split₀ (Pipeline.pin (pcfgs (F := F)) adm) 1 winFacts₀1.arr_unscoped c (E4 m c)]
      refine sep_mono (gather1 (E3 m) (E4 m) c (hF1 m c)) (Entails.of_eq ?_)
      unfold Pipeline.unscopedRest
      exact bigSep_congr fun b hb => by rw [hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Seg2.lean ====
/-
  Region 2 of the idealized kernel as an item of the program's run: what of the thread state goes into the pipeline, what
  comes back, and what passes the region by.
-/
import proofs.«105197_j1417339207765_2_alg».proof.Proof.ChainFacts

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

set_option backward.isDefEq.respectTransparency.types false in
/-- Region 2 over the thread state: entered from every unscoped buffer at the contents before it, left at the contents
    after it. Its arrays are split out of the unscoped buffers and put back at the exit contents; the generator register
    goes into the pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Seg3.lean ====
/-
  Region 3 of the idealized kernel as an item of the program's run: what of the thread state goes into the pipeline, what
  comes back, and what passes the region by.
-/
import proofs.«105197_j1417339207765_2_alg».proof.Proof.ChainFacts

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

set_option backward.isDefEq.respectTransparency.types false in
/-- Region 3 over the thread state: entered from every unscoped buffer at the contents before it, left at the contents
    after it. Its arrays are split out of the unscoped buffers and put back at the exit contents; the generator register
    goes into the pipeline's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E7 m) c).loose
  hwaits := Pipeline.hwaits_of_owed_zero _ _ _ _ L lv 3 fun _ _ => rfl
  pre c := iprop(StableHlo.held (c : Thread nD τ) (Pipeline.ucRefs τ sig) (B7 m c) ∗ R c)
  post c := iprop(StableHlo.held (c : Thread nD τ) (Pipeline.ucRefs τ sig) (B8 m c) ∗ R c)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E7 m c) (E8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Shared4.lean ====
/-
  Region 4 of the idealized kernel as an item of the program's run. Several of its input windows read ONE array (the packed
  projection). The thread state holds that array once, whole, at the full share; the pipeline wants it once per window. So at
  entry the full share is dealt among the windows that read it, each window holding the whole array at its part of the share
  (reading needs no more), and at exit the parts are put together again: the array was only read, so every part still holds
  what was dealt. The output array, and every array read through one window only, goes in and comes out at the full share.
-/
import proofs.«105197_j1417339207765_2_alg».proof.Proof.ChainFacts

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The distinct buffers behind region 4's windows. -/
theorem arrImage4 : Finset.univ.image (Pipeline.arrRef spec4) = ([main_v20, main_v17, main_v14, main_v0, main_v1, main_v21] : List (Ref sig .tc)).toFinset := by
  apply Finset.ext; intro b
  simp only [Finset.mem_image, Finset.mem_univ, true_and, List.mem_toFinset, List.mem_cons, List.not_mem_nil, or_false]
  constructor
  · rintro ⟨w, rfl⟩
    fin_cases w
    · exact Or.inl rfl
    · exact Or.inr (Or.inl rfl)
    · exact Or.inr (Or.inl rfl)
    · exact Or.inr (Or.inr (Or.inl rfl))
    · exact Or.inr (Or.inr (Or.inr (Or.inl rfl)))
    · exact Or.inr (Or.inr (Or.inr (Or.inr (Or.inl rfl))))
    · exact Or.inr (Or.inr (Or.inr (Or.inr (Or.inr (rfl)))))
  · rintro (rfl | rfl | rfl | rfl | rfl | rfl)
    · exact ⟨0, rfl⟩
    · exact ⟨1, rfl⟩
    · exact ⟨3, rfl⟩
    · exact ⟨4, rfl⟩
    · exact ⟨5, rfl⟩
    · exact ⟨6, rfl⟩

/-- Those buffers one by one. -/
theorem arrBufs4_eq (c : Dev nD) (V : (b : Ref sig .tc) → Buf (Elt F) ((c : Thread nD τ).loc b)) :
    (Pipeline.arrBufs (Ix := Unit) (Name := ℕ) (U := UR sig nD τ) (Lvl := ℕ) spec4 c V : sProp 𝕄)
      = iprop((((c : Thread nD τ).loc main_v20) ↦{fullShare} V main_v20) ∗ (((c : Thread nD τ).loc main_v17) ↦{fullShare} V main_v17) ∗ (((c : Thread nD τ).loc main_v14) ↦{fullShare} V main_v14) ∗ (((c : Thread nD τ).loc main_v0) ↦{fullShare} V main_v0) ∗ (((c : Thread nD τ).loc main_v1) ↦{fullShare} V main_v1) ∗ (((c : Thread nD τ).loc main_v21) ↦{fullShare} V main_v21)) := by
  unfold Pipeline.arrBufs
  exact bigSep_eq_bigSepL_of_eq [main_v20, main_v17, main_v14, main_v0, main_v1, main_v21] arrImage4 (by decide) _

section Shares

variable (V V' : (c : Dev nD) → (b : Ref sig .tc) → Buf (Elt F) ((c : Thread nD τ).loc b))

theorem share4_0 (c : Dev nD) : (dat4 V q4 c).share 0 = fullShare := by
  unfold Pipeline.Dat.share; dsimp only [dat4]; rfl
theorem share4_1 (c : Dev nD) : (dat4 V q4 c).share 1 = fullShare.left := by
  unfold Pipeline.Dat.share; dsimp only [dat4]; rfl
theorem share4_2 (c : Dev nD) : (dat4 V q4 c).share 2 = fullShare.right := by
  unfold Pipeline.Dat.share; dsimp only [dat4]; rfl
theorem share4_3 (c : Dev nD) : (dat4 V q4 c).share 3 = fullShare := by
  unfold Pipeline.Dat.share; dsimp only [dat4]; rfl
theorem share4_4 (c : Dev nD) : (dat4 V q4 c).share 4 = fullShare := by
  unfold Pipeline.Dat.share; dsimp only [dat4]; rfl
theorem share4_5 (c : Dev nD) : (dat4 V q4 c).share 5 = fullShare := by
  unfold Pipeline.Dat.share; dsimp only [dat4]; rfl
theorem share4_6 (c : Dev nD) : (dat4 V q4 c).share 6 = fullShare := by
  unfold Pipeline.Dat.share; dsimp only [dat4]; rfl

/-- Each window's array is a whole buffer, so holding its element set is holding the buffer, at the window's share. -/
theorem arrays4_eq (c : Dev nD) (Fa : (w : Fin cfg4.W) → Buf (Elt F) ((cfg4.win w).arr.view.loc (c : Thread nD τ))) :
    ((dat4 V q4 c).arrays Fa : sProp 𝕄)
      = bigSep Finset.univ fun w : Fin cfg4.W => (((c : Thread nD τ).loc (Pipeline.arrRef spec4 w)) ↦{(dat4 V q4 c).share w} Fa w : sProp 𝕄) := by
  unfold Pipeline.Dat.arrays
  exact bigSep_congr fun w _ => by rw [(arr_whole4 w).set_eq_univ]

/-- Before any write-back a window's array holds the entry contents. -/
theorem arrAt0_4 (c : Dev nD) (w : Fin cfg4.W) : (dat4 V q4 c).arrAt w 0 = V c (Pipeline.arrRef spec4 w) := A_eq4 V q4 c w

set_option maxHeartbeats 1000000 in
/-- ENTRY: the distinct buffers, each whole at the full share at the entry contents, make the pipeline's arrays at the
    entry contents: the packed array's full share is dealt among the windows that read it. -/
theorem deal4 (c : Dev nD) :
    (Pipeline.arrBufs (Ix := Unit) (Name := ℕ) (U := UR sig nD τ) (Lvl := ℕ) spec4 c (V c) : sProp 𝕄)
      ⊢ (dat4 V q4 c).arrays ((dat4 V q4 c).arrAt · 0) := by
  rw [arrays4_eq, bigSep_W4, share4_0 V c, share4_1 V c, share4_2 V c, share4_3 V c, share4_4 V c, share4_5 V c, share4_6 V c, arrBufs4_eq]
  simp only [arrAt0_4]
  iintro ⟨H0, H1, H2, H3, H4, H5⟩
  ihave Hs := (pointsTo_share (PosShare.mem_left_op_right fullShare)).1 $$ H1
  icases Hs with ⟨Ha, Hb⟩
  isplitl [H0]; · iexact H0
  isplitl [Ha]; · iexact Ha
  isplitl [Hb]; · iexact Hb
  isplitl [H2]; · iexact H2
  isplitl [H3]; · iexact H3
  isplitl [H4]; · iexact H4
  iexact H5

set_option maxHeartbeats 1000000 in
/-- EXIT: the pipeline's arrays at their final contents make the distinct buffers, each whole at the full share at the
    exit contents `V'` — given that each window's array ends at `V'` there —: the parts of the packed array's share are put
    together again (it was only read, so every part holds what was dealt), the output array holds the folded write-backs. -/
theorem gather4 (c : Dev nD) (hF : ∀ w, (dat4 V q4 c).arrAt w cfg4.N = V' c (Pipeline.arrRef spec4 w)) :
    ((dat4 V q4 c).arrays ((dat4 V q4 c).arrAt · cfg4.N) : sProp 𝕄)
      ⊢ Pipeline.arrBufs (Ix := Unit) (Name := ℕ) (U := UR sig nD τ) (Lvl := ℕ) spec4 c (V' c) := by
  rw [arrays4_eq, bigSep_W4, share4_0 V c, share4_1 V c, share4_2 V c, share4_3 V c, share4_4 V c, share4_5 V c, share4_6 V c, arrBufs4_eq]
  simp only [hF]
  iintro ⟨G0, G1, G2, G3, G4, G5, G6⟩
  ihave Hm := (pointsTo_share (PosShare.mem_left_op_right fullShare)).2 $$ [G1 G2]
  · isplitl [G1] <;> iassumption
  isplitl [G0]; · iexact G0
  isplitl [Hm]; · iexact Hm
  isplitl [G3]; · iexact G3
  isplitl [G4]; · iexact G4
  isplitl [G5]; · iexact G5
  iexact G6

end Shares

set_option backward.isDefEq.respectTransparency.types false in
/-- Region 4 over the thread state: entered from every unscoped buffer at the contents before it, left at the contents
    after it. The distinct buffers behind its windows are split out of the unscoped buffers, the packed array's share dealt
    among its readers, and at the exit gathered and put back; the generator register goes into the pipeline's invariant and
    comes back; nothing is owed; the kernel has no semaphore of its own. -/
def reg4 : Pipeline.RegionSeg (pcfgs (F := F)) adm (pdats m) () defs₀ 𝒱₀ L lv 4 where
  win := winFacts₀4
  block_pos := block_pos4
  stage_whole := stage_whole4
  K := PEmpty
  osem k := k.elim
  ho := Pipeline.OwnSemFacts.none _
  hbody c := (body_obligation4 (E9 m) q4 c).loose
  hwaits := Pipeline.hwaits_of_owed_zero _ _ _ _ L lv 4 fun _ _ => rfl
  pre c := iprop(StableHlo.held (c : Thread nD τ) (Pipeline.ucRefs τ sig) (B9 m c) ∗ R c)
  post c := iprop(StableHlo.held (c : Thread nD τ) (Pipeline.ucRefs τ sig) (B10 m c) ∗ R c)
  X c := iprop(∃ r, prngReg c r)
  Y c := iprop(∃ r, prngReg c r)
  Z c := Pipeline.unscopedRest (Ix := Unit) (Name := ℕ) (U := UR sig nD τ) (Lvl := ℕ) spec4 c (E9 m c)
  hentry c := by
    rw [Pipeline.ownSems0_none]
    have hsplit : (unscopedBufs c (E9 m c) : sProp 𝕄)
        ⊢ iprop((pdats m 4 c).arrays ((pdats m 4 c).arrAt · 0) ∗ Pipeline.unscopedRest (Ix := Unit) (Name := ℕ) (U := UR sig nD τ) (Lvl := ℕ) spec4 c (E9 m c)) := by
      rw [Pipeline.unscopedBufs_split₀ (Pipeline.pin (pcfgs (F := F)) adm) 4 winFacts₀4.arr_unscoped c (E9 m c)]
      exact sep_mono (deal4 (E9 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin : iprop((pdats m 4 c).arrays ((pdats m 4 c).arrAt · cfg4.N) ∗ Pipeline.unscopedRest (Ix := Unit) (Name := ℕ) (U := UR sig nD τ) (Lvl := ℕ) spec4 c (E9 m c))
        ⊢ (unscopedBufs c (E10 m c) : sProp 𝕄) := by
      rw [Pipeline.unscopedBufs_split₀ (Pipeline.pin (pcfgs (F := F)) adm) 4 winFacts₀4.arr_unscoped c (E10 m c)]
      refine sep_mono (gather4 (E9 m) (E10 m) c (hF4 m c)) (Entails.of_eq ?_)
      unfold Pipeline.unscopedRest
      exact bigSep_congr fun b hb => by rw [hrest4 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Seg5.lean ====
/-
  Region 5 of the idealized kernel as an item of the program's run: what of the thread state goes into the pipeline, what
  comes back, and what passes the region by.
-/
import proofs.«105197_j1417339207765_2_alg».proof.Proof.ChainFacts

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

set_option backward.isDefEq.respectTransparency.types false in
/-- Region 5 over the thread state: entered from every unscoped buffer at the contents before it, left at the contents
    after it. Its arrays are split out of the unscoped buffers and put back at the exit contents; the generator register
    goes into the pipeline's invariant and comes back; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (E11 m) qfull c).loose
  hwaits := Pipeline.hwaits_of_owed_zero _ _ _ _ L lv 5 fun _ _ => rfl
  pre c := iprop(StableHlo.held (c : Thread nD τ) (Pipeline.ucRefs τ sig) (B11 m c) ∗ R c)
  post c := iprop(StableHlo.held (c : Thread nD τ) (Pipeline.ucRefs τ sig) (B12 m c) ∗ R c)
  X c := iprop(∃ r, prngReg c r)
  Y c := iprop(∃ r, prngReg c r)
  Z c := Pipeline.unscopedRest (Ix := Unit) (Name := ℕ) (U := UR sig nD τ) (Lvl := ℕ) spec5 c (E11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (E11 m c) (E12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Run.lean ====
/-
  The run of the idealized kernel's program: its thirteen items as segments — a host stretch from the contents before it, a
  kernel region per launch — chained from the launch memory to the return. Every weakly fair execution terminates, nothing
  faults, and at the end every unscoped buffer holds the last contents of the chain: each argument what it held at launch
  (no item writes one), the result the last reshape of what the last region left.
-/
import proofs.«105197_j1417339207765_2_alg».proof.Proof.Seg0
import proofs.«105197_j1417339207765_2_alg».proof.Proof.Shared1
import proofs.«105197_j1417339207765_2_alg».proof.Proof.Seg2
import proofs.«105197_j1417339207765_2_alg».proof.Proof.Seg3
import proofs.«105197_j1417339207765_2_alg».proof.Proof.Shared4
import proofs.«105197_j1417339207765_2_alg».proof.Proof.Seg5

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- A host stretch as a segment over the unscoped references from the contents `W`, the register and the dues riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the dues: every unscoped buffer at the last contents, the generator register at some state. -/
abbrev Tₙ (c : Dev nD) : sProp 𝕄 := iprop(StableHlo.held (c : Thread nD τ) (Pipeline.ucRefs τ sig) (B13 m c) ∗ ∃ r, prngReg c r)

/-- The program's thirteen items in order. -/
abbrev items : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m),
    .host (hseg hostOps2 hostOps2_sub hostOps2_fresh (B4 m)),
    .region (reg2 m),
    .host (hseg hostOps3 hostOps3_sub hostOps3_fresh (B6 m)),
    .region (reg3 m),
    .host (hseg hostOps4 hostOps4_sub hostOps4_fresh (B8 m)),
    .region (reg4 m),
    .host (hseg hostOps5 hostOps5_sub hostOps5_fresh (B10 m)),
    .region (reg5 m),
    .host (hseg hostOps6 hostOps6_sub hostOps6_fresh (B12 m)) ]

/-- The program IS the run of the segments. -/
theorem main_run (c : Dev nD) : main (F := F) c = Pipeline.Seg.run (items m) := (main_chain c).trans (by chain_rfl)

set_option backward.isDefEq.respectTransparency.types false in
/-- From any memory with zero counters, every weakly fair execution of the program terminates, nothing faulting, and every
    final state holds each unscoped buffer at the chain's last contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B13 m c b) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (B13 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B13 m c b)
    (hfin := fun c s' => by
      iintro ⟨⟨Hh, -⟩, HSI⟩
      unfold StableHlo.held
      imodintro
      iapply (pointsTo_read_all (Pipeline.ucRefs τ sig) (fun b => (((c : Thread nD τ)).1, b)) (B13 m c) s')
      isplitl [Hh] <;> iassumption)
    (hQ := fun s h => h)

end Cert.KernelIdeal.Gen

end
-- ==== Proof.Frames.lean ====
/-
  The frame of the idealized kernel: the run ends with every unscoped buffer at the last contents of the chain, and no item
  of the program writes an argument, so each argument array ends holding its launch contents.
-/
import proofs.«105197_j1417339207765_2_alg».proof.Proof.Run

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- From any memory with zero counters every weakly fair execution terminates, nothing faulting, with the fourteen argument
    arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (B13_unwritten m c main_arg0 (by decide) (by decide) (by decide) (by decide) (by decide) (by decide) (by decide) (by decide) (by decide) (by decide) (by decide) (by decide) (by decide)),
    (h c _ (mem_uc main_arg1 (by decide))).trans (B13_unwritten m c main_arg1 (by decide) (by decide) (by decide) (by decide) (by decide) (by decide) (by decide) (by decide) (by decide) (by decide) (by decide) (by decide) (by decide)),
    (h c _ (mem_uc main_arg2 (by decide))).trans (B13_unwritten m c main_arg2 (by decide) (by decide) (by decide) (by decide) (by decide) (by decide) (by decide) (by decide) (by decide) (by decide) (by decide) (by decide) (by decide)),
    (h c _ (mem_uc main_arg3 (by decide))).trans (B13_unwritten m c main_arg3 (by decide) (by decide) (by decide) (by decide) (by decide) (by decide) (by decide) (by decide) (by decide) (by decide) (by decide) (by decide) (by decide)),
    (h c _ (mem_uc main_arg4 (by decide))).trans (B13_unwritten m c main_arg4 (by decide) (by decide) (by decide) (by decide) (by decide) (by decide) (by decide) (by decide) (by decide) (by decide) (by decide) (by decide) (by decide)),
    (h c _ (mem_uc main_arg5 (by decide))).trans (B13_unwritten m c main_arg5 (by decide) (by decide) (by decide) (by decide) (by decide) (by decide) (by decide) (by decide) (by decide) (by decide) (by decide) (by decide) (by decide)),
    (h c _ (mem_uc main_arg6 (by decide))).trans (B13_unwritten m c main_arg6 (by decide) (by decide) (by decide) (by decide) (by decide) (by decide) (by decide) (by decide) (by decide) (by decide) (by decide) (by decide) (by decide)),
    (h c _ (mem_uc main_arg7 (by decide))).trans (B13_unwritten m c main_arg7 (by decide) (by decide) (by decide) (by decide) (by decide) (by decide) (by decide) (by decide) (by decide) (by decide) (by decide) (by decide) (by decide)),
    (h c _ (mem_uc main_arg8 (by decide))).trans (B13_unwritten m c main_arg8 (by decide) (by decide) (by decide) (by decide) (by decide) (by decide) (by decide) (by decide) (by decide) (by decide) (by decide) (by decide) (by decide)),
    (h c _ (mem_uc main_arg9 (by decide))).trans (B13_unwritten m c main_arg9 (by decide) (by decide) (by decide) (by decide) (by decide) (by decide) (by decide) (by decide) (by decide) (by decide) (by decide) (by decide) (by decide)),
    (h c _ (mem_uc main_arg10 (by decide))).trans (B13_unwritten m c main_arg10 (by decide) (by decide) (by decide) (by decide) (by decide) (by decide) (by decide) (by decide) (by decide) (by decide) (by decide) (by decide) (by decide)),
    (h c _ (mem_uc main_arg11 (by decide))).trans (B13_unwritten m c main_arg11 (by decide) (by decide) (by decide) (by decide) (by decide) (by decide) (by decide) (by decide) (by decide) (by decide) (by decide) (by decide) (by decide)),
    (h c _ (mem_uc main_arg12 (by decide))).trans (B13_unwritten m c main_arg12 (by decide) (by decide) (by decide) (by decide) (by decide) (by decide) (by decide) (by decide) (by decide) (by decide) (by decide) (by decide) (by decide)),
    (h c _ (mem_uc main_arg13 (by decide))).trans (B13_unwritten m c main_arg13 (by decide) (by decide) (by decide) (by decide) (by decide) (by decide) (by decide) (by decide) (by decide) (by decide) (by decide) (by decide) (by decide))⟩) (run_all m ρ)

/-- The same run with the result named: the result array ends at the chain's last contents there, and the fourteen argument
    arrays as launched. -/
theorem run_result (ρ : Dev nD → PrngReg) : θ_run defs (onTc (τ := τ) (main (F := F))) ⟨m, fun _ => 0, ρ⟩ (fun r => ∀ c : Dev nD,
      r.2.mem ((c.tc : Thread nD τ).loc main_v24) = B13 m c main_v24
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨h c _ (mem_uc main_v24 (by decide)),
    (h c _ (mem_uc main_arg0 (by decide))).trans (B13_unwritten m c main_arg0 (by decide) (by decide) (by decide) (by decide) (by decide) (by decide) (by decide) (by decide) (by decide) (by decide) (by decide) (by decide) (by decide)),
    (h c _ (mem_uc main_arg1 (by decide))).trans (B13_unwritten m c main_arg1 (by decide) (by decide) (by decide) (by decide) (by decide) (by decide) (by decide) (by decide) (by decide) (by decide) (by decide) (by decide) (by decide)),
    (h c _ (mem_uc main_arg2 (by decide))).trans (B13_unwritten m c main_arg2 (by decide) (by decide) (by decide) (by decide) (by decide) (by decide) (by decide) (by decide) (by decide) (by decide) (by decide) (by decide) (by decide)),
    (h c _ (mem_uc main_arg3 (by decide))).trans (B13_unwritten m c main_arg3 (by decide) (by decide) (by decide) (by decide) (by decide) (by decide) (by decide) (by decide) (by decide) (by decide) (by decide) (by decide) (by decide)),
    (h c _ (mem_uc main_arg4 (by decide))).trans (B13_unwritten m c main_arg4 (by decide) (by decide) (by decide) (by decide) (by decide) (by decide) (by decide) (by decide) (by decide) (by decide) (by decide) (by decide) (by decide)),
    (h c _ (mem_uc main_arg5 (by decide))).trans (B13_unwritten m c main_arg5 (by decide) (by decide) (by decide) (by decide) (by decide) (by decide) (by decide) (by decide) (by decide) (by decide) (by decide) (by decide) (by decide)),
    (h c _ (mem_uc main_arg6 (by decide))).trans (B13_unwritten m c main_arg6 (by decide) (by decide) (by decide) (by decide) (by decide) (by decide) (by decide) (by decide) (by decide) (by decide) (by decide) (by decide) (by decide)),
    (h c _ (mem_uc main_arg7 (by decide))).trans (B13_unwritten m c main_arg7 (by decide) (by decide) (by decide) (by decide) (by decide) (by decide) (by decide) (by decide) (by decide) (by decide) (by decide) (by decide) (by decide)),
    (h c _ (mem_uc main_arg8 (by decide))).trans (B13_unwritten m c main_arg8 (by decide) (by decide) (by decide) (by decide) (by decide) (by decide) (by decide) (by decide) (by decide) (by decide) (by decide) (by decide) (by decide)),
    (h c _ (mem_uc main_arg9 (by decide))).trans (B13_unwritten m c main_arg9 (by decide) (by decide) (by decide) (by decide) (by decide) (by decide) (by decide) (by decide) (by decide) (by decide) (by decide) (by decide) (by decide)),
    (h c _ (mem_uc main_arg10 (by decide))).trans (B13_unwritten m c main_arg10 (by decide) (by decide) (by decide) (by decide) (by decide) (by decide) (by decide) (by decide) (by decide) (by decide) (by decide) (by decide) (by decide)),
    (h c _ (mem_uc main_arg11 (by decide))).trans (B13_unwritten m c main_arg11 (by decide) (by decide) (by decide) (by decide) (by decide) (by decide) (by decide) (by decide) (by decide) (by decide) (by decide) (by decide) (by decide)),
    (h c _ (mem_uc main_arg12 (by decide))).trans (B13_unwritten m c main_arg12 (by decide) (by decide) (by decide) (by decide) (by decide) (by decide) (by decide) (by decide) (by decide) (by decide) (by decide) (by decide) (by decide)),
    (h c _ (mem_uc main_arg13 (by decide))).trans (B13_unwritten m c main_arg13 (by decide) (by decide) (by decide) (by decide) (by decide) (by decide) (by decide) (by decide) (by decide) (by decide) (by decide) (by decide) (by decide))⟩) (run_all m ρ)

end Cert.KernelIdeal.Gen

end
-- ==== Proof.KRegion0.lean ====
/-
  Region 0 of the kernel as printed: the packed projection `inputs2 · [wq1 | wk1 | wv1]`, rows 256 at a time.
  The grid walks the row blocks of the left operand; at a point the body loads the point's row block and the whole
  weight, multiplies them into a zero accumulator and stores the product over the whole output block. So the output
  block after the body is one function of the two input blocks (`out0_2`), every input buffer is left as it was
  found, and nothing else is touched: that is the body's obligation to the pipeline at every grid point.
-/
import proofs.«105197_j1417339207765_2_alg».proof.Proof.Gen.Kernel.Launch
import proofs.«105197_j1417339207765_2_alg».proof.Proof.Gen.Kernel.Skeleton
import proofs.«105197_j1417339207765_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's buffer holds the point's block when the body runs. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's buffer holds the whole weight at every point: it is fetched once and its index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read or written whole -/

abbrev r0_x : Rect S256x1024 := Rect.unit (s := S256x1024) ![0, 0] S256x1024.size inb_S256x1024_S256x1024_0_0
abbrev r0_w : Rect S1024x3072 := Rect.unit (s := S1024x3072) ![0, 0] S1024x3072.size inb_S1024x3072_S1024x3072_0_0
abbrev r0_o : Rect S256x3072 := Rect.unit (s := S256x3072) ![0, 0] S256x3072.size inb_S256x3072_S256x3072_0_0

/-- The output block after the body, from the two input blocks: the product, stored over the whole block. -/
def out0_2 (x0 : Vec F S256x1024 .f32) (x1 : Vec F S1024x3072 .bf16) : Vec F S256x3072 .bf16 :=
  View.canon [⟨r0_o, k0_pay1 (View.ld x0 r0_x) (View.ld x1 r0_w)⟩]

/-- The one store covers the block. -/
theorem cover0_2 (p0 : Vec F S256x3072 .bf16) (y : S256x3072.Idx) :
    ∃ pc ∈ ([⟨r0_o, p0⟩] : List (View.Piece (Elt F) S256x3072 .bf16)), y ∈ pc.1.set :=
  View.cover_of_tiled [⟨r0_o, p0⟩] S256x3072.size (by rfl) y

/-! ## The body's triple -/

set_option maxHeartbeats 1000000 in
/-- On whole staging buffers, the inputs' at `x0`, `x1` and the output's at anything, the body runs to its return
    with the inputs' buffers as they were and the output's at `out0_2 x0 x1`. -/
theorem sound_kernel0 (c : Dev nD) (E : Set ℕ) (i : grid0.Coords) (arg1 : Memref sig .tc .vmem S256x1024 .f32) (harg1 : arg1.IsWhole) (arg2 : Memref sig .tc .vmem S1024x3072 .bf16) (harg2 : arg2.IsWhole) (arg3 : Memref sig .tc .vmem S256x3072 .bf16) (harg3 : arg3.IsWhole)
    (x0 : Vec F S256x1024 .f32) (x1 : Vec F S1024x3072 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body at point `t` each input's buffer at its block and the output's
    at `out0_2` of the two input blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.KRegion1.lean ====
/-
  Region 1 of the kernel as printed: causal self-attention over the packed projections, then the residual and the layer normalisation.
  The grid walks (batch, block of 256 query rows). At a point the body loads the query block, that batch's whole key and
  value blocks (three windows on the ONE packed array, at column blocks 0, 1, 2), the residual block and the two
  normalisation vectors, and stores the normalised rows over the whole output block. The causal mask compares a key's
  position with the query row's position in the sequence, which depends on the grid point: the output block is a function
  of the six input blocks AND the point.
-/
import proofs.«105197_j1417339207765_2_alg».proof.Proof.Gen.Kernel.Launch
import proofs.«105197_j1417339207765_2_alg».proof.Proof.Gen.Kernel.Skeleton
import proofs.«105197_j1417339207765_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds the point's block when the body runs, fetched at that point or kept from an earlier one. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's buffer holds the point's block when the body runs, fetched at that point or kept from an earlier one. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's buffer holds the point's block when the body runs, fetched at that point or kept from an earlier one. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's buffer holds the point's block when the body runs, fetched at that point or kept from an earlier one. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's buffer holds the point's block when the body runs, fetched at that point or kept from an earlier one. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's buffer holds the point's block when the body runs, fetched at that point or kept from an earlier one. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read or written whole -/

abbrev r1_0 : Rect S1x256x1024 := Rect.unit (s := S1x256x1024) ![0, 0, 0] S1x256x1024.size inb_S1x256x1024_S1x256x1024_0_0_0
abbrev r1_1 : Rect S1x1024x1024 := Rect.unit (s := S1x1024x1024) ![0, 0, 0] S1x1024x1024.size inb_S1x1024x1024_S1x1024x1024_0_0_0
abbrev r1_2 : Rect S1x1024x1024 := Rect.unit (s := S1x1024x1024) ![0, 0, 0] S1x1024x1024.size inb_S1x1024x1024_S1x1024x1024_0_0_0
abbrev r1_3 : Rect S1x256x1024 := Rect.unit (s := S1x256x1024) ![0, 0, 0] S1x256x1024.size inb_S1x256x1024_S1x256x1024_0_0_0
abbrev r1_4 : Rect S1x1024 := Rect.unit (s := S1x1024) ![0, 0] S1x1024.size inb_S1x1024_S1x1024_0_0
abbrev r1_5 : Rect S1x1024 := Rect.unit (s := S1x1024) ![0, 0] S1x1024.size inb_S1x1024_S1x1024_0_0
abbrev r1_6 : Rect S1x256x1024 := Rect.unit (s := S1x256x1024) ![0, 0, 0] S1x256x1024.size inb_S1x256x1024_S1x256x1024_0_0_0

/-- The output block after the body, as one function of the input blocks and the grid point. -/
def out1_6 (i : grid1.Coords) (x0 : Vec F S1x256x1024 .bf16) (x1 : Vec F S1x1024x1024 .bf16) (x2 : Vec F S1x1024x1024 .bf16) (x3 : Vec F S1x256x1024 .f32) (x4 : Vec F S1x1024 .f32) (x5 : Vec F S1x1024 .f32) : Vec F S1x256x1024 .f32 :=
  View.canon [⟨r1_6, k1_pay1 (k1_pay2 i (View.ld x0 r1_0) (View.ld x1 r1_1) (View.ld x2 r1_2) (View.ld x3 r1_3)) (k1_pay3 i (View.ld x0 r1_0) (View.ld x1 r1_1) (View.ld x2 r1_2) (View.ld x3 r1_3)) (k1_pay4 i (View.ld x0 r1_0) (View.ld x1 r1_1) (View.ld x2 r1_2) (View.ld x3 r1_3)) (View.ld x4 r1_4) (View.ld x5 r1_5)⟩]

/-- The one store covers the block. -/
theorem cover1_6 (p0 : Vec F S1x256x1024 .f32) (y : S1x256x1024.Idx) :
    ∃ pc ∈ ([⟨r1_6, p0⟩] : List (View.Piece (Elt F) S1x256x1024 .f32)), y ∈ pc.1.set :=
  View.cover_of_tiled [⟨r1_6, p0⟩] S1x256x1024.size (by rfl) y

/-! ## The body's triple -/

set_option maxHeartbeats 4000000 in
/-- On whole staging buffers, the inputs' at `x0 …` and the output's at anything, the body runs to its return with the
    inputs' buffers as they were and the output's at `out1_6` of them. -/
theorem sound_kernel1 (c : Dev nD) (E : Set ℕ) (i : grid1.Coords) (arg2 : Memref sig .tc .vmem S1x256x1024 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1x256x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x256x1024 .f32) (harg8 : arg8.IsWhole)
    (x0 : Vec F S1x256x1024 .bf16) (x1 : Vec F S1x1024x1024 .bf16) (x2 : Vec F S1x1024x1024 .bf16) (x3 : Vec F S1x256x1024 .f32) (x4 : Vec F S1x1024 .f32) (x5 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out1_6 i x0 x1 x2 x3 x4 x5)) -∗ K ⟨⟩))
      ⊢ wp frame (wpE (defs₀ (F := F)) Variants.none c none) E (cc1_kernel i arg2 harg2 arg3 harg3 arg4 harg4 arg5 harg5 arg6 harg6 arg7 harg7 arg8 harg8) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover1_6 _)

/-! ## The pipeline's proof data -/

/-- The arrays as the region finds them; after the body at point `t` each input's buffer at its block and the output's
    at `out1_6` of the input blocks; the scoped rest and the generator register untouched; nothing owed. The
    share each input window holds of its array is the parameter `q`. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (grid1.coords t) (iblk1 V c 0 t) (iblk1 V c 1 t) (iblk1 V c 2 t) (iblk1 V c 3 t) (iblk1 V c 4 t) (iblk1 V c 5 t)
  Φ _ := Pipeline.ΦA spec1 c
  q := q
  owed _ := 0

variable (q : Fin cfg1.W → PosShare TreeShare)

theorem A_eq1 (c : Dev nD) (w : Fin cfg1.W) : (dat1 V q c).A w = V c (Pipeline.arrRef spec1 w) := by
  dsimp only [dat1]

theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = iblk1 V c 2 t := by dsimp only [dat1]
theorem after1_3 (c : Dev nD) (t : Fin cfg1.N) : (dat1 V q c).after 3 t = iblk1 V c 3 t := by dsimp only [dat1]
theorem after1_4 (c : Dev nD) (t : Fin cfg1.N) : (dat1 V q c).after 4 t = iblk1 V c 4 t := by dsimp only [dat1]
theorem after1_5 (c : Dev nD) (t : Fin cfg1.N) : (dat1 V q c).after 5 t = iblk1 V c 5 t := by dsimp only [dat1]
theorem after1_6 (c : Dev nD) (t : Fin cfg1.N) : (dat1 V q c).after 6 t = out1_6 (grid1.coords t) (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V q c).before 0 t d = iblk1 V c 0 t :=
  before1_0_of V (dat1 V q c) (A_eq1 V q c 0) (after1_0 V q c) t d
theorem before1_1 (c : Dev nD) (t : Fin cfg1.N) (d) : (dat1 V q c).before 1 t d = iblk1 V c 1 t :=
  before1_1_of V (dat1 V q c) (A_eq1 V q c 1) (after1_1 V q c) t d
theorem before1_2 (c : Dev nD) (t : Fin cfg1.N) (d) : (dat1 V q c).before 2 t d = iblk1 V c 2 t :=
  before1_2_of V (dat1 V q c) (A_eq1 V q c 2) (after1_2 V q c) t d
theorem before1_3 (c : Dev nD) (t : Fin cfg1.N) (d) : (dat1 V q c).before 3 t d = iblk1 V c 3 t :=
  before1_3_of V (dat1 V q c) (A_eq1 V q c 3) (after1_3 V q c) t d
theorem before1_4 (c : Dev nD) (t : Fin cfg1.N) (d) : (dat1 V q c).before 4 t d = iblk1 V c 4 t :=
  before1_4_of V (dat1 V q c) (A_eq1 V q c 4) (after1_4 V q c) t d
theorem before1_5 (c : Dev nD) (t : Fin cfg1.N) (d) : (dat1 V q c).before 5 t d = iblk1 V c 5 t :=
  before1_5_of V (dat1 V q c) (A_eq1 V q c 5) (after1_5 V q c) t d

/-! ## The body obligation, at a generic point -/

/-- What the body is called with at point `t`, the windows one by one, -/
def bodyPre1 (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d))
    ∗ (∃ d, owns (c : Thread nD τ) (st1_3 t) fullShare ((dat1 V q c).before 3 t d))
    ∗ (∃ d, owns (c : Thread nD τ) (st1_4 t) fullShare ((dat1 V q c).before 4 t d))
    ∗ (∃ d, owns (c : Thread nD τ) (st1_5 t) fullShare ((dat1 V q c).before 5 t d))
    ∗ (∃ d, owns (c : Thread nD τ) (st1_6 t) fullShare ((dat1 V q c).before 6 t d)))

/-- and what it returns. -/
def bodyPost1 (c : Dev nD) (t : Fin cfg1.N) : sProp 𝕄 :=
  iprop((dat1 V q c).Φ t.succ ∗ (dat1 V q c).owesAt () t.succ
    ∗ owns (c : Thread nD τ) (st1_0 t) fullShare ((dat1 V q c).after 0 t)
    ∗ owns (c : Thread nD τ) (st1_1 t) fullShare ((dat1 V q c).after 1 t)
    ∗ owns (c : Thread nD τ) (st1_2 t) fullShare ((dat1 V q c).after 2 t)
    ∗ owns (c : Thread nD τ) (st1_3 t) fullShare ((dat1 V q c).after 3 t)
    ∗ owns (c : Thread nD τ) (st1_4 t) fullShare ((dat1 V q c).after 4 t)
    ∗ owns (c : Thread nD τ) (st1_5 t) fullShare ((dat1 V q c).after 5 t)
    ∗ owns (c : Thread nD τ) (st1_6 t) fullShare ((dat1 V q c).after 6 t))

/-- The body at any point: the inputs' buffers hold their blocks, so the body's triple applies; the invariant and the
    core's dues pass through unread. -/
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2, before1_3, before1_4, before1_5]
  rw [show (dat1 V q c).Φ t.succ = (dat1 V q c).Φ t.castSucc from rfl,
    show (dat1 V q c).owesAt () t.succ = (dat1 V q c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation1 (c : Dev nD) : BodyObligation (dat1 (F := F) V q c) (defs₀ (F := F)) Variants.none () Set.univ := fun t => by
  rw [bigSep_W1, bigSep_W1]
  exact sound_body1 V q c t

end Cert.Kernel.Gen

end
-- ==== Proof.KRegion2.lean ====
/-
  Region 2 of the kernel as printed: the packed projection `context2 · [wk2 | wv2]`, rows 256 at a time.
  The grid walks the row blocks of the left operand; at a point the body loads the point's row block and the whole
  weight, multiplies them into a zero accumulator and stores the product over the whole output block. So the output
  block after the body is one function of the two input blocks (`out2_2`), every input buffer is left as it was
  found, and nothing else is touched: that is the body's obligation to the pipeline at every grid point.
-/
import proofs.«105197_j1417339207765_2_alg».proof.Proof.Gen.Kernel.Launch
import proofs.«105197_j1417339207765_2_alg».proof.Proof.Gen.Kernel.Skeleton
import proofs.«105197_j1417339207765_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row-block window's buffer holds the point's block when the body runs. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight window's buffer holds the whole weight at every point: it is fetched once and its index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read or written whole -/

abbrev r2_x : Rect S256x1024 := Rect.unit (s := S256x1024) ![0, 0] S256x1024.size inb_S256x1024_S256x1024_0_0
abbrev r2_w : Rect S1024x2048 := Rect.unit (s := S1024x2048) ![0, 0] S1024x2048.size inb_S1024x2048_S1024x2048_0_0
abbrev r2_o : Rect S256x2048 := Rect.unit (s := S256x2048) ![0, 0] S256x2048.size inb_S256x2048_S256x2048_0_0

/-- The output block after the body, from the two input blocks: the product, stored over the whole block. -/
def out2_2 (x0 : Vec F S256x1024 .f32) (x1 : Vec F S1024x2048 .bf16) : Vec F S256x2048 .bf16 :=
  View.canon [⟨r2_o, k2_pay1 (View.ld x0 r2_x) (View.ld x1 r2_w)⟩]

/-- The one store covers the block. -/
theorem cover2_2 (p0 : Vec F S256x2048 .bf16) (y : S256x2048.Idx) :
    ∃ pc ∈ ([⟨r2_o, p0⟩] : List (View.Piece (Elt F) S256x2048 .bf16)), y ∈ pc.1.set :=
  View.cover_of_tiled [⟨r2_o, p0⟩] S256x2048.size (by rfl) y

/-! ## The body's triple -/

set_option maxHeartbeats 1000000 in
/-- On whole staging buffers, the inputs' at `x0`, `x1` and the output's at anything, the body runs to its return
    with the inputs' buffers as they were and the output's at `out2_2 x0 x1`. -/
theorem sound_kernel2 (c : Dev nD) (E : Set ℕ) (i : grid2.Coords) (arg1 : Memref sig .tc .vmem S256x1024 .f32) (harg1 : arg1.IsWhole) (arg2 : Memref sig .tc .vmem S1024x2048 .bf16) (harg2 : arg2.IsWhole) (arg3 : Memref sig .tc .vmem S256x2048 .bf16) (harg3 : arg3.IsWhole)
    (x0 : Vec F S256x1024 .f32) (x1 : Vec F S1024x2048 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2_kernel i arg1 harg1 arg2 harg2 arg3 harg3) K := by
  simp only [cc2_kernel_eq_skeleton]; unfold cc2_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The arrays as the region finds them; after the body at point `t` each input's buffer at its block and the output's
    at `out2_2` of the two input blocks; the scoped rest and the generator register untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Gen

end
-- ==== Proof.KRegion3.lean ====
/-
  Region 3 of the kernel as printed: the query projection `x · wq2` of the first block's output, rows 512 at a time.
  The grid walks the row blocks of the left operand; at a point the body loads the point's row block and the whole
  weight, multiplies them into a zero accumulator and stores the product over the whole output block. So the output
  block after the body is one function of the two input blocks (`out3_2`), every input buffer is left as it was
  found, and nothing else is touched: that is the body's obligation to the pipeline at every grid point.
-/
import proofs.«105197_j1417339207765_2_alg».proof.Proof.Gen.Kernel.Launch
import proofs.«105197_j1417339207765_2_alg».proof.Proof.Gen.Kernel.Skeleton
import proofs.«105197_j1417339207765_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row-block window's buffer holds the point's block when the body runs. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weight window's buffer holds the whole weight at every point: it is fetched once and its index never moves. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer is read or written whole -/

abbrev r3_x : Rect S512x1024 := Rect.unit (s := S512x1024) ![0, 0] S512x1024.size inb_S512x1024_S512x1024_0_0
abbrev r3_w : Rect S1024x1024 := Rect.unit (s := S1024x1024) ![0, 0] S1024x1024.size inb_S1024x1024_S1024x1024_0_0
abbrev r3_o : Rect S512x1024 := Rect.unit (s := S512x1024) ![0, 0] S512x1024.size inb_S512x1024_S512x1024_0_0

/-- The output block after the body, from the two input blocks: the product, stored over the whole block. -/
def out3_2 (x0 : Vec F S512x1024 .f32) (x1 : Vec F S1024x1024 .bf16) : Vec F S512x1024 .bf16 :=
  View.canon [⟨r3_o, k3_pay1 (View.ld x0 r3_x) (View.ld x1 r3_w)⟩]

/-- The one store covers the block. -/
theorem cover3_2 (p0 : Vec F S512x1024 .bf16) (y : S512x1024.Idx) :
    ∃ pc ∈ ([⟨r3_o, p0⟩] : List (View.Piece (Elt F) S512x1024 .bf16)), y ∈ pc.1.set :=
  View.cover_of_tiled [⟨r3_o, p0⟩] S512x1024.size (by rfl) y

/-! ## The body's triple -/

set_option maxHeartbeats 1000000 in
/-- On whole staging buffers, the inputs' at `x0`, `x1` and the output's at anything, the body runs to its return
    with the inputs' buffers as they were and the output's at `out3_2 x0 x1`. -/
theorem sound_kernel3 (c : Dev nD) (E : Set ℕ) (i : grid3.Coords) (arg1 : Memref sig .tc .vmem S512x1024 .f32) (harg1 : arg1.IsWhole) (arg2 : Memref sig .tc .vmem S1024x1024 .bf16) (harg2 : arg2.IsWhole) (arg3 : Memref sig .tc .vmem S512x1024 .bf16) (harg3 : arg3.IsWhole)
    (x0 : Vec F S512x1024 .f32) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3_kernel i arg1 harg1 arg2 harg2 arg3 harg3) K := by
  simp only [cc3_kernel_eq_skeleton]; unfold cc3_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The arrays as the region finds them; after the body at point `t` each input's buffer at its block and the output's
    at `out3_2` of the two input blocks; the scoped rest and the generator register untouched; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Gen

end
-- ==== Proof.KRegion4.lean ====
/-
  Region 4 of the kernel as printed: unmasked cross-attention (queries from the first block's output, keys and values
  from the context's packed projection), then the residual and the layer normalisation.
  The grid walks (batch, block of 256 query rows). At a point the body loads the query block, that batch's whole key and
  value blocks (two windows on the ONE packed array, at column blocks 0 and 1), the residual block and the two
  normalisation vectors, and stores the normalised rows over the whole output block.
-/
import proofs.«105197_j1417339207765_2_alg».proof.Proof.Gen.Kernel.Launch
import proofs.«105197_j1417339207765_2_alg».proof.Proof.Gen.Kernel.Skeleton
import proofs.«105197_j1417339207765_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's buffer holds the point's block when the body runs, fetched at that point or kept from an earlier one. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's buffer holds the point's block when the body runs, fetched at that point or kept from an earlier one. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's buffer holds the point's block when the body runs, fetched at that point or kept from an earlier one. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's buffer holds the point's block when the body runs, fetched at that point or kept from an earlier one. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's buffer holds the point's block when the body runs, fetched at that point or kept from an earlier one. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's buffer holds the point's block when the body runs, fetched at that point or kept from an earlier one. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer is read or written whole -/

abbrev r4_0 : Rect S1x256x1024 := Rect.unit (s := S1x256x1024) ![0, 0, 0] S1x256x1024.size inb_S1x256x1024_S1x256x1024_0_0_0
abbrev r4_1 : Rect S1x1024x1024 := Rect.unit (s := S1x1024x1024) ![0, 0, 0] S1x1024x1024.size inb_S1x1024x1024_S1x1024x1024_0_0_0
abbrev r4_2 : Rect S1x1024x1024 := Rect.unit (s := S1x1024x1024) ![0, 0, 0] S1x1024x1024.size inb_S1x1024x1024_S1x1024x1024_0_0_0
abbrev r4_3 : Rect S1x256x1024 := Rect.unit (s := S1x256x1024) ![0, 0, 0] S1x256x1024.size inb_S1x256x1024_S1x256x1024_0_0_0
abbrev r4_4 : Rect S1x1024 := Rect.unit (s := S1x1024) ![0, 0] S1x1024.size inb_S1x1024_S1x1024_0_0
abbrev r4_5 : Rect S1x1024 := Rect.unit (s := S1x1024) ![0, 0] S1x1024.size inb_S1x1024_S1x1024_0_0
abbrev r4_6 : Rect S1x256x1024 := Rect.unit (s := S1x256x1024) ![0, 0, 0] S1x256x1024.size inb_S1x256x1024_S1x256x1024_0_0_0

/-- The output block after the body, as one function of the input blocks. -/
def out4_6 (x0 : Vec F S1x256x1024 .bf16) (x1 : Vec F S1x1024x1024 .bf16) (x2 : Vec F S1x1024x1024 .bf16) (x3 : Vec F S1x256x1024 .f32) (x4 : Vec F S1x1024 .f32) (x5 : Vec F S1x1024 .f32) : Vec F S1x256x1024 .f32 :=
  View.canon [⟨r4_6, k4_pay1 (k4_pay4 (View.ld x0 r4_0) (View.ld x1 r4_1) (View.ld x2 r4_2) (View.ld x3 r4_3)) (k4_pay5 (View.ld x0 r4_0) (View.ld x1 r4_1) (View.ld x2 r4_2) (View.ld x3 r4_3)) (View.ld x4 r4_4) (View.ld x5 r4_5)⟩]

/-- The one store covers the block. -/
theorem cover4_6 (p0 : Vec F S1x256x1024 .f32) (y : S1x256x1024.Idx) :
    ∃ pc ∈ ([⟨r4_6, p0⟩] : List (View.Piece (Elt F) S1x256x1024 .f32)), y ∈ pc.1.set :=
  View.cover_of_tiled [⟨r4_6, p0⟩] S1x256x1024.size (by rfl) y

/-! ## The body's triple -/

set_option maxHeartbeats 4000000 in
/-- On whole staging buffers, the inputs' at `x0 …` and the output's at anything, the body runs to its return with the
    inputs' buffers as they were and the output's at `out4_6` of them. -/
theorem sound_kernel4 (c : Dev nD) (E : Set ℕ) (i : grid4.Coords) (arg2 : Memref sig .tc .vmem S1x256x1024 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1x256x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x256x1024 .f32) (harg8 : arg8.IsWhole)
    (x0 : Vec F S1x256x1024 .bf16) (x1 : Vec F S1x1024x1024 .bf16) (x2 : Vec F S1x1024x1024 .bf16) (x3 : Vec F S1x256x1024 .f32) (x4 : Vec F S1x1024 .f32) (x5 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out4_6 x0 x1 x2 x3 x4 x5)) -∗ K ⟨⟩))
      ⊢ wp frame (wpE (defs₀ (F := F)) Variants.none c none) E (cc4_kernel i arg2 harg2 arg3 harg3 arg4 harg4 arg5 harg5 arg6 harg6 arg7 harg7 arg8 harg8) K := by
  simp only [cc4_kernel_eq_skeleton]; unfold cc4_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover4_6 _)

/-! ## The pipeline's proof data -/

/-- The arrays as the region finds them; after the body at point `t` each input's buffer at its block and the output's
    at `out4_6` of the input blocks; the scoped rest and the generator register untouched; nothing owed. The
    share each input window holds of its array is the parameter `q`. -/
def dat4 (q : Fin cfg4.W → PosShare TreeShare) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q := q
  owed _ := 0

variable (q : Fin cfg4.W → PosShare TreeShare)

theorem A_eq4 (c : Dev nD) (w : Fin cfg4.W) : (dat4 V q c).A w = V c (Pipeline.arrRef spec4 w) := by
  dsimp only [dat4]

theorem after4_0 (c : Dev nD) (t : Fin cfg4.N) : (dat4 V q c).after 0 t = iblk4 V c 0 t := by dsimp only [dat4]
theorem after4_1 (c : Dev nD) (t : Fin cfg4.N) : (dat4 V q c).after 1 t = iblk4 V c 1 t := by dsimp only [dat4]
theorem after4_2 (c : Dev nD) (t : Fin cfg4.N) : (dat4 V q c).after 2 t = iblk4 V c 2 t := by dsimp only [dat4]
theorem after4_3 (c : Dev nD) (t : Fin cfg4.N) : (dat4 V q c).after 3 t = iblk4 V c 3 t := by dsimp only [dat4]
theorem after4_4 (c : Dev nD) (t : Fin cfg4.N) : (dat4 V q c).after 4 t = iblk4 V c 4 t := by dsimp only [dat4]
theorem after4_5 (c : Dev nD) (t : Fin cfg4.N) : (dat4 V q c).after 5 t = iblk4 V c 5 t := by dsimp only [dat4]
theorem after4_6 (c : Dev nD) (t : Fin cfg4.N) : (dat4 V q c).after 6 t = out4_6 (iblk4 V c 0 t) (iblk4 V c 1 t) (iblk4 V c 2 t) (iblk4 V c 3 t) (iblk4 V c 4 t) (iblk4 V c 5 t) := by dsimp only [dat4]

theorem before4_0 (c : Dev nD) (t : Fin cfg4.N) (d) : (dat4 V q c).before 0 t d = iblk4 V c 0 t :=
  before4_0_of V (dat4 V q c) (A_eq4 V q c 0) (after4_0 V q c) t d
theorem before4_1 (c : Dev nD) (t : Fin cfg4.N) (d) : (dat4 V q c).before 1 t d = iblk4 V c 1 t :=
  before4_1_of V (dat4 V q c) (A_eq4 V q c 1) (after4_1 V q c) t d
theorem before4_2 (c : Dev nD) (t : Fin cfg4.N) (d) : (dat4 V q c).before 2 t d = iblk4 V c 2 t :=
  before4_2_of V (dat4 V q c) (A_eq4 V q c 2) (after4_2 V q c) t d
theorem before4_3 (c : Dev nD) (t : Fin cfg4.N) (d) : (dat4 V q c).before 3 t d = iblk4 V c 3 t :=
  before4_3_of V (dat4 V q c) (A_eq4 V q c 3) (after4_3 V q c) t d
theorem before4_4 (c : Dev nD) (t : Fin cfg4.N) (d) : (dat4 V q c).before 4 t d = iblk4 V c 4 t :=
  before4_4_of V (dat4 V q c) (A_eq4 V q c 4) (after4_4 V q c) t d
theorem before4_5 (c : Dev nD) (t : Fin cfg4.N) (d) : (dat4 V q c).before 5 t d = iblk4 V c 5 t :=
  before4_5_of V (dat4 V q c) (A_eq4 V q c 5) (after4_5 V q c) t d

/-! ## The body obligation, at a generic point -/

/-- What the body is called with at point `t`, the windows one by one, -/
def bodyPre4 (c : Dev nD) (t : Fin cfg4.N) : sProp 𝕄 :=
  iprop((dat4 V q c).Φ t.castSucc ∗ (dat4 V q c).owesAt () t.castSucc
    ∗ (∃ d, owns (c : Thread nD τ) (st4_0 t) fullShare ((dat4 V q c).before 0 t d))
    ∗ (∃ d, owns (c : Thread nD τ) (st4_1 t) fullShare ((dat4 V q c).before 1 t d))
    ∗ (∃ d, owns (c : Thread nD τ) (st4_2 t) fullShare ((dat4 V q c).before 2 t d))
    ∗ (∃ d, owns (c : Thread nD τ) (st4_3 t) fullShare ((dat4 V q c).before 3 t d))
    ∗ (∃ d, owns (c : Thread nD τ) (st4_4 t) fullShare ((dat4 V q c).before 4 t d))
    ∗ (∃ d, owns (c : Thread nD τ) (st4_5 t) fullShare ((dat4 V q c).before 5 t d))
    ∗ (∃ d, owns (c : Thread nD τ) (st4_6 t) fullShare ((dat4 V q c).before 6 t d)))

/-- and what it returns. -/
def bodyPost4 (c : Dev nD) (t : Fin cfg4.N) : sProp 𝕄 :=
  iprop((dat4 V q c).Φ t.succ ∗ (dat4 V q c).owesAt () t.succ
    ∗ owns (c : Thread nD τ) (st4_0 t) fullShare ((dat4 V q c).after 0 t)
    ∗ owns (c : Thread nD τ) (st4_1 t) fullShare ((dat4 V q c).after 1 t)
    ∗ owns (c : Thread nD τ) (st4_2 t) fullShare ((dat4 V q c).after 2 t)
    ∗ owns (c : Thread nD τ) (st4_3 t) fullShare ((dat4 V q c).after 3 t)
    ∗ owns (c : Thread nD τ) (st4_4 t) fullShare ((dat4 V q c).after 4 t)
    ∗ owns (c : Thread nD τ) (st4_5 t) fullShare ((dat4 V q c).after 5 t)
    ∗ owns (c : Thread nD τ) (st4_6 t) fullShare ((dat4 V q c).after 6 t))

/-- The body at any point: the inputs' buffers hold their blocks, so the body's triple applies; the invariant and the
    core's dues pass through unread. -/
theorem sound_body4 (c : Dev nD) (t : Fin cfg4.N) :
    bodyPre4 V q c t ⊢ wp frame (wpE (defs₀ (F := F)) Variants.none c none) Set.univ (bodyAt4 t) (fun _ => bodyPost4 V q c t) := by
  unfold bodyPre4 bodyPost4 bodyAt4
  simp only [before4_0, before4_1, before4_2, before4_3, before4_4, before4_5]
  rw [show (dat4 V q c).Φ t.succ = (dat4 V q c).Φ t.castSucc from rfl,
    show (dat4 V q c).owesAt () t.succ = (dat4 V q c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ (grid4.coords t) _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation4 (c : Dev nD) : BodyObligation (dat4 (F := F) V q c) (defs₀ (F := F)) Variants.none () Set.univ := fun t => by
  rw [bigSep_W4, bigSep_W4]
  exact sound_body4 V q c t

end Cert.Kernel.Gen

end
-- ==== Proof.KRegion5.lean ====
/-
  Region 5 of the kernel as printed: the feed-forward layer (two products with bias, a rectifier between), the residual,
  the layer normalisation and the final rectifier, rows 512 at a time.
  At a point the body loads the row block (twice: once as the layer's input, once as the residual), the two weights,
  the two biases and the two normalisation vectors, and stores the result over the whole output block.
-/
import proofs.«105197_j1417339207765_2_alg».proof.Proof.Gen.Kernel.Launch
import proofs.«105197_j1417339207765_2_alg».proof.Proof.Gen.Kernel.Skeleton
import proofs.«105197_j1417339207765_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's buffer holds the point's block when the body runs, fetched at that point or kept from an earlier one. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's buffer holds the point's block when the body runs, fetched at that point or kept from an earlier one. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's buffer holds the point's block when the body runs, fetched at that point or kept from an earlier one. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's buffer holds the point's block when the body runs, fetched at that point or kept from an earlier one. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's buffer holds the point's block when the body runs, fetched at that point or kept from an earlier one. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's buffer holds the point's block when the body runs, fetched at that point or kept from an earlier one. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's buffer holds the point's block when the body runs, fetched at that point or kept from an earlier one. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer is read or written whole -/

abbrev r5_0 : Rect S512x1024 := Rect.unit (s := S512x1024) ![0, 0] S512x1024.size inb_S512x1024_S512x1024_0_0
abbrev r5_1 : Rect S1024x1024 := Rect.unit (s := S1024x1024) ![0, 0] S1024x1024.size inb_S1024x1024_S1024x1024_0_0
abbrev r5_2 : Rect S1x1024 := Rect.unit (s := S1x1024) ![0, 0] S1x1024.size inb_S1x1024_S1x1024_0_0
abbrev r5_3 : Rect S1024x1024 := Rect.unit (s := S1024x1024) ![0, 0] S1024x1024.size inb_S1024x1024_S1024x1024_0_0
abbrev r5_4 : Rect S1x1024 := Rect.unit (s := S1x1024) ![0, 0] S1x1024.size inb_S1x1024_S1x1024_0_0
abbrev r5_5 : Rect S1x1024 := Rect.unit (s := S1x1024) ![0, 0] S1x1024.size inb_S1x1024_S1x1024_0_0
abbrev r5_6 : Rect S1x1024 := Rect.unit (s := S1x1024) ![0, 0] S1x1024.size inb_S1x1024_S1x1024_0_0
abbrev r5_7 : Rect S512x1024 := Rect.unit (s := S512x1024) ![0, 0] S512x1024.size inb_S512x1024_S512x1024_0_0

/-- The output block after the body, as one function of the input blocks. -/
def out5_7 (x0 : Vec F S512x1024 .f32) (x1 : Vec F S1024x1024 .bf16) (x2 : Vec F S1x1024 .f32) (x3 : Vec F S1024x1024 .bf16) (x4 : Vec F S1x1024 .f32) (x5 : Vec F S1x1024 .f32) (x6 : Vec F S1x1024 .f32) : Vec F S512x1024 .f32 :=
  View.canon [⟨r5_7, k5_pay1 (k5_pay4 (View.ld x0 r5_0) (View.ld x1 r5_1) (View.ld x2 r5_2) (View.ld x3 r5_3) (View.ld x4 r5_4) (View.ld x0 r5_0)) (k5_pay5 (View.ld x0 r5_0) (View.ld x1 r5_1) (View.ld x2 r5_2) (View.ld x3 r5_3) (View.ld x4 r5_4) (View.ld x0 r5_0)) (View.ld x5 r5_5) (View.ld x6 r5_6)⟩]

/-- The one store covers the block. -/
theorem cover5_7 (p0 : Vec F S512x1024 .f32) (y : S512x1024.Idx) :
    ∃ pc ∈ ([⟨r5_7, p0⟩] : List (View.Piece (Elt F) S512x1024 .f32)), y ∈ pc.1.set :=
  View.cover_of_tiled [⟨r5_7, p0⟩] S512x1024.size (by rfl) y

/-! ## The body's triple -/

set_option maxHeartbeats 4000000 in
/-- On whole staging buffers, the inputs' at `x0 …` and the output's at anything, the body runs to its return with the
    inputs' buffers as they were and the output's at `out5_7` of them. -/
theorem sound_kernel5 (c : Dev nD) (E : Set ℕ) (i : grid5.Coords) (arg1 : Memref sig .tc .vmem S512x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole)
    (x0 : Vec F S512x1024 .f32) (x1 : Vec F S1024x1024 .bf16) (x2 : Vec F S1x1024 .f32) (x3 : Vec F S1024x1024 .bf16) (x4 : Vec F S1x1024 .f32) (x5 : Vec F S1x1024 .f32) (x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out5_7 x0 x1 x2 x3 x4 x5 x6)) -∗ K ⟨⟩))
      ⊢ wp frame (wpE (defs₀ (F := F)) Variants.none c none) E (cc5_kernel i arg1 harg1 arg2 harg2 arg3 harg3 arg4 harg4 arg5 harg5 arg6 harg6 arg7 harg7 arg8 harg8) K := by
  simp only [cc5_kernel_eq_skeleton]; unfold cc5_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover5_7 _)

/-! ## The pipeline's proof data -/

/-- The arrays as the region finds them; after the body at point `t` each input's buffer at its block and the output's
    at `out5_7` of the input blocks; the scoped rest and the generator register untouched; nothing owed. The
    share each input window holds of its array is the parameter `q`. -/
def dat5 (q : Fin cfg5.W → PosShare TreeShare) (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q := q
  owed _ := 0

variable (q : Fin cfg5.W → PosShare TreeShare)

theorem A_eq5 (c : Dev nD) (w : Fin cfg5.W) : (dat5 V q c).A w = V c (Pipeline.arrRef spec5 w) := by
  dsimp only [dat5]

theorem after5_0 (c : Dev nD) (t : Fin cfg5.N) : (dat5 V q c).after 0 t = iblk5 V c 0 t := by dsimp only [dat5]
theorem after5_1 (c : Dev nD) (t : Fin cfg5.N) : (dat5 V q c).after 1 t = iblk5 V c 1 t := by dsimp only [dat5]
theorem after5_2 (c : Dev nD) (t : Fin cfg5.N) : (dat5 V q c).after 2 t = iblk5 V c 2 t := by dsimp only [dat5]
theorem after5_3 (c : Dev nD) (t : Fin cfg5.N) : (dat5 V q c).after 3 t = iblk5 V c 3 t := by dsimp only [dat5]
theorem after5_4 (c : Dev nD) (t : Fin cfg5.N) : (dat5 V q c).after 4 t = iblk5 V c 4 t := by dsimp only [dat5]
theorem after5_5 (c : Dev nD) (t : Fin cfg5.N) : (dat5 V q c).after 5 t = iblk5 V c 5 t := by dsimp only [dat5]
theorem after5_6 (c : Dev nD) (t : Fin cfg5.N) : (dat5 V q c).after 6 t = iblk5 V c 6 t := by dsimp only [dat5]
theorem after5_7 (c : Dev nD) (t : Fin cfg5.N) : (dat5 V q c).after 7 t = out5_7 (iblk5 V c 0 t) (iblk5 V c 1 t) (iblk5 V c 2 t) (iblk5 V c 3 t) (iblk5 V c 4 t) (iblk5 V c 5 t) (iblk5 V c 6 t) := by dsimp only [dat5]

theorem before5_0 (c : Dev nD) (t : Fin cfg5.N) (d) : (dat5 V q c).before 0 t d = iblk5 V c 0 t :=
  before5_0_of V (dat5 V q c) (A_eq5 V q c 0) (after5_0 V q c) t d
theorem before5_1 (c : Dev nD) (t : Fin cfg5.N) (d) : (dat5 V q c).before 1 t d = iblk5 V c 1 t :=
  before5_1_of V (dat5 V q c) (A_eq5 V q c 1) (after5_1 V q c) t d
theorem before5_2 (c : Dev nD) (t : Fin cfg5.N) (d) : (dat5 V q c).before 2 t d = iblk5 V c 2 t :=
  before5_2_of V (dat5 V q c) (A_eq5 V q c 2) (after5_2 V q c) t d
theorem before5_3 (c : Dev nD) (t : Fin cfg5.N) (d) : (dat5 V q c).before 3 t d = iblk5 V c 3 t :=
  before5_3_of V (dat5 V q c) (A_eq5 V q c 3) (after5_3 V q c) t d
theorem before5_4 (c : Dev nD) (t : Fin cfg5.N) (d) : (dat5 V q c).before 4 t d = iblk5 V c 4 t :=
  before5_4_of V (dat5 V q c) (A_eq5 V q c 4) (after5_4 V q c) t d
theorem before5_5 (c : Dev nD) (t : Fin cfg5.N) (d) : (dat5 V q c).before 5 t d = iblk5 V c 5 t :=
  before5_5_of V (dat5 V q c) (A_eq5 V q c 5) (after5_5 V q c) t d
theorem before5_6 (c : Dev nD) (t : Fin cfg5.N) (d) : (dat5 V q c).before 6 t d = iblk5 V c 6 t :=
  before5_6_of V (dat5 V q c) (A_eq5 V q c 6) (after5_6 V q c) t d

/-! ## The body obligation, at a generic point -/

/-- What the body is called with at point `t`, the windows one by one, -/
def bodyPre5 (c : Dev nD) (t : Fin cfg5.N) : sProp 𝕄 :=
  iprop((dat5 V q c).Φ t.castSucc ∗ (dat5 V q c).owesAt () t.castSucc
    ∗ (∃ d, owns (c : Thread nD τ) (st5_0 t) fullShare ((dat5 V q c).before 0 t d))
    ∗ (∃ d, owns (c : Thread nD τ) (st5_1 t) fullShare ((dat5 V q c).before 1 t d))
    ∗ (∃ d, owns (c : Thread nD τ) (st5_2 t) fullShare ((dat5 V q c).before 2 t d))
    ∗ (∃ d, owns (c : Thread nD τ) (st5_3 t) fullShare ((dat5 V q c).before 3 t d))
    ∗ (∃ d, owns (c : Thread nD τ) (st5_4 t) fullShare ((dat5 V q c).before 4 t d))
    ∗ (∃ d, owns (c : Thread nD τ) (st5_5 t) fullShare ((dat5 V q c).before 5 t d))
    ∗ (∃ d, owns (c : Thread nD τ) (st5_6 t) fullShare ((dat5 V q c).before 6 t d))
    ∗ (∃ d, owns (c : Thread nD τ) (st5_7 t) fullShare ((dat5 V q c).before 7 t d)))

/-- and what it returns. -/
def bodyPost5 (c : Dev nD) (t : Fin cfg5.N) : sProp 𝕄 :=
  iprop((dat5 V q c).Φ t.succ ∗ (dat5 V q c).owesAt () t.succ
    ∗ owns (c : Thread nD τ) (st5_0 t) fullShare ((dat5 V q c).after 0 t)
    ∗ owns (c : Thread nD τ) (st5_1 t) fullShare ((dat5 V q c).after 1 t)
    ∗ owns (c : Thread nD τ) (st5_2 t) fullShare ((dat5 V q c).after 2 t)
    ∗ owns (c : Thread nD τ) (st5_3 t) fullShare ((dat5 V q c).after 3 t)
    ∗ owns (c : Thread nD τ) (st5_4 t) fullShare ((dat5 V q c).after 4 t)
    ∗ owns (c : Thread nD τ) (st5_5 t) fullShare ((dat5 V q c).after 5 t)
    ∗ owns (c : Thread nD τ) (st5_6 t) fullShare ((dat5 V q c).after 6 t)
    ∗ owns (c : Thread nD τ) (st5_7 t) fullShare ((dat5 V q c).after 7 t))

/-- The body at any point: the inputs' buffers hold their blocks, so the body's triple applies; the invariant and the
    core's dues pass through unread. -/
theorem sound_body5 (c : Dev nD) (t : Fin cfg5.N) :
    bodyPre5 V q c t ⊢ wp frame (wpE (defs₀ (F := F)) Variants.none c none) Set.univ (bodyAt5 t) (fun _ => bodyPost5 V q c t) := by
  unfold bodyPre5 bodyPost5 bodyAt5
  simp only [before5_0, before5_1, before5_2, before5_3, before5_4, before5_5, before5_6]
  rw [show (dat5 V q c).Φ t.succ = (dat5 V q c).Φ t.castSucc from rfl,
    show (dat5 V q c).owesAt () t.succ = (dat5 V q c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ (grid5.coords t) _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation5 (c : Dev nD) : BodyObligation (dat5 (F := F) V q c) (defs₀ (F := F)) Variants.none () Set.univ := fun t => by
  rw [bigSep_W5, bigSep_W5]
  exact sound_body5 V q c t

end Cert.Kernel.Gen

end
-- ==== Proof.KChain.lean ====
/-
  The buffer contents between the items of the kernel as printed's program. The program is thirteen items: seven stretches
  of host operations (reshapes, two concatenations of weights, conversions to the narrow format) alternating with the
  six kernel regions. A host stretch replaces the contents by its operations' results; a region changes exactly one
  array — its output — to what the pipeline's write-backs leave there. So the contents after every item are a fold from the
  launch memory, and a reference that no item writes (every argument of the program) holds its launch contents throughout.
  Where one array is read through several windows of a region (the packed projections), its full share is dealt among
  those windows: halves, and a half halved again.
-/
import proofs.«105197_j1417339207765_2_alg».proof.Proof.KRegion0
import proofs.«105197_j1417339207765_2_alg».proof.Proof.KRegion1
import proofs.«105197_j1417339207765_2_alg».proof.Proof.KRegion2
import proofs.«105197_j1417339207765_2_alg».proof.Proof.KRegion3
import proofs.«105197_j1417339207765_2_alg».proof.Proof.KRegion4
import proofs.«105197_j1417339207765_2_alg».proof.Proof.KRegion5
import proofs.«105197_j1417339207765_2_alg».proof.Proof.Gen.Kernel.Regions

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The windows' shares -/

/-- Self-attention: the query, key and value windows read the one packed projection; its full share is dealt a half,
    a quarter and a quarter. Every other window has its array to itself. -/
def q1 : Fin cfg1.W → PosShare TreeShare
  | ⟨0, _⟩ => fullShare.left
  | ⟨1, _⟩ => fullShare.right.left
  | ⟨2, _⟩ => fullShare.right.right
  | _ => fullShare

/-- Cross-attention: the key and value windows read the one packed projection of the context, a half each. -/
def q4 : Fin cfg4.W → PosShare TreeShare
  | ⟨1, _⟩ => fullShare.left
  | ⟨2, _⟩ => fullShare.right
  | _ => fullShare

/-- Every window has its array to itself. -/
abbrev qfull : Fin cfg5.W → PosShare TreeShare := fun _ => fullShare

variable (m : (ℓ : Loc nD τ sig) → Buf (Elt F) ℓ)

/-! ## The contents after each item -/

/-- At launch. -/
abbrev B0 (c : Dev nD) : Valuation τ sig (Elt F) := fun b => m (c, b)
/-- After host stretch 0. -/
abbrev B1 (c : Dev nD) : Valuation τ sig (Elt F) := StableHlo.after hostOps0 (B0 m c)
/-- The same, read at the TensorCore's references. -/
abbrev E1 : (c : Dev nD) → (b : Ref sig .tc) → Buf (Elt F) ((c : Thread nD τ).loc b) := fun c b => B1 m c b
/-- After region 0: its output array at what the write-backs leave, every other buffer as entered. -/
def B2 (c : Dev nD) : Valuation τ sig (Elt F) := Function.update (B1 m c) main_v12 ((dat0 (E1 m) c).arrAt 2 cfg0.N)
abbrev E2 : (c : Dev nD) → (b : Ref sig .tc) → Buf (Elt F) ((c : Thread nD τ).loc b) := fun c b => B2 m c b
/-- After host stretch 1. -/
abbrev B3 (c : Dev nD) : Valuation τ sig (Elt F) := StableHlo.after hostOps1 (B2 m c)
/-- The same, read at the TensorCore's references. -/
abbrev E3 : (c : Dev nD) → (b : Ref sig .tc) → Buf (Elt F) ((c : Thread nD τ).loc b) := fun c b => B3 m c b
/-- After region 1: its output array at what the write-backs leave, every other buffer as entered. -/
def B4 (c : Dev nD) : Valuation τ sig (Elt F) := Function.update (B3 m c) main_v14 ((dat1 (E3 m) q1 c).arrAt 6 cfg1.N)
abbrev E4 : (c : Dev nD) → (b : Ref sig .tc) → Buf (Elt F) ((c : Thread nD τ).loc b) := fun c b => B4 m c b
/-- After host stretch 2. -/
abbrev B5 (c : Dev nD) : Valuation τ sig (Elt F) := StableHlo.after hostOps2 (B4 m c)
/-- The same, read at the TensorCore's references. -/
abbrev E5 : (c : Dev nD) → (b : Ref sig .tc) → Buf (Elt F) ((c : Thread nD τ).loc b) := fun c b => B5 m c b
/-- After region 2: its output array at what the write-backs leave, every other buffer as entered. -/
def B6 (c : Dev nD) : Valuation τ sig (Elt F) := Function.update (B5 m c) main_v16 ((dat2 (E5 m) c).arrAt 2 cfg2.N)
abbrev E6 : (c : Dev nD) → (b : Ref sig .tc) → Buf (Elt F) ((c : Thread nD τ).loc b) := fun c b => B6 m c b
/-- After host stretch 3. -/
abbrev B7 (c : Dev nD) : Valuation τ sig (Elt F) := StableHlo.after hostOps3 (B6 m c)
/-- The same, read at the TensorCore's references. -/
abbrev E7 : (c : Dev nD) → (b : Ref sig .tc) → Buf (Elt F) ((c : Thread nD τ).loc b) := fun c b => B7 m c b
/-- After region 3: its output array at what the write-backs leave, every other buffer as entered. -/
def B8 (c : Dev nD) : Valuation τ sig (Elt F) := Function.update (B7 m c) main_v19 ((dat3 (E7 m) c).arrAt 2 cfg3.N)
abbrev E8 : (c : Dev nD) → (b : Ref sig .tc) → Buf (Elt F) ((c : Thread nD τ).loc b) := fun c b => B8 m c b
/-- After host stretch 4. -/
abbrev B9 (c : Dev nD) : Valuation τ sig (Elt F) := StableHlo.after hostOps4 (B8 m c)
/-- The same, read at the TensorCore's references. -/
abbrev E9 : (c : Dev nD) → (b : Ref sig .tc) → Buf (Elt F) ((c : Thread nD τ).loc b) := fun c b => B9 m c b
/-- After region 4: its output array at what the write-backs leave, every other buffer as entered. -/
def B10 (c : Dev nD) : Valuation τ sig (Elt F) := Function.update (B9 m c) main_v21 ((dat4 (E9 m) q4 c).arrAt 6 cfg4.N)
abbrev E10 : (c : Dev nD) → (b : Ref sig .tc) → Buf (Elt F) ((c : Thread nD τ).loc b) := fun c b => B10 m c b
/-- After host stretch 5. -/
abbrev B11 (c : Dev nD) : Valuation τ sig (Elt F) := StableHlo.after hostOps5 (B10 m c)
/-- The same, read at the TensorCore's references. -/
abbrev E11 : (c : Dev nD) → (b : Ref sig .tc) → Buf (Elt F) ((c : Thread nD τ).loc b) := fun c b => B11 m c b
/-- After region 5: its output array at what the write-backs leave, every other buffer as entered. -/
def B12 (c : Dev nD) : Valuation τ sig (Elt F) := Function.update (B11 m c) main_v23 ((dat5 (E11 m) qfull c).arrAt 7 cfg5.N)
abbrev E12 : (c : Dev nD) → (b : Ref sig .tc) → Buf (Elt F) ((c : Thread nD τ).loc b) := fun c b => B12 m c b
/-- After host stretch 6. -/
abbrev B13 (c : Dev nD) : Valuation τ sig (Elt F) := StableHlo.after hostOps6 (B12 m c)
/-- The same, read at the TensorCore's references. -/
abbrev E13 : (c : Dev nD) → (b : Ref sig .tc) → Buf (Elt F) ((c : Thread nD τ).loc b) := fun c b => B13 m c b

/-! ## What each item leaves unchanged -/

theorem B1_of (c : Dev nD) (r : Ref sig .tc) (h : r ∉ hostOps0_W) : B1 m c r = B0 m c r :=
  StableHlo.after_of_writes_sub hostOps0 _ hostOps0_writes h
theorem B2_of (c : Dev nD) (r : Ref sig .tc) (h : r ∉ ([main_v12] : List (Ref sig .tc))) : B2 m c r = B1 m c r := by
  unfold B2
  simp only [Function.update_of_ne (StableHlo.devRef_ne_of_ne (List.ne_of_not_mem_cons h) : (Proc.devRef .tc r : DevRef τ sig) ≠ Proc.devRef .tc main_v12)]
theorem B2_out (c : Dev nD) : B2 m c main_v12 = (dat0 (E1 m) c).arrAt 2 cfg0.N := by
  unfold B2; exact Function.update_self ..
theorem B3_of (c : Dev nD) (r : Ref sig .tc) (h : r ∉ hostOps1_W) : B3 m c r = B2 m c r :=
  StableHlo.after_of_writes_sub hostOps1 _ hostOps1_writes h
theorem B4_of (c : Dev nD) (r : Ref sig .tc) (h : r ∉ ([main_v14] : List (Ref sig .tc))) : B4 m c r = B3 m c r := by
  unfold B4
  simp only [Function.update_of_ne (StableHlo.devRef_ne_of_ne (List.ne_of_not_mem_cons h) : (Proc.devRef .tc r : DevRef τ sig) ≠ Proc.devRef .tc main_v14)]
theorem B4_out (c : Dev nD) : B4 m c main_v14 = (dat1 (E3 m) q1 c).arrAt 6 cfg1.N := by
  unfold B4; exact Function.update_self ..
theorem B5_of (c : Dev nD) (r : Ref sig .tc) (h : r ∉ hostOps2_W) : B5 m c r = B4 m c r :=
  StableHlo.after_of_writes_sub hostOps2 _ hostOps2_writes h
theorem B6_of (c : Dev nD) (r : Ref sig .tc) (h : r ∉ ([main_v16] : List (Ref sig .tc))) : B6 m c r = B5 m c r := by
  unfold B6
  simp only [Function.update_of_ne (StableHlo.devRef_ne_of_ne (List.ne_of_not_mem_cons h) : (Proc.devRef .tc r : DevRef τ sig) ≠ Proc.devRef .tc main_v16)]
theorem B6_out (c : Dev nD) : B6 m c main_v16 = (dat2 (E5 m) c).arrAt 2 cfg2.N := by
  unfold B6; exact Function.update_self ..
theorem B7_of (c : Dev nD) (r : Ref sig .tc) (h : r ∉ hostOps3_W) : B7 m c r = B6 m c r :=
  StableHlo.after_of_writes_sub hostOps3 _ hostOps3_writes h
theorem B8_of (c : Dev nD) (r : Ref sig .tc) (h : r ∉ ([main_v19] : List (Ref sig .tc))) : B8 m c r = B7 m c r := by
  unfold B8
  simp only [Function.update_of_ne (StableHlo.devRef_ne_of_ne (List.ne_of_not_mem_cons h) : (Proc.devRef .tc r : DevRef τ sig) ≠ Proc.devRef .tc main_v19)]
theorem B8_out (c : Dev nD) : B8 m c main_v19 = (dat3 (E7 m) c).arrAt 2 cfg3.N := by
  unfold B8; exact Function.update_self ..
theorem B9_of (c : Dev nD) (r : Ref sig .tc) (h : r ∉ hostOps4_W) : B9 m c r = B8 m c r :=
  StableHlo.after_of_writes_sub hostOps4 _ hostOps4_writes h
theorem B10_of (c : Dev nD) (r : Ref sig .tc) (h : r ∉ ([main_v21] : List (Ref sig .tc))) : B10 m c r = B9 m c r := by
  unfold B10
  simp only [Function.update_of_ne (StableHlo.devRef_ne_of_ne (List.ne_of_not_mem_cons h) : (Proc.devRef .tc r : DevRef τ sig) ≠ Proc.devRef .tc main_v21)]
theorem B10_out (c : Dev nD) : B10 m c main_v21 = (dat4 (E9 m) q4 c).arrAt 6 cfg4.N := by
  unfold B10; exact Function.update_self ..
theorem B11_of (c : Dev nD) (r : Ref sig .tc) (h : r ∉ hostOps5_W) : B11 m c r = B10 m c r :=
  StableHlo.after_of_writes_sub hostOps5 _ hostOps5_writes h
theorem B12_of (c : Dev nD) (r : Ref sig .tc) (h : r ∉ ([main_v23] : List (Ref sig .tc))) : B12 m c r = B11 m c r := by
  unfold B12
  simp only [Function.update_of_ne (StableHlo.devRef_ne_of_ne (List.ne_of_not_mem_cons h) : (Proc.devRef .tc r : DevRef τ sig) ≠ Proc.devRef .tc main_v23)]
theorem B12_out (c : Dev nD) : B12 m c main_v23 = (dat5 (E11 m) qfull c).arrAt 7 cfg5.N := by
  unfold B12; exact Function.update_self ..
theorem B13_of (c : Dev nD) (r : Ref sig .tc) (h : r ∉ hostOps6_W) : B13 m c r = B12 m c r :=
  StableHlo.after_of_writes_sub hostOps6 _ hostOps6_writes h

/-- A reference no item writes holds its launch contents at the end. -/
theorem B13_unwritten (c : Dev nD) (r : Ref sig .tc) (g1 : r ∉ hostOps0_W) (g2 : r ∉ ([main_v12] : List (Ref sig .tc))) (g3 : r ∉ hostOps1_W) (g4 : r ∉ ([main_v14] : List (Ref sig .tc))) (g5 : r ∉ hostOps2_W) (g6 : r ∉ ([main_v16] : List (Ref sig .tc))) (g7 : r ∉ hostOps3_W) (g8 : r ∉ ([main_v19] : List (Ref sig .tc))) (g9 : r ∉ hostOps4_W) (g10 : r ∉ ([main_v21] : List (Ref sig .tc))) (g11 : r ∉ hostOps5_W) (g12 : r ∉ ([main_v23] : List (Ref sig .tc))) (g13 : r ∉ hostOps6_W) :
    B13 m c r = m ((c : Thread nD τ).loc r) :=
  (B13_of m c r g13).trans <| (B12_of m c r g12).trans <| (B11_of m c r g11).trans <| (B10_of m c r g10).trans <| (B9_of m c r g9).trans <| (B8_of m c r g8).trans <| (B7_of m c r g7).trans <| (B6_of m c r g6).trans <| (B5_of m c r g5).trans <| (B4_of m c r g4).trans <| (B3_of m c r g3).trans <| (B2_of m c r g2).trans <| (B1_of m c r g1).trans rfl

/-! ## The proof data family -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) q1 c
  | ⟨2, _⟩ => fun c => dat2 (E5 m) c
  | ⟨3, _⟩ => fun c => dat3 (E7 m) c
  | ⟨4, _⟩ => fun c => dat4 (E9 m) q4 c
  | ⟨5, _⟩ => fun c => dat5 (E11 m) qfull c

end Cert.Kernel.Gen

end
-- ==== Proof.KChainFacts.lean ====
/-
  What rides beside the buffers through every item of the program, and the facts every region's record needs of the
  chain of contents: at a region's exit each of its arrays holds what the pipeline leaves (an input's array what it held,
  the output's array the folded write-backs), and every other buffer what it held at entry.
-/
import proofs.«105197_j1417339207765_2_alg».proof.Proof.KChain

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
/-- No core owes another anything: no level is assigned. -/
abbrev L : GSem nD τ sig → Finset Unit := fun _ => ∅
abbrev lv : GSem nD τ sig → Unit → ℕ := fun _ _ => 0
/-- Beside the buffers: the core's generator register at some state, and its dues, at nothing. -/
abbrev R (c : Dev nD) : sProp 𝕄 := iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Region 0, at its exit: each window's array holds what the pipeline leaves. -/
theorem hF0 (c : Dev nD) (w : Fin cfg0.W) : (dat0 (E1 m) c).arrAt w cfg0.N = E2 m c (Pipeline.arrRef spec0 w) := by
  fin_cases w
  · exact ((dat0 (E1 m) c).arrAt_in 0 rfl _).trans ((A_eq0 (E1 m) c 0).trans (B2_of m c _ (by decide)).symm)
  · exact ((dat0 (E1 m) c).arrAt_in 1 rfl _).trans ((A_eq0 (E1 m) c 1).trans (B2_of m c _ (by decide)).symm)
  · exact (B2_out m c).symm
/-- Every buffer that is no window's array is as the region found it. -/
theorem hrest0 (c : Dev nD) : ∀ b, b ∉ Finset.univ.image (Pipeline.arrRef spec0) → E2 m c b = E1 m c b :=
  fun b hb => B2_of m c b fun h => hb (by
    rw [List.mem_singleton] at h; subst h
    exact Finset.mem_image.mpr ⟨2, Finset.mem_univ _, rfl⟩)

/-- Region 1, at its exit: each window's array holds what the pipeline leaves. -/
theorem hF1 (c : Dev nD) (w : Fin cfg1.W) : (dat1 (E3 m) q1 c).arrAt w cfg1.N = E4 m c (Pipeline.arrRef spec1 w) := by
  fin_cases w
  · exact ((dat1 (E3 m) q1 c).arrAt_in 0 rfl _).trans ((A_eq1 (E3 m) q1 c 0).trans (B4_of m c _ (by decide)).symm)
  · exact ((dat1 (E3 m) q1 c).arrAt_in 1 rfl _).trans ((A_eq1 (E3 m) q1 c 1).trans (B4_of m c _ (by decide)).symm)
  · exact ((dat1 (E3 m) q1 c).arrAt_in 2 rfl _).trans ((A_eq1 (E3 m) q1 c 2).trans (B4_of m c _ (by decide)).symm)
  · exact ((dat1 (E3 m) q1 c).arrAt_in 3 rfl _).trans ((A_eq1 (E3 m) q1 c 3).trans (B4_of m c _ (by decide)).symm)
  · exact ((dat1 (E3 m) q1 c).arrAt_in 4 rfl _).trans ((A_eq1 (E3 m) q1 c 4).trans (B4_of m c _ (by decide)).symm)
  · exact ((dat1 (E3 m) q1 c).arrAt_in 5 rfl _).trans ((A_eq1 (E3 m) q1 c 5).trans (B4_of m c _ (by decide)).symm)
  · exact (B4_out m c).symm
/-- Every buffer that is no window's array is as the region found it. -/
theorem hrest1 (c : Dev nD) : ∀ b, b ∉ Finset.univ.image (Pipeline.arrRef spec1) → E4 m c b = E3 m c b :=
  fun b hb => B4_of m c b fun h => hb (by
    rw [List.mem_singleton] at h; subst h
    exact Finset.mem_image.mpr ⟨6, Finset.mem_univ _, rfl⟩)

/-- Region 2, at its exit: each window's array holds what the pipeline leaves. -/
theorem hF2 (c : Dev nD) (w : Fin cfg2.W) : (dat2 (E5 m) c).arrAt w cfg2.N = E6 m c (Pipeline.arrRef spec2 w) := by
  fin_cases w
  · exact ((dat2 (E5 m) c).arrAt_in 0 rfl _).trans ((A_eq2 (E5 m) c 0).trans (B6_of m c _ (by decide)).symm)
  · exact ((dat2 (E5 m) c).arrAt_in 1 rfl _).trans ((A_eq2 (E5 m) c 1).trans (B6_of m c _ (by decide)).symm)
  · exact (B6_out m c).symm
/-- Every buffer that is no window's array is as the region found it. -/
theorem hrest2 (c : Dev nD) : ∀ b, b ∉ Finset.univ.image (Pipeline.arrRef spec2) → E6 m c b = E5 m c b :=
  fun b hb => B6_of m c b fun h => hb (by
    rw [List.mem_singleton] at h; subst h
    exact Finset.mem_image.mpr ⟨2, Finset.mem_univ _, rfl⟩)

/-- Region 3, at its exit: each window's array holds what the pipeline leaves. -/
theorem hF3 (c : Dev nD) (w : Fin cfg3.W) : (dat3 (E7 m) c).arrAt w cfg3.N = E8 m c (Pipeline.arrRef spec3 w) := by
  fin_cases w
  · exact ((dat3 (E7 m) c).arrAt_in 0 rfl _).trans ((A_eq3 (E7 m) c 0).trans (B8_of m c _ (by decide)).symm)
  · exact ((dat3 (E7 m) c).arrAt_in 1 rfl _).trans ((A_eq3 (E7 m) c 1).trans (B8_of m c _ (by decide)).symm)
  · exact (B8_out m c).symm
/-- Every buffer that is no window's array is as the region found it. -/
theorem hrest3 (c : Dev nD) : ∀ b, b ∉ Finset.univ.image (Pipeline.arrRef spec3) → E8 m c b = E7 m c b :=
  fun b hb => B8_of m c b fun h => hb (by
    rw [List.mem_singleton] at h; subst h
    exact Finset.mem_image.mpr ⟨2, Finset.mem_univ _, rfl⟩)

/-- Region 4, at its exit: each window's array holds what the pipeline leaves. -/
theorem hF4 (c : Dev nD) (w : Fin cfg4.W) : (dat4 (E9 m) q4 c).arrAt w cfg4.N = E10 m c (Pipeline.arrRef spec4 w) := by
  fin_cases w
  · exact ((dat4 (E9 m) q4 c).arrAt_in 0 rfl _).trans ((A_eq4 (E9 m) q4 c 0).trans (B10_of m c _ (by decide)).symm)
  · exact ((dat4 (E9 m) q4 c).arrAt_in 1 rfl _).trans ((A_eq4 (E9 m) q4 c 1).trans (B10_of m c _ (by decide)).symm)
  · exact ((dat4 (E9 m) q4 c).arrAt_in 2 rfl _).trans ((A_eq4 (E9 m) q4 c 2).trans (B10_of m c _ (by decide)).symm)
  · exact ((dat4 (E9 m) q4 c).arrAt_in 3 rfl _).trans ((A_eq4 (E9 m) q4 c 3).trans (B10_of m c _ (by decide)).symm)
  · exact ((dat4 (E9 m) q4 c).arrAt_in 4 rfl _).trans ((A_eq4 (E9 m) q4 c 4).trans (B10_of m c _ (by decide)).symm)
  · exact ((dat4 (E9 m) q4 c).arrAt_in 5 rfl _).trans ((A_eq4 (E9 m) q4 c 5).trans (B10_of m c _ (by decide)).symm)
  · exact (B10_out m c).symm
/-- Every buffer that is no window's array is as the region found it. -/
theorem hrest4 (c : Dev nD) : ∀ b, b ∉ Finset.univ.image (Pipeline.arrRef spec4) → E10 m c b = E9 m c b :=
  fun b hb => B10_of m c b fun h => hb (by
    rw [List.mem_singleton] at h; subst h
    exact Finset.mem_image.mpr ⟨6, Finset.mem_univ _, rfl⟩)

/-- Region 5, at its exit: each window's array holds what the pipeline leaves. -/
theorem hF5 (c : Dev nD) (w : Fin cfg5.W) : (dat5 (E11 m) qfull c).arrAt w cfg5.N = E12 m c (Pipeline.arrRef spec5 w) := by
  fin_cases w
  · exact ((dat5 (E11 m) qfull c).arrAt_in 0 rfl _).trans ((A_eq5 (E11 m) qfull c 0).trans (B12_of m c _ (by decide)).symm)
  · exact ((dat5 (E11 m) qfull c).arrAt_in 1 rfl _).trans ((A_eq5 (E11 m) qfull c 1).trans (B12_of m c _ (by decide)).symm)
  · exact ((dat5 (E11 m) qfull c).arrAt_in 2 rfl _).trans ((A_eq5 (E11 m) qfull c 2).trans (B12_of m c _ (by decide)).symm)
  · exact ((dat5 (E11 m) qfull c).arrAt_in 3 rfl _).trans ((A_eq5 (E11 m) qfull c 3).trans (B12_of m c _ (by decide)).symm)
  · exact ((dat5 (E11 m) qfull c).arrAt_in 4 rfl _).trans ((A_eq5 (E11 m) qfull c 4).trans (B12_of m c _ (by decide)).symm)
  · exact ((dat5 (E11 m) qfull c).arrAt_in 5 rfl _).trans ((A_eq5 (E11 m) qfull c 5).trans (B12_of m c _ (by decide)).symm)
  · exact ((dat5 (E11 m) qfull c).arrAt_in 6 rfl _).trans ((A_eq5 (E11 m) qfull c 6).trans (B12_of m c _ (by decide)).symm)
  · exact (B12_out m c).symm
/-- Every buffer that is no window's array is as the region found it. -/
theorem hrest5 (c : Dev nD) : ∀ b, b ∉ Finset.univ.image (Pipeline.arrRef spec5) → E12 m c b = E11 m c b :=
  fun b hb => B12_of m c b fun h => hb (by
    rw [List.mem_singleton] at h; subst h
    exact Finset.mem_image.mpr ⟨7, Finset.mem_univ _, rfl⟩)

end Cert.Kernel.Gen

end
-- ==== Proof.KSeg0.lean ====
/-
  Region 0 of the kernel as printed as an item of the program's run: what of the thread state goes into the pipeline, what
  comes back, and what passes the region by.
-/
import proofs.«105197_j1417339207765_2_alg».proof.Proof.KChainFacts

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 0 over the thread state: entered from every unscoped buffer at the contents before it, left at the contents
    after it. Its arrays are split out of the unscoped buffers and put back at the exit contents; the generator register
    goes into the pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KShared1.lean ====
/-
  Region 1 of the kernel as printed as an item of the program's run. Several of its input windows read ONE array (the packed
  projection). The thread state holds that array once, whole, at the full share; the pipeline wants it once per window. So at
  entry the full share is dealt among the windows that read it, each window holding the whole array at its part of the share
  (reading needs no more), and at exit the parts are put together again: the array was only read, so every part still holds
  what was dealt. The output array, and every array read through one window only, goes in and comes out at the full share.
-/
import proofs.«105197_j1417339207765_2_alg».proof.Proof.KChainFacts

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The distinct buffers behind region 1's windows. -/
theorem arrImage1 : Finset.univ.image (Pipeline.arrRef spec1) = ([main_v13, main_arg0, main_v0, main_v1, main_v14] : List (Ref sig .tc)).toFinset := by
  apply Finset.ext; intro b
  simp only [Finset.mem_image, Finset.mem_univ, true_and, List.mem_toFinset, List.mem_cons, List.not_mem_nil, or_false]
  constructor
  · rintro ⟨w, rfl⟩
    fin_cases w
    · exact Or.inl rfl
    · exact Or.inl rfl
    · exact Or.inl rfl
    · exact Or.inr (Or.inl rfl)
    · exact Or.inr (Or.inr (Or.inl rfl))
    · exact Or.inr (Or.inr (Or.inr (Or.inl rfl)))
    · exact Or.inr (Or.inr (Or.inr (Or.inr (rfl))))
  · rintro (rfl | rfl | rfl | rfl | rfl)
    · exact ⟨0, rfl⟩
    · exact ⟨3, rfl⟩
    · exact ⟨4, rfl⟩
    · exact ⟨5, rfl⟩
    · exact ⟨6, rfl⟩

/-- Those buffers one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v13) ↦{fullShare} V main_v13) ∗ (((c : Thread nD τ).loc main_arg0) ↦{fullShare} V main_arg0) ∗ (((c : Thread nD τ).loc main_v0) ↦{fullShare} V main_v0) ∗ (((c : Thread nD τ).loc main_v1) ↦{fullShare} V main_v1) ∗ (((c : Thread nD τ).loc main_v14) ↦{fullShare} V main_v14)) := by
  unfold Pipeline.arrBufs
  exact bigSep_eq_bigSepL_of_eq [main_v13, main_arg0, main_v0, main_v1, main_v14] arrImage1 (by decide) _

section Shares

variable (V V' : (c : Dev nD) → (b : Ref sig .tc) → Buf (Elt F) ((c : Thread nD τ).loc b))

theorem share1_0 (c : Dev nD) : (dat1 V q1 c).share 0 = fullShare.left := by
  unfold Pipeline.Dat.share; dsimp only [dat1]; rfl
theorem share1_1 (c : Dev nD) : (dat1 V q1 c).share 1 = fullShare.right.left := by
  unfold Pipeline.Dat.share; dsimp only [dat1]; rfl
theorem share1_2 (c : Dev nD) : (dat1 V q1 c).share 2 = fullShare.right.right := by
  unfold Pipeline.Dat.share; dsimp only [dat1]; rfl
theorem share1_3 (c : Dev nD) : (dat1 V q1 c).share 3 = fullShare := by
  unfold Pipeline.Dat.share; dsimp only [dat1]; rfl
theorem share1_4 (c : Dev nD) : (dat1 V q1 c).share 4 = fullShare := by
  unfold Pipeline.Dat.share; dsimp only [dat1]; rfl
theorem share1_5 (c : Dev nD) : (dat1 V q1 c).share 5 = fullShare := by
  unfold Pipeline.Dat.share; dsimp only [dat1]; rfl
theorem share1_6 (c : Dev nD) : (dat1 V q1 c).share 6 = fullShare := by
  unfold Pipeline.Dat.share; dsimp only [dat1]; rfl

/-- Each window's array is a whole buffer, so holding its element set is holding the buffer, at the window's share. -/
theorem arrays1_eq (c : Dev nD) (Fa : (w : Fin cfg1.W) → Buf (Elt F) ((cfg1.win w).arr.view.loc (c : Thread nD τ))) :
    ((dat1 V q1 c).arrays Fa : sProp 𝕄)
      = bigSep Finset.univ fun w : Fin cfg1.W => (((c : Thread nD τ).loc (Pipeline.arrRef spec1 w)) ↦{(dat1 V q1 c).share w} Fa w : sProp 𝕄) := by
  unfold Pipeline.Dat.arrays
  exact bigSep_congr fun w _ => by rw [(arr_whole1 w).set_eq_univ]

/-- Before any write-back a window's array holds the entry contents. -/
theorem arrAt0_1 (c : Dev nD) (w : Fin cfg1.W) : (dat1 V q1 c).arrAt w 0 = V c (Pipeline.arrRef spec1 w) := A_eq1 V q1 c w

set_option maxHeartbeats 1000000 in
/-- ENTRY: the distinct buffers, each whole at the full share at the entry contents, make the pipeline's arrays at the
    entry contents: the packed array's full share is dealt among the windows that read it. -/
theorem deal1 (c : Dev nD) :
    (Pipeline.arrBufs (Ix := Unit) (Name := ℕ) (U := UR sig nD τ) (Lvl := ℕ) spec1 c (V c) : sProp 𝕄)
      ⊢ (dat1 V q1 c).arrays ((dat1 V q1 c).arrAt · 0) := by
  rw [arrays1_eq, bigSep_W1, share1_0 V c, share1_1 V c, share1_2 V c, share1_3 V c, share1_4 V c, share1_5 V c, share1_6 V c, arrBufs1_eq]
  simp only [arrAt0_1]
  iintro ⟨H0, H1, H2, H3, H4⟩
  ihave Hs := (pointsTo_share (PosShare.mem_left_op_right fullShare)).1 $$ H0
  icases Hs with ⟨Ha, Hr⟩
  ihave Hs := (pointsTo_share (PosShare.mem_left_op_right fullShare.right)).1 $$ Hr
  icases Hs with ⟨Hb, Hc⟩
  isplitl [Ha]; · iexact Ha
  isplitl [Hb]; · iexact Hb
  isplitl [Hc]; · iexact Hc
  isplitl [H1]; · iexact H1
  isplitl [H2]; · iexact H2
  isplitl [H3]; · iexact H3
  iexact H4

set_option maxHeartbeats 1000000 in
/-- EXIT: the pipeline's arrays at their final contents make the distinct buffers, each whole at the full share at the
    exit contents `V'` — given that each window's array ends at `V'` there —: the parts of the packed array's share are put
    together again (it was only read, so every part holds what was dealt), the output array holds the folded write-backs. -/
theorem gather1 (c : Dev nD) (hF : ∀ w, (dat1 V q1 c).arrAt w cfg1.N = V' c (Pipeline.arrRef spec1 w)) :
    ((dat1 V q1 c).arrays ((dat1 V q1 c).arrAt · cfg1.N) : sProp 𝕄)
      ⊢ Pipeline.arrBufs (Ix := Unit) (Name := ℕ) (U := UR sig nD τ) (Lvl := ℕ) spec1 c (V' c) := by
  rw [arrays1_eq, bigSep_W1, share1_0 V c, share1_1 V c, share1_2 V c, share1_3 V c, share1_4 V c, share1_5 V c, share1_6 V c, arrBufs1_eq]
  simp only [hF]
  iintro ⟨G0, G1, G2, G3, G4, G5, G6⟩
  ihave Hr := (pointsTo_share (PosShare.mem_left_op_right fullShare.right)).2 $$ [G1 G2]
  · isplitl [G1] <;> iassumption
  ihave Hm := (pointsTo_share (PosShare.mem_left_op_right fullShare)).2 $$ [G0 Hr]
  · isplitl [G0] <;> iassumption
  isplitl [Hm]; · iexact Hm
  isplitl [G3]; · iexact G3
  isplitl [G4]; · iexact G4
  isplitl [G5]; · iexact G5
  iexact G6

end Shares

set_option backward.isDefEq.respectTransparency.types false in
/-- Region 1 over the thread state: entered from every unscoped buffer at the contents before it, left at the contents
    after it. The distinct buffers behind its windows are split out of the unscoped buffers, the packed array's share dealt
    among its readers, and at the exit gathered and put back; the generator register goes into the pipeline's invariant and
    comes back; nothing is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E3 m) q1 c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit : (unscopedBufs c (E3 m c) : sProp 𝕄)
        ⊢ iprop((pdats m 1 c).arrays ((pdats m 1 c).arrAt · 0) ∗ Pipeline.unscopedRest (Ix := Unit) (Name := ℕ) (U := UR sig nD τ) (Lvl := ℕ) spec1 c (E3 m c)) := by
      rw [Pipeline.unscopedBufs_split₀ (Pipeline.pin (pcfgs (F := F)) adm) 1 winFacts₀1.arr_unscoped c (E3 m c)]
      exact sep_mono (deal1 (E3 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (E3 m c))
        ⊢ (unscopedBufs c (E4 m c) : sProp 𝕄) := by
      rw [Pipeline.unscopedBufs_split₀ (Pipeline.pin (pcfgs (F := F)) adm) 1 winFacts₀1.arr_unscoped c (E4 m c)]
      refine sep_mono (gather1 (E3 m) (E4 m) c (hF1 m c)) (Entails.of_eq ?_)
      unfold Pipeline.unscopedRest
      exact bigSep_congr fun b hb => by rw [hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KSeg2.lean ====
/-
  Region 2 of the kernel as printed as an item of the program's run: what of the thread state goes into the pipeline, what
  comes back, and what passes the region by.
-/
import proofs.«105197_j1417339207765_2_alg».proof.Proof.KChainFacts

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 2 over the thread state: entered from every unscoped buffer at the contents before it, left at the contents
    after it. Its arrays are split out of the unscoped buffers and put back at the exit contents; the generator register
    goes into the pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KSeg3.lean ====
/-
  Region 3 of the kernel as printed as an item of the program's run: what of the thread state goes into the pipeline, what
  comes back, and what passes the region by.
-/
import proofs.«105197_j1417339207765_2_alg».proof.Proof.KChainFacts

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 3 over the thread state: entered from every unscoped buffer at the contents before it, left at the contents
    after it. Its arrays are split out of the unscoped buffers and put back at the exit contents; the generator register
    goes into the pipeline's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E7 m) c).loose
  hwaits := Pipeline.hwaits_of_owed_zero _ _ _ _ L lv 3 fun _ _ => rfl
  pre c := iprop(StableHlo.held (c : Thread nD τ) (Pipeline.ucRefs τ sig) (B7 m c) ∗ R c)
  post c := iprop(StableHlo.held (c : Thread nD τ) (Pipeline.ucRefs τ sig) (B8 m c) ∗ R c)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E7 m c) (E8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KShared4.lean ====
/-
  Region 4 of the kernel as printed as an item of the program's run. Several of its input windows read ONE array (the packed
  projection). The thread state holds that array once, whole, at the full share; the pipeline wants it once per window. So at
  entry the full share is dealt among the windows that read it, each window holding the whole array at its part of the share
  (reading needs no more), and at exit the parts are put together again: the array was only read, so every part still holds
  what was dealt. The output array, and every array read through one window only, goes in and comes out at the full share.
-/
import proofs.«105197_j1417339207765_2_alg».proof.Proof.KChainFacts

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The distinct buffers behind region 4's windows. -/
theorem arrImage4 : Finset.univ.image (Pipeline.arrRef spec4) = ([main_v20, main_v17, main_v14, main_v0, main_v1, main_v21] : List (Ref sig .tc)).toFinset := by
  apply Finset.ext; intro b
  simp only [Finset.mem_image, Finset.mem_univ, true_and, List.mem_toFinset, List.mem_cons, List.not_mem_nil, or_false]
  constructor
  · rintro ⟨w, rfl⟩
    fin_cases w
    · exact Or.inl rfl
    · exact Or.inr (Or.inl rfl)
    · exact Or.inr (Or.inl rfl)
    · exact Or.inr (Or.inr (Or.inl rfl))
    · exact Or.inr (Or.inr (Or.inr (Or.inl rfl)))
    · exact Or.inr (Or.inr (Or.inr (Or.inr (Or.inl rfl))))
    · exact Or.inr (Or.inr (Or.inr (Or.inr (Or.inr (rfl)))))
  · rintro (rfl | rfl | rfl | rfl | rfl | rfl)
    · exact ⟨0, rfl⟩
    · exact ⟨1, rfl⟩
    · exact ⟨3, rfl⟩
    · exact ⟨4, rfl⟩
    · exact ⟨5, rfl⟩
    · exact ⟨6, rfl⟩

/-- Those buffers one by one. -/
theorem arrBufs4_eq (c : Dev nD) (V : (b : Ref sig .tc) → Buf (Elt F) ((c : Thread nD τ).loc b)) :
    (Pipeline.arrBufs (Ix := Unit) (Name := ℕ) (U := UR sig nD τ) (Lvl := ℕ) spec4 c V : sProp 𝕄)
      = iprop((((c : Thread nD τ).loc main_v20) ↦{fullShare} V main_v20) ∗ (((c : Thread nD τ).loc main_v17) ↦{fullShare} V main_v17) ∗ (((c : Thread nD τ).loc main_v14) ↦{fullShare} V main_v14) ∗ (((c : Thread nD τ).loc main_v0) ↦{fullShare} V main_v0) ∗ (((c : Thread nD τ).loc main_v1) ↦{fullShare} V main_v1) ∗ (((c : Thread nD τ).loc main_v21) ↦{fullShare} V main_v21)) := by
  unfold Pipeline.arrBufs
  exact bigSep_eq_bigSepL_of_eq [main_v20, main_v17, main_v14, main_v0, main_v1, main_v21] arrImage4 (by decide) _

section Shares

variable (V V' : (c : Dev nD) → (b : Ref sig .tc) → Buf (Elt F) ((c : Thread nD τ).loc b))

theorem share4_0 (c : Dev nD) : (dat4 V q4 c).share 0 = fullShare := by
  unfold Pipeline.Dat.share; dsimp only [dat4]; rfl
theorem share4_1 (c : Dev nD) : (dat4 V q4 c).share 1 = fullShare.left := by
  unfold Pipeline.Dat.share; dsimp only [dat4]; rfl
theorem share4_2 (c : Dev nD) : (dat4 V q4 c).share 2 = fullShare.right := by
  unfold Pipeline.Dat.share; dsimp only [dat4]; rfl
theorem share4_3 (c : Dev nD) : (dat4 V q4 c).share 3 = fullShare := by
  unfold Pipeline.Dat.share; dsimp only [dat4]; rfl
theorem share4_4 (c : Dev nD) : (dat4 V q4 c).share 4 = fullShare := by
  unfold Pipeline.Dat.share; dsimp only [dat4]; rfl
theorem share4_5 (c : Dev nD) : (dat4 V q4 c).share 5 = fullShare := by
  unfold Pipeline.Dat.share; dsimp only [dat4]; rfl
theorem share4_6 (c : Dev nD) : (dat4 V q4 c).share 6 = fullShare := by
  unfold Pipeline.Dat.share; dsimp only [dat4]; rfl

/-- Each window's array is a whole buffer, so holding its element set is holding the buffer, at the window's share. -/
theorem arrays4_eq (c : Dev nD) (Fa : (w : Fin cfg4.W) → Buf (Elt F) ((cfg4.win w).arr.view.loc (c : Thread nD τ))) :
    ((dat4 V q4 c).arrays Fa : sProp 𝕄)
      = bigSep Finset.univ fun w : Fin cfg4.W => (((c : Thread nD τ).loc (Pipeline.arrRef spec4 w)) ↦{(dat4 V q4 c).share w} Fa w : sProp 𝕄) := by
  unfold Pipeline.Dat.arrays
  exact bigSep_congr fun w _ => by rw [(arr_whole4 w).set_eq_univ]

/-- Before any write-back a window's array holds the entry contents. -/
theorem arrAt0_4 (c : Dev nD) (w : Fin cfg4.W) : (dat4 V q4 c).arrAt w 0 = V c (Pipeline.arrRef spec4 w) := A_eq4 V q4 c w

set_option maxHeartbeats 1000000 in
/-- ENTRY: the distinct buffers, each whole at the full share at the entry contents, make the pipeline's arrays at the
    entry contents: the packed array's full share is dealt among the windows that read it. -/
theorem deal4 (c : Dev nD) :
    (Pipeline.arrBufs (Ix := Unit) (Name := ℕ) (U := UR sig nD τ) (Lvl := ℕ) spec4 c (V c) : sProp 𝕄)
      ⊢ (dat4 V q4 c).arrays ((dat4 V q4 c).arrAt · 0) := by
  rw [arrays4_eq, bigSep_W4, share4_0 V c, share4_1 V c, share4_2 V c, share4_3 V c, share4_4 V c, share4_5 V c, share4_6 V c, arrBufs4_eq]
  simp only [arrAt0_4]
  iintro ⟨H0, H1, H2, H3, H4, H5⟩
  ihave Hs := (pointsTo_share (PosShare.mem_left_op_right fullShare)).1 $$ H1
  icases Hs with ⟨Ha, Hb⟩
  isplitl [H0]; · iexact H0
  isplitl [Ha]; · iexact Ha
  isplitl [Hb]; · iexact Hb
  isplitl [H2]; · iexact H2
  isplitl [H3]; · iexact H3
  isplitl [H4]; · iexact H4
  iexact H5

set_option maxHeartbeats 1000000 in
/-- EXIT: the pipeline's arrays at their final contents make the distinct buffers, each whole at the full share at the
    exit contents `V'` — given that each window's array ends at `V'` there —: the parts of the packed array's share are put
    together again (it was only read, so every part holds what was dealt), the output array holds the folded write-backs. -/
theorem gather4 (c : Dev nD) (hF : ∀ w, (dat4 V q4 c).arrAt w cfg4.N = V' c (Pipeline.arrRef spec4 w)) :
    ((dat4 V q4 c).arrays ((dat4 V q4 c).arrAt · cfg4.N) : sProp 𝕄)
      ⊢ Pipeline.arrBufs (Ix := Unit) (Name := ℕ) (U := UR sig nD τ) (Lvl := ℕ) spec4 c (V' c) := by
  rw [arrays4_eq, bigSep_W4, share4_0 V c, share4_1 V c, share4_2 V c, share4_3 V c, share4_4 V c, share4_5 V c, share4_6 V c, arrBufs4_eq]
  simp only [hF]
  iintro ⟨G0, G1, G2, G3, G4, G5, G6⟩
  ihave Hm := (pointsTo_share (PosShare.mem_left_op_right fullShare)).2 $$ [G1 G2]
  · isplitl [G1] <;> iassumption
  isplitl [G0]; · iexact G0
  isplitl [Hm]; · iexact Hm
  isplitl [G3]; · iexact G3
  isplitl [G4]; · iexact G4
  isplitl [G5]; · iexact G5
  iexact G6

end Shares

set_option backward.isDefEq.respectTransparency.types false in
/-- Region 4 over the thread state: entered from every unscoped buffer at the contents before it, left at the contents
    after it. The distinct buffers behind its windows are split out of the unscoped buffers, the packed array's share dealt
    among its readers, and at the exit gathered and put back; the generator register goes into the pipeline's invariant and
    comes back; nothing is owed; the kernel has no semaphore of its own. -/
def reg4 : Pipeline.RegionSeg (pcfgs (F := F)) adm (pdats m) () defs₀ 𝒱₀ L lv 4 where
  win := winFacts₀4
  block_pos := block_pos4
  stage_whole := stage_whole4
  K := PEmpty
  osem k := k.elim
  ho := Pipeline.OwnSemFacts.none _
  hbody c := (body_obligation4 (E9 m) q4 c).loose
  hwaits := Pipeline.hwaits_of_owed_zero _ _ _ _ L lv 4 fun _ _ => rfl
  pre c := iprop(StableHlo.held (c : Thread nD τ) (Pipeline.ucRefs τ sig) (B9 m c) ∗ R c)
  post c := iprop(StableHlo.held (c : Thread nD τ) (Pipeline.ucRefs τ sig) (B10 m c) ∗ R c)
  X c := iprop(∃ r, prngReg c r)
  Y c := iprop(∃ r, prngReg c r)
  Z c := Pipeline.unscopedRest (Ix := Unit) (Name := ℕ) (U := UR sig nD τ) (Lvl := ℕ) spec4 c (E9 m c)
  hentry c := by
    rw [Pipeline.ownSems0_none]
    have hsplit : (unscopedBufs c (E9 m c) : sProp 𝕄)
        ⊢ iprop((pdats m 4 c).arrays ((pdats m 4 c).arrAt · 0) ∗ Pipeline.unscopedRest (Ix := Unit) (Name := ℕ) (U := UR sig nD τ) (Lvl := ℕ) spec4 c (E9 m c)) := by
      rw [Pipeline.unscopedBufs_split₀ (Pipeline.pin (pcfgs (F := F)) adm) 4 winFacts₀4.arr_unscoped c (E9 m c)]
      exact sep_mono (deal4 (E9 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin : iprop((pdats m 4 c).arrays ((pdats m 4 c).arrAt · cfg4.N) ∗ Pipeline.unscopedRest (Ix := Unit) (Name := ℕ) (U := UR sig nD τ) (Lvl := ℕ) spec4 c (E9 m c))
        ⊢ (unscopedBufs c (E10 m c) : sProp 𝕄) := by
      rw [Pipeline.unscopedBufs_split₀ (Pipeline.pin (pcfgs (F := F)) adm) 4 winFacts₀4.arr_unscoped c (E10 m c)]
      refine sep_mono (gather4 (E9 m) (E10 m) c (hF4 m c)) (Entails.of_eq ?_)
      unfold Pipeline.unscopedRest
      exact bigSep_congr fun b hb => by rw [hrest4 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KSeg5.lean ====
/-
  Region 5 of the kernel as printed as an item of the program's run: what of the thread state goes into the pipeline, what
  comes back, and what passes the region by.
-/
import proofs.«105197_j1417339207765_2_alg».proof.Proof.KChainFacts

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 5 over the thread state: entered from every unscoped buffer at the contents before it, left at the contents
    after it. Its arrays are split out of the unscoped buffers and put back at the exit contents; the generator register
    goes into the pipeline's invariant and comes back; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (E11 m) qfull c).loose
  hwaits := Pipeline.hwaits_of_owed_zero _ _ _ _ L lv 5 fun _ _ => rfl
  pre c := iprop(StableHlo.held (c : Thread nD τ) (Pipeline.ucRefs τ sig) (B11 m c) ∗ R c)
  post c := iprop(StableHlo.held (c : Thread nD τ) (Pipeline.ucRefs τ sig) (B12 m c) ∗ R c)
  X c := iprop(∃ r, prngReg c r)
  Y c := iprop(∃ r, prngReg c r)
  Z c := Pipeline.unscopedRest (Ix := Unit) (Name := ℕ) (U := UR sig nD τ) (Lvl := ℕ) spec5 c (E11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (E11 m c) (E12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KRun.lean ====
/-
  The run of the kernel as printed's program: its thirteen items as segments — a host stretch from the contents before it, a
  kernel region per launch — chained from the launch memory to the return. Every weakly fair execution terminates, nothing
  faults, and at the end every unscoped buffer holds the last contents of the chain: each argument what it held at launch
  (no item writes one), the result the last reshape of what the last region left.
-/
import proofs.«105197_j1417339207765_2_alg».proof.Proof.KSeg0
import proofs.«105197_j1417339207765_2_alg».proof.Proof.KShared1
import proofs.«105197_j1417339207765_2_alg».proof.Proof.KSeg2
import proofs.«105197_j1417339207765_2_alg».proof.Proof.KSeg3
import proofs.«105197_j1417339207765_2_alg».proof.Proof.KShared4
import proofs.«105197_j1417339207765_2_alg».proof.Proof.KSeg5

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A host stretch as a segment over the unscoped references from the contents `W`, the register and the dues riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the dues: every unscoped buffer at the last contents, the generator register at some state. -/
abbrev Tₙ (c : Dev nD) : sProp 𝕄 := iprop(StableHlo.held (c : Thread nD τ) (Pipeline.ucRefs τ sig) (B13 m c) ∗ ∃ r, prngReg c r)

/-- The program's thirteen items in order. -/
abbrev items : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m),
    .host (hseg hostOps2 hostOps2_sub hostOps2_fresh (B4 m)),
    .region (reg2 m),
    .host (hseg hostOps3 hostOps3_sub hostOps3_fresh (B6 m)),
    .region (reg3 m),
    .host (hseg hostOps4 hostOps4_sub hostOps4_fresh (B8 m)),
    .region (reg4 m),
    .host (hseg hostOps5 hostOps5_sub hostOps5_fresh (B10 m)),
    .region (reg5 m),
    .host (hseg hostOps6 hostOps6_sub hostOps6_fresh (B12 m)) ]

/-- The program IS the run of the segments. -/
theorem main_run (c : Dev nD) : main (F := F) c = Pipeline.Seg.run (items m) := (main_chain c).trans (by chain_rfl)

set_option backward.isDefEq.respectTransparency.types false in
/-- From any memory with zero counters, every weakly fair execution of the program terminates, nothing faulting, and every
    final state holds each unscoped buffer at the chain's last contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B13 m c b) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (B13 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B13 m c b)
    (hfin := fun c s' => by
      iintro ⟨⟨Hh, -⟩, HSI⟩
      unfold StableHlo.held
      imodintro
      iapply (pointsTo_read_all (Pipeline.ucRefs τ sig) (fun b => (((c : Thread nD τ)).1, b)) (B13 m c) s')
      isplitl [Hh] <;> iassumption)
    (hQ := fun s h => h)

end Cert.Kernel.Gen

end
-- ==== Proof.KFrames.lean ====
/-
  The frame of the kernel as printed: the run ends with every unscoped buffer at the last contents of the chain, and no item
  of the program writes an argument, so each argument array ends holding its launch contents.
-/
import proofs.«105197_j1417339207765_2_alg».proof.Proof.KRun

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- From any memory with zero counters every weakly fair execution terminates, nothing faulting, with the fourteen argument
    arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (B13_unwritten m c main_arg0 (by decide) (by decide) (by decide) (by decide) (by decide) (by decide) (by decide) (by decide) (by decide) (by decide) (by decide) (by decide) (by decide)),
    (h c _ (mem_uc main_arg1 (by decide))).trans (B13_unwritten m c main_arg1 (by decide) (by decide) (by decide) (by decide) (by decide) (by decide) (by decide) (by decide) (by decide) (by decide) (by decide) (by decide) (by decide)),
    (h c _ (mem_uc main_arg2 (by decide))).trans (B13_unwritten m c main_arg2 (by decide) (by decide) (by decide) (by decide) (by decide) (by decide) (by decide) (by decide) (by decide) (by decide) (by decide) (by decide) (by decide)),
    (h c _ (mem_uc main_arg3 (by decide))).trans (B13_unwritten m c main_arg3 (by decide) (by decide) (by decide) (by decide) (by decide) (by decide) (by decide) (by decide) (by decide) (by decide) (by decide) (by decide) (by decide)),
    (h c _ (mem_uc main_arg4 (by decide))).trans (B13_unwritten m c main_arg4 (by decide) (by decide) (by decide) (by decide) (by decide) (by decide) (by decide) (by decide) (by decide) (by decide) (by decide) (by decide) (by decide)),
    (h c _ (mem_uc main_arg5 (by decide))).trans (B13_unwritten m c main_arg5 (by decide) (by decide) (by decide) (by decide) (by decide) (by decide) (by decide) (by decide) (by decide) (by decide) (by decide) (by decide) (by decide)),
    (h c _ (mem_uc main_arg6 (by decide))).trans (B13_unwritten m c main_arg6 (by decide) (by decide) (by decide) (by decide) (by decide) (by decide) (by decide) (by decide) (by decide) (by decide) (by decide) (by decide) (by decide)),
    (h c _ (mem_uc main_arg7 (by decide))).trans (B13_unwritten m c main_arg7 (by decide) (by decide) (by decide) (by decide) (by decide) (by decide) (by decide) (by decide) (by decide) (by decide) (by decide) (by decide) (by decide)),
    (h c _ (mem_uc main_arg8 (by decide))).trans (B13_unwritten m c main_arg8 (by decide) (by decide) (by decide) (by decide) (by decide) (by decide) (by decide) (by decide) (by decide) (by decide) (by decide) (by decide) (by decide)),
    (h c _ (mem_uc main_arg9 (by decide))).trans (B13_unwritten m c main_arg9 (by decide) (by decide) (by decide) (by decide) (by decide) (by decide) (by decide) (by decide) (by decide) (by decide) (by decide) (by decide) (by decide)),
    (h c _ (mem_uc main_arg10 (by decide))).trans (B13_unwritten m c main_arg10 (by decide) (by decide) (by decide) (by decide) (by decide) (by decide) (by decide) (by decide) (by decide) (by decide) (by decide) (by decide) (by decide)),
    (h c _ (mem_uc main_arg11 (by decide))).trans (B13_unwritten m c main_arg11 (by decide) (by decide) (by decide) (by decide) (by decide) (by decide) (by decide) (by decide) (by decide) (by decide) (by decide) (by decide) (by decide)),
    (h c _ (mem_uc main_arg12 (by decide))).trans (B13_unwritten m c main_arg12 (by decide) (by decide) (by decide) (by decide) (by decide) (by decide) (by decide) (by decide) (by decide) (by decide) (by decide) (by decide) (by decide)),
    (h c _ (mem_uc main_arg13 (by decide))).trans (B13_unwritten m c main_arg13 (by decide) (by decide) (by decide) (by decide) (by decide) (by decide) (by decide) (by decide) (by decide) (by decide) (by decide) (by decide) (by decide))⟩) (run_all m ρ)

/-- The same run with the result named: the result array ends at the chain's last contents there, and the fourteen argument
    arrays as launched. -/
theorem run_result (ρ : Dev nD → PrngReg) : θ_run defs (onTc (τ := τ) (main (F := F))) ⟨m, fun _ => 0, ρ⟩ (fun r => ∀ c : Dev nD,
      r.2.mem ((c.tc : Thread nD τ).loc main_v24) = B13 m c main_v24
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨h c _ (mem_uc main_v24 (by decide)),
    (h c _ (mem_uc main_arg0 (by decide))).trans (B13_unwritten m c main_arg0 (by decide) (by decide) (by decide) (by decide) (by decide) (by decide) (by decide) (by decide) (by decide) (by decide) (by decide) (by decide) (by decide)),
    (h c _ (mem_uc main_arg1 (by decide))).trans (B13_unwritten m c main_arg1 (by decide) (by decide) (by decide) (by decide) (by decide) (by decide) (by decide) (by decide) (by decide) (by decide) (by decide) (by decide) (by decide)),
    (h c _ (mem_uc main_arg2 (by decide))).trans (B13_unwritten m c main_arg2 (by decide) (by decide) (by decide) (by decide) (by decide) (by decide) (by decide) (by decide) (by decide) (by decide) (by decide) (by decide) (by decide)),
    (h c _ (mem_uc main_arg3 (by decide))).trans (B13_unwritten m c main_arg3 (by decide) (by decide) (by decide) (by decide) (by decide) (by decide) (by decide) (by decide) (by decide) (by decide) (by decide) (by decide) (by decide)),
    (h c _ (mem_uc main_arg4 (by decide))).trans (B13_unwritten m c main_arg4 (by decide) (by decide) (by decide) (by decide) (by decide) (by decide) (by decide) (by decide) (by decide) (by decide) (by decide) (by decide) (by decide)),
    (h c _ (mem_uc main_arg5 (by decide))).trans (B13_unwritten m c main_arg5 (by decide) (by decide) (by decide) (by decide) (by decide) (by decide) (by decide) (by decide) (by decide) (by decide) (by decide) (by decide) (by decide)),
    (h c _ (mem_uc main_arg6 (by decide))).trans (B13_unwritten m c main_arg6 (by decide) (by decide) (by decide) (by decide) (by decide) (by decide) (by decide) (by decide) (by decide) (by decide) (by decide) (by decide) (by decide)),
    (h c _ (mem_uc main_arg7 (by decide))).trans (B13_unwritten m c main_arg7 (by decide) (by decide) (by decide) (by decide) (by decide) (by decide) (by decide) (by decide) (by decide) (by decide) (by decide) (by decide) (by decide)),
    (h c _ (mem_uc main_arg8 (by decide))).trans (B13_unwritten m c main_arg8 (by decide) (by decide) (by decide) (by decide) (by decide) (by decide) (by decide) (by decide) (by decide) (by decide) (by decide) (by decide) (by decide)),
    (h c _ (mem_uc main_arg9 (by decide))).trans (B13_unwritten m c main_arg9 (by decide) (by decide) (by decide) (by decide) (by decide) (by decide) (by decide) (by decide) (by decide) (by decide) (by decide) (by decide) (by decide)),
    (h c _ (mem_uc main_arg10 (by decide))).trans (B13_unwritten m c main_arg10 (by decide) (by decide) (by decide) (by decide) (by decide) (by decide) (by decide) (by decide) (by decide) (by decide) (by decide) (by decide) (by decide)),
    (h c _ (mem_uc main_arg11 (by decide))).trans (B13_unwritten m c main_arg11 (by decide) (by decide) (by decide) (by decide) (by decide) (by decide) (by decide) (by decide) (by decide) (by decide) (by decide) (by decide) (by decide)),
    (h c _ (mem_uc main_arg12 (by decide))).trans (B13_unwritten m c main_arg12 (by decide) (by decide) (by decide) (by decide) (by decide) (by decide) (by decide) (by decide) (by decide) (by decide) (by decide) (by decide) (by decide)),
    (h c _ (mem_uc main_arg13 (by decide))).trans (B13_unwritten m c main_arg13 (by decide) (by decide) (by decide) (by decide) (by decide) (by decide) (by decide) (by decide) (by decide) (by decide) (by decide) (by decide) (by decide))⟩) (run_all m ρ)

end Cert.Kernel.Gen

end
-- ==== Proof.ValueMatmul.lean ====
/-
  A matrix product into a zero accumulator, read at an index, at the ideal values: entry (a, b) of an m×k matrix times
  a k×n matrix is the sum over the contracted coordinate c of A(a, c) · B(c, b), and of an m×k matrix times the
  transpose of an n×k matrix the sum of A(a, c) · B(b, c). Stated for every size, over the dimension numbers as a
  structure literal, so that each of the kernel's products is an instance.
-/
import Idealize.ShloMosaic.Lib.ValueIdx
import Idealize.ShloMosaic.PureOps.Ideal.Laws

noncomputable section

namespace Cert.KernelIdeal.Val

open Idealize.ShloMosaic Idealize.ShloMosaic.ValueIdx
open scoped BigOperators

/-- Rows by columns: contracting the left operand's second axis with the right operand's first. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B (constant ⟨2, ![m, n]⟩ .f32 0x00000000#32) (ix2 a b)
      = ∑ c : Fin k, A (ix2 a c) * B (ix2 c b) := by
  show FloatOps.matmul _ prec A B (constant ⟨2, ![m, n]⟩ .f32 0x00000000#32) (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Rows by rows: contracting the second axis of both operands (the right operand transposed). -/
theorem matmul_transposed_zero_apply {m k n : Nat} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B (constant ⟨2, ![m, n]⟩ .f32 0x00000000#32) (ix2 a b)
      = ∑ c : Fin k, A (ix2 a c) * B (ix2 b c) := by
  show FloatOps.matmul _ prec A B (constant ⟨2, ![m, n]⟩ .f32 0x00000000#32) (ix2 a b) = _
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.KernelIdeal.Val

end
-- ==== Proof.ValueLayout.lean ====
/-
  The layout and reduction operations of a row-wise normalisation, read at an index, at the ideal values.
  A reduction along the lanes of an a×b matrix gives a vector of length a: its entry p is the sum (or the maximum)
  over the lane coordinate k of the matrix's entry (p, k). Kept as a column, [a] → [a, 1], it reads the vector's
  entry; spread back over the lanes, [a, 1] → [a, b], entry (p, c) reads the column's entry p. The reciprocal
  square root and the exponential act entry by entry.
-/
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.ValueIdx
open scoped BigOperators

variable {α : Type}

/-- A vector of length a kept as a column [a, 1] reads, at (i, u), the vector's entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] spread over b lanes reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The sum along the lanes: entry p is the sum over k of the matrix's entry (p, k). -/
theorem laneSum_apply {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

/-- The maximum along the lanes: entry p is the fold of `max`, from the accumulator's value, over k of the
    matrix's entry (p, k). -/
theorem laneMax_apply {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  refine congrArg (fun f => (Finset.univ : Finset (Fin b)).fold max (Ideal.ofBits φ acc) f) (funext fun k => ?_)
  refine congrArg src (funext fun ax => Fin.ext ?_)
  match ax with
  | ⟨0, _⟩ => rfl
  | ⟨1, _⟩ => rfl

section AtIdeal
variable {s : Shape} {φ : FTy}

/-- The reciprocal square root, entry by entry. -/
theorem rsqrt_apply (x : FVec Ideal s φ) (i : s.Idx) : rsqrt x i = Ideal.rsqrt (x i) := rfl
/-- The exponential, entry by entry. -/
theorem exp_apply (x : FVec Ideal s φ) (i : s.Idx) : exp x i = Ideal.exp (x i) := rfl

end AtIdeal

end Cert.KernelIdeal.Val

end
-- ==== Proof.ValueRows.lean ====
/-
  The kernel's row-wise mathematics, stated once over a single row of 1024 extended reals: every stage of the
  block after a projection acts on each row (each position of each sequence) by itself, so what a region leaves at
  row r of its output is one function of row r of its inputs and of the shared weights.
  A dense layer of a row: (x · w)(j) + b(j). The rectifier: max(x(j), 0). The layer normalisation of a row s with
  scale g and shift b: (s(q) − mean s) · rsqrt(var s + ε) · g(q) + b(q), the mean and the variance being the lane
  sum divided by 1024. The softmax of a row of scores: exp(s(k) − max s) divided by the sum of those exponentials;
  the attention output of a row of weights p against the values: ∑ₖ p(k) · V(k, e).
-/
import Idealize.ShloMosaic.PureOps.Ideal
import Idealize.ShloMosaic.Lib.ValueIdx

noncomputable section

namespace Cert.KernelIdeal.Val

open Idealize.ShloMosaic Idealize.ShloMosaic.ValueIdx
open scoped BigOperators

/-- One row: 1024 lanes. -/
abbrev Row : Type := Fin 1024 → EReal
/-- A 1024 × 1024 weight. -/
abbrev Mat : Type := (⟨2, ![1024, 1024]⟩ : Shape).Idx → EReal

/-- 1024, as the word the kernel divides by. -/
abbrev lanes : EReal := Ideal.ofBits .f32 0x44800000#32
/-- The normalisation's ε, as the kernel's word. -/
abbrev epsilon : EReal := Ideal.ofBits .f32 0x3A83126F#32
/-- The score scale 2⁻⁵, as the kernel's word. -/
abbrev scoreScale : EReal := Ideal.ofBits .f32 0x3D000000#32
/-- The maximum's initial value, −∞, as the kernel's word. -/
abbrev negInf : EReal := Ideal.ofBits .f32 0xFF800000#32

/-- A row times a weight: entry j is ∑ₖ x(k) · w(k, j). -/
def projRow (x : Row) (w : Mat) : Row := fun j => ∑ k : Fin 1024, x k * w (ix2 k j)
/-- A dense layer of a row. -/
def denseRow (x : Row) (w : Mat) (b : Row) : Row := fun j => projRow x w j + b j
/-- The rectifier. -/
def reluRow (x : Row) : Row := fun j => max (x j) 0
/-- The feed-forward layer of a row: dense, rectifier, dense. -/
def ffnRow (x : Row) (w1 : Mat) (b1 : Row) (w2 : Mat) (b2 : Row) : Row := denseRow (reluRow (denseRow x w1 b1)) w2 b2

/-- The mean of a row. -/
def meanRow (s : Row) : EReal := Ideal.div (∑ q : Fin 1024, s q) lanes
/-- The variance of a row. -/
def varRow (s : Row) : EReal := Ideal.div (∑ q : Fin 1024, (s q - meanRow s) * (s q - meanRow s)) lanes
/-- The layer normalisation of a row. -/
def layerNormRow (s g b : Row) : Row := fun q => (s q - meanRow s) * Ideal.rsqrt (varRow s + epsilon) * g q + b q

/-- The third stage on a row: the feed-forward layer, the residual, the normalisation, the rectifier. -/
def ffnNormRow (x : Row) (w1 : Mat) (b1 : Row) (w2 : Mat) (b2 g b : Row) : Row :=
  reluRow (layerNormRow (fun q => ffnRow x w1 b1 w2 b2 q + x q) g b)

/-- The maximum of a row of scores, from −∞. -/
def maxRow (s : Row) : EReal := (Finset.univ : Finset (Fin 1024)).fold max negInf s
/-- The shifted exponentials of a row of scores. -/
def expRow (s : Row) : Row := fun k => Ideal.exp (s k - maxRow s)
/-- The softmax of a row of scores. -/
def softmaxRow (s : Row) : Row := fun k => Ideal.div (expRow s k) (∑ k' : Fin 1024, expRow s k')
/-- A row of attention weights against the values (a 1024 × 1024 matrix, key position by lane). -/
def attnRow (p : Row) (v : Mat) : Row := fun e => ∑ k : Fin 1024, p k * v (ix2 k e)
/-- A query row against the keys (key position by lane), scaled: entry k is (∑ₒ q(o) · K(k, o)) · 2⁻⁵. -/
def scoreRow (q : Row) (kmat : Mat) : Row := fun k => (∑ o : Fin 1024, q o * kmat (ix2 k o)) * scoreScale
/-- The causal mask of the scores of query position n: key positions after n are at ⊥. -/
def maskRow (n : ℕ) (s : Row) : Row := fun k => if n < k.val then ⊥ else s k

/-- An attention stage on a row: the softmax of the scores against the values, the residual, the normalisation. -/
def attnNormRow (s : Row) (v : Mat) (res g b : Row) : Row :=
  layerNormRow (fun e => attnRow (softmaxRow s) v e + res e) g b

end Cert.KernelIdeal.Val

end
-- ==== Proof.ValueAttn.lean ====
/-
  The pieces the two attention regions share, on a block of 256 query rows against 1024 keys of width 1024, read at
  an index at the ideal values.
  The kernel's softmax of a block of scores: the lane maximum (from −∞) kept as a column and spread back, the
  exponential of the difference, the lane sum kept as a column and spread back, the quotient. Entry (p, k) is the
  softmax of row p of the scores, at lane k. The kernel's layer normalisation of a block: the lane mean, the lane mean
  of the squared differences, the reciprocal square root, the scale and the shift; entry (p, e) is the layer
  normalisation of row p at lane e. The attention output: the softmax, as bf16, times the values, plus the residual.
-/
import proofs.«105197_j1417339207765_2_alg».proof.Proof.Gen.KernelIdeal.Skeleton
import proofs.«105197_j1417339207765_2_alg».proof.Proof.ValueMatmul
import proofs.«105197_j1417339207765_2_alg».proof.Proof.ValueLayout
import proofs.«105197_j1417339207765_2_alg».proof.Proof.ValueRows
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen
open Idealize.ShloMosaic Idealize.ShloMosaic.TcCoe Idealize.ShloMosaic.ValueIdx Idealize.SL.Sem
open Idealize.SL Idealize.SL.RA
open Idealize.ShloMosaic.Pipeline (Dat)
open scoped BigOperators

/-! ## The operations of the body, at this region's sizes -/

theorem zero_offsetsA_3 : (![0, 0, 0] : Fin 3 → Nat) = fun _ => 0 :=
  funext fun a => by match a with | ⟨0, _⟩ => rfl | ⟨1, _⟩ => rfl | ⟨2, _⟩ => rfl
theorem zero_offsetsA_2 : (![0, 0] : Fin 2 → Nat) = fun _ => 0 :=
  funext fun a => by match a with | ⟨0, _⟩ => rfl | ⟨1, _⟩ => rfl

/-- A 256 × 1024 block times a 1024 × 1024 matrix, into the zero accumulator. -/
theorem matmulA (A : FVec Ideal S256x1024 .bf16) (B : FVec Ideal S1024x1024 .bf16) (p : Fin 256) (q : Fin 1024) :
    matmul dot_S256x1024_S1024x1024_S256x1024_1_0_0_1_n_n none A B (constant S256x1024 .f32 0x00000000#32) (ix2 p q)
      = ∑ c : Fin 1024, A (ix2 p c) * B (ix2 c q) :=
  matmul_zero_apply _ none A B p q

/-- The keys transposed. -/
theorem transposedA {α : Type} (x : S1024x1024.Idx → α) (j i : Fin 1024) :
    transpose S1024x1024 [1, 0] x transposes_S1024x1024_p1_0_S1024x1024 (ix2 j i) = x (ix2 i j) :=
  transpose_ix2_apply x _ j i

/-- A block of one batch entry, its unit axis dropped. -/
theorem dropUnitQA {α : Type} (x : S1x256x1024.Idx → α) (p : Fin 256) (q : Fin 1024) :
    shapeCast S256x1024 x shapeCasts_S1x256x1024_S256x1024 (ix2 p q) = x (ix3 (0 : Fin 1) p q) :=
  shapeCast_1ab_ab_apply x _ p q
theorem dropUnitKA {α : Type} (x : S1x1024x1024.Idx → α) (p q : Fin 1024) :
    shapeCast S1024x1024 x shapeCasts_S1x1024x1024_S1024x1024 (ix2 p q) = x (ix3 (0 : Fin 1) p q) :=
  shapeCast_1ab_ab_apply x _ p q
/-- The result block, the unit axis put back. -/
theorem addUnitA {α : Type} (x : S256x1024.Idx → α) (u : Fin 1) (p : Fin 256) (q : Fin 1024) :
    shapeCast S1x256x1024 x shapeCasts_S256x1024_S1x256x1024 (ix3 u p q) = x (ix2 p q) :=
  shapeCast_ab_1ab_apply x _ u p q

/-- A row vector spread over the block's rows. -/
theorem spreadRowA (v : FVec Ideal S1x1024 .f32) (p : Fin 256) (q : Fin 1024) :
    broadcastTo S256x1024 v broadcasts_S1x1024_S256x1024 (ix2 p q) = v (ix2 (0 : Fin 1) q) :=
  broadcastTo_1b_ab_apply v _ p q
/-- A column of row statistics spread over the lanes. -/
theorem spreadColA (v : FVec Ideal S256x1 .f32) (p : Fin 256) (q : Fin 1024) :
    broadcastTo S256x1024 v broadcasts_S256x1_S256x1024 (ix2 p q) = v (ix2 p (0 : Fin 1)) :=
  broadcastTo_a1_ab_apply v _ p q
/-- The row statistics kept as a column. -/
theorem columnA (v : FVec Ideal S256 .f32) (p : Fin 256) (u : Fin 1) :
    shapeCast S256x1 v shapeCasts_S256_S256x1 (ix2 p u) = v (ix1 p) :=
  shapeCast_a_a1_apply v _ p u
/-- The lane sum of a block. -/
theorem laneSumA (src : FVec Ideal S256x1024 .f32) (hφ : FKind.Formats .f32)
    (hacc : (0x00000000#32 : BitVec 32) = 0x00000000#32) (p : Fin 256) :
    multiReduction .add [1] S256 src 0x00000000#32 reduces_S256x1024_S256 hφ hacc (ix1 p)
      = ∑ k : Fin 1024, src (ix2 p k) :=
  laneSum_apply src _ _ hφ hacc p
/-- The lane maximum of a block, from −∞. -/
theorem laneMaxA (src : FVec Ideal S256x1024 .f32) (hφ : FKind.Formats .f32)
    (hacc : (0xFF800000#32 : BitVec 32) = 0xFF800000#32) (p : Fin 256) :
    multiReduction .maximumf [1] S256 src 0xFF800000#32 reduces_S256x1024_S256 hφ hacc (ix1 p)
      = maxRow (fun k => src (ix2 p k)) :=
  laneMax_apply src _ _ hφ hacc p

/-! ## The kernel's softmax of a block of scores -/

/-- The softmax as the body computes it, on the whole block. -/
def kSoftmax (M : FVec Ideal S256x1024 .f32) : FVec Ideal S256x1024 .f32 :=
  divf
    (exp (subf M (broadcastTo S256x1024 (shapeCast S256x1
      (multiReduction .maximumf [1] S256 M 0xFF800000#32 reduces_S256x1024_S256 (.inl rfl) rfl) shapeCasts_S256_S256x1) broadcasts_S256x1_S256x1024)))
    (broadcastTo S256x1024 (shapeCast S256x1
      (multiReduction .add [1] S256
        (exp (subf M (broadcastTo S256x1024 (shapeCast S256x1
          (multiReduction .maximumf [1] S256 M 0xFF800000#32 reduces_S256x1024_S256 (.inl rfl) rfl) shapeCasts_S256_S256x1) broadcasts_S256x1_S256x1024)))
        0x00000000#32 reduces_S256x1024_S256 (.inl rfl) rfl) shapeCasts_S256_S256x1) broadcasts_S256x1_S256x1024)

/-- Entry (p, k): the softmax of row p of the scores, at lane k. -/
theorem kSoftmax_apply (M : FVec Ideal S256x1024 .f32) (p : Fin 256) (k : Fin 1024) :
    kSoftmax M (ix2 p k) = softmaxRow (fun k' => M (ix2 p k')) k := by
  unfold kSoftmax softmaxRow expRow
  simp only [divf_apply, exp_apply, subf_apply, spreadColA, columnA]
  refine congrArg₂ (fun a b => Ideal.div (Ideal.exp (M (ix2 p k) - a)) b) (laneMaxA M _ _ p)
    ((laneSumA _ _ _ p).trans (Finset.sum_congr rfl fun x _ => ?_))
  simp only [exp_apply, subf_apply, spreadColA, columnA]
  exact congrArg (fun z => Ideal.exp (M (ix2 p x) - z)) (laneMaxA M _ _ p)

/-! ## The kernel's layer normalisation of a block -/

/-- The lane mean, kept as a column. -/
def kMean (s : FVec Ideal S256x1024 .f32) : FVec Ideal S256x1 .f32 :=
  divf (shapeCast S256x1 (multiReduction .add [1] S256 s 0x00000000#32 reduces_S256x1024_S256 (.inl rfl) rfl) shapeCasts_S256_S256x1)
    (broadcast S256x1 (Scalar.ofBits .f32 0x44800000#32))

theorem kMean_apply (s : FVec Ideal S256x1024 .f32) (p : Fin 256) (u : Fin 1) :
    kMean s (ix2 p u) = meanRow (fun e => s (ix2 p e)) := by
  unfold kMean meanRow
  simp only [divf_apply, broadcast_apply, columnA]
  exact congrArg (fun z => Ideal.div z lanes) (laneSumA _ _ _ p)

/-- The lane mean of the squared differences from the mean, kept as a column. -/
def kVar (s : FVec Ideal S256x1024 .f32) : FVec Ideal S256x1 .f32 :=
  divf (shapeCast S256x1 (multiReduction .add [1] S256
      (mulf (subf s (broadcastTo S256x1024 (kMean s) broadcasts_S256x1_S256x1024)) (subf s (broadcastTo S256x1024 (kMean s) broadcasts_S256x1_S256x1024)))
      0x00000000#32 reduces_S256x1024_S256 (.inl rfl) rfl) shapeCasts_S256_S256x1)
    (broadcast S256x1 (Scalar.ofBits .f32 0x44800000#32))

theorem kVar_apply (s : FVec Ideal S256x1024 .f32) (p : Fin 256) (u : Fin 1) :
    kVar s (ix2 p u) = varRow (fun e => s (ix2 p e)) := by
  unfold kVar varRow
  simp only [divf_apply, broadcast_apply, columnA]
  refine congrArg (fun z => Ideal.div z lanes) ((laneSumA _ _ _ p).trans (Finset.sum_congr rfl fun x _ => ?_))
  simp only [mulf_apply, subf_apply, spreadColA, kMean_apply]

/-- The normalised block: the difference from the mean, times the reciprocal square root of the variance plus ε,
    times the scale, plus the shift. -/
def kNorm (s : FVec Ideal S256x1024 .f32) (g b : FVec Ideal S1x1024 .f32) : FVec Ideal S256x1024 .f32 :=
  addf
    (mulf
      (mulf (subf s (broadcastTo S256x1024 (kMean s) broadcasts_S256x1_S256x1024))
        (broadcastTo S256x1024 (rsqrt (addf (kVar s) (broadcast S256x1 (Scalar.ofBits .f32 0x3A83126F#32)))) broadcasts_S256x1_S256x1024))
      (broadcastTo S256x1024 (shapeCast S1x1024 g shapeCasts_S1x1024_S1x1024) broadcasts_S1x1024_S256x1024))
    (broadcastTo S256x1024 (shapeCast S1x1024 b shapeCasts_S1x1024_S1x1024) broadcasts_S1x1024_S256x1024)

/-- Entry (p, e): the layer normalisation of row p, at lane e. -/
theorem kNorm_apply (s : FVec Ideal S256x1024 .f32) (g b : FVec Ideal S1x1024 .f32) (p : Fin 256) (e : Fin 1024) :
    kNorm s g b (ix2 p e)
      = layerNormRow (fun e' => s (ix2 p e')) (fun j => g (ix2 (0 : Fin 1) j)) (fun j => b (ix2 (0 : Fin 1) j)) e := by
  unfold kNorm layerNormRow
  simp only [shapeCast_self, addf_apply, mulf_apply, subf_apply, rsqrt_apply, broadcast_apply, spreadRowA, spreadColA,
    kMean_apply, kVar_apply]
  rfl

/-! ## The attention output -/

/-- The weights, as bf16, times the values, plus the residual: entry (p, e). -/
theorem attnOut_apply (P : FVec Ideal S256x1024 .f32) (v : FVec Ideal S1024x1024 .bf16) (res : FVec Ideal S256x1024 .f32)
    (p : Fin 256) (e : Fin 1024) :
    addf (matmul dot_S256x1024_S1024x1024_S256x1024_1_0_0_1_n_n none (truncf .bf16 P bitsLt_bf16_f32) v
        (constant S256x1024 .f32 0x00000000#32)) res (ix2 p e)
      = attnRow (fun k => P (ix2 p k)) v e + res (ix2 p e) := by
  unfold attnRow
  simp only [addf_apply, matmulA, truncf_apply]

end Cert.KernelIdeal.Val

end
-- ==== Proof.Value1Pay.lean ====
/-
  Region 1 of the idealized kernel, the body's result block at an index: causal self-attention of a block of 256
  query rows of one batch entry against that entry's 1024 keys and values, the residual and the layer normalisation.
  The scores of query row p against key k: the sum over the width of q(p, o) · K(k, o), times 2⁻⁵; where key
  position k is after the query's position in the sequence (256 times the point's second coordinate, plus p) the
  score is replaced by the mask's value, which is ⊥ at the ideal values. The comparison is made on 32-bit words of
  numbers below 1024, where the signed comparison is the comparison of the numbers. Then the softmax of the row, the
  weighted sum of the values, the residual and the normalisation: entry (0, p, e) of the output block is
  `attnNormRow` of the masked scores of row p, the values, row p of the residual, the scale and the shift, at lane e.
-/
import proofs.«105197_j1417339207765_2_alg».proof.Proof.Region1
import proofs.«105197_j1417339207765_2_alg».proof.Proof.ValueMatmul
import proofs.«105197_j1417339207765_2_alg».proof.Proof.ValueLayout
import proofs.«105197_j1417339207765_2_alg».proof.Proof.ValueRows
import proofs.«105197_j1417339207765_2_alg».proof.Proof.ValueAttn
import Idealize.ShloMosaic.Lib.Affine
import Idealize.ShloMosaic.Lib.Pipeline.Value
import Idealize.ShloMosaic.Lib.ValueIdx
import Idealize.ShloMosaic.Lib.ValueLayout
import Idealize.ShloMosaic.Lib.ValueIdxCoords
import Idealize.ShloMosaic.PureOps.Ideal.Laws

noncomputable section

namespace Cert.KernelIdeal.Val

open Cert.KernelIdeal Cert.KernelIdeal.Gen
open Idealize.ShloMosaic Idealize.ShloMosaic.TcCoe Idealize.ShloMosaic.ValueIdx Idealize.SL.Sem
open Idealize.SL Idealize.SL.RA
open Idealize.ShloMosaic.Pipeline (Dat)
open scoped BigOperators

/-! ## The causal mask -/

/-- The row coordinate, as the kernel's 32-bit word. -/
theorem iotaRow1 (p : Fin 256) (k : Fin 1024) :
    iota .tc S256x1024 32 [0] iota_S256x1024_d0_w32 (ix2 p k) = BitVec.ofNat 32 p.val :=
  iota_single_apply .tc S256x1024 32 0 iota_S256x1024_d0_w32 (ix2 p k)
/-- The lane coordinate, as the kernel's 32-bit word. -/
theorem iotaLane1 (p : Fin 256) (k : Fin 1024) :
    iota .tc S256x1024 32 [1] iota_S256x1024_d1_w32 (ix2 p k) = BitVec.ofNat 32 k.val :=
  iota_single_apply .tc S256x1024 32 1 iota_S256x1024_d1_w32 (ix2 p k)

theorem cmpi_apply {s : Shape} {w : ℕ} (pr : CmpIPredicate) (x y : IVec s w) (i : s.Idx) :
    cmpi pr x y i = IntOp.cmpi pr (x i) (y i) := rfl
theorem addi_apply {s : Shape} {w : ℕ} (x y : IVec s w) (i : s.Idx) : addi x y i = IntOp.addi (x i) (y i) := rfl

/-- The mask's comparison, on the small numbers it is made on: key position k is after query position 256 a + p
    exactly when the signed comparison of the two words says so. -/
theorem causal_bit (a : ℕ) (ha : a < 4) (p : Fin 256) (k : Fin 1024) :
    IntOp.cmpi .sgt (BitVec.ofNat 32 k.val) (IntOp.addi (Scalar.muli (BitVec.ofNat 32 a) 256#32) (BitVec.ofNat 32 p.val)) = 1#1
      ↔ a * 256 + p.val < k.val := by
  have hp := p.isLt
  have hk := k.isLt
  have e : IntOp.addi (Scalar.muli (BitVec.ofNat 32 a) 256#32) (BitVec.ofNat 32 p.val) = BitVec.ofNat 32 (a * 256 + p.val) := by
    apply BitVec.eq_of_toNat_eq
    show ((BitVec.ofNat 32 a * 256#32 + BitVec.ofNat 32 p.val : BitVec 32)).toNat = _
    simp only [BitVec.toNat_add, BitVec.toNat_mul, BitVec.toNat_ofNat]
    omega
  rw [IntOp.cmpi_sgt, e, BitVec.toInt_eq_toNat_of_lt (by simp only [BitVec.toNat_ofNat]; omega),
    BitVec.toInt_eq_toNat_of_lt (by simp only [BitVec.toNat_ofNat]; omega)]
  simp only [BitVec.toNat_ofNat]
  omega

/-- So the select on that bit is the `if` on the positions. -/
theorem select_causal {α : Type} (a : ℕ) (ha : a < 4) (p : Fin 256) (k : Fin 1024) (x y : α) :
    Scalar.select (IntOp.cmpi .sgt (BitVec.ofNat 32 k.val) (IntOp.addi (Scalar.muli (BitVec.ofNat 32 a) 256#32) (BitVec.ofNat 32 p.val))) x y
      = if a * 256 + p.val < k.val then x else y := by
  unfold Scalar.select
  exact if_congr (causal_bit a ha p k) rfl rfl

/-- The mask's value, the named constant, is ⊥ at the ideal values. -/
theorem negBig_eq : (Named.named (F := Ideal) κ "neg_big" (φ := .f32) 0xFF333332#32 : EReal) = ⊥ := rfl

/-! ## The masked scores -/

/-- The masked, scaled scores as the body computes them, on the whole block. -/
def kScores1 (i : grid1.Coords) (q : FVec Ideal S256x1024 .bf16) (kt : FVec Ideal S1024x1024 .bf16) : FVec Ideal S256x1024 .f32 :=
  select (cmpi .sgt (iota .tc S256x1024 32 [1] iota_S256x1024_d1_w32)
      (addi (broadcast S256x1024 (Scalar.muli (BitVec.ofNat 32 (i 1).val) 256#32)) (iota .tc S256x1024 32 [0] iota_S256x1024_d0_w32)))
    (broadcast S256x1024 (Named.named κ "neg_big" 0xFF333332#32))
    (mulf (matmul dot_S256x1024_S1024x1024_S256x1024_1_0_0_1_n_n none q kt (constant S256x1024 .f32 0x00000000#32))
      (broadcast S256x1024 (Scalar.ofBits .f32 0x3D000000#32)))

/-- Entry (p, k): the scaled score, or ⊥ where the key is after the query. -/
theorem kScores1_apply (i : grid1.Coords) (q : FVec Ideal S256x1024 .bf16) (kt : FVec Ideal S1024x1024 .bf16)
    (p : Fin 256) (k : Fin 1024) :
    kScores1 i q kt (ix2 p k)
      = maskRow ((i 1).val * 256 + p.val) (fun k' => (∑ o : Fin 1024, q (ix2 p o) * kt (ix2 o k')) * scoreScale) k := by
  unfold kScores1 maskRow
  simp only [select_apply, cmpi_apply, addi_apply, broadcast_apply, mulf_apply, matmulA]
  refine (congrArg₂ (fun a b => Scalar.select (IntOp.cmpi .sgt a (IntOp.addi (Scalar.muli (BitVec.ofNat 32 (i 1).val) 256#32) b))
      (Named.named (F := Ideal) κ "neg_big" (φ := .f32) 0xFF333332#32) ((∑ o : Fin 1024, q (ix2 p o) * kt (ix2 o k)) * scoreScale))
    (iotaLane1 p k) (iotaRow1 p k)).trans ?_
  rw [negBig_eq]
  exact select_causal (i 1).val (i 1).isLt p k _ _

/-- The masked, scaled scores of query row p of the block at grid point i against the keys. -/
def scores1 (i : grid1.Coords) (x0 : Vec Ideal S1x256x1024 .bf16) (x1 : Vec Ideal S1x1024x1024 .bf16) (p : Fin 256) : Row :=
  maskRow ((i 1).val * 256 + p.val) (scoreRow (fun o => x0 (ix3 (0 : Fin 1) p o)) (fun y => x1 (ix3 (0 : Fin 1) (y 0) (y 1))))

/-! ## The body's payloads -/

/-- The attention output plus the residual is the shared pieces composed. -/
theorem k1_pay2_eq (i : grid1.Coords) (v0 : Vec Ideal S1x256x1024 .bf16) (v2 v4 : Vec Ideal S1x1024x1024 .bf16)
    (v29 : Vec Ideal S1x256x1024 .f32) :
    k1_pay2 i v0 v2 v4 v29
      = addf (matmul dot_S256x1024_S1024x1024_S256x1024_1_0_0_1_n_n none
          (truncf .bf16 (kSoftmax (kScores1 i (shapeCast S256x1024 v0 shapeCasts_S1x256x1024_S256x1024 : FVec Ideal S256x1024 .bf16)
            (transpose S1024x1024 [1, 0] (shapeCast S1024x1024 v2 shapeCasts_S1x1024x1024_S1024x1024 : FVec Ideal S1024x1024 .bf16)
              transposes_S1024x1024_p1_0_S1024x1024)))
            bitsLt_bf16_f32)
          (shapeCast S1024x1024 v4 shapeCasts_S1x1024x1024_S1024x1024 : FVec Ideal S1024x1024 .bf16) (constant S256x1024 .f32 0x00000000#32))
        (shapeCast S256x1024 v29 shapeCasts_S1x256x1024_S256x1024 : FVec Ideal S256x1024 .f32) := rfl

/-- The keys transposed, as a function of the index. -/
theorem transposedFun1 {α : Type} (x : S1024x1024.Idx → α) :
    transpose S1024x1024 [1, 0] x transposes_S1024x1024_p1_0_S1024x1024 = fun y => x (ix2 (y 1) (y 0)) := by
  funext y
  obtain ⟨a, b, rfl⟩ : ∃ (a b : Fin 1024), y = ix2 a b := ⟨y 0, y 1, eq_ix2 y⟩
  exact transposedA x a b

/-- Entry (p, e) of it. -/
theorem k1_pay2_apply (i : grid1.Coords) (v0 : Vec Ideal S1x256x1024 .bf16) (v2 v4 : Vec Ideal S1x1024x1024 .bf16)
    (v29 : Vec Ideal S1x256x1024 .f32) (p : Fin 256) (e : Fin 1024) :
    k1_pay2 i v0 v2 v4 v29 (ix2 p e)
      = attnRow (softmaxRow (scores1 i v0 v2 p)) (fun y => v4 (ix3 (0 : Fin 1) (y 0) (y 1))) e + v29 (ix3 (0 : Fin 1) p e) := by
  rw [k1_pay2_eq, attnOut_apply, transposedFun1]
  unfold attnRow scores1 scoreRow
  simp only [kSoftmax_apply, kScores1_apply, transposedA, dropUnitQA, dropUnitKA, ix2_0, ix2_1]

/-- The normalisation of the block is the shared layer normalisation of the attention output plus the residual. -/
theorem k1_norm_eq (i : grid1.Coords) (v0 : Vec Ideal S1x256x1024 .bf16) (v2 v4 : Vec Ideal S1x1024x1024 .bf16)
    (v29 : Vec Ideal S1x256x1024 .f32) (g b : Vec Ideal S1x1024 .f32) :
    k1_pay1 (k1_pay2 i v0 v2 v4 v29) (k1_pay3 i v0 v2 v4 v29) (k1_pay4 i v0 v2 v4 v29) g b
      = shapeCast S1x256x1024 (kNorm (k1_pay2 i v0 v2 v4 v29) g b) shapeCasts_S256x1024_S1x256x1024 := rfl

/-- Entry (u, p, e) of the output block: the attention stage on row p. -/
theorem out1_6_apply (i : grid1.Coords) (x0 : Vec Ideal S1x256x1024 .bf16) (x1 x2 : Vec Ideal S1x1024x1024 .bf16)
    (x3 : Vec Ideal S1x256x1024 .f32) (x4 x5 : Vec Ideal S1x1024 .f32) (u : Fin 1) (p : Fin 256) (e : Fin 1024) :
    out1_6 i x0 x1 x2 x3 x4 x5 (ix3 u p e)
      = attnNormRow (scores1 i x0 x1 p) (fun y => x2 (ix3 (0 : Fin 1) (y 0) (y 1))) (fun e' => x3 (ix3 (0 : Fin 1) p e'))
          (fun j => x4 (ix2 (0 : Fin 1) j)) (fun j => x5 (ix2 (0 : Fin 1) j)) e := by
  unfold out1_6
  rw [View.canon_unit_zero zero_offsetsA_3]
  simp only [View.ld_unit_zero (S := S1x256x1024) zero_offsetsA_3, View.ld_unit_zero (S := S1x1024x1024) zero_offsetsA_3,
    View.ld_unit_zero (S := S1x1024) zero_offsetsA_2]
  rw [k1_norm_eq, addUnitA, kNorm_apply]
  unfold attnNormRow
  simp only [k1_pay2_apply]

end Cert.KernelIdeal.Val

end
-- ==== Proof.Value1.lean ====
/-
  Region 1 of the idealized kernel, from blocks to the array.
  Point t of the 8 × 4 grid takes batch entry b and query rows 256 r … 256 r + 255 (b, r the point's coordinates):
  it reads that block of the packed projections at column block 0 (the queries), the batch entry's whole column
  blocks 1 and 2 (the keys and the values), the same block of the residual and the normalisation's scale and shift,
  and writes block (b, r) of the output. A query row's position in the sequence is 256 r + p, its row in the array.
  So what a point writes back is its block of ONE function of the arrays (`selfAttnNorm1`: the causal attention stage
  of each row), and the 32 blocks tile the output array.
-/
import proofs.«105197_j1417339207765_2_alg».proof.Proof.Region1
import proofs.«105197_j1417339207765_2_alg».proof.Proof.ValueMatmul
import proofs.«105197_j1417339207765_2_alg».proof.Proof.ValueLayout
import proofs.«105197_j1417339207765_2_alg».proof.Proof.ValueRows
import proofs.«105197_j1417339207765_2_alg».proof.Proof.Value1Pay
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen
open Idealize.ShloMosaic Idealize.ShloMosaic.TcCoe Idealize.ShloMosaic.ValueIdx Idealize.SL.Sem
open Idealize.SL Idealize.SL.RA
open Idealize.ShloMosaic.Pipeline (Dat)
open scoped BigOperators

/-! ## From blocks to the array -/

variable (V : (c : Dev nD) → (b : Ref sig .tc) → Buf (Elt Ideal) ((c : Thread nD τ).loc b))
variable (sh : Fin cfg1.W → PosShare TreeShare)

/-- Lane o of column block 0, 1, 2 of the packed projections. -/
abbrev colQ (o : Fin 1024) : Fin 3072 := ⟨o.val, by omega⟩
abbrev colK (o : Fin 1024) : Fin 3072 := ⟨1024 + o.val, by omega⟩
abbrev colV (o : Fin 1024) : Fin 3072 := ⟨2048 + o.val, by omega⟩

/-- The causal attention stage on the whole arrays: at (b, s, e), the query row (b, s) of column block 0 of `Q`
    against the keys (b, ·) of column block 1 of `K`, masked after position s, the values (b, ·) of column block 2
    of `Vv`, the residual row (b, s), normalised, at lane e. -/
def selfAttnNorm1 (Q K Vv : Vec Ideal S8x1024x3072 .bf16) (R : Vec Ideal S8x1024x1024 .f32) (G B : Vec Ideal S1x1024 .f32) :
    Vec Ideal S8x1024x1024 .f32 :=
  fun i => attnNormRow
    (maskRow (i 1).val (scoreRow (fun o => Q (ix3 (i 0) (i 1) (colQ o))) (fun y => K (ix3 (i 0) (y 0) (colK (y 1))))))
    (fun y => Vv (ix3 (i 0) (y 0) (colV (y 1)))) (fun e => R (ix3 (i 0) (i 1) e))
    (fun j => G (ix2 (0 : Fin 1) j)) (fun j => B (ix2 (0 : Fin 1) j)) (i 2)

/-- The printed index maps, decided over the grid. The output block of point `t` is (b, r, 0) with r the point's
    second coordinate; -/
theorem block_indices1_6 : ∀ t : Fin cfg1.N, win1_6.index t (0 : Fin 3) < 8 ∧ win1_6.index t (1 : Fin 3) < 4
    ∧ win1_6.index t (2 : Fin 3) = 0 ∧ win1_6.index t (1 : Fin 3) = ((grid1.coords t) 1).val :=
  (by decide +kernel : ∀ t : Fin grid1.N, _)
/-- the query block is the same block of column block 0; -/
theorem block_indices1_0 : ∀ t : Fin cfg1.N, win1_0.index t (0 : Fin 3) = win1_6.index t (0 : Fin 3)
    ∧ win1_0.index t (1 : Fin 3) = win1_6.index t (1 : Fin 3) ∧ win1_0.index t (2 : Fin 3) = 0 :=
  (by decide +kernel : ∀ t : Fin grid1.N, _)
/-- the keys are the batch entry's whole column block 1; -/
theorem block_indices1_1 : ∀ t : Fin cfg1.N, win1_1.index t (0 : Fin 3) = win1_6.index t (0 : Fin 3)
    ∧ win1_1.index t (1 : Fin 3) = 0 ∧ win1_1.index t (2 : Fin 3) = 1 :=
  (by decide +kernel : ∀ t : Fin grid1.N, _)
/-- the values its whole column block 2; -/
theorem block_indices1_2 : ∀ t : Fin cfg1.N, win1_2.index t (0 : Fin 3) = win1_6.index t (0 : Fin 3)
    ∧ win1_2.index t (1 : Fin 3) = 0 ∧ win1_2.index t (2 : Fin 3) = 2 :=
  (by decide +kernel : ∀ t : Fin grid1.N, _)
/-- the residual block is the output's block; -/
theorem block_indices1_3 : ∀ t : Fin cfg1.N, win1_3.index t (0 : Fin 3) = win1_6.index t (0 : Fin 3)
    ∧ win1_3.index t (1 : Fin 3) = win1_6.index t (1 : Fin 3) ∧ win1_3.index t (2 : Fin 3) = 0 :=
  (by decide +kernel : ∀ t : Fin grid1.N, _)
/-- the scale and the shift are read whole; -/
theorem whole_indices1_4 : ∀ t : Fin cfg1.N, win1_4.index t (0 : Fin 2) = 0 ∧ win1_4.index t (1 : Fin 2) = 0 :=
  (by decide +kernel : ∀ t : Fin grid1.N, _)

theorem whole_indices1_5 : ∀ t : Fin cfg1.N, win1_5.index t (0 : Fin 2) = 0 ∧ win1_5.index t (1 : Fin 2) = 0 :=
  (by decide +kernel : ∀ t : Fin grid1.N, _)

/-- and every (batch entry, block of rows) is some point's. -/
theorem block_onto1 : ∀ (b : Fin 8) (r : Fin 4), ∃ t : Fin cfg1.N, win1_6.index t (0 : Fin 3) = b.val ∧ win1_6.index t (1 : Fin 3) = r.val :=
  (by decide +kernel : ∀ (b : Fin 8) (r : Fin 4), ∃ t : Fin grid1.N, _)

/-- The query block at point `t`: rows of column block 0 of the packed array. -/
theorem iblk1_0_apply (c : Dev nD) (t : Fin cfg1.N) (p : Fin 256) (o : Fin 1024) (b : Fin 8) (s : Fin 1024)
    (hb : b.val = win1_6.index t (0 : Fin 3)) (hs : s.val = win1_6.index t (1 : Fin 3) * 256 + p.val) :
    (iblk1 V c 0 t : Vec Ideal S1x256x1024 .bf16) (ix3 (0 : Fin 1) p o) = (V c (Pipeline.arrRef spec1 0) : Vec Ideal S8x1024x3072 .bf16) (ix3 b s (colQ o)) := by
  obtain ⟨e0, e1, e2⟩ := block_indices1_0 t
  show V c (Pipeline.arrRef spec1 0) (((cfg1.win 0).blk t).view.emb (ix3 (0 : Fin 1) p o)) = V c (Pipeline.arrRef spec1 0) _
  refine congrArg _ (funext fun a => Fin.ext ?_)
  match a with
  | ⟨0, _⟩ => show win1_0.index t (0 : Fin 3) * 1 + 1 * 0 = b.val; omega
  | ⟨1, _⟩ => show win1_0.index t (1 : Fin 3) * 256 + 1 * p.val = s.val; omega
  | ⟨2, _⟩ => show win1_0.index t (2 : Fin 3) * 1024 + 1 * o.val = o.val; omega

/-- The key block at point `t`: the batch entry's column block 1. -/
theorem iblk1_1_apply (c : Dev nD) (t : Fin cfg1.N) (k : Fin 1024) (o : Fin 1024) (b : Fin 8)
    (hb : b.val = win1_6.index t (0 : Fin 3)) :
    (iblk1 V c 1 t : Vec Ideal S1x1024x1024 .bf16) (ix3 (0 : Fin 1) k o) = (V c (Pipeline.arrRef spec1 1) : Vec Ideal S8x1024x3072 .bf16) (ix3 b k (colK o)) := by
  obtain ⟨e0, e1, e2⟩ := block_indices1_1 t
  show V c (Pipeline.arrRef spec1 1) (((cfg1.win 1).blk t).view.emb (ix3 (0 : Fin 1) k o)) = V c (Pipeline.arrRef spec1 1) _
  refine congrArg _ (funext fun a => Fin.ext ?_)
  match a with
  | ⟨0, _⟩ => show win1_1.index t (0 : Fin 3) * 1 + 1 * 0 = b.val; omega
  | ⟨1, _⟩ => show win1_1.index t (1 : Fin 3) * 1024 + 1 * k.val = k.val; omega
  | ⟨2, _⟩ => show win1_1.index t (2 : Fin 3) * 1024 + 1 * o.val = 1024 + o.val; omega

/-- The value block at point `t`: the batch entry's column block 2. -/
theorem iblk1_2_apply (c : Dev nD) (t : Fin cfg1.N) (k : Fin 1024) (o : Fin 1024) (b : Fin 8)
    (hb : b.val = win1_6.index t (0 : Fin 3)) :
    (iblk1 V c 2 t : Vec Ideal S1x1024x1024 .bf16) (ix3 (0 : Fin 1) k o) = (V c (Pipeline.arrRef spec1 2) : Vec Ideal S8x1024x3072 .bf16) (ix3 b k (colV o)) := by
  obtain ⟨e0, e1, e2⟩ := block_indices1_2 t
  show V c (Pipeline.arrRef spec1 2) (((cfg1.win 2).blk t).view.emb (ix3 (0 : Fin 1) k o)) = V c (Pipeline.arrRef spec1 2) _
  refine congrArg _ (funext fun a => Fin.ext ?_)
  match a with
  | ⟨0, _⟩ => show win1_2.index t (0 : Fin 3) * 1 + 1 * 0 = b.val; omega
  | ⟨1, _⟩ => show win1_2.index t (1 : Fin 3) * 1024 + 1 * k.val = k.val; omega
  | ⟨2, _⟩ => show win1_2.index t (2 : Fin 3) * 1024 + 1 * o.val = 2048 + o.val; omega

/-- The residual block at point `t`. -/
theorem iblk1_3_apply (c : Dev nD) (t : Fin cfg1.N) (p : Fin 256) (o : Fin 1024) (b : Fin 8) (s : Fin 1024)
    (hb : b.val = win1_6.index t (0 : Fin 3)) (hs : s.val = win1_6.index t (1 : Fin 3) * 256 + p.val) :
    (iblk1 V c 3 t : Vec Ideal S1x256x1024 .f32) (ix3 (0 : Fin 1) p o) = (V c (Pipeline.arrRef spec1 3) : Vec Ideal S8x1024x1024 .f32) (ix3 b s o) := by
  obtain ⟨e0, e1, e2⟩ := block_indices1_3 t
  show V c (Pipeline.arrRef spec1 3) (((cfg1.win 3).blk t).view.emb (ix3 (0 : Fin 1) p o)) = V c (Pipeline.arrRef spec1 3) _
  refine congrArg _ (funext fun a => Fin.ext ?_)
  match a with
  | ⟨0, _⟩ => show win1_3.index t (0 : Fin 3) * 1 + 1 * 0 = b.val; omega
  | ⟨1, _⟩ => show win1_3.index t (1 : Fin 3) * 256 + 1 * p.val = s.val; omega
  | ⟨2, _⟩ => show win1_3.index t (2 : Fin 3) * 1024 + 1 * o.val = o.val; omega

theorem iblk1_4_whole (c : Dev nD) (t : Fin cfg1.N) :
    (iblk1 V c 4 t : Vec Ideal S1x1024 .f32) = V c (Pipeline.arrRef spec1 4) := by
  obtain ⟨e0, e1⟩ := whole_indices1_4 t
  funext y
  show V c (Pipeline.arrRef spec1 4) (((cfg1.win 4).blk t).view.emb y) = V c (Pipeline.arrRef spec1 4) y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 1024 + 1 * (y 1).val = (y 1).val; omega

theorem iblk1_5_whole (c : Dev nD) (t : Fin cfg1.N) :
    (iblk1 V c 5 t : Vec Ideal S1x1024 .f32) = V c (Pipeline.arrRef spec1 5) := by
  obtain ⟨e0, e1⟩ := whole_indices1_5 t
  funext y
  show V c (Pipeline.arrRef spec1 5) (((cfg1.win 5).blk t).view.emb y) = V c (Pipeline.arrRef spec1 5) y
  refine congrArg _ (funext fun a => Fin.ext ?_)
  match a with
  | ⟨0, _⟩ => show win1_5.index t (0 : Fin 2) * 1 + 1 * (y 0).val = (y 0).val; omega
  | ⟨1, _⟩ => show win1_5.index t (1 : Fin 2) * 1024 + 1 * (y 1).val = (y 1).val; omega

set_option maxHeartbeats 1600000 in
/-- What point `t` writes back is its block of the causal attention stage of the arrays as the region finds them. -/
theorem flushed1_6_eq (c : Dev nD) (t : Fin cfg1.N) :
    (dat1 V sh c).flushed 6 t = ((cfg1.win 6).blk t).view.read (Elt Ideal)
      (selfAttnNorm1 (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))) := by
  show (cfg1.win 6).cut (grid1.coords t) ((dat1 V sh c).after 6 t) = _
  rw [after1_6]
  obtain ⟨l0, l1, e62, e61⟩ := block_indices1_6 t
  funext j
  obtain ⟨u, p, e, rfl⟩ : ∃ (u : Fin 1) (p : Fin 256) (e : Fin 1024), j = ix3 u p e := ⟨j 0, j 1, j 2, eq_ix3 j⟩
  refine (out1_6_apply (grid1.coords t) (iblk1 V c 0 t) (iblk1 V c 1 t) (iblk1 V c 2 t) (iblk1 V c 3 t) (iblk1 V c 4 t) (iblk1 V c 5 t) u p e).trans ?_
  rw [iblk1_4_whole V c t, iblk1_5_whole V c t]
  show _ = selfAttnNorm1 (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (((cfg1.win 6).blk t).view.emb (ix3 u p e))
  unfold selfAttnNorm1 scores1
  have hu : u.val = 0 := by omega
  have hb : ((((cfg1.win 6).blk t).view.emb (ix3 u p e)) 0).val = win1_6.index t (0 : Fin 3) := by
    show win1_6.index t (0 : Fin 3) * 1 + 1 * u.val = _; omega
  have hs : ((((cfg1.win 6).blk t).view.emb (ix3 u p e)) 1).val = win1_6.index t (1 : Fin 3) * 256 + p.val := by
    show win1_6.index t (1 : Fin 3) * 256 + 1 * p.val = _; omega
  have he : (((cfg1.win 6).blk t).view.emb (ix3 u p e)) 2 = e := Fin.ext (by
    show win1_6.index t (2 : Fin 3) * 1024 + 1 * e.val = e.val; omega)
  have hn : ((grid1.coords t) 1).val * 256 + p.val = ((((cfg1.win 6).blk t).view.emb (ix3 u p e)) 1).val := by
    rw [hs, e61]
  have hQ : (fun o => (iblk1 V c 0 t : Vec Ideal S1x256x1024 .bf16) (ix3 (0 : Fin 1) p o))
      = fun o => (V c (Pipeline.arrRef spec1 0) : Vec Ideal S8x1024x3072 .bf16)
          (ix3 ((((cfg1.win 6).blk t).view.emb (ix3 u p e)) 0) ((((cfg1.win 6).blk t).view.emb (ix3 u p e)) 1) (colQ o)) :=
    funext fun o => iblk1_0_apply V c t p o _ _ hb hs
  have hK : (fun y : (⟨2, ![1024, 1024]⟩ : Shape).Idx => (iblk1 V c 1 t : Vec Ideal S1x1024x1024 .bf16) (ix3 (0 : Fin 1) (y 0) (y 1)))
      = fun y => (V c (Pipeline.arrRef spec1 1) : Vec Ideal S8x1024x3072 .bf16)
          (ix3 ((((cfg1.win 6).blk t).view.emb (ix3 u p e)) 0) (y 0) (colK (y 1))) :=
    funext fun y => iblk1_1_apply V c t (y 0) (y 1) _ hb
  have hV : (fun y : (⟨2, ![1024, 1024]⟩ : Shape).Idx => (iblk1 V c 2 t : Vec Ideal S1x1024x1024 .bf16) (ix3 (0 : Fin 1) (y 0) (y 1)))
      = fun y => (V c (Pipeline.arrRef spec1 2) : Vec Ideal S8x1024x3072 .bf16)
          (ix3 ((((cfg1.win 6).blk t).view.emb (ix3 u p e)) 0) (y 0) (colV (y 1))) :=
    funext fun y => iblk1_2_apply V c t (y 0) (y 1) _ hb
  have hR : (fun o => (iblk1 V c 3 t : Vec Ideal S1x256x1024 .f32) (ix3 (0 : Fin 1) p o))
      = fun o => (V c (Pipeline.arrRef spec1 3) : Vec Ideal S8x1024x1024 .f32)
          (ix3 ((((cfg1.win 6).blk t).view.emb (ix3 u p e)) 0) ((((cfg1.win 6).blk t).view.emb (ix3 u p e)) 1) o) :=
    funext fun o => iblk1_3_apply V c t p o _ _ hb hs
  rw [hQ, hK, hV, hR, hn, he]

/-- An index of the output array is in point `t`'s block iff each coordinate is in the block's range on its axis. -/
theorem mem_blk1_6 (t : Fin cfg1.N) (i : S8x1024x1024.Idx) :
    i ∈ ((cfg1.win 6).blk t).view.set ↔ ∀ a : Fin 3, win1_6.index t a * S1x256x1024.size a ≤ (i a).val ∧ (i a).val < win1_6.index t a * S1x256x1024.size a + S1x256x1024.size a := by
  show i ∈ ((View.whole main_v14).slice (win1_6.rect t)).set ↔ _
  rw [View.set_slice_whole, Rect.mem_set_unit]
  exact Iff.rfl

/-- The output array after the region: the causal attention stage of the arrays the region read. Row (b, s) is written
    by the point of batch entry b and row block s / 256. -/
theorem arr1_6 (c : Dev nD) :
    (dat1 V sh c).arrAt 6 cfg1.N
      = selfAttnNorm1 (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5)) :=
  (dat1 V sh c).arrAt_eq_of_cover 6 _ (fun t _ => flushed1_6_eq V sh c t) fun i => by
    have hi0 : (i 0).val < 8 := (i 0).isLt
    have hi1 : (i 1).val < 1024 := (i 1).isLt
    have hi2 : (i 2).val < 1024 := (i 2).isLt
    obtain ⟨t, ht0, ht1⟩ := block_onto1 ⟨(i 0).val, hi0⟩ ⟨(i 1).val / 256, by omega⟩
    obtain ⟨_, _, e62, _⟩ := block_indices1_6 t
    refine ⟨t, flush1_6 t, ?_⟩
    rw [mem_blk1_6]
    intro a
    match a with
    | ⟨0, _⟩ => show win1_6.index t (0 : Fin 3) * 1 ≤ (i 0).val ∧ (i 0).val < win1_6.index t (0 : Fin 3) * 1 + 1; simp only at ht0; omega
    | ⟨1, _⟩ => show win1_6.index t (1 : Fin 3) * 256 ≤ (i 1).val ∧ (i 1).val < win1_6.index t (1 : Fin 3) * 256 + 256; simp only at ht1; omega
    | ⟨2, _⟩ => show win1_6.index t (2 : Fin 3) * 1024 ≤ (i 2).val ∧ (i 2).val < win1_6.index t (2 : Fin 3) * 1024 + 1024; omega

end Cert.KernelIdeal.Val

end
-- ==== Proof.Spec.lean ====
/-
  The transformer block as mathematics: one function of the fourteen argument arrays, index by index over the
  literal shapes (batch 8, sequence 1024, width 1024), composed of small named pieces. A float is an extended real.
  No program is imported here: both the kernel and the reference are compared against these pieces.

  The block, in order: masked self-attention of the inputs, plus the inputs, layer-normalised; cross-attention of
  that against the context, plus it, layer-normalised; the two-layer feed-forward network of that, plus it,
  layer-normalised; and a final maximum with zero.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- An activation array: batch × position × feature, 8 × 1024 × 1024 extended reals. -/
abbrev Act : Type := (⟨3, ![8, 1024, 1024]⟩ : Shape).Idx → EReal
/-- A weight matrix: input feature × output feature, 1024 × 1024. -/
abbrev Mat : Type := (⟨2, ![1024, 1024]⟩ : Shape).Idx → EReal
/-- A per-feature vector (a bias, the normalisation's gain or offset): 1024 entries. -/
abbrev Vec : Type := (⟨1, ![1024]⟩ : Shape).Idx → EReal

/-- The extended real −∞, as the float word both programs print for it. -/
abbrev negInf : EReal := Ideal.ofBits .f32 0xFF800000#32
/-- The float word of 32, the square root of the width 1024: the divisor of the attention scores. -/
abbrev w32 : EReal := Ideal.ofBits .f32 0x42000000#32
/-- The float word of 1024, the row length: the divisor of a row's mean and variance. -/
abbrev w1024 : EReal := Ideal.ofBits .f32 0x44800000#32
/-- The float word of the normalisation's epsilon, 10⁻³ rounded to single precision. -/
abbrev wEps : EReal := Ideal.ofBits .f32 0x3A83126F#32

/-- A projection: (x · w)[b, s, o] = ∑ₑ x[b, s, e] · w[e, o]. -/
def proj (x : Act) (w : Mat) : Act :=
  fun i => ∑ e : Fin 1024, x (ix3 (i 0) (i 1) e) * w (ix2 e (i 2))

/-- The unscaled attention scores: (Q · Kᵀ)[b, q, k] = ∑ₒ Q[b, q, o] · K[b, k, o]. -/
def rawScores (Q K : Act) : Act :=
  fun i => ∑ o : Fin 1024, Q (ix3 (i 0) (i 1) o) * K (ix3 (i 0) (i 2) o)

/-- The attention scores: the unscaled scores divided by 32 = √1024. -/
def scores (Q K : Act) : Act :=
  fun i => Ideal.div (rawScores Q K i) w32

/-- The causal mask's entry for query position q and key position k: −∞ where the key lies strictly after the query,
    otherwise 0. -/
def causalMask (q k : Fin 1024) : EReal := if q.val < k.val then negInf else 0

/-- The masked scores: the causal mask ADDED to the scores, s[b, q, k] + mask[q, k]. -/
def maskedScores (s : Act) : Act :=
  fun i => s i + causalMask (i 1) (i 2)

/-- The maximum of row (b, q) over the key positions, starting from −∞. -/
def rowMax (s : Act) (b : Fin 8) (q : Fin 1024) : EReal :=
  (Finset.univ : Finset (Fin 1024)).fold max negInf (fun k => s (ix3 b q k))

/-- The shifted exponential of one score: exp (s[b, q, k] − max over k' of s[b, q, k']). -/
def expShift (s : Act) : Act :=
  fun i => Ideal.exp (s i - rowMax s (i 0) (i 1))

/-- The sum of row (b, q) of the shifted exponentials. -/
def expSum (s : Act) (b : Fin 8) (q : Fin 1024) : EReal :=
  ∑ k : Fin 1024, expShift s (ix3 b q k)

/-- The row softmax over the key positions: the shifted exponential divided by its row sum. -/
def softmax (s : Act) : Act :=
  fun i => Ideal.div (expShift s i) (expSum s (i 0) (i 1))

/-- The attention output: (p · V)[b, q, o] = ∑ₖ p[b, q, k] · V[b, k, o]. -/
def attnOut (p V : Act) : Act :=
  fun i => ∑ k : Fin 1024, p (ix3 (i 0) (i 1) k) * V (ix3 (i 0) k (i 2))

/-- Masked self-attention: queries, keys and values all projected from x; the causal mask added to the scores. -/
def selfAttn (x : Act) (wq wk wv : Mat) : Act :=
  attnOut (softmax (maskedScores (scores (proj x wq) (proj x wk)))) (proj x wv)

/-- Cross-attention: queries from x, keys and values from the context, no mask. -/
def crossAttn (x ctx : Act) (wq wk wv : Mat) : Act :=
  attnOut (softmax (scores (proj x wq) (proj ctx wk))) (proj ctx wv)

/-- The sum of two activation arrays, entry by entry (a residual connection). -/
def add (a b : Act) : Act := fun i => a i + b i

/-- The mean of row (b, s): the row's sum divided by 1024. -/
def rowMean (x : Act) (b : Fin 8) (s : Fin 1024) : EReal :=
  Ideal.div (∑ e : Fin 1024, x (ix3 b s e)) w1024

/-- The variance of row (b, s): the mean of the squared deviations from the row's mean. -/
def rowVar (x : Act) (b : Fin 8) (s : Fin 1024) : EReal :=
  Ideal.div (∑ e : Fin 1024, (x (ix3 b s e) - rowMean x b s) * (x (ix3 b s e) - rowMean x b s)) w1024

/-- Layer normalisation over the feature axis:
    (x − mean) · rsqrt (variance + ε) · γ + β, with the row's mean and variance and the per-feature γ, β. -/
def layerNorm (x : Act) (gamma beta : Vec) : Act :=
  fun i => (x i - rowMean x (i 0) (i 1)) * Ideal.rsqrt (rowVar x (i 0) (i 1) + wEps) * gamma (ix1 (i 2)) + beta (ix1 (i 2))

/-- The maximum with zero, entry by entry. -/
def relu (x : Act) : Act := fun i => max (x i) 0

/-- A dense layer: the projection plus a per-feature bias. -/
def dense (x : Act) (w : Mat) (b : Vec) : Act :=
  fun i => proj x w i + b (ix1 (i 2))

/-- The feed-forward network: a dense layer, the maximum with zero, a second dense layer. -/
def ffn (x : Act) (w1 : Mat) (b1 : Vec) (w2 : Mat) (b2 : Vec) : Act :=
  dense (relu (dense x w1 b1)) w2 b2

/-- After the first sublayer: masked self-attention of the inputs, plus the inputs, layer-normalised. -/
def stage1 (inputs : Act) (wq1 wk1 wv1 : Mat) (gamma beta : Vec) : Act :=
  layerNorm (add (selfAttn inputs wq1 wk1 wv1) inputs) gamma beta

/-- After the second sublayer: cross-attention of x against the context, plus x, layer-normalised. -/
def stage2 (x context : Act) (wq2 wk2 wv2 : Mat) (gamma beta : Vec) : Act :=
  layerNorm (add (crossAttn x context wq2 wk2 wv2) x) gamma beta

/-- After the third sublayer: the feed-forward network of x, plus x, layer-normalised. -/
def stage3 (x : Act) (w1 : Mat) (b1 : Vec) (w2 : Mat) (b2 : Vec) (gamma beta : Vec) : Act :=
  layerNorm (add (ffn x w1 b1 w2 b2) x) gamma beta

/-- The whole block as one function of the fourteen arrays. -/
def block (inputs context : Act) (wq1 wk1 wv1 wq2 wk2 wv2 w1 : Mat) (b1 : Vec) (w2 : Mat) (b2 gamma beta : Vec) : Act :=
  relu (stage3 (stage2 (stage1 inputs wq1 wk1 wv1 gamma beta) context wq2 wk2 wv2 gamma beta) w1 b1 w2 b2 gamma beta)

/-- A maximum started from a value is at least that value: taking the maximum with the start again changes nothing.
    (The reference's softmax takes the maximum of −∞ and the row maximum, itself started from −∞.) -/
theorem max_fold_max_self {ι : Type} (s : Finset ι) (a : EReal) (f : ι → EReal) :
    max a (s.fold max a f) = s.fold max a f :=
  max_eq_right ((Finset.le_fold_max a).mpr (Or.inl le_rfl))

end Cert.Spec
-- ==== Proof.SpecLaws.lean ====
/-
  Pointwise laws between two spellings of the same pieces of the block. The specification divides the scores by 32,
  adds a mask of −∞ and 0, and starts a row's maximum from the word of −∞; the same values are obtained by
  multiplying by 2⁻⁵, by choosing −∞ or the score, and by starting the maximum from the bottom of the extended reals.
  The three float words involved (32, 2⁻⁵, −∞) are read once, here.
-/
import proofs.«105197_j1417339207765_2_alg».proof.Proof.Spec

noncomputable section

open scoped BigOperators

namespace Cert.Spec

open Idealize.ShloMosaic Idealize.ShloMosaic.ValueIdx

/-! ## The three words -/

/-- The word 0x42000000 is 32: exponent field 132, fraction 0, so 2²³ · 2^(132 − 127 − 23) = 2⁵. -/
theorem w32_eq : w32 = ((32 : ℝ) : EReal) := by
  show Ideal.ofBits .f32 0x42000000#32 = ((32 : ℝ) : EReal)
  simp [Ideal.ofBits, Ideal.ieee]
  norm_num
  rw [← EReal.coe_mul]; congr 1; norm_num

/-- The word 0x3D000000 is 2⁻⁵ = 1/32: exponent field 122, fraction 0, so 2²³ · 2^(122 − 127 − 23) = 2⁻⁵. -/
theorem w2m5_eq : Ideal.ofBits .f32 0x3D000000#32 = (((32 : ℝ)⁻¹ : ℝ) : EReal) := by
  simp [Ideal.ofBits, Ideal.ieee]
  norm_num
  rw [← EReal.coe_mul]; congr 1; norm_num

/-- The word 0xFF800000 (sign set, exponent field all ones, fraction 0) is −∞, the bottom of the extended reals. -/
theorem negInf_eq_bot : negInf = (⊥ : EReal) := by
  show Ideal.ofBits .f32 0xFF800000#32 = (⊥ : EReal)
  simp [Ideal.ofBits, Ideal.ieee]

/-! ## Dividing by 32 is multiplying by 2⁻⁵ -/

/-- For every extended real x (the infinities included: 32 is neither zero nor infinite), x / 32 = x · 2⁻⁵. -/
theorem div_w32 (x : EReal) : Ideal.div x w32 = x * Ideal.ofBits .f32 0x3D000000#32 := by
  rw [w32_eq, w2m5_eq]
  unfold Ideal.div
  have h : (((32 : ℝ) : EReal)) ≠ 0 := by
    intro e; have := EReal.coe_eq_zero.mp e; norm_num at this
  rw [if_neg h]
  congr 1

/-- The scores are the unscaled scores times 2⁻⁵. -/
theorem scores_eq_mul (Q K : Act) (i : (⟨3, ![8, 1024, 1024]⟩ : Shape).Idx) :
    scores Q K i = rawScores Q K i * Ideal.ofBits .f32 0x3D000000#32 :=
  div_w32 _

/-! ## Adding the mask is choosing −∞ or the score -/

/-- In the extended reals x + (−∞) = −∞ for every x, and x + 0 = x: adding the causal mask's entry chooses −∞ where
    the key position lies strictly after the query position, and the score elsewhere. -/
theorem add_causalMask (x : EReal) (q k : Fin 1024) :
    x + causalMask q k = if q.val < k.val then (⊥ : EReal) else x := by
  unfold causalMask
  by_cases h : q.val < k.val
  · rw [if_pos h, if_pos h, negInf_eq_bot, EReal.add_bot]
  · rw [if_neg h, if_neg h, add_zero]

/-- The masked scores, entry by entry, are −∞ where the key position exceeds the query position, else the score. -/
theorem maskedScores_eq_select (s : Act) (i : (⟨3, ![8, 1024, 1024]⟩ : Shape).Idx) :
    maskedScores s i = if (i 1).val < (i 2).val then (⊥ : EReal) else s i :=
  add_causalMask _ _ _

/-! ## The row maximum starts from the bottom -/

/-- The row maximum is the running maximum from the bottom of the extended reals. -/
theorem rowMax_eq_bot (s : Act) (b : Fin 8) (q : Fin 1024) :
    rowMax s b q = (Finset.univ : Finset (Fin 1024)).fold max (⊥ : EReal) (fun k => s (ix3 b q k)) := by
  unfold rowMax
  rw [negInf_eq_bot]

end Cert.Spec
-- ==== Proof.ValueSpecAttn.lean ====
/-
  The specification's two attention stages, read row by row. At an index (b, q, e) each is the kernel's row-wise
  attention stage `attnNormRow` of the scores of query row (b, q) against the keys of batch entry b, the values of
  batch entry b, row (b, q) of the residual, the scale and the shift, at lane e.
  The scores meet through three pointwise laws of the specification: dividing by 32 is multiplying by 2⁻⁵, adding the
  causal mask is replacing the masked entries by ⊥, and the row maximum starts from ⊥. Everything after the scores
  — the softmax, the weighted sum of the values, the residual, the normalisation — is the same term on both sides.
-/
import proofs.«105197_j1417339207765_2_alg».proof.Proof.Spec
import proofs.«105197_j1417339207765_2_alg».proof.Proof.SpecLaws
import proofs.«105197_j1417339207765_2_alg».proof.Proof.ValueRows

noncomputable section

namespace Cert.KernelIdeal.Val

open Idealize.ShloMosaic Idealize.ShloMosaic.ValueIdx
open scoped BigOperators

/-- The specification's masked scores of query row (b, q) are the kernel's masked score row. -/
theorem maskedScores_row (Q K : Cert.Spec.Act) (b : Fin 8) (q : Fin 1024) :
    (fun k => Cert.Spec.maskedScores (Cert.Spec.scores Q K) (ix3 b q k))
      = maskRow q.val (scoreRow (fun o => Q (ix3 b q o)) (fun y => K (ix3 b (y 0) (y 1)))) := by
  funext k
  rw [Cert.Spec.maskedScores_eq_select, Cert.Spec.scores_eq_mul]
  rfl

/-- The specification's unmasked scores of query row (b, q) are the kernel's score row. -/
theorem scores_row (Q K : Cert.Spec.Act) (b : Fin 8) (q : Fin 1024) :
    (fun k => Cert.Spec.scores Q K (ix3 b q k))
      = scoreRow (fun o => Q (ix3 b q o)) (fun y => K (ix3 b (y 0) (y 1))) := by
  funext k
  rw [Cert.Spec.scores_eq_mul]
  rfl

/-- The first stage after its projections, at (b, q, e): the causal attention stage of row (b, q), at lane e. -/
theorem stage1_row (Q K Vv res : Cert.Spec.Act) (γ β : Cert.Spec.Vec) (i : (⟨3, ![8, 1024, 1024]⟩ : Shape).Idx) :
    Cert.Spec.layerNorm (Cert.Spec.add (Cert.Spec.attnOut (Cert.Spec.softmax (Cert.Spec.maskedScores (Cert.Spec.scores Q K))) Vv) res) γ β i
      = attnNormRow (maskRow (i 1).val (scoreRow (fun o => Q (ix3 (i 0) (i 1) o)) (fun y => K (ix3 (i 0) (y 0) (y 1)))))
          (fun y => Vv (ix3 (i 0) (y 0) (y 1))) (fun e => res (ix3 (i 0) (i 1) e))
          (fun j => γ (ix1 j)) (fun j => β (ix1 j)) (i 2) := by
  obtain ⟨b, q, e, rfl⟩ : ∃ (b : Fin 8) (q : Fin 1024) (e : Fin 1024), i = ix3 b q e := ⟨i 0, i 1, i 2, eq_ix3 i⟩
  show attnNormRow (fun k => Cert.Spec.maskedScores (Cert.Spec.scores Q K) (ix3 b q k)) (fun y => Vv (ix3 b (y 0) (y 1)))
      (fun e' => res (ix3 b q e')) (fun j => γ (ix1 j)) (fun j => β (ix1 j)) e = _
  rw [maskedScores_row]

/-- The second stage after its projections, at (b, q, e): the attention stage of row (b, q), at lane e. -/
theorem stage2_row (Q K Vv res : Cert.Spec.Act) (γ β : Cert.Spec.Vec) (i : (⟨3, ![8, 1024, 1024]⟩ : Shape).Idx) :
    Cert.Spec.layerNorm (Cert.Spec.add (Cert.Spec.attnOut (Cert.Spec.softmax (Cert.Spec.scores Q K)) Vv) res) γ β i
      = attnNormRow (scoreRow (fun o => Q (ix3 (i 0) (i 1) o)) (fun y => K (ix3 (i 0) (y 0) (y 1))))
          (fun y => Vv (ix3 (i 0) (y 0) (y 1))) (fun e => res (ix3 (i 0) (i 1) e))
          (fun j => γ (ix1 j)) (fun j => β (ix1 j)) (i 2) := by
  obtain ⟨b, q, e, rfl⟩ : ∃ (b : Fin 8) (q : Fin 1024) (e : Fin 1024), i = ix3 b q e := ⟨i 0, i 1, i 2, eq_ix3 i⟩
  show attnNormRow (fun k => Cert.Spec.scores Q K (ix3 b q k)) (fun y => Vv (ix3 b (y 0) (y 1)))
      (fun e' => res (ix3 b q e')) (fun j => γ (ix1 j)) (fun j => β (ix1 j)) e = _
  rw [scores_row]

end Cert.KernelIdeal.Val

end
-- ==== Proof.LibBatchRows.lean ====
/-
  Reading a reshape between a batch of tables and one tall table. An array of shape [A, B, C] and an array of shape
  [A·B, C] hold the same elements in the same row-major order: the tall table's row `a·B + b` is row `b` of table `a`.
  Stated here for A = 8, B = 1024 (so A·B = 8192) and any width C, in both directions, at explicit coordinates; and the
  reshape of a vector of 1024 entries to a one-row table.
-/
import Idealize.ShloMosaic.Lib.Pipeline.Value
import Idealize.ShloMosaic.Lib.ValueIdx

namespace Cert.LibBatchRows

open Idealize.ShloMosaic Idealize.ShloMosaic.ValueIdx

/-- The tall table cast to a batch of tables, read at (a, b, o): the tall table's row `a·1024 + b`. -/
theorem cast_to_batches_apply {C : Nat} {α : Type} (y : (⟨2, ![8192, C]⟩ : Shape).Idx → α)
    (h : (⟨2, ![8192, C]⟩ : Shape).ShapeCasts ⟨3, ![8, 1024, C]⟩) (a : Fin 8) (b : Fin 1024) (o : Fin C) :
    shapeCast ⟨3, ![8, 1024, C]⟩ y h (ix3 a b o) = y (ix2 ⟨a.val * 1024 + b.val, by omega⟩ o) := by
  refine shapeCast_apply y h _ _ ?_
  rw [Shape.rowMajor_val_two, Shape.rowMajor_val_three]
  rfl

/-- The batch of tables cast to the tall table, read at (r, o): table `r / 1024`, row `r % 1024`. -/
theorem cast_to_rows_apply {C : Nat} {α : Type} (x : (⟨3, ![8, 1024, C]⟩ : Shape).Idx → α)
    (h : (⟨3, ![8, 1024, C]⟩ : Shape).ShapeCasts ⟨2, ![8192, C]⟩) (r : Fin 8192) (o : Fin C) :
    shapeCast ⟨2, ![8192, C]⟩ x h (ix2 r o) = x (ix3 ⟨r.val / 1024, by omega⟩ ⟨r.val % 1024, by omega⟩ o) := by
  refine shapeCast_apply x h _ _ ?_
  rw [Shape.rowMajor_val_two, Shape.rowMajor_val_three]
  show (r.val / 1024 * 1024 + r.val % 1024) * C + o.val = r.val * C + o.val
  rw [Nat.div_add_mod' r.val 1024]

/-- A vector of 1024 entries cast to a one-row table, read at (0, j): the vector's entry j. -/
theorem cast_to_one_row_apply {α : Type} (v : (⟨1, ![1024]⟩ : Shape).Idx → α)
    (h : (⟨1, ![1024]⟩ : Shape).ShapeCasts ⟨2, ![1, 1024]⟩) (u : Fin 1) (j : Fin 1024) :
    shapeCast ⟨2, ![1, 1024]⟩ v h (ix2 u j) = v (ix1 j) := by
  refine shapeCast_apply v h _ _ ?_
  rw [Shape.rowMajor_val_one, Shape.rowMajor_val_two]
  have hu : u.val = 0 := by omega
  show j.val = u.val * 1024 + j.val
  omega

end Cert.LibBatchRows
-- ==== Proof.Value5Pay.lean ====
/-
  Region 5 of the idealized kernel, the body's result block at an index: the feed-forward layer, the residual, the
  layer normalisation and the final rectifier, on a block of 512 rows.
  Every operation of the body acts on each row of the block by itself: entry (p, q) of the output block is the third
  stage (`ffnNormRow`) of row p of the row block, against the two weights, the two biases and the normalisation's scale
  and shift, read at lane q. The products into a zero accumulator are plain sums, the format changes are the identity
  on the extended reals, a lane reduction kept as a column and spread back over the lanes reads the row's statistic.
-/
import proofs.«105197_j1417339207765_2_alg».proof.Proof.Region5
import proofs.«105197_j1417339207765_2_alg».proof.Proof.ValueMatmul
import proofs.«105197_j1417339207765_2_alg».proof.Proof.ValueLayout
import proofs.«105197_j1417339207765_2_alg».proof.Proof.ValueRows
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen
open Idealize.ShloMosaic Idealize.ShloMosaic.TcCoe Idealize.ShloMosaic.ValueIdx Idealize.SL.Sem
open Idealize.SL Idealize.SL.RA
open Idealize.ShloMosaic.Pipeline (Dat)
open scoped BigOperators

/-! ## The operations of the body, at this region's sizes -/

theorem zero_offsets5 : (![0, 0] : Fin 2 → Nat) = fun _ => 0 :=
  funext fun a => by match a with | ⟨0, _⟩ => rfl | ⟨1, _⟩ => rfl

/-- A 512 × 1024 block times a weight, into the zero accumulator. -/
theorem matmul5 (A : FVec Ideal S512x1024 .bf16) (B : FVec Ideal S1024x1024 .bf16) (p : Fin 512) (q : Fin 1024) :
    matmul dot_S512x1024_S1024x1024_S512x1024_1_0_0_1_n_n none A B (constant S512x1024 .f32 0x00000000#32) (ix2 p q)
      = ∑ c : Fin 1024, A (ix2 p c) * B (ix2 c q) :=
  matmul_zero_apply _ none A B p q

/-- A bias row spread over the block's rows. -/
theorem spreadRow5 (v : FVec Ideal S1x1024 .f32) (p : Fin 512) (q : Fin 1024) :
    broadcastTo S512x1024 v broadcasts_S1x1024_S512x1024 (ix2 p q) = v (ix2 (0 : Fin 1) q) :=
  broadcastTo_1b_ab_apply v _ p q

/-- A column of row statistics spread over the lanes. -/
theorem spreadCol5 (v : FVec Ideal S512x1 .f32) (p : Fin 512) (q : Fin 1024) :
    broadcastTo S512x1024 v broadcasts_S512x1_S512x1024 (ix2 p q) = v (ix2 p (0 : Fin 1)) :=
  broadcastTo_a1_ab_apply v _ p q

/-- The row statistics kept as a column. -/
theorem column5 (v : FVec Ideal S512 .f32) (p : Fin 512) (u : Fin 1) :
    shapeCast S512x1 v shapeCasts_S512_S512x1 (ix2 p u) = v (ix1 p) :=
  shapeCast_a_a1_apply v _ p u

/-- The lane sum of a block. -/
theorem laneSum5 (src : FVec Ideal S512x1024 .f32) (hφ : FKind.Formats .f32)
    (hacc : (0x00000000#32 : BitVec 32) = FKind.add.neutral .f32 hφ) (p : Fin 512) :
    multiReduction .add [1] S512 src 0x00000000#32 reduces_S512x1024_S512 hφ hacc (ix1 p)
      = ∑ k : Fin 1024, src (ix2 p k) :=
  laneSum_apply src _ _ hφ hacc p

/-! ## The body's payloads at an index -/

/-- The feed-forward layer plus the residual, entry (p, q). -/
theorem k5_pay2_apply (v0 : Vec Ideal S512x1024 .f32) (v3 : Vec Ideal S1024x1024 .bf16) (v6 : Vec Ideal S1x1024 .f32)
    (v13 : Vec Ideal S1024x1024 .bf16) (v16 : Vec Ideal S1x1024 .f32) (v20 : Vec Ideal S512x1024 .f32) (p : Fin 512) (q : Fin 1024) :
    k5_pay2 v0 v3 v6 v13 v16 v20 (ix2 p q)
      = ffnRow (fun k => v0 (ix2 p k)) v3 (fun j => v6 (ix2 (0 : Fin 1) j)) v13 (fun j => v16 (ix2 (0 : Fin 1) j)) q + v20 (ix2 p q) := by
  unfold k5_pay2 ffnRow denseRow reluRow projRow
  simp only [shapeCast_self, addf_apply, maximumf_apply, truncf_apply, broadcast_apply, matmul5, spreadRow5]
  simp only [Ideal.ofBits_def, Ideal.ofBits_zero_f32]

/-- The mean of the row, kept as a column. -/
theorem k5_pay3_apply (v0 : Vec Ideal S512x1024 .f32) (v3 : Vec Ideal S1024x1024 .bf16) (v6 : Vec Ideal S1x1024 .f32)
    (v13 : Vec Ideal S1024x1024 .bf16) (v16 : Vec Ideal S1x1024 .f32) (v20 : Vec Ideal S512x1024 .f32) (p : Fin 512) (u : Fin 1) :
    k5_pay3 v0 v3 v6 v13 v16 v20 (ix2 p u) = meanRow (fun q => k5_pay2 v0 v3 v6 v13 v16 v20 (ix2 p q)) := by
  unfold k5_pay3 meanRow
  simp only [divf_apply, broadcast_apply, column5]
  exact congrArg (fun z => Ideal.div z lanes) (laneSum5 _ _ _ p)

/-- The row less its mean. -/
theorem k5_pay4_apply (v0 : Vec Ideal S512x1024 .f32) (v3 : Vec Ideal S1024x1024 .bf16) (v6 : Vec Ideal S1x1024 .f32)
    (v13 : Vec Ideal S1024x1024 .bf16) (v16 : Vec Ideal S1x1024 .f32) (v20 : Vec Ideal S512x1024 .f32) (p : Fin 512) (q : Fin 1024) :
    k5_pay4 v0 v3 v6 v13 v16 v20 (ix2 p q)
      = k5_pay2 v0 v3 v6 v13 v16 v20 (ix2 p q) - meanRow (fun q => k5_pay2 v0 v3 v6 v13 v16 v20 (ix2 p q)) := by
  unfold k5_pay4
  simp only [subf_apply, spreadCol5, k5_pay3_apply]

/-- The reciprocal square root of the row's variance plus ε, kept as a column. -/
theorem k5_pay5_apply (v0 : Vec Ideal S512x1024 .f32) (v3 : Vec Ideal S1024x1024 .bf16) (v6 : Vec Ideal S1x1024 .f32)
    (v13 : Vec Ideal S1024x1024 .bf16) (v16 : Vec Ideal S1x1024 .f32) (v20 : Vec Ideal S512x1024 .f32) (p : Fin 512) (u : Fin 1) :
    k5_pay5 v0 v3 v6 v13 v16 v20 (ix2 p u)
      = Ideal.rsqrt (varRow (fun q => k5_pay2 v0 v3 v6 v13 v16 v20 (ix2 p q)) + epsilon) := by
  unfold k5_pay5 varRow
  simp only [rsqrt_apply, addf_apply, divf_apply, broadcast_apply, column5]
  refine congrArg (fun z => Ideal.rsqrt (Ideal.div z lanes + epsilon))
    ((laneSum5 _ _ _ p).trans (Finset.sum_congr rfl fun x _ => ?_))
  simp only [mulf_apply, subf_apply, spreadCol5, k5_pay3_apply]

/-- The scale, the shift and the rectifier. -/
theorem k5_pay1_apply (v35 : FVec Ideal S512x1024 .f32) (v38 : FVec Ideal S512x1 .f32) (v41 v45 : Vec Ideal S1x1024 .f32)
    (p : Fin 512) (q : Fin 1024) :
    k5_pay1 v35 v38 v41 v45 (ix2 p q)
      = max (v35 (ix2 p q) * v38 (ix2 p (0 : Fin 1)) * v41 (ix2 (0 : Fin 1) q) + v45 (ix2 (0 : Fin 1) q)) 0 := by
  unfold k5_pay1
  simp only [shapeCast_self, addf_apply, mulf_apply, maximumf_apply, broadcast_apply, spreadRow5, spreadCol5]
  simp only [Ideal.ofBits_def, Ideal.ofBits_zero_f32]

/-- Entry (p, q) of the output block: the third stage on row p of the row block. -/
theorem out5_7_apply (x0 : Vec Ideal S512x1024 .f32) (x1 : Vec Ideal S1024x1024 .bf16) (x2 : Vec Ideal S1x1024 .f32)
    (x3 : Vec Ideal S1024x1024 .bf16) (x4 x5 x6 : Vec Ideal S1x1024 .f32) (p : Fin 512) (q : Fin 1024) :
    out5_7 x0 x1 x2 x3 x4 x5 x6 (ix2 p q)
      = ffnNormRow (fun k => x0 (ix2 p k)) x1 (fun j => x2 (ix2 (0 : Fin 1) j)) x3 (fun j => x4 (ix2 (0 : Fin 1) j))
          (fun j => x5 (ix2 (0 : Fin 1) j)) (fun j => x6 (ix2 (0 : Fin 1) j)) q := by
  unfold out5_7
  rw [View.canon_unit_zero zero_offsets5]
  simp only [View.ld_unit_zero (S := S512x1024) zero_offsets5, View.ld_unit_zero (S := S1024x1024) zero_offsets5,
    View.ld_unit_zero (S := S1x1024) zero_offsets5]
  rw [k5_pay1_apply, k5_pay4_apply, k5_pay5_apply]
  unfold ffnNormRow layerNormRow reluRow
  simp only [k5_pay2_apply]

end Cert.KernelIdeal.Val

end
-- ==== Proof.Value5.lean ====
/-
  Region 5 of the idealized kernel, from blocks to the array.
  Point t reads row block t of the activations and every other input whole, and writes row block t of the output, so
  what it writes back is block t of ONE function of the arrays (`ffnNorm5`: the third stage of each row), and the 16
  row blocks tile the output array: after the region the output array is `ffnNorm5` of the arrays the region read.
-/
import proofs.«105197_j1417339207765_2_alg».proof.Proof.Region5
import proofs.«105197_j1417339207765_2_alg».proof.Proof.ValueMatmul
import proofs.«105197_j1417339207765_2_alg».proof.Proof.ValueLayout
import proofs.«105197_j1417339207765_2_alg».proof.Proof.ValueRows
import proofs.«105197_j1417339207765_2_alg».proof.Proof.Value5Pay
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen
open Idealize.ShloMosaic Idealize.ShloMosaic.TcCoe Idealize.ShloMosaic.ValueIdx Idealize.SL.Sem
open Idealize.SL Idealize.SL.RA
open Idealize.ShloMosaic.Pipeline (Dat)
open scoped BigOperators

/-! ## From blocks to the array -/

variable (V : (c : Dev nD) → (b : Ref sig .tc) → Buf (Elt Ideal) ((c : Thread nD τ).loc b))
variable (sh : Fin cfg5.W → PosShare TreeShare)

/-- The third stage on the whole arrays: row `i 0` of the activations through the feed-forward layer, the residual,
    the normalisation and the rectifier, read at lane `i 1`. -/
def ffnNorm5 (X : Vec Ideal S8192x1024 .f32) (W1 : Vec Ideal S1024x1024 .bf16) (B1 : Vec Ideal S1x1024 .f32)
    (W2 : Vec Ideal S1024x1024 .bf16) (B2 G B : Vec Ideal S1x1024 .f32) : Vec Ideal S8192x1024 .f32 :=
  fun i => ffnNormRow (fun k => X (ix2 (i 0) k)) W1 (fun j => B1 (ix2 (0 : Fin 1) j)) W2 (fun j => B2 (ix2 (0 : Fin 1) j))
    (fun j => G (ix2 (0 : Fin 1) j)) (fun j => B (ix2 (0 : Fin 1) j)) (i 1)

/-- The printed index maps, decided over the grid: point `t` reads row block `t` of the activations and writes row
    block `t` of the output; -/
theorem block_indices5 : ∀ t : Fin cfg5.N, win5_0.index t (0 : Fin 2) = t.val ∧ win5_0.index t (1 : Fin 2) = 0
    ∧ win5_7.index t (0 : Fin 2) = t.val ∧ win5_7.index t (1 : Fin 2) = 0 :=
  (by decide +kernel : ∀ t : Fin grid5.N, _)
/-- every other input it reads whole. -/
theorem whole_indices5_1 : ∀ t : Fin cfg5.N, win5_1.index t (0 : Fin 2) = 0 ∧ win5_1.index t (1 : Fin 2) = 0 :=
  (by decide +kernel : ∀ t : Fin grid5.N, _)

theorem whole_indices5_2 : ∀ t : Fin cfg5.N, win5_2.index t (0 : Fin 2) = 0 ∧ win5_2.index t (1 : Fin 2) = 0 :=
  (by decide +kernel : ∀ t : Fin grid5.N, _)

theorem whole_indices5_3 : ∀ t : Fin cfg5.N, win5_3.index t (0 : Fin 2) = 0 ∧ win5_3.index t (1 : Fin 2) = 0 :=
  (by decide +kernel : ∀ t : Fin grid5.N, _)

theorem whole_indices5_4 : ∀ t : Fin cfg5.N, win5_4.index t (0 : Fin 2) = 0 ∧ win5_4.index t (1 : Fin 2) = 0 :=
  (by decide +kernel : ∀ t : Fin grid5.N, _)

theorem whole_indices5_5 : ∀ t : Fin cfg5.N, win5_5.index t (0 : Fin 2) = 0 ∧ win5_5.index t (1 : Fin 2) = 0 :=
  (by decide +kernel : ∀ t : Fin grid5.N, _)

theorem whole_indices5_6 : ∀ t : Fin cfg5.N, win5_6.index t (0 : Fin 2) = 0 ∧ win5_6.index t (1 : Fin 2) = 0 :=
  (by decide +kernel : ∀ t : Fin grid5.N, _)

/-- The row block at point `t` is rows `512 t … 512 t + 511` of the activations. -/
theorem iblk5_0_apply (c : Dev nD) (t : Fin cfg5.N) (p : Fin 512) (k : Fin 1024) (r : Fin 8192) (hr : r.val = t.val * 512 + p.val) :
    (iblk5 V c 0 t : Vec Ideal S512x1024 .f32) (ix2 p k) = (V c (Pipeline.arrRef spec5 0) : Vec Ideal S8192x1024 .f32) (ix2 r k) := by
  obtain ⟨e00, e01, -, -⟩ := block_indices5 t
  show V c (Pipeline.arrRef spec5 0) (((cfg5.win 0).blk t).view.emb (ix2 p k)) = V c (Pipeline.arrRef spec5 0) _
  refine congrArg _ (funext fun a => Fin.ext ?_)
  match a with
  | ⟨0, _⟩ => show win5_0.index t (0 : Fin 2) * 512 + 1 * p.val = r.val; omega
  | ⟨1, _⟩ => show win5_0.index t (1 : Fin 2) * 1024 + 1 * k.val = k.val; omega

theorem iblk5_1_whole (c : Dev nD) (t : Fin cfg5.N) :
    (iblk5 V c 1 t : Vec Ideal S1024x1024 .bf16) = V c (Pipeline.arrRef spec5 1) := by
  obtain ⟨e0, e1⟩ := whole_indices5_1 t
  funext y
  show V c (Pipeline.arrRef spec5 1) (((cfg5.win 1).blk t).view.emb y) = V c (Pipeline.arrRef spec5 1) y
  refine congrArg _ (funext fun a => Fin.ext ?_)
  match a with
  | ⟨0, _⟩ => show win5_1.index t (0 : Fin 2) * 1024 + 1 * (y 0).val = (y 0).val; omega
  | ⟨1, _⟩ => show win5_1.index t (1 : Fin 2) * 1024 + 1 * (y 1).val = (y 1).val; omega

theorem iblk5_2_whole (c : Dev nD) (t : Fin cfg5.N) :
    (iblk5 V c 2 t : Vec Ideal S1x1024 .f32) = V c (Pipeline.arrRef spec5 2) := by
  obtain ⟨e0, e1⟩ := whole_indices5_2 t
  funext y
  show V c (Pipeline.arrRef spec5 2) (((cfg5.win 2).blk t).view.emb y) = V c (Pipeline.arrRef spec5 2) y
  refine congrArg _ (funext fun a => Fin.ext ?_)
  match a with
  | ⟨0, _⟩ => show win5_2.index t (0 : Fin 2) * 1 + 1 * (y 0).val = (y 0).val; omega
  | ⟨1, _⟩ => show win5_2.index t (1 : Fin 2) * 1024 + 1 * (y 1).val = (y 1).val; omega

theorem iblk5_3_whole (c : Dev nD) (t : Fin cfg5.N) :
    (iblk5 V c 3 t : Vec Ideal S1024x1024 .bf16) = V c (Pipeline.arrRef spec5 3) := by
  obtain ⟨e0, e1⟩ := whole_indices5_3 t
  funext y
  show V c (Pipeline.arrRef spec5 3) (((cfg5.win 3).blk t).view.emb y) = V c (Pipeline.arrRef spec5 3) y
  refine congrArg _ (funext fun a => Fin.ext ?_)
  match a with
  | ⟨0, _⟩ => show win5_3.index t (0 : Fin 2) * 1024 + 1 * (y 0).val = (y 0).val; omega
  | ⟨1, _⟩ => show win5_3.index t (1 : Fin 2) * 1024 + 1 * (y 1).val = (y 1).val; omega

theorem iblk5_4_whole (c : Dev nD) (t : Fin cfg5.N) :
    (iblk5 V c 4 t : Vec Ideal S1x1024 .f32) = V c (Pipeline.arrRef spec5 4) := by
  obtain ⟨e0, e1⟩ := whole_indices5_4 t
  funext y
  show V c (Pipeline.arrRef spec5 4) (((cfg5.win 4).blk t).view.emb y) = V c (Pipeline.arrRef spec5 4) y
  refine congrArg _ (funext fun a => Fin.ext ?_)
  match a with
  | ⟨0, _⟩ => show win5_4.index t (0 : Fin 2) * 1 + 1 * (y 0).val = (y 0).val; omega
  | ⟨1, _⟩ => show win5_4.index t (1 : Fin 2) * 1024 + 1 * (y 1).val = (y 1).val; omega

theorem iblk5_5_whole (c : Dev nD) (t : Fin cfg5.N) :
    (iblk5 V c 5 t : Vec Ideal S1x1024 .f32) = V c (Pipeline.arrRef spec5 5) := by
  obtain ⟨e0, e1⟩ := whole_indices5_5 t
  funext y
  show V c (Pipeline.arrRef spec5 5) (((cfg5.win 5).blk t).view.emb y) = V c (Pipeline.arrRef spec5 5) y
  refine congrArg _ (funext fun a => Fin.ext ?_)
  match a with
  | ⟨0, _⟩ => show win5_5.index t (0 : Fin 2) * 1 + 1 * (y 0).val = (y 0).val; omega
  | ⟨1, _⟩ => show win5_5.index t (1 : Fin 2) * 1024 + 1 * (y 1).val = (y 1).val; omega

theorem iblk5_6_whole (c : Dev nD) (t : Fin cfg5.N) :
    (iblk5 V c 6 t : Vec Ideal S1x1024 .f32) = V c (Pipeline.arrRef spec5 6) := by
  obtain ⟨e0, e1⟩ := whole_indices5_6 t
  funext y
  show V c (Pipeline.arrRef spec5 6) (((cfg5.win 6).blk t).view.emb y) = V c (Pipeline.arrRef spec5 6) y
  refine congrArg _ (funext fun a => Fin.ext ?_)
  match a with
  | ⟨0, _⟩ => show win5_6.index t (0 : Fin 2) * 1 + 1 * (y 0).val = (y 0).val; omega
  | ⟨1, _⟩ => show win5_6.index t (1 : Fin 2) * 1024 + 1 * (y 1).val = (y 1).val; omega

set_option maxHeartbeats 1600000 in
/-- What point `t` writes back is block `t` of the third stage of the arrays as the region finds them. -/
theorem flushed5_7_eq (c : Dev nD) (t : Fin cfg5.N) :
    (dat5 V sh c).flushed 7 t = ((cfg5.win 7).blk t).view.read (Elt Ideal)
      (ffnNorm5 (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5)) (V c (Pipeline.arrRef spec5 6))) := by
  show (cfg5.win 7).cut (grid5.coords t) ((dat5 V sh c).after 7 t) = _
  rw [after5_7]
  obtain ⟨-, -, e70, e71⟩ := block_indices5 t
  funext j
  obtain ⟨p, q, rfl⟩ : ∃ (p : Fin 512) (q : Fin 1024), j = ix2 p q := ⟨j 0, j 1, eq_ix2 j⟩
  refine (out5_7_apply (iblk5 V c 0 t) (iblk5 V c 1 t) (iblk5 V c 2 t) (iblk5 V c 3 t) (iblk5 V c 4 t) (iblk5 V c 5 t) (iblk5 V c 6 t) p q).trans ?_
  rw [iblk5_1_whole V c t, iblk5_2_whole V c t, iblk5_3_whole V c t, iblk5_4_whole V c t, iblk5_5_whole V c t, iblk5_6_whole V c t]
  show _ = ffnNorm5 (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5)) (V c (Pipeline.arrRef spec5 6))
        (((cfg5.win 7).blk t).view.emb (ix2 p q))
  unfold ffnNorm5
  have hq : (((cfg5.win 7).blk t).view.emb (ix2 p q)) 1 = q := Fin.ext (by
    show win5_7.index t (1 : Fin 2) * 1024 + 1 * q.val = q.val; omega)
  have h0 : (fun k => (iblk5 V c 0 t : Vec Ideal S512x1024 .f32) (ix2 p k))
      = fun k => (V c (Pipeline.arrRef spec5 0) : Vec Ideal S8192x1024 .f32) (ix2 ((((cfg5.win 7).blk t).view.emb (ix2 p q)) 0) k) :=
    funext fun k => iblk5_0_apply V c t p k _ (by
      show win5_7.index t (0 : Fin 2) * 512 + 1 * p.val = t.val * 512 + p.val; omega)
  rw [h0, hq]
/-- An index of the output array is in point `t`'s block iff each coordinate is in the block's range on its axis. -/
theorem mem_blk5_7 (t : Fin cfg5.N) (i : S8192x1024.Idx) :
    i ∈ ((cfg5.win 7).blk t).view.set ↔ ∀ a : Fin 2, win5_7.index t a * S512x1024.size a ≤ (i a).val ∧ (i a).val < win5_7.index t a * S512x1024.size a + S512x1024.size a := by
  show i ∈ ((View.whole main_v23).slice (win5_7.rect t)).set ↔ _
  rw [View.set_slice_whole, Rect.mem_set_unit]
  exact Iff.rfl

/-- The output array after the region: the third stage of the arrays the region read. Row `r` is written by point
    `r / 512`. -/
theorem arr5_7 (c : Dev nD) :
    (dat5 V sh c).arrAt 7 cfg5.N
      = ffnNorm5 (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5)) (V c (Pipeline.arrRef spec5 6)) :=
  (dat5 V sh c).arrAt_eq_of_cover 7 _ (fun t _ => flushed5_7_eq V sh c t) fun i => by
    have hi0 : (i 0).val < 8192 := (i 0).isLt
    have hi1 : (i 1).val < 1024 := (i 1).isLt
    have hN : cfg5.N = 16 := N_5
    obtain ⟨t, ht⟩ : ∃ t : Fin cfg5.N, t.val = (i 0).val / 512 := ⟨⟨(i 0).val / 512, by omega⟩, rfl⟩
    obtain ⟨_, _, e70, e71⟩ := block_indices5 t
    refine ⟨t, flush5_7 t, ?_⟩
    rw [mem_blk5_7]
    intro a
    match a with
    | ⟨0, _⟩ => show win5_7.index t (0 : Fin 2) * 512 ≤ (i 0).val ∧ (i 0).val < win5_7.index t (0 : Fin 2) * 512 + 512; omega
    | ⟨1, _⟩ => show win5_7.index t (1 : Fin 2) * 1024 ≤ (i 1).val ∧ (i 1).val < win5_7.index t (1 : Fin 2) * 1024 + 1024; omega

end Cert.KernelIdeal.Val

end
-- ==== Proof.ValueSpecRows.lean ====
/-
  The specification's stages, read row by row. Every stage of the specification after a projection acts on each
  (batch, position) row by itself; at an index (b, s, e) it is the kernel's row-wise function of row (b, s) of its
  activation arguments, read at lane e.
  The third stage: the feed-forward layer, the residual, the normalisation and the final rectifier of the
  specification are, term for term, the row function `ffnNormRow` of the row x(b, s, ·).
-/
import proofs.«105197_j1417339207765_2_alg».proof.Proof.Spec
import proofs.«105197_j1417339207765_2_alg».proof.Proof.ValueRows

noncomputable section

namespace Cert.KernelIdeal.Val

open Idealize.ShloMosaic Idealize.ShloMosaic.ValueIdx
open scoped BigOperators

/-- The third stage of the specification at (b, s, e) is the third stage of row (b, s), at lane e. -/
theorem stage3_row (x : Cert.Spec.Act) (w1 : Cert.Spec.Mat) (b1 : Cert.Spec.Vec) (w2 : Cert.Spec.Mat)
    (b2 γ β : Cert.Spec.Vec) (i : (⟨3, ![8, 1024, 1024]⟩ : Shape).Idx) :
    Cert.Spec.relu (Cert.Spec.stage3 x w1 b1 w2 b2 γ β) i
      = ffnNormRow (fun k => x (ix3 (i 0) (i 1) k)) w1 (fun j => b1 (ix1 j)) w2 (fun j => b2 (ix1 j))
          (fun j => γ (ix1 j)) (fun j => β (ix1 j)) (i 2) := by
  obtain ⟨b, s, e, rfl⟩ : ∃ (b : Fin 8) (s : Fin 1024) (e : Fin 1024), i = ix3 b s e := ⟨i 0, i 1, i 2, eq_ix3 i⟩
  rfl

end Cert.KernelIdeal.Val

end
-- ==== Proof.KVal3.lean ====
/-
  The last third of the idealized kernel read off the chain of contents: the result array is the last reshape of what the
  feed-forward region leaves; that region's rows are the feed-forward layer, the residual, the layer normalisation and the
  rectifier of the rows of its first array; and its arrays are, through reshapes and identity changes of format, the second
  stage's output, the two weights, the two biases and the two normalisation vectors. So the result is the specification's
  third stage, rectified, of the second stage's output.
-/
import proofs.«105197_j1417339207765_2_alg».proof.Proof.Chain
import proofs.«105197_j1417339207765_2_alg».proof.Proof.Value5
import proofs.«105197_j1417339207765_2_alg».proof.Proof.ValueSpecRows
import proofs.«105197_j1417339207765_2_alg».proof.Proof.LibBatchRows
import proofs.«105197_j1417339207765_2_alg».proof.Proof.Spec
import Idealize.ShloMosaic.Lib.StableHlo.Run

set_option maxRecDepth 16384

noncomputable section

namespace Cert.KernelIdeal.Val

open Cert.KernelIdeal Cert.KernelIdeal.Gen Cert.LibBatchRows
open Idealize.ShloMosaic Idealize.ShloMosaic.TcCoe Idealize.ShloMosaic.ValueIdx Idealize.SL.Sem Idealize.ShloMosaic.StableHlo
open scoped BigOperators

variable (m : (ℓ : Loc nD τ sig) → Buf (Elt Ideal) ℓ)

/-! ## What the host stretches wrote -/

theorem v9_read (c : Dev nD) : (B1 m c main_v9 : (⟨S1024x1024, .bf16⟩ : BufTy).Contents (Elt Ideal)) = truncf (F := Ideal) .bf16 (m ((c : Thread nD τ).loc main_arg8) : (⟨S1024x1024, .f32⟩ : BufTy).Contents (Elt Ideal)) bitsLt_bf16_f32 := by
  show StableHlo.after hostOps0 (B0 m c) (Proc.devRef .tc main_v9) = _
  after_results <;> rfl

theorem v10_read (c : Dev nD) : (B1 m c main_v10 : (⟨S1024x1024, .bf16⟩ : BufTy).Contents (Elt Ideal)) = truncf (F := Ideal) .bf16 (m ((c : Thread nD τ).loc main_arg10) : (⟨S1024x1024, .f32⟩ : BufTy).Contents (Elt Ideal)) bitsLt_bf16_f32 := by
  show StableHlo.after hostOps0 (B0 m c) (Proc.devRef .tc main_v10) = _
  after_results <;> rfl

theorem v2_read (c : Dev nD) : (B1 m c main_v2 : (⟨S1x1024, .f32⟩ : BufTy).Contents (Elt Ideal)) = shapeCast S1x1024 (m ((c : Thread nD τ).loc main_arg9) : (⟨S1024, .f32⟩ : BufTy).Contents (Elt Ideal)) shapeCasts_S1024_S1x1024 := by
  show StableHlo.after hostOps0 (B0 m c) (Proc.devRef .tc main_v2) = _
  after_results <;> rfl

theorem v3_read (c : Dev nD) : (B1 m c main_v3 : (⟨S1x1024, .f32⟩ : BufTy).Contents (Elt Ideal)) = shapeCast S1x1024 (m ((c : Thread nD τ).loc main_arg11) : (⟨S1024, .f32⟩ : BufTy).Contents (Elt Ideal)) shapeCasts_S1024_S1x1024 := by
  show StableHlo.after hostOps0 (B0 m c) (Proc.devRef .tc main_v3) = _
  after_results <;> rfl

theorem v0_read (c : Dev nD) : (B1 m c main_v0 : (⟨S1x1024, .f32⟩ : BufTy).Contents (Elt Ideal)) = shapeCast S1x1024 (m ((c : Thread nD τ).loc main_arg12) : (⟨S1024, .f32⟩ : BufTy).Contents (Elt Ideal)) shapeCasts_S1024_S1x1024 := by
  show StableHlo.after hostOps0 (B0 m c) (Proc.devRef .tc main_v0) = _
  after_results <;> rfl

theorem v1_read (c : Dev nD) : (B1 m c main_v1 : (⟨S1x1024, .f32⟩ : BufTy).Contents (Elt Ideal)) = shapeCast S1x1024 (m ((c : Thread nD τ).loc main_arg13) : (⟨S1024, .f32⟩ : BufTy).Contents (Elt Ideal)) shapeCasts_S1024_S1x1024 := by
  show StableHlo.after hostOps0 (B0 m c) (Proc.devRef .tc main_v1) = _
  after_results <;> rfl

theorem v22_read (c : Dev nD) : (B11 m c main_v22 : (⟨S8192x1024, .f32⟩ : BufTy).Contents (Elt Ideal)) = shapeCast S8192x1024 (B10 m c main_v21 : (⟨S8x1024x1024, .f32⟩ : BufTy).Contents (Elt Ideal)) shapeCasts_S8x1024x1024_S8192x1024 := by
  show StableHlo.after hostOps5 (B10 m c) (Proc.devRef .tc main_v22) = _
  after_results <;> rfl

theorem v24_read (c : Dev nD) : (B13 m c main_v24 : (⟨S8x1024x1024, .f32⟩ : BufTy).Contents (Elt Ideal)) = shapeCast S8x1024x1024 (B12 m c main_v23 : (⟨S8192x1024, .f32⟩ : BufTy).Contents (Elt Ideal)) shapeCasts_S8192x1024_S8x1024x1024 := by
  show StableHlo.after hostOps6 (B12 m c) (Proc.devRef .tc main_v24) = _
  after_results <;> rfl

/-! ## What the feed-forward region found: what the first stretch wrote, carried unchanged -/

theorem at11_v9 (c : Dev nD) : B11 m c main_v9 = B1 m c main_v9 :=
  (B11_of m c main_v9 (by decide)).trans <| (B10_of m c main_v9 (by decide)).trans <| (B9_of m c main_v9 (by decide)).trans <| (B8_of m c main_v9 (by decide)).trans <| (B7_of m c main_v9 (by decide)).trans <| (B6_of m c main_v9 (by decide)).trans <| (B5_of m c main_v9 (by decide)).trans <| (B4_of m c main_v9 (by decide)).trans <| (B3_of m c main_v9 (by decide)).trans <| (B2_of m c main_v9 (by decide))
theorem at11_v2 (c : Dev nD) : B11 m c main_v2 = B1 m c main_v2 :=
  (B11_of m c main_v2 (by decide)).trans <| (B10_of m c main_v2 (by decide)).trans <| (B9_of m c main_v2 (by decide)).trans <| (B8_of m c main_v2 (by decide)).trans <| (B7_of m c main_v2 (by decide)).trans <| (B6_of m c main_v2 (by decide)).trans <| (B5_of m c main_v2 (by decide)).trans <| (B4_of m c main_v2 (by decide)).trans <| (B3_of m c main_v2 (by decide)).trans <| (B2_of m c main_v2 (by decide))
theorem at11_v10 (c : Dev nD) : B11 m c main_v10 = B1 m c main_v10 :=
  (B11_of m c main_v10 (by decide)).trans <| (B10_of m c main_v10 (by decide)).trans <| (B9_of m c main_v10 (by decide)).trans <| (B8_of m c main_v10 (by decide)).trans <| (B7_of m c main_v10 (by decide)).trans <| (B6_of m c main_v10 (by decide)).trans <| (B5_of m c main_v10 (by decide)).trans <| (B4_of m c main_v10 (by decide)).trans <| (B3_of m c main_v10 (by decide)).trans <| (B2_of m c main_v10 (by decide))
theorem at11_v3 (c : Dev nD) : B11 m c main_v3 = B1 m c main_v3 :=
  (B11_of m c main_v3 (by decide)).trans <| (B10_of m c main_v3 (by decide)).trans <| (B9_of m c main_v3 (by decide)).trans <| (B8_of m c main_v3 (by decide)).trans <| (B7_of m c main_v3 (by decide)).trans <| (B6_of m c main_v3 (by decide)).trans <| (B5_of m c main_v3 (by decide)).trans <| (B4_of m c main_v3 (by decide)).trans <| (B3_of m c main_v3 (by decide)).trans <| (B2_of m c main_v3 (by decide))
theorem at11_v0 (c : Dev nD) : B11 m c main_v0 = B1 m c main_v0 :=
  (B11_of m c main_v0 (by decide)).trans <| (B10_of m c main_v0 (by decide)).trans <| (B9_of m c main_v0 (by decide)).trans <| (B8_of m c main_v0 (by decide)).trans <| (B7_of m c main_v0 (by decide)).trans <| (B6_of m c main_v0 (by decide)).trans <| (B5_of m c main_v0 (by decide)).trans <| (B4_of m c main_v0 (by decide)).trans <| (B3_of m c main_v0 (by decide)).trans <| (B2_of m c main_v0 (by decide))
theorem at11_v1 (c : Dev nD) : B11 m c main_v1 = B1 m c main_v1 :=
  (B11_of m c main_v1 (by decide)).trans <| (B10_of m c main_v1 (by decide)).trans <| (B9_of m c main_v1 (by decide)).trans <| (B8_of m c main_v1 (by decide)).trans <| (B7_of m c main_v1 (by decide)).trans <| (B6_of m c main_v1 (by decide)).trans <| (B5_of m c main_v1 (by decide)).trans <| (B4_of m c main_v1 (by decide)).trans <| (B3_of m c main_v1 (by decide)).trans <| (B2_of m c main_v1 (by decide))

/-! ## The third stage -/

/-- The result array is the specification's third stage, rectified, of whatever the second stage left. -/
theorem stage3_val (c : Dev nD) (x2 : Cert.Spec.Act) (hx : (B10 m c main_v21 : Cert.Spec.Act) = x2) :
    (B13 m c main_v24 : Cert.Spec.Act)
      = Cert.Spec.relu (Cert.Spec.stage3 x2 (m ((c : Thread nD τ).loc main_arg8) : Cert.Spec.Mat) (m ((c : Thread nD τ).loc main_arg9) : Cert.Spec.Vec) (m ((c : Thread nD τ).loc main_arg10) : Cert.Spec.Mat) (m ((c : Thread nD τ).loc main_arg11) : Cert.Spec.Vec) (m ((c : Thread nD τ).loc main_arg12) : Cert.Spec.Vec) (m ((c : Thread nD τ).loc main_arg13) : Cert.Spec.Vec)) := by
  funext i
  obtain ⟨b, s, o, rfl⟩ : ∃ (b : Fin 8) (s : Fin 1024) (o : Fin 1024), i = ix3 b s o := ⟨i 0, i 1, i 2, eq_ix3 i⟩
  rw [stage3_row]
  have hres : (B13 m c main_v24 : Cert.Spec.Act) (ix3 b s o) = (B12 m c main_v23 : (⟨S8192x1024, .f32⟩ : BufTy).Contents (Elt Ideal)) (ix2 ⟨b.val * 1024 + s.val, by omega⟩ o) := by
    rw [v24_read]; exact cast_to_batches_apply _ _ b s o
  rw [hres, B12_out, arr5_7]
  unfold ffnNorm5
  have hrow : (fun k : Fin 1024 => E11 m c (Pipeline.arrRef spec5 0) (ix2 ⟨b.val * 1024 + s.val, by omega⟩ k)) = fun k => x2 (ix3 b s k) := by
    funext k
    show (B11 m c main_v22 : (⟨S8192x1024, .f32⟩ : BufTy).Contents (Elt Ideal)) (ix2 ⟨b.val * 1024 + s.val, by omega⟩ k) = _
    rw [v22_read, cast_to_rows_apply, hx]
    congr 1
    have h1 : (b.val * 1024 + s.val) / 1024 = b.val := by omega
    have h2 : (b.val * 1024 + s.val) % 1024 = s.val := by omega
    funext a; match a with
      | ⟨0, _⟩ => exact Fin.ext h1
      | ⟨1, _⟩ => exact Fin.ext h2
      | ⟨2, _⟩ => rfl
  have hw1 : E11 m c (Pipeline.arrRef spec5 1) = (m ((c : Thread nD τ).loc main_arg8) : Cert.Spec.Mat) := by
    show B11 m c main_v9 = _; rw [at11_v9, v9_read]; rfl
  have hb1 : (fun j : Fin 1024 => E11 m c (Pipeline.arrRef spec5 2) (ix2 (0 : Fin 1) j)) = fun j => (m ((c : Thread nD τ).loc main_arg9) : Cert.Spec.Vec) (ix1 j) := by
    funext j; show (B11 m c main_v2 : (⟨S1x1024, .f32⟩ : BufTy).Contents (Elt Ideal)) (ix2 (0 : Fin 1) j) = _; rw [at11_v2, v2_read]; exact cast_to_one_row_apply _ _ 0 j
  have hw2 : E11 m c (Pipeline.arrRef spec5 3) = (m ((c : Thread nD τ).loc main_arg10) : Cert.Spec.Mat) := by
    show B11 m c main_v10 = _; rw [at11_v10, v10_read]; rfl
  have hb2 : (fun j : Fin 1024 => E11 m c (Pipeline.arrRef spec5 4) (ix2 (0 : Fin 1) j)) = fun j => (m ((c : Thread nD τ).loc main_arg11) : Cert.Spec.Vec) (ix1 j) := by
    funext j; show (B11 m c main_v3 : (⟨S1x1024, .f32⟩ : BufTy).Contents (Elt Ideal)) (ix2 (0 : Fin 1) j) = _; rw [at11_v3, v3_read]; exact cast_to_one_row_apply _ _ 0 j
  have hg : (fun j : Fin 1024 => E11 m c (Pipeline.arrRef spec5 5) (ix2 (0 : Fin 1) j)) = fun j => (m ((c : Thread nD τ).loc main_arg12) : Cert.Spec.Vec) (ix1 j) := by
    funext j; show (B11 m c main_v0 : (⟨S1x1024, .f32⟩ : BufTy).Contents (Elt Ideal)) (ix2 (0 : Fin 1) j) = _; rw [at11_v0, v0_read]; exact cast_to_one_row_apply _ _ 0 j
  have hbt : (fun j : Fin 1024 => E11 m c (Pipeline.arrRef spec5 6) (ix2 (0 : Fin 1) j)) = fun j => (m ((c : Thread nD τ).loc main_arg13) : Cert.Spec.Vec) (ix1 j) := by
    funext j; show (B11 m c main_v1 : (⟨S1x1024, .f32⟩ : BufTy).Contents (Elt Ideal)) (ix2 (0 : Fin 1) j) = _; rw [at11_v1, v1_read]; exact cast_to_one_row_apply _ _ 0 j
  rw [hrow, hw1, hb1, hw2, hb2, hg, hbt]

end Cert.KernelIdeal.Val

end
-- ==== Proof.Value0.lean ====
/-
  Region 0 of the idealized kernel, read as a value: the packed projection of the flattened inputs against the three self-attention weights side by side.
  First the body's result block at an index: entry (p, q) of the output block is the sum over the contracted
  coordinate k of the row block's entry (p, k) times the weight's entry (k, q) — the two format changes are the
  identity on the extended reals and the product into a zero accumulator is the plain sum. Then from blocks to the
  array: point t reads row block t of the left array and the whole weight and writes row block t of the output, so
  what it writes back is block t of ONE function of the two arrays (`proj0`), and the 32 row blocks tile the output
  array: after the region the output array is `proj0` of the two arrays the region read.
-/
import proofs.«105197_j1417339207765_2_alg».proof.Proof.Region0
import proofs.«105197_j1417339207765_2_alg».proof.Proof.ValueMatmul
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## The body's result block at an index -/

/-- The whole-block accesses start at offset zero on both axes. -/
theorem zero_offsets0 : (![0, 0] : Fin 2 → Nat) = fun _ => 0 :=
  funext fun a => by match a with | ⟨0, _⟩ => rfl | ⟨1, _⟩ => rfl

/-- Entry (p, q) of the output block: the row block's row p against the weight's column q. -/
theorem out0_2_apply (x0 : Vec Ideal S256x1024 .f32) (x1 : Vec Ideal S1024x3072 .bf16) (p : Fin 256) (q : Fin 3072) :
    out0_2 x0 x1 (ix2 p q) = ∑ k : Fin 1024, x0 (ix2 p k) * x1 (ix2 k q) := by
  unfold out0_2
  rw [View.canon_unit_zero zero_offsets0]
  simp only [View.ld_unit_zero (S := S256x1024) zero_offsets0, View.ld_unit_zero (S := S1024x3072) zero_offsets0]
  unfold k0_pay1
  simp only [shapeCast_self]
  rw [truncf_apply]
  exact matmul_zero_apply _ none _ _ p q

/-! ## From blocks to the array -/

variable (V : (c : Dev nD) → (b : Ref sig .tc) → Buf (Elt Ideal) ((c : Thread nD τ).loc b))

/-- The product of the whole arrays: row `i 0` of the left array against column `i 1` of the weight. -/
def proj0 (a : Vec Ideal S8192x1024 .f32) (w : Vec Ideal S1024x3072 .bf16) : Vec Ideal S8192x3072 .bf16 :=
  fun i => ∑ k : Fin 1024, a (ix2 (i 0) k) * w (ix2 k (i 1))

/-- The printed index maps, decided over the grid: point `t` reads row block `t` of the left array and the whole
    weight, and writes row block `t` of the output. -/
theorem block_indices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays as the region finds them. -/
theorem flushed0_2_eq (c : Dev nD) (t : Fin cfg0.N) :
    (dat0 V c).flushed 2 t = ((cfg0.win 2).blk t).view.read (Elt Ideal)
      (proj0 (V c (Pipeline.arrRef spec0 0)) (V c (Pipeline.arrRef spec0 1))) := by
  show (cfg0.win 2).cut (grid0.coords t) ((dat0 V c).after 2 t) = _
  rw [after0_2]
  obtain ⟨e00, e01, e10, e11, e20, e21⟩ := block_indices0 t
  funext j
  obtain ⟨p, q, rfl⟩ : ∃ (p : Fin 256) (q : Fin 3072), j = ix2 p q := ⟨j 0, j 1, eq_ix2 j⟩
  refine (out0_2_apply (iblk0 V c 0 t) (iblk0 V c 1 t) p q).trans ?_
  show _ = proj0 (V c (Pipeline.arrRef spec0 0)) (V c (Pipeline.arrRef spec0 1)) (((cfg0.win 2).blk t).view.emb (ix2 p q))
  unfold proj0
  refine Finset.sum_congr rfl fun k _ => ?_
  congr 1
  · show V c (Pipeline.arrRef spec0 0) (((cfg0.win 0).blk t).view.emb (ix2 p k)) = V c (Pipeline.arrRef spec0 0) _
    refine congrArg _ (funext fun a => Fin.ext ?_)
    match a with
    | ⟨0, _⟩ => show win0_0.index t (0 : Fin 2) * 256 + 1 * p.val = win0_2.index t (0 : Fin 2) * 256 + 1 * p.val; omega
    | ⟨1, _⟩ => show win0_0.index t (1 : Fin 2) * 1024 + 1 * k.val = k.val; omega
  · show V c (Pipeline.arrRef spec0 1) (((cfg0.win 1).blk t).view.emb (ix2 k q)) = V c (Pipeline.arrRef spec0 1) _
    refine congrArg _ (funext fun a => Fin.ext ?_)
    match a with
    | ⟨0, _⟩ => show win0_1.index t (0 : Fin 2) * 1024 + 1 * k.val = k.val; omega
    | ⟨1, _⟩ => show win0_1.index t (1 : Fin 2) * 3072 + 1 * q.val = win0_2.index t (1 : Fin 2) * 3072 + 1 * q.val; omega

/-- An index of the output array is in point `t`'s block iff each coordinate is in the block's range on its axis. -/
theorem mem_blk0_2 (t : Fin cfg0.N) (i : S8192x3072.Idx) :
    i ∈ ((cfg0.win 2).blk t).view.set ↔ ∀ a : Fin 2, win0_2.index t a * S256x3072.size a ≤ (i a).val ∧ (i a).val < win0_2.index t a * S256x3072.size a + S256x3072.size a := by
  show i ∈ ((View.whole main_v12).slice (win0_2.rect t)).set ↔ _
  rw [View.set_slice_whole, Rect.mem_set_unit]
  exact Iff.rfl

/-- The output array after the region: the product of the two arrays the region read. Row `r` is written by point
    `r / 256`. -/
theorem arr0_2 (c : Dev nD) :
    (dat0 V c).arrAt 2 cfg0.N = proj0 (V c (Pipeline.arrRef spec0 0)) (V c (Pipeline.arrRef spec0 1)) :=
  (dat0 V c).arrAt_eq_of_cover 2 _ (fun t _ => flushed0_2_eq V c t) fun i => by
    have hi0 : (i 0).val < 8192 := (i 0).isLt
    have hi1 : (i 1).val < 3072 := (i 1).isLt
    have hN : cfg0.N = 32 := N_0
    obtain ⟨t, ht⟩ : ∃ t : Fin cfg0.N, t.val = (i 0).val / 256 := ⟨⟨(i 0).val / 256, by omega⟩, rfl⟩
    obtain ⟨_, _, _, _, e20, e21⟩ := block_indices0 t
    refine ⟨t, flush0_2 t, ?_⟩
    rw [mem_blk0_2]
    intro a
    match a with
    | ⟨0, _⟩ => show win0_2.index t (0 : Fin 2) * 256 ≤ (i 0).val ∧ (i 0).val < win0_2.index t (0 : Fin 2) * 256 + 256; omega
    | ⟨1, _⟩ => show win0_2.index t (1 : Fin 2) * 3072 ≤ (i 1).val ∧ (i 1).val < win0_2.index t (1 : Fin 2) * 3072 + 3072; omega

end Cert.KernelIdeal.Val

end
-- ==== Proof.Value2.lean ====
/-
  Region 2 of the idealized kernel, read as a value: the packed projection of the flattened context against the two cross-attention key and value weights side by side.
  First the body's result block at an index: entry (p, q) of the output block is the sum over the contracted
  coordinate k of the row block's entry (p, k) times the weight's entry (k, q) — the two format changes are the
  identity on the extended reals and the product into a zero accumulator is the plain sum. Then from blocks to the
  array: point t reads row block t of the left array and the whole weight and writes row block t of the output, so
  what it writes back is block t of ONE function of the two arrays (`proj2`), and the 32 row blocks tile the output
  array: after the region the output array is `proj2` of the two arrays the region read.
-/
import proofs.«105197_j1417339207765_2_alg».proof.Proof.Region2
import proofs.«105197_j1417339207765_2_alg».proof.Proof.ValueMatmul
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## The body's result block at an index -/

/-- The whole-block accesses start at offset zero on both axes. -/
theorem zero_offsets2 : (![0, 0] : Fin 2 → Nat) = fun _ => 0 :=
  funext fun a => by match a with | ⟨0, _⟩ => rfl | ⟨1, _⟩ => rfl

/-- Entry (p, q) of the output block: the row block's row p against the weight's column q. -/
theorem out2_2_apply (x0 : Vec Ideal S256x1024 .f32) (x1 : Vec Ideal S1024x2048 .bf16) (p : Fin 256) (q : Fin 2048) :
    out2_2 x0 x1 (ix2 p q) = ∑ k : Fin 1024, x0 (ix2 p k) * x1 (ix2 k q) := by
  unfold out2_2
  rw [View.canon_unit_zero zero_offsets2]
  simp only [View.ld_unit_zero (S := S256x1024) zero_offsets2, View.ld_unit_zero (S := S1024x2048) zero_offsets2]
  unfold k2_pay1
  simp only [shapeCast_self]
  rw [truncf_apply]
  exact matmul_zero_apply _ none _ _ p q

/-! ## From blocks to the array -/

variable (V : (c : Dev nD) → (b : Ref sig .tc) → Buf (Elt Ideal) ((c : Thread nD τ).loc b))

/-- The product of the whole arrays: row `i 0` of the left array against column `i 1` of the weight. -/
def proj2 (a : Vec Ideal S8192x1024 .f32) (w : Vec Ideal S1024x2048 .bf16) : Vec Ideal S8192x2048 .bf16 :=
  fun i => ∑ k : Fin 1024, a (ix2 (i 0) k) * w (ix2 k (i 1))

/-- The printed index maps, decided over the grid: point `t` reads row block `t` of the left array and the whole
    weight, and writes row block `t` of the output. -/
theorem block_indices2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the two arrays as the region finds them. -/
theorem flushed2_2_eq (c : Dev nD) (t : Fin cfg2.N) :
    (dat2 V c).flushed 2 t = ((cfg2.win 2).blk t).view.read (Elt Ideal)
      (proj2 (V c (Pipeline.arrRef spec2 0)) (V c (Pipeline.arrRef spec2 1))) := by
  show (cfg2.win 2).cut (grid2.coords t) ((dat2 V c).after 2 t) = _
  rw [after2_2]
  obtain ⟨e00, e01, e10, e11, e20, e21⟩ := block_indices2 t
  funext j
  obtain ⟨p, q, rfl⟩ : ∃ (p : Fin 256) (q : Fin 2048), j = ix2 p q := ⟨j 0, j 1, eq_ix2 j⟩
  refine (out2_2_apply (iblk2 V c 0 t) (iblk2 V c 1 t) p q).trans ?_
  show _ = proj2 (V c (Pipeline.arrRef spec2 0)) (V c (Pipeline.arrRef spec2 1)) (((cfg2.win 2).blk t).view.emb (ix2 p q))
  unfold proj2
  refine Finset.sum_congr rfl fun k _ => ?_
  congr 1
  · show V c (Pipeline.arrRef spec2 0) (((cfg2.win 0).blk t).view.emb (ix2 p k)) = V c (Pipeline.arrRef spec2 0) _
    refine congrArg _ (funext fun a => Fin.ext ?_)
    match a with
    | ⟨0, _⟩ => show win2_0.index t (0 : Fin 2) * 256 + 1 * p.val = win2_2.index t (0 : Fin 2) * 256 + 1 * p.val; omega
    | ⟨1, _⟩ => show win2_0.index t (1 : Fin 2) * 1024 + 1 * k.val = k.val; omega
  · show V c (Pipeline.arrRef spec2 1) (((cfg2.win 1).blk t).view.emb (ix2 k q)) = V c (Pipeline.arrRef spec2 1) _
    refine congrArg _ (funext fun a => Fin.ext ?_)
    match a with
    | ⟨0, _⟩ => show win2_1.index t (0 : Fin 2) * 1024 + 1 * k.val = k.val; omega
    | ⟨1, _⟩ => show win2_1.index t (1 : Fin 2) * 2048 + 1 * q.val = win2_2.index t (1 : Fin 2) * 2048 + 1 * q.val; omega

/-- An index of the output array is in point `t`'s block iff each coordinate is in the block's range on its axis. -/
theorem mem_blk2_2 (t : Fin cfg2.N) (i : S8192x2048.Idx) :
    i ∈ ((cfg2.win 2).blk t).view.set ↔ ∀ a : Fin 2, win2_2.index t a * S256x2048.size a ≤ (i a).val ∧ (i a).val < win2_2.index t a * S256x2048.size a + S256x2048.size a := by
  show i ∈ ((View.whole main_v16).slice (win2_2.rect t)).set ↔ _
  rw [View.set_slice_whole, Rect.mem_set_unit]
  exact Iff.rfl

/-- The output array after the region: the product of the two arrays the region read. Row `r` is written by point
    `r / 256`. -/
theorem arr2_2 (c : Dev nD) :
    (dat2 V c).arrAt 2 cfg2.N = proj2 (V c (Pipeline.arrRef spec2 0)) (V c (Pipeline.arrRef spec2 1)) :=
  (dat2 V c).arrAt_eq_of_cover 2 _ (fun t _ => flushed2_2_eq V c t) fun i => by
    have hi0 : (i 0).val < 8192 := (i 0).isLt
    have hi1 : (i 1).val < 2048 := (i 1).isLt
    have hN : cfg2.N = 32 := N_2
    obtain ⟨t, ht⟩ : ∃ t : Fin cfg2.N, t.val = (i 0).val / 256 := ⟨⟨(i 0).val / 256, by omega⟩, rfl⟩
    obtain ⟨_, _, _, _, e20, e21⟩ := block_indices2 t
    refine ⟨t, flush2_2 t, ?_⟩
    rw [mem_blk2_2]
    intro a
    match a with
    | ⟨0, _⟩ => show win2_2.index t (0 : Fin 2) * 256 ≤ (i 0).val ∧ (i 0).val < win2_2.index t (0 : Fin 2) * 256 + 256; omega
    | ⟨1, _⟩ => show win2_2.index t (1 : Fin 2) * 2048 ≤ (i 1).val ∧ (i 1).val < win2_2.index t (1 : Fin 2) * 2048 + 2048; omega

end Cert.KernelIdeal.Val

end
-- ==== Proof.Value3.lean ====
/-
  Region 3 of the idealized kernel, read as a value: the cross-attention query projection of the first stage's flattened result.
  First the body's result block at an index: entry (p, q) of the output block is the sum over the contracted
  coordinate k of the row block's entry (p, k) times the weight's entry (k, q) — the two format changes are the
  identity on the extended reals and the product into a zero accumulator is the plain sum. Then from blocks to the
  array: point t reads row block t of the left array and the whole weight and writes row block t of the output, so
  what it writes back is block t of ONE function of the two arrays (`proj3`), and the 16 row blocks tile the output
  array: after the region the output array is `proj3` of the two arrays the region read.
-/
import proofs.«105197_j1417339207765_2_alg».proof.Proof.Region3
import proofs.«105197_j1417339207765_2_alg».proof.Proof.ValueMatmul
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## The body's result block at an index -/

/-- The whole-block accesses start at offset zero on both axes. -/
theorem zero_offsets3 : (![0, 0] : Fin 2 → Nat) = fun _ => 0 :=
  funext fun a => by match a with | ⟨0, _⟩ => rfl | ⟨1, _⟩ => rfl

/-- Entry (p, q) of the output block: the row block's row p against the weight's column q. -/
theorem out3_2_apply (x0 : Vec Ideal S512x1024 .f32) (x1 : Vec Ideal S1024x1024 .bf16) (p : Fin 512) (q : Fin 1024) :
    out3_2 x0 x1 (ix2 p q) = ∑ k : Fin 1024, x0 (ix2 p k) * x1 (ix2 k q) := by
  unfold out3_2
  rw [View.canon_unit_zero zero_offsets3]
  simp only [View.ld_unit_zero (S := S512x1024) zero_offsets3, View.ld_unit_zero (S := S1024x1024) zero_offsets3]
  unfold k3_pay1
  simp only [shapeCast_self]
  rw [truncf_apply]
  exact matmul_zero_apply _ none _ _ p q

/-! ## From blocks to the array -/

variable (V : (c : Dev nD) → (b : Ref sig .tc) → Buf (Elt Ideal) ((c : Thread nD τ).loc b))

/-- The product of the whole arrays: row `i 0` of the left array against column `i 1` of the weight. -/
def proj3 (a : Vec Ideal S8192x1024 .f32) (w : Vec Ideal S1024x1024 .bf16) : Vec Ideal S8192x1024 .bf16 :=
  fun i => ∑ k : Fin 1024, a (ix2 (i 0) k) * w (ix2 k (i 1))

/-- The printed index maps, decided over the grid: point `t` reads row block `t` of the left array and the whole
    weight, and writes row block `t` of the output. -/
theorem block_indices3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the product of the two arrays as the region finds them. -/
theorem flushed3_2_eq (c : Dev nD) (t : Fin cfg3.N) :
    (dat3 V c).flushed 2 t = ((cfg3.win 2).blk t).view.read (Elt Ideal)
      (proj3 (V c (Pipeline.arrRef spec3 0)) (V c (Pipeline.arrRef spec3 1))) := by
  show (cfg3.win 2).cut (grid3.coords t) ((dat3 V c).after 2 t) = _
  rw [after3_2]
  obtain ⟨e00, e01, e10, e11, e20, e21⟩ := block_indices3 t
  funext j
  obtain ⟨p, q, rfl⟩ : ∃ (p : Fin 512) (q : Fin 1024), j = ix2 p q := ⟨j 0, j 1, eq_ix2 j⟩
  refine (out3_2_apply (iblk3 V c 0 t) (iblk3 V c 1 t) p q).trans ?_
  show _ = proj3 (V c (Pipeline.arrRef spec3 0)) (V c (Pipeline.arrRef spec3 1)) (((cfg3.win 2).blk t).view.emb (ix2 p q))
  unfold proj3
  refine Finset.sum_congr rfl fun k _ => ?_
  congr 1
  · show V c (Pipeline.arrRef spec3 0) (((cfg3.win 0).blk t).view.emb (ix2 p k)) = V c (Pipeline.arrRef spec3 0) _
    refine congrArg _ (funext fun a => Fin.ext ?_)
    match a with
    | ⟨0, _⟩ => show win3_0.index t (0 : Fin 2) * 512 + 1 * p.val = win3_2.index t (0 : Fin 2) * 512 + 1 * p.val; omega
    | ⟨1, _⟩ => show win3_0.index t (1 : Fin 2) * 1024 + 1 * k.val = k.val; omega
  · show V c (Pipeline.arrRef spec3 1) (((cfg3.win 1).blk t).view.emb (ix2 k q)) = V c (Pipeline.arrRef spec3 1) _
    refine congrArg _ (funext fun a => Fin.ext ?_)
    match a with
    | ⟨0, _⟩ => show win3_1.index t (0 : Fin 2) * 1024 + 1 * k.val = k.val; omega
    | ⟨1, _⟩ => show win3_1.index t (1 : Fin 2) * 1024 + 1 * q.val = win3_2.index t (1 : Fin 2) * 1024 + 1 * q.val; omega

/-- An index of the output array is in point `t`'s block iff each coordinate is in the block's range on its axis. -/
theorem mem_blk3_2 (t : Fin cfg3.N) (i : S8192x1024.Idx) :
    i ∈ ((cfg3.win 2).blk t).view.set ↔ ∀ a : Fin 2, win3_2.index t a * S512x1024.size a ≤ (i a).val ∧ (i a).val < win3_2.index t a * S512x1024.size a + S512x1024.size a := by
  show i ∈ ((View.whole main_v19).slice (win3_2.rect t)).set ↔ _
  rw [View.set_slice_whole, Rect.mem_set_unit]
  exact Iff.rfl

/-- The output array after the region: the product of the two arrays the region read. Row `r` is written by point
    `r / 512`. -/
theorem arr3_2 (c : Dev nD) :
    (dat3 V c).arrAt 2 cfg3.N = proj3 (V c (Pipeline.arrRef spec3 0)) (V c (Pipeline.arrRef spec3 1)) :=
  (dat3 V c).arrAt_eq_of_cover 2 _ (fun t _ => flushed3_2_eq V c t) fun i => by
    have hi0 : (i 0).val < 8192 := (i 0).isLt
    have hi1 : (i 1).val < 1024 := (i 1).isLt
    have hN : cfg3.N = 16 := N_3
    obtain ⟨t, ht⟩ : ∃ t : Fin cfg3.N, t.val = (i 0).val / 512 := ⟨⟨(i 0).val / 512, by omega⟩, rfl⟩
    obtain ⟨_, _, _, _, e20, e21⟩ := block_indices3 t
    refine ⟨t, flush3_2 t, ?_⟩
    rw [mem_blk3_2]
    intro a
    match a with
    | ⟨0, _⟩ => show win3_2.index t (0 : Fin 2) * 512 ≤ (i 0).val ∧ (i 0).val < win3_2.index t (0 : Fin 2) * 512 + 512; omega
    | ⟨1, _⟩ => show win3_2.index t (1 : Fin 2) * 1024 ≤ (i 1).val ∧ (i 1).val < win3_2.index t (1 : Fin 2) * 1024 + 1024; omega

end Cert.KernelIdeal.Val

end
-- ==== Proof.LibConcatCols.lean ====
/-
  Tables laid side by side. The concatenation along the column axis of three (or two) tables of 1024 × 1024 entries
  is a table of 1024 × 3072 (or 1024 × 2048) entries whose column block number blk, the columns blk·1024 … blk·1024 + 1023,
  is table number blk: entry (e, blk·1024 + o) of the wide table is entry (e, o) of that table. One lemma per block.
-/
import Idealize.ShloMosaic.Lib.Pipeline.Value
import Idealize.ShloMosaic.Lib.ValueIdx

namespace Cert.LibConcatCols

open Idealize.ShloMosaic Idealize.ShloMosaic.ValueIdx

variable {α : Type}

/-- Three tables side by side, read in column block 0: table 0 at the same row and the column within the block. -/
theorem concat3_block0 (x0 x1 x2 : (⟨2, ![1024, 1024]⟩ : Shape).Idx → α)
    (h : Shape.Concatenates [⟨2, ![1024, 1024]⟩, ⟨2, ![1024, 1024]⟩, ⟨2, ![1024, 1024]⟩] ⟨2, ![1024, 3072]⟩ 1) (e o : Fin 1024) :
    concatenate ⟨2, ![1024, 3072]⟩ 1 [⟨⟨2, ![1024, 1024]⟩, x0⟩, ⟨⟨2, ![1024, 1024]⟩, x1⟩, ⟨⟨2, ![1024, 1024]⟩, x2⟩] h (ix2 e ⟨o.val, by omega⟩) = x0 (ix2 e o) := by
  refine concatenate_apply_piece (t := ⟨2, ![1024, 3072]⟩) 1 [⟨⟨2, ![1024, 1024]⟩, x0⟩, ⟨⟨2, ![1024, 1024]⟩, x1⟩, ⟨⟨2, ![1024, 1024]⟩, x2⟩] h (ix2 e ⟨o.val, by omega⟩)
    0 (by simp) ⟨2, ![1024, 1024]⟩ x0 rfl rfl 0 (by first | rfl | simp | decide) (ix2 e o) ?_ ?_
  · intro b hb
    match b with
    | ⟨0, _⟩ => rfl
    | ⟨1, _⟩ => exact absurd (Fin.ext rfl) hb
  · exact Nat.zero_add _

/-- Three tables side by side, read in column block 1: table 1 at the same row and the column within the block. -/
theorem concat3_block1 (x0 x1 x2 : (⟨2, ![1024, 1024]⟩ : Shape).Idx → α)
    (h : Shape.Concatenates [⟨2, ![1024, 1024]⟩, ⟨2, ![1024, 1024]⟩, ⟨2, ![1024, 1024]⟩] ⟨2, ![1024, 3072]⟩ 1) (e o : Fin 1024) :
    concatenate ⟨2, ![1024, 3072]⟩ 1 [⟨⟨2, ![1024, 1024]⟩, x0⟩, ⟨⟨2, ![1024, 1024]⟩, x1⟩, ⟨⟨2, ![1024, 1024]⟩, x2⟩] h (ix2 e ⟨1024 + o.val, by omega⟩) = x1 (ix2 e o) := by
  refine concatenate_apply_piece (t := ⟨2, ![1024, 3072]⟩) 1 [⟨⟨2, ![1024, 1024]⟩, x0⟩, ⟨⟨2, ![1024, 1024]⟩, x1⟩, ⟨⟨2, ![1024, 1024]⟩, x2⟩] h (ix2 e ⟨1024 + o.val, by omega⟩)
    1 (by simp) ⟨2, ![1024, 1024]⟩ x1 rfl rfl 1024 (by first | rfl | simp | decide) (ix2 e o) ?_ ?_
  · intro b hb
    match b with
    | ⟨0, _⟩ => rfl
    | ⟨1, _⟩ => exact absurd (Fin.ext rfl) hb
  · rfl

/-- Three tables side by side, read in column block 2: table 2 at the same row and the column within the block. -/
theorem concat3_block2 (x0 x1 x2 : (⟨2, ![1024, 1024]⟩ : Shape).Idx → α)
    (h : Shape.Concatenates [⟨2, ![1024, 1024]⟩, ⟨2, ![1024, 1024]⟩, ⟨2, ![1024, 1024]⟩] ⟨2, ![1024, 3072]⟩ 1) (e o : Fin 1024) :
    concatenate ⟨2, ![1024, 3072]⟩ 1 [⟨⟨2, ![1024, 1024]⟩, x0⟩, ⟨⟨2, ![1024, 1024]⟩, x1⟩, ⟨⟨2, ![1024, 1024]⟩, x2⟩] h (ix2 e ⟨2048 + o.val, by omega⟩) = x2 (ix2 e o) := by
  refine concatenate_apply_piece (t := ⟨2, ![1024, 3072]⟩) 1 [⟨⟨2, ![1024, 1024]⟩, x0⟩, ⟨⟨2, ![1024, 1024]⟩, x1⟩, ⟨⟨2, ![1024, 1024]⟩, x2⟩] h (ix2 e ⟨2048 + o.val, by omega⟩)
    2 (by simp) ⟨2, ![1024, 1024]⟩ x2 rfl rfl 2048 (by first | rfl | simp | decide) (ix2 e o) ?_ ?_
  · intro b hb
    match b with
    | ⟨0, _⟩ => rfl
    | ⟨1, _⟩ => exact absurd (Fin.ext rfl) hb
  · rfl

/-- Two tables side by side, read in column block 0: table 0 at the same row and the column within the block. -/
theorem concat2_block0 (x0 x1 : (⟨2, ![1024, 1024]⟩ : Shape).Idx → α)
    (h : Shape.Concatenates [⟨2, ![1024, 1024]⟩, ⟨2, ![1024, 1024]⟩] ⟨2, ![1024, 2048]⟩ 1) (e o : Fin 1024) :
    concatenate ⟨2, ![1024, 2048]⟩ 1 [⟨⟨2, ![1024, 1024]⟩, x0⟩, ⟨⟨2, ![1024, 1024]⟩, x1⟩] h (ix2 e ⟨o.val, by omega⟩) = x0 (ix2 e o) := by
  refine concatenate_apply_piece (t := ⟨2, ![1024, 2048]⟩) 1 [⟨⟨2, ![1024, 1024]⟩, x0⟩, ⟨⟨2, ![1024, 1024]⟩, x1⟩] h (ix2 e ⟨o.val, by omega⟩)
    0 (by simp) ⟨2, ![1024, 1024]⟩ x0 rfl rfl 0 (by first | rfl | simp | decide) (ix2 e o) ?_ ?_
  · intro b hb
    match b with
    | ⟨0, _⟩ => rfl
    | ⟨1, _⟩ => exact absurd (Fin.ext rfl) hb
  · exact Nat.zero_add _

/-- Two tables side by side, read in column block 1: table 1 at the same row and the column within the block. -/
theorem concat2_block1 (x0 x1 : (⟨2, ![1024, 1024]⟩ : Shape).Idx → α)
    (h : Shape.Concatenates [⟨2, ![1024, 1024]⟩, ⟨2, ![1024, 1024]⟩] ⟨2, ![1024, 2048]⟩ 1) (e o : Fin 1024) :
    concatenate ⟨2, ![1024, 2048]⟩ 1 [⟨⟨2, ![1024, 1024]⟩, x0⟩, ⟨⟨2, ![1024, 1024]⟩, x1⟩] h (ix2 e ⟨1024 + o.val, by omega⟩) = x1 (ix2 e o) := by
  refine concatenate_apply_piece (t := ⟨2, ![1024, 2048]⟩) 1 [⟨⟨2, ![1024, 1024]⟩, x0⟩, ⟨⟨2, ![1024, 1024]⟩, x1⟩] h (ix2 e ⟨1024 + o.val, by omega⟩)
    1 (by simp) ⟨2, ![1024, 1024]⟩ x1 rfl rfl 1024 (by first | rfl | simp | decide) (ix2 e o) ?_ ?_
  · intro b hb
    match b with
    | ⟨0, _⟩ => rfl
    | ⟨1, _⟩ => exact absurd (Fin.ext rfl) hb
  · rfl

end Cert.LibConcatCols
-- ==== Proof.KProj.lean ====
/-
  The six projections of the kernel, read off the chain of buffer contents. Each is a region that multiplies a tall
  table (the batch of eight 1024-row tables flattened to 8192 rows) by a weight table, between host operations that
  flatten the batch, lay the weights side by side and cut the product's 8192 rows back into eight tables. Entry
  (b, s, blk·1024 + o) of the packed product is row b·1024 + s of the tall table against column blk·1024 + o of the
  wide weight table, that is row s of table b against column o of weight number blk: the projection of the
  specification. The change to the narrow float format is the identity on the extended reals.
-/
import proofs.«105197_j1417339207765_2_alg».proof.Proof.Chain
import proofs.«105197_j1417339207765_2_alg».proof.Proof.Value0
import proofs.«105197_j1417339207765_2_alg».proof.Proof.Value2
import proofs.«105197_j1417339207765_2_alg».proof.Proof.Value3
import proofs.«105197_j1417339207765_2_alg».proof.Proof.LibBatchRows
import proofs.«105197_j1417339207765_2_alg».proof.Proof.LibConcatCols
import proofs.«105197_j1417339207765_2_alg».proof.Proof.Spec
import Idealize.ShloMosaic.Lib.StableHlo.Run

noncomputable section

namespace Cert.KernelIdeal.Val

open Cert.KernelIdeal Cert.KernelIdeal.Gen
open Idealize.ShloMosaic Idealize.ShloMosaic.TcCoe Idealize.ShloMosaic.ValueIdx Idealize.SL.Sem Idealize.ShloMosaic.StableHlo
open scoped BigOperators

variable (m : (ℓ : Loc nD τ sig) → Buf (Elt Ideal) ℓ)

/-! ## The host operations' results -/

/-- The inputs flattened to 8192 rows. -/
theorem v11_eq (c : Dev nD) : B1 m c main_v11 = shapeCast S8192x1024 (m ((c : Thread nD τ).loc main_arg0)) shapeCasts_S8x1024x1024_S8192x1024 := by
  show StableHlo.after hostOps0 (B0 m c) (Proc.devRef .tc main_v11) = _
  after_results <;> rfl

/-- The three self-attention weights side by side, in the narrow format. -/
theorem v5_eq (c : Dev nD) : (B1 m c main_v5 : (⟨S1024x3072, .bf16⟩ : BufTy).Contents (Elt Ideal)) =
    truncf (F := Ideal) .bf16 (concatenate S1024x3072 1 [⟨S1024x1024, ((m ((c : Thread nD τ).loc main_arg2)) : (⟨S1024x1024, .f32⟩ : BufTy).Contents (Elt Ideal))⟩, ⟨S1024x1024, ((m ((c : Thread nD τ).loc main_arg3)) : (⟨S1024x1024, .f32⟩ : BufTy).Contents (Elt Ideal))⟩, ⟨S1024x1024, ((m ((c : Thread nD τ).loc main_arg4)) : (⟨S1024x1024, .f32⟩ : BufTy).Contents (Elt Ideal))⟩] concatenates_S1024x1024_S1024x1024_S1024x1024_S1024x3072_d1) bitsLt_bf16_f32 := by
  show StableHlo.after hostOps0 (B0 m c) (Proc.devRef .tc main_v5) = _
  after_results <;> rfl

/-- The cross-attention key and value weights side by side, in the narrow format. -/
theorem v7_eq (c : Dev nD) : (B1 m c main_v7 : (⟨S1024x2048, .bf16⟩ : BufTy).Contents (Elt Ideal)) =
    truncf (F := Ideal) .bf16 (concatenate S1024x2048 1 [⟨S1024x1024, ((m ((c : Thread nD τ).loc main_arg6)) : (⟨S1024x1024, .f32⟩ : BufTy).Contents (Elt Ideal))⟩, ⟨S1024x1024, ((m ((c : Thread nD τ).loc main_arg7)) : (⟨S1024x1024, .f32⟩ : BufTy).Contents (Elt Ideal))⟩] concatenates_S1024x1024_S1024x1024_S1024x2048_d1) bitsLt_bf16_f32 := by
  show StableHlo.after hostOps0 (B0 m c) (Proc.devRef .tc main_v7) = _
  after_results <;> rfl

/-- The cross-attention query weights in the narrow format. -/
theorem v8_eq (c : Dev nD) : (B1 m c main_v8 : (⟨S1024x1024, .bf16⟩ : BufTy).Contents (Elt Ideal)) =
    truncf (F := Ideal) .bf16 ((m ((c : Thread nD τ).loc main_arg5)) : (⟨S1024x1024, .f32⟩ : BufTy).Contents (Elt Ideal)) bitsLt_bf16_f32 := by
  show StableHlo.after hostOps0 (B0 m c) (Proc.devRef .tc main_v8) = _
  after_results <;> rfl

/-- Region 0's output: the tall inputs against the packed self-attention weights. -/
theorem v12_eq (c : Dev nD) : B2 m c main_v12 = proj0 (E1 m c main_v11) (E1 m c main_v5) :=
  (B2_out m c).trans (arr0_2 (E1 m) c)

/-- Cut back into eight tables. -/
theorem v13_eq (c : Dev nD) : B3 m c main_v13 = shapeCast S8x1024x3072 (B2 m c main_v12) shapeCasts_S8192x3072_S8x1024x3072 := by
  show StableHlo.after hostOps1 (B2 m c) (Proc.devRef .tc main_v13) = _
  after_results <;> rfl

/-- The context flattened to 8192 rows. -/
theorem v15_eq (c : Dev nD) : B5 m c main_v15 = shapeCast S8192x1024 (B4 m c main_arg1) shapeCasts_S8x1024x1024_S8192x1024 := by
  show StableHlo.after hostOps2 (B4 m c) (Proc.devRef .tc main_v15) = _
  after_results <;> rfl

/-- Region 2's output: the tall context against the packed cross-attention key and value weights. -/
theorem v16_eq (c : Dev nD) : B6 m c main_v16 = proj2 (E5 m c main_v15) (E5 m c main_v7) :=
  (B6_out m c).trans (arr2_2 (E5 m) c)

/-- Cut back into eight tables. -/
theorem v17_eq (c : Dev nD) : B7 m c main_v17 = shapeCast S8x1024x2048 (B6 m c main_v16) shapeCasts_S8192x2048_S8x1024x2048 := by
  show StableHlo.after hostOps3 (B6 m c) (Proc.devRef .tc main_v17) = _
  after_results <;> rfl

/-- The first sublayer's result flattened to 8192 rows. -/
theorem v18_eq (c : Dev nD) : B7 m c main_v18 = shapeCast S8192x1024 (B6 m c main_v14) shapeCasts_S8x1024x1024_S8192x1024 := by
  show StableHlo.after hostOps3 (B6 m c) (Proc.devRef .tc main_v18) = _
  after_results <;> rfl

/-- Region 3's output: that against the cross-attention query weights. -/
theorem v19_eq (c : Dev nD) : B8 m c main_v19 = proj3 (E7 m c main_v18) (E7 m c main_v8) :=
  (B8_out m c).trans (arr3_2 (E7 m) c)

/-- Cut back into eight tables. -/
theorem v20_eq (c : Dev nD) : B9 m c main_v20 = shapeCast S8x1024x1024 (B8 m c main_v19) shapeCasts_S8192x1024_S8x1024x1024 := by
  show StableHlo.after hostOps4 (B8 m c) (Proc.devRef .tc main_v20) = _
  after_results <;> rfl

/-! ## Buffers carried unchanged to where they are read -/

/-- The context is as at launch when the second projection region is entered. -/
theorem arg1_at4 (c : Dev nD) : B4 m c main_arg1 = (m ((c : Thread nD τ).loc main_arg1)) :=
  (B4_of m c _ (by decide)).trans <| (B3_of m c _ (by decide)).trans <| (B2_of m c _ (by decide)).trans (B1_of m c _ (by decide))

/-- The packed cross-attention weights are carried from the first host stretch to the second projection region. -/
theorem v7_at5 (c : Dev nD) : B5 m c main_v7 = B1 m c main_v7 :=
  (B5_of m c _ (by decide)).trans <| (B4_of m c _ (by decide)).trans <| (B3_of m c _ (by decide)).trans (B2_of m c _ (by decide))

/-- The cross-attention query weights are carried from the first host stretch to the third projection region. -/
theorem v8_at7 (c : Dev nD) : B7 m c main_v8 = B1 m c main_v8 :=
  (B7_of m c _ (by decide)).trans <| (B6_of m c _ (by decide)).trans <| (B5_of m c _ (by decide)).trans <|
    (B4_of m c _ (by decide)).trans <| (B3_of m c _ (by decide)).trans (B2_of m c _ (by decide))

/-- The first sublayer's result is carried from its region to the host stretch that flattens it. -/
theorem v14_at6 (c : Dev nD) : B6 m c main_v14 = B4 m c main_v14 :=
  (B6_of m c _ (by decide)).trans (B5_of m c _ (by decide))

/-! ## Row b·1024 + s of the flattened batch is row s of table b -/

/-- The quotient and remainder of b·1024 + s by 1024 are b and s. -/
theorem batch_row (x : Cert.Spec.Act) (b : Fin 8) (s k : Fin 1024) :
    x (ix3 (⟨(b.val * 1024 + s.val) / 1024, by omega⟩ : Fin 8) (⟨(b.val * 1024 + s.val) % 1024, by omega⟩ : Fin 1024) k) = x (ix3 b s k) := by
  refine congrArg x (funext fun a => ?_)
  match a with
  | ⟨0, _⟩ => exact Fin.ext (by show (b.val * 1024 + s.val) / 1024 = b.val; omega)
  | ⟨1, _⟩ => exact Fin.ext (by show (b.val * 1024 + s.val) % 1024 = s.val; omega)
  | ⟨2, _⟩ => rfl

/-! ## The cut-back product at an entry, for any width -/

/-- A sum of products whose right factors agree term by term. -/
theorem sum_mul_congr (f g g' : Fin 1024 → EReal) (h : ∀ k, g k = g' k) :
    ∑ k : Fin 1024, f k * g k = ∑ k : Fin 1024, f k * g' k :=
  Finset.sum_congr rfl fun k _ => congrArg (f k * ·) (h k)

/-- If y is the product p cut back into eight tables, p the tall table t against the weight table w, and t the batch
    x flattened, then y at (b, s, col) is row s of table b of x against column col of w. -/
theorem packed_apply {C : Nat} (y : (⟨3, ![8, 1024, C]⟩ : Shape).Idx → EReal) (p : (⟨2, ![8192, C]⟩ : Shape).Idx → EReal)
    (t : (⟨2, ![8192, 1024]⟩ : Shape).Idx → EReal) (w : (⟨2, ![1024, C]⟩ : Shape).Idx → EReal) (x : Cert.Spec.Act)
    (hc : (⟨2, ![8192, C]⟩ : Shape).ShapeCasts ⟨3, ![8, 1024, C]⟩)
    (hr : (⟨3, ![8, 1024, 1024]⟩ : Shape).ShapeCasts ⟨2, ![8192, 1024]⟩)
    (hy : y = shapeCast ⟨3, ![8, 1024, C]⟩ p hc)
    (hp : p = fun i => ∑ k : Fin 1024, t (ix2 (i 0) k) * w (ix2 k (i 1)))
    (ht : t = shapeCast ⟨2, ![8192, 1024]⟩ x hr)
    (b : Fin 8) (s : Fin 1024) (col : Fin C) :
    y (ix3 b s col) = ∑ k : Fin 1024, x (ix3 b s k) * w (ix2 k col) := by
  subst hy hp ht
  refine (Cert.LibBatchRows.cast_to_batches_apply _ hc b s col).trans ?_
  show ∑ k : Fin 1024, shapeCast ⟨2, ![8192, 1024]⟩ x hr (ix2 (⟨b.val * 1024 + s.val, by omega⟩ : Fin 8192) k) * w (ix2 k col) = _
  refine Finset.sum_congr rfl fun k _ => congrArg (· * w (ix2 k col)) ?_
  exact (Cert.LibBatchRows.cast_to_rows_apply x hr (⟨b.val * 1024 + s.val, by omega⟩ : Fin 8192) k).trans (batch_row x b s k)

/-! ## The self-attention projections: the three column blocks of the packed product -/

/-- The queries: column block 0. -/
theorem q1_at (c : Dev nD) : ∀ (b : Fin 8) (s o : Fin 1024),
    (B3 m c main_v13 : (⟨S8x1024x3072, .bf16⟩ : BufTy).Contents (Elt Ideal)) (ix3 b s (⟨o.val, by omega⟩ : Fin 3072)) = Cert.Spec.proj (m ((c : Thread nD τ).loc main_arg0)) (m ((c : Thread nD τ).loc main_arg2)) (ix3 b s o) := fun b s o =>
  (packed_apply (C := 3072) _ _ _ _ _ _ _ (v13_eq m c) (v12_eq m c) (v11_eq m c) b s _).trans
    (sum_mul_congr _ _ _ fun k => (congrFun (v5_eq m c) _).trans (Cert.LibConcatCols.concat3_block0 _ _ _ concatenates_S1024x1024_S1024x1024_S1024x1024_S1024x3072_d1 k o))

/-- The keys: column block 1. -/
theorem k1_at (c : Dev nD) : ∀ (b : Fin 8) (s o : Fin 1024),
    (B3 m c main_v13 : (⟨S8x1024x3072, .bf16⟩ : BufTy).Contents (Elt Ideal)) (ix3 b s (⟨1024 + o.val, by omega⟩ : Fin 3072)) = Cert.Spec.proj (m ((c : Thread nD τ).loc main_arg0)) (m ((c : Thread nD τ).loc main_arg3)) (ix3 b s o) := fun b s o =>
  (packed_apply (C := 3072) _ _ _ _ _ _ _ (v13_eq m c) (v12_eq m c) (v11_eq m c) b s _).trans
    (sum_mul_congr _ _ _ fun k => (congrFun (v5_eq m c) _).trans (Cert.LibConcatCols.concat3_block1 _ _ _ concatenates_S1024x1024_S1024x1024_S1024x1024_S1024x3072_d1 k o))

/-- The values: column block 2. -/
theorem v1_at (c : Dev nD) : ∀ (b : Fin 8) (s o : Fin 1024),
    (B3 m c main_v13 : (⟨S8x1024x3072, .bf16⟩ : BufTy).Contents (Elt Ideal)) (ix3 b s (⟨2048 + o.val, by omega⟩ : Fin 3072)) = Cert.Spec.proj (m ((c : Thread nD τ).loc main_arg0)) (m ((c : Thread nD τ).loc main_arg4)) (ix3 b s o) := fun b s o =>
  (packed_apply (C := 3072) _ _ _ _ _ _ _ (v13_eq m c) (v12_eq m c) (v11_eq m c) b s _).trans
    (sum_mul_congr _ _ _ fun k => (congrFun (v5_eq m c) _).trans (Cert.LibConcatCols.concat3_block2 _ _ _ concatenates_S1024x1024_S1024x1024_S1024x1024_S1024x3072_d1 k o))

/-! ## The cross-attention key and value projections: the two column blocks of the context's packed product -/

/-- The context flattened to 8192 rows, as the second projection region finds it. -/
theorem v15_eq' (c : Dev nD) : B5 m c main_v15 = shapeCast S8192x1024 (m ((c : Thread nD τ).loc main_arg1)) shapeCasts_S8x1024x1024_S8192x1024 :=
  (v15_eq m c).trans (congrArg (fun z : (⟨S8x1024x1024, .f32⟩ : BufTy).Contents (Elt Ideal) => shapeCast S8192x1024 z shapeCasts_S8x1024x1024_S8192x1024) (arg1_at4 m c))

/-- The packed product of the context is carried to where the second attention reads it. -/
theorem v17_at9 (c : Dev nD) : B9 m c main_v17 = B7 m c main_v17 :=
  (B9_of m c _ (by decide)).trans (B8_of m c _ (by decide))

/-- The keys: column block 0. -/
theorem k2_at (c : Dev nD) : ∀ (b : Fin 8) (s o : Fin 1024),
    (B9 m c main_v17 : (⟨S8x1024x2048, .bf16⟩ : BufTy).Contents (Elt Ideal)) (ix3 b s (⟨o.val, by omega⟩ : Fin 2048)) = Cert.Spec.proj (m ((c : Thread nD τ).loc main_arg1)) (m ((c : Thread nD τ).loc main_arg6)) (ix3 b s o) := fun b s o =>
  (congrFun (v17_at9 m c) _).trans <|
  (packed_apply (C := 2048) _ _ _ _ _ _ _ (v17_eq m c) (v16_eq m c) (v15_eq' m c) b s _).trans
    (sum_mul_congr _ _ _ fun k => (congrFun (v7_at5 m c) _).trans <| (congrFun (v7_eq m c) _).trans (Cert.LibConcatCols.concat2_block0 _ _ concatenates_S1024x1024_S1024x1024_S1024x2048_d1 k o))

/-- The values: column block 1. -/
theorem v2_at (c : Dev nD) : ∀ (b : Fin 8) (s o : Fin 1024),
    (B9 m c main_v17 : (⟨S8x1024x2048, .bf16⟩ : BufTy).Contents (Elt Ideal)) (ix3 b s (⟨1024 + o.val, by omega⟩ : Fin 2048)) = Cert.Spec.proj (m ((c : Thread nD τ).loc main_arg1)) (m ((c : Thread nD τ).loc main_arg7)) (ix3 b s o) := fun b s o =>
  (congrFun (v17_at9 m c) _).trans <|
  (packed_apply (C := 2048) _ _ _ _ _ _ _ (v17_eq m c) (v16_eq m c) (v15_eq' m c) b s _).trans
    (sum_mul_congr _ _ _ fun k => (congrFun (v7_at5 m c) _).trans <| (congrFun (v7_eq m c) _).trans (Cert.LibConcatCols.concat2_block1 _ _ concatenates_S1024x1024_S1024x1024_S1024x2048_d1 k o))

/-! ## The cross-attention query projection -/

/-- The third projection region's product: the first sublayer's result x₁ against the query weights. -/
theorem q2_at (c : Dev nD) (x1 : Cert.Spec.Act) (hx : (B4 m c main_v14 : Cert.Spec.Act) = x1) : ∀ (b : Fin 8) (s o : Fin 1024),
    (B9 m c main_v20 : (⟨S8x1024x1024, .bf16⟩ : BufTy).Contents (Elt Ideal)) (ix3 b s o) = Cert.Spec.proj x1 (m ((c : Thread nD τ).loc main_arg5)) (ix3 b s o) := fun b s o =>
  (packed_apply (C := 1024) _ _ _ _ x1 _ _ (v20_eq m c) (v19_eq m c)
    ((v18_eq m c).trans (congrArg (fun z : (⟨S8x1024x1024, .f32⟩ : BufTy).Contents (Elt Ideal) => shapeCast S8192x1024 z shapeCasts_S8x1024x1024_S8192x1024) ((v14_at6 m c).trans hx))) b s o).trans
    (sum_mul_congr _ _ _ fun k => (congrFun (v8_at7 m c) _).trans (congrFun (v8_eq m c) _))

end Cert.KernelIdeal.Val
-- ==== Proof.KVal1.lean ====
/-
  The first third of the idealized kernel read off the chain of contents: what the self-attention region leaves is, row
  by row, the causal attention stage of the rows of its arrays; its query, key and value arrays are the three column
  blocks of the one packed projection, its residual is the inputs themselves, carried from the launch, and its scale
  and shift are the two normalisation vectors as single rows. So, given that the three column blocks are three arrays
  Q, K, V, the region's output is the specification's masked attention of Q, K, V, plus the inputs, layer-normalised.
-/
import proofs.«105197_j1417339207765_2_alg».proof.Proof.Chain
import proofs.«105197_j1417339207765_2_alg».proof.Proof.Value1
import proofs.«105197_j1417339207765_2_alg».proof.Proof.ValueSpecAttn
import proofs.«105197_j1417339207765_2_alg».proof.Proof.LibBatchRows
import proofs.«105197_j1417339207765_2_alg».proof.Proof.Spec
import proofs.«105197_j1417339207765_2_alg».proof.Proof.KVal3
import proofs.«105197_j1417339207765_2_alg».proof.Proof.KProj
import Idealize.ShloMosaic.Lib.StableHlo.Run

set_option maxRecDepth 16384

noncomputable section

namespace Cert.KernelIdeal.Val

open Cert.KernelIdeal Cert.KernelIdeal.Gen Cert.LibBatchRows
open Idealize.ShloMosaic Idealize.ShloMosaic.TcCoe Idealize.ShloMosaic.ValueIdx Idealize.SL.Sem Idealize.ShloMosaic.StableHlo
open scoped BigOperators

variable (m : (ℓ : Loc nD τ sig) → Buf (Elt Ideal) ℓ)

/-! ## What the self-attention region found, carried unchanged -/

/-- The inputs, as launched. -/
theorem at3_arg0 (c : Dev nD) : B3 m c main_arg0 = m ((c : Thread nD τ).loc main_arg0) :=
  (B3_of m c main_arg0 (by decide)).trans <| (B2_of m c main_arg0 (by decide)).trans <| (B1_of m c main_arg0 (by decide))
/-- The scale row and the shift row, as the first stretch wrote them. -/
theorem at3_v0 (c : Dev nD) : B3 m c main_v0 = B1 m c main_v0 :=
  (B3_of m c main_v0 (by decide)).trans <| (B2_of m c main_v0 (by decide))
theorem at3_v1 (c : Dev nD) : B3 m c main_v1 = B1 m c main_v1 :=
  (B3_of m c main_v1 (by decide)).trans <| (B2_of m c main_v1 (by decide))

/-! ## The first stage, over the three column blocks -/

/-- If the packed projection's column blocks 0, 1, 2 are the arrays Q, K, V, the region's output array is the
    specification's masked attention of them, plus the inputs, layer-normalised. -/
theorem stage1_val_of (c : Dev nD) (Q K Vv : Cert.Spec.Act)
    (hq : ∀ (b : Fin 8) (s o : Fin 1024),
      (B3 m c main_v13 : (⟨S8x1024x3072, .bf16⟩ : BufTy).Contents (Elt Ideal)) (ix3 b s (colQ o)) = Q (ix3 b s o))
    (hk : ∀ (b : Fin 8) (s o : Fin 1024),
      (B3 m c main_v13 : (⟨S8x1024x3072, .bf16⟩ : BufTy).Contents (Elt Ideal)) (ix3 b s (colK o)) = K (ix3 b s o))
    (hv : ∀ (b : Fin 8) (s o : Fin 1024),
      (B3 m c main_v13 : (⟨S8x1024x3072, .bf16⟩ : BufTy).Contents (Elt Ideal)) (ix3 b s (colV o)) = Vv (ix3 b s o)) :
    (B4 m c main_v14 : Cert.Spec.Act)
      = Cert.Spec.layerNorm (Cert.Spec.add (Cert.Spec.attnOut (Cert.Spec.softmax (Cert.Spec.maskedScores (Cert.Spec.scores Q K))) Vv)
          (m ((c : Thread nD τ).loc main_arg0) : Cert.Spec.Act))
          (m ((c : Thread nD τ).loc main_arg12) : Cert.Spec.Vec) (m ((c : Thread nD τ).loc main_arg13) : Cert.Spec.Vec) := by
  funext i
  obtain ⟨b, s, e, rfl⟩ : ∃ (b : Fin 8) (s : Fin 1024) (e : Fin 1024), i = ix3 b s e := ⟨i 0, i 1, i 2, eq_ix3 i⟩
  rw [stage1_row, B4_out, arr1_6]
  unfold selfAttnNorm1
  have hQ : (fun o : Fin 1024 => E3 m c (Pipeline.arrRef spec1 0) (ix3 b s (colQ o))) = fun o => Q (ix3 b s o) :=
    funext fun o => hq b s o
  have hK : (fun y : (⟨2, ![1024, 1024]⟩ : Shape).Idx => E3 m c (Pipeline.arrRef spec1 1) (ix3 b (y 0) (colK (y 1))))
      = fun y => K (ix3 b (y 0) (y 1)) := funext fun y => hk b (y 0) (y 1)
  have hV : (fun y : (⟨2, ![1024, 1024]⟩ : Shape).Idx => E3 m c (Pipeline.arrRef spec1 2) (ix3 b (y 0) (colV (y 1))))
      = fun y => Vv (ix3 b (y 0) (y 1)) := funext fun y => hv b (y 0) (y 1)
  have hR : (fun e' : Fin 1024 => E3 m c (Pipeline.arrRef spec1 3) (ix3 b s e'))
      = fun e' => (m ((c : Thread nD τ).loc main_arg0) : Cert.Spec.Act) (ix3 b s e') := by
    funext e'; show (B3 m c main_arg0 : Cert.Spec.Act) (ix3 b s e') = _; rw [at3_arg0]
  have hg : (fun j : Fin 1024 => E3 m c (Pipeline.arrRef spec1 4) (ix2 (0 : Fin 1) j))
      = fun j => (m ((c : Thread nD τ).loc main_arg12) : Cert.Spec.Vec) (ix1 j) := by
    funext j; show (B3 m c main_v0 : (⟨S1x1024, .f32⟩ : BufTy).Contents (Elt Ideal)) (ix2 (0 : Fin 1) j) = _
    rw [at3_v0, v0_read]; exact cast_to_one_row_apply _ _ 0 j
  have hbt : (fun j : Fin 1024 => E3 m c (Pipeline.arrRef spec1 5) (ix2 (0 : Fin 1) j))
      = fun j => (m ((c : Thread nD τ).loc main_arg13) : Cert.Spec.Vec) (ix1 j) := by
    funext j; show (B3 m c main_v1 : (⟨S1x1024, .f32⟩ : BufTy).Contents (Elt Ideal)) (ix2 (0 : Fin 1) j) = _
    rw [at3_v1, v1_read]; exact cast_to_one_row_apply _ _ 0 j
  rw [hQ, hK, hV, hR, hg, hbt]

/-! ## The first stage -/

/-- What the self-attention region leaves is the specification's first stage of the inputs: the three column blocks
    of the packed projection are the query, key and value projections of the inputs. -/
theorem stage1_val (c : Dev nD) :
    (B4 m c main_v14 : Cert.Spec.Act)
      = Cert.Spec.stage1 (m ((c : Thread nD τ).loc main_arg0) : Cert.Spec.Act) (m ((c : Thread nD τ).loc main_arg2) : Cert.Spec.Mat)
          (m ((c : Thread nD τ).loc main_arg3) : Cert.Spec.Mat) (m ((c : Thread nD τ).loc main_arg4) : Cert.Spec.Mat)
          (m ((c : Thread nD τ).loc main_arg12) : Cert.Spec.Vec) (m ((c : Thread nD τ).loc main_arg13) : Cert.Spec.Vec) :=
  stage1_val_of m c _ _ _ (q1_at m c) (k1_at m c) (v1_at m c)

end Cert.KernelIdeal.Val

end
-- ==== Proof.Value4Pay.lean ====
/-
  Region 4 of the idealized kernel, the body's result block at an index: cross-attention of a block of 256 query
  rows of one batch entry against that entry's 1024 context keys and values, the residual and the layer
  normalisation. The scores of query row p against key k: the sum over the width of q(p, o) · K(k, o), times 2⁻⁵;
  no mask. Then the softmax of the row, the weighted sum of the values, the residual and the normalisation: entry
  (0, p, e) of the output block is `attnNormRow` of the scores of row p, the values, row p of the residual, the scale
  and the shift, at lane e.
-/
import proofs.«105197_j1417339207765_2_alg».proof.Proof.Region4
import proofs.«105197_j1417339207765_2_alg».proof.Proof.ValueMatmul
import proofs.«105197_j1417339207765_2_alg».proof.Proof.ValueLayout
import proofs.«105197_j1417339207765_2_alg».proof.Proof.ValueRows
import proofs.«105197_j1417339207765_2_alg».proof.Proof.ValueAttn
import Idealize.ShloMosaic.Lib.Pipeline.Value
import Idealize.ShloMosaic.Lib.ValueIdx
import Idealize.ShloMosaic.Lib.ValueLayout
import Idealize.ShloMosaic.Lib.ValueIdxCoords
import Idealize.ShloMosaic.PureOps.Ideal.Laws

noncomputable section

namespace Cert.KernelIdeal.Val

open Cert.KernelIdeal Cert.KernelIdeal.Gen
open Idealize.ShloMosaic Idealize.ShloMosaic.TcCoe Idealize.ShloMosaic.ValueIdx Idealize.SL.Sem
open Idealize.SL Idealize.SL.RA
open Idealize.ShloMosaic.Pipeline (Dat)
open scoped BigOperators

/-! ## The scores -/

/-- The scaled scores as the body computes them, on the whole block. -/
def kScores4 (q : FVec Ideal S256x1024 .bf16) (kt : FVec Ideal S1024x1024 .bf16) : FVec Ideal S256x1024 .f32 :=
  mulf (matmul dot_S256x1024_S1024x1024_S256x1024_1_0_0_1_n_n none q kt (constant S256x1024 .f32 0x00000000#32))
    (broadcast S256x1024 (Scalar.ofBits .f32 0x3D000000#32))

/-- Entry (p, k): the scaled score. -/
theorem kScores4_apply (q : FVec Ideal S256x1024 .bf16) (kt : FVec Ideal S1024x1024 .bf16) (p : Fin 256) (k : Fin 1024) :
    kScores4 q kt (ix2 p k) = (∑ o : Fin 1024, q (ix2 p o) * kt (ix2 o k)) * scoreScale := by
  unfold kScores4
  simp only [mulf_apply, broadcast_apply, matmulA]
  rfl

/-- The scaled scores of query row p of the block against the keys. -/
def scores4 (x0 : Vec Ideal S1x256x1024 .bf16) (x1 : Vec Ideal S1x1024x1024 .bf16) (p : Fin 256) : Row :=
  scoreRow (fun o => x0 (ix3 (0 : Fin 1) p o)) (fun y => x1 (ix3 (0 : Fin 1) (y 0) (y 1)))

/-! ## The body's payloads -/

/-- The attention output plus the residual is the shared pieces composed. -/
theorem k4_pay2_eq (v0 : Vec Ideal S1x256x1024 .bf16) (v2 v4 : Vec Ideal S1x1024x1024 .bf16) (v21 : Vec Ideal S1x256x1024 .f32) :
    k4_pay2 v0 v2 v4 v21
      = addf (matmul dot_S256x1024_S1024x1024_S256x1024_1_0_0_1_n_n none
          (truncf .bf16 (kSoftmax (kScores4 (shapeCast S256x1024 v0 shapeCasts_S1x256x1024_S256x1024 : FVec Ideal S256x1024 .bf16)
            (transpose S1024x1024 [1, 0] (shapeCast S1024x1024 v2 shapeCasts_S1x1024x1024_S1024x1024 : FVec Ideal S1024x1024 .bf16)
              transposes_S1024x1024_p1_0_S1024x1024)))
            bitsLt_bf16_f32)
          (shapeCast S1024x1024 v4 shapeCasts_S1x1024x1024_S1024x1024 : FVec Ideal S1024x1024 .bf16) (constant S256x1024 .f32 0x00000000#32))
        (shapeCast S256x1024 v21 shapeCasts_S1x256x1024_S256x1024 : FVec Ideal S256x1024 .f32) := rfl

/-- The keys transposed, as a function of the index. -/
theorem transposedFun4 {α : Type} (x : S1024x1024.Idx → α) :
    transpose S1024x1024 [1, 0] x transposes_S1024x1024_p1_0_S1024x1024 = fun y => x (ix2 (y 1) (y 0)) := by
  funext y
  obtain ⟨a, b, rfl⟩ : ∃ (a b : Fin 1024), y = ix2 a b := ⟨y 0, y 1, eq_ix2 y⟩
  exact transposedA x a b

/-- Entry (p, e) of it. -/
theorem k4_pay2_apply (v0 : Vec Ideal S1x256x1024 .bf16) (v2 v4 : Vec Ideal S1x1024x1024 .bf16) (v21 : Vec Ideal S1x256x1024 .f32)
    (p : Fin 256) (e : Fin 1024) :
    k4_pay2 v0 v2 v4 v21 (ix2 p e)
      = attnRow (softmaxRow (scores4 v0 v2 p)) (fun y => v4 (ix3 (0 : Fin 1) (y 0) (y 1))) e + v21 (ix3 (0 : Fin 1) p e) := by
  rw [k4_pay2_eq, attnOut_apply, transposedFun4]
  unfold attnRow scores4 scoreRow
  simp only [kSoftmax_apply, kScores4_apply, transposedA, dropUnitQA, dropUnitKA, ix2_0, ix2_1]

/-- The normalisation of the block is the shared layer normalisation of the attention output plus the residual. -/
theorem k4_norm_eq (v0 : Vec Ideal S1x256x1024 .bf16) (v2 v4 : Vec Ideal S1x1024x1024 .bf16) (v21 : Vec Ideal S1x256x1024 .f32)
    (g b : Vec Ideal S1x1024 .f32) :
    k4_pay1 (k4_pay4 v0 v2 v4 v21) (k4_pay5 v0 v2 v4 v21) g b
      = shapeCast S1x256x1024 (kNorm (k4_pay2 v0 v2 v4 v21) g b) shapeCasts_S256x1024_S1x256x1024 := rfl

/-- Entry (u, p, e) of the output block: the attention stage on row p. -/
theorem out4_6_apply (x0 : Vec Ideal S1x256x1024 .bf16) (x1 x2 : Vec Ideal S1x1024x1024 .bf16)
    (x3 : Vec Ideal S1x256x1024 .f32) (x4 x5 : Vec Ideal S1x1024 .f32) (u : Fin 1) (p : Fin 256) (e : Fin 1024) :
    out4_6 x0 x1 x2 x3 x4 x5 (ix3 u p e)
      = attnNormRow (scores4 x0 x1 p) (fun y => x2 (ix3 (0 : Fin 1) (y 0) (y 1))) (fun e' => x3 (ix3 (0 : Fin 1) p e'))
          (fun j => x4 (ix2 (0 : Fin 1) j)) (fun j => x5 (ix2 (0 : Fin 1) j)) e := by
  unfold out4_6
  rw [View.canon_unit_zero zero_offsetsA_3]
  simp only [View.ld_unit_zero (S := S1x256x1024) zero_offsetsA_3, View.ld_unit_zero (S := S1x1024x1024) zero_offsetsA_3,
    View.ld_unit_zero (S := S1x1024) zero_offsetsA_2]
  rw [k4_norm_eq, addUnitA, kNorm_apply]
  unfold attnNormRow
  simp only [k4_pay2_apply]

end Cert.KernelIdeal.Val

end
-- ==== Proof.Value4.lean ====
/-
  Region 4 of the idealized kernel, from blocks to the array.
  Point t of the 8 × 4 grid takes batch entry b and query rows 256 r … 256 r + 255: it reads that block of the query
  projections, the batch entry's whole column blocks 0 and 1 of the packed context projections (the keys and the
  values), the same block of the residual and the normalisation's scale and shift, and writes block (b, r) of the
  output. So what a point writes back is its block of ONE function of the arrays (`crossAttnNorm4`: the attention
  stage of each row), and the 32 blocks tile the output array.
-/
import proofs.«105197_j1417339207765_2_alg».proof.Proof.Region4
import proofs.«105197_j1417339207765_2_alg».proof.Proof.ValueMatmul
import proofs.«105197_j1417339207765_2_alg».proof.Proof.ValueLayout
import proofs.«105197_j1417339207765_2_alg».proof.Proof.ValueRows
import proofs.«105197_j1417339207765_2_alg».proof.Proof.Value4Pay
import Idealize.ShloMosaic.Lib.Pipeline.Value
import Idealize.ShloMosaic.Lib.ValueIdx
import Idealize.ShloMosaic.Lib.ValueLayout
import Idealize.ShloMosaic.Lib.ValueIdxCoords
import Idealize.ShloMosaic.PureOps.Ideal.Laws

noncomputable section

namespace Cert.KernelIdeal.Val

open Cert.KernelIdeal Cert.KernelIdeal.Gen
open Idealize.ShloMosaic Idealize.ShloMosaic.TcCoe Idealize.ShloMosaic.ValueIdx Idealize.SL.Sem
open Idealize.SL Idealize.SL.RA
open Idealize.ShloMosaic.Pipeline (Dat)
open scoped BigOperators

/-! ## From blocks to the array -/

variable (V : (c : Dev nD) → (b : Ref sig .tc) → Buf (Elt Ideal) ((c : Thread nD τ).loc b))
variable (sh : Fin cfg4.W → PosShare TreeShare)

/-- Lane o of column block 0, 1 of the packed context projections. -/
abbrev colK4 (o : Fin 1024) : Fin 2048 := ⟨o.val, by omega⟩
abbrev colV4 (o : Fin 1024) : Fin 2048 := ⟨1024 + o.val, by omega⟩

/-- The cross-attention stage on the whole arrays: at (b, s, e), the query row (b, s) of `Q` against the keys (b, ·) of
    column block 0 of `K`, the values (b, ·) of column block 1 of `Vv`, the residual row (b, s), normalised, at lane e. -/
def crossAttnNorm4 (Q : Vec Ideal S8x1024x1024 .bf16) (K Vv : Vec Ideal S8x1024x2048 .bf16) (R : Vec Ideal S8x1024x1024 .f32)
    (G B : Vec Ideal S1x1024 .f32) : Vec Ideal S8x1024x1024 .f32 :=
  fun i => attnNormRow
    (scoreRow (fun o => Q (ix3 (i 0) (i 1) o)) (fun y => K (ix3 (i 0) (y 0) (colK4 (y 1)))))
    (fun y => Vv (ix3 (i 0) (y 0) (colV4 (y 1)))) (fun e => R (ix3 (i 0) (i 1) e))
    (fun j => G (ix2 (0 : Fin 1) j)) (fun j => B (ix2 (0 : Fin 1) j)) (i 2)

/-- The printed index maps, decided over the grid. The output block of point `t` is (b, r, 0); -/
theorem block_indices4_6 : ∀ t : Fin cfg4.N, win4_6.index t (0 : Fin 3) < 8 ∧ win4_6.index t (1 : Fin 3) < 4
    ∧ win4_6.index t (2 : Fin 3) = 0 :=
  (by decide +kernel : ∀ t : Fin grid4.N, _)
/-- the query block is the same block of the query array; -/
theorem block_indices4_0 : ∀ t : Fin cfg4.N, win4_0.index t (0 : Fin 3) = win4_6.index t (0 : Fin 3)
    ∧ win4_0.index t (1 : Fin 3) = win4_6.index t (1 : Fin 3) ∧ win4_0.index t (2 : Fin 3) = 0 :=
  (by decide +kernel : ∀ t : Fin grid4.N, _)
/-- the keys are the batch entry's whole column block 0; -/
theorem block_indices4_1 : ∀ t : Fin cfg4.N, win4_1.index t (0 : Fin 3) = win4_6.index t (0 : Fin 3)
    ∧ win4_1.index t (1 : Fin 3) = 0 ∧ win4_1.index t (2 : Fin 3) = 0 :=
  (by decide +kernel : ∀ t : Fin grid4.N, _)
/-- the values its whole column block 1; -/
theorem block_indices4_2 : ∀ t : Fin cfg4.N, win4_2.index t (0 : Fin 3) = win4_6.index t (0 : Fin 3)
    ∧ win4_2.index t (1 : Fin 3) = 0 ∧ win4_2.index t (2 : Fin 3) = 1 :=
  (by decide +kernel : ∀ t : Fin grid4.N, _)
/-- the residual block is the output's block; -/
theorem block_indices4_3 : ∀ t : Fin cfg4.N, win4_3.index t (0 : Fin 3) = win4_6.index t (0 : Fin 3)
    ∧ win4_3.index t (1 : Fin 3) = win4_6.index t (1 : Fin 3) ∧ win4_3.index t (2 : Fin 3) = 0 :=
  (by decide +kernel : ∀ t : Fin grid4.N, _)
/-- the scale and the shift are read whole; -/
theorem whole_indices4_4 : ∀ t : Fin cfg4.N, win4_4.index t (0 : Fin 2) = 0 ∧ win4_4.index t (1 : Fin 2) = 0 :=
  (by decide +kernel : ∀ t : Fin grid4.N, _)

theorem whole_indices4_5 : ∀ t : Fin cfg4.N, win4_5.index t (0 : Fin 2) = 0 ∧ win4_5.index t (1 : Fin 2) = 0 :=
  (by decide +kernel : ∀ t : Fin grid4.N, _)

/-- and every (batch entry, block of rows) is some point's. -/
theorem block_onto4 : ∀ (b : Fin 8) (r : Fin 4), ∃ t : Fin cfg4.N, win4_6.index t (0 : Fin 3) = b.val ∧ win4_6.index t (1 : Fin 3) = r.val :=
  (by decide +kernel : ∀ (b : Fin 8) (r : Fin 4), ∃ t : Fin grid4.N, _)

/-- The query block at point `t`. -/
theorem iblk4_0_apply (c : Dev nD) (t : Fin cfg4.N) (p : Fin 256) (o : Fin 1024) (b : Fin 8) (s : Fin 1024)
    (hb : b.val = win4_6.index t (0 : Fin 3)) (hs : s.val = win4_6.index t (1 : Fin 3) * 256 + p.val) :
    (iblk4 V c 0 t : Vec Ideal S1x256x1024 .bf16) (ix3 (0 : Fin 1) p o) = (V c (Pipeline.arrRef spec4 0) : Vec Ideal S8x1024x1024 .bf16) (ix3 b s o) := by
  obtain ⟨e0, e1, e2⟩ := block_indices4_0 t
  show V c (Pipeline.arrRef spec4 0) (((cfg4.win 0).blk t).view.emb (ix3 (0 : Fin 1) p o)) = V c (Pipeline.arrRef spec4 0) _
  refine congrArg _ (funext fun a => Fin.ext ?_)
  match a with
  | ⟨0, _⟩ => show win4_0.index t (0 : Fin 3) * 1 + 1 * 0 = b.val; omega
  | ⟨1, _⟩ => show win4_0.index t (1 : Fin 3) * 256 + 1 * p.val = s.val; omega
  | ⟨2, _⟩ => show win4_0.index t (2 : Fin 3) * 1024 + 1 * o.val = o.val; omega

/-- The key block at point `t`: the batch entry's column block 0. -/
theorem iblk4_1_apply (c : Dev nD) (t : Fin cfg4.N) (k : Fin 1024) (o : Fin 1024) (b : Fin 8)
    (hb : b.val = win4_6.index t (0 : Fin 3)) :
    (iblk4 V c 1 t : Vec Ideal S1x1024x1024 .bf16) (ix3 (0 : Fin 1) k o) = (V c (Pipeline.arrRef spec4 1) : Vec Ideal S8x1024x2048 .bf16) (ix3 b k (colK4 o)) := by
  obtain ⟨e0, e1, e2⟩ := block_indices4_1 t
  show V c (Pipeline.arrRef spec4 1) (((cfg4.win 1).blk t).view.emb (ix3 (0 : Fin 1) k o)) = V c (Pipeline.arrRef spec4 1) _
  refine congrArg _ (funext fun a => Fin.ext ?_)
  match a with
  | ⟨0, _⟩ => show win4_1.index t (0 : Fin 3) * 1 + 1 * 0 = b.val; omega
  | ⟨1, _⟩ => show win4_1.index t (1 : Fin 3) * 1024 + 1 * k.val = k.val; omega
  | ⟨2, _⟩ => show win4_1.index t (2 : Fin 3) * 1024 + 1 * o.val = o.val; omega

/-- The value block at point `t`: the batch entry's column block 1. -/
theorem iblk4_2_apply (c : Dev nD) (t : Fin cfg4.N) (k : Fin 1024) (o : Fin 1024) (b : Fin 8)
    (hb : b.val = win4_6.index t (0 : Fin 3)) :
    (iblk4 V c 2 t : Vec Ideal S1x1024x1024 .bf16) (ix3 (0 : Fin 1) k o) = (V c (Pipeline.arrRef spec4 2) : Vec Ideal S8x1024x2048 .bf16) (ix3 b k (colV4 o)) := by
  obtain ⟨e0, e1, e2⟩ := block_indices4_2 t
  show V c (Pipeline.arrRef spec4 2) (((cfg4.win 2).blk t).view.emb (ix3 (0 : Fin 1) k o)) = V c (Pipeline.arrRef spec4 2) _
  refine congrArg _ (funext fun a => Fin.ext ?_)
  match a with
  | ⟨0, _⟩ => show win4_2.index t (0 : Fin 3) * 1 + 1 * 0 = b.val; omega
  | ⟨1, _⟩ => show win4_2.index t (1 : Fin 3) * 1024 + 1 * k.val = k.val; omega
  | ⟨2, _⟩ => show win4_2.index t (2 : Fin 3) * 1024 + 1 * o.val = 1024 + o.val; omega

/-- The residual block at point `t`. -/
theorem iblk4_3_apply (c : Dev nD) (t : Fin cfg4.N) (p : Fin 256) (o : Fin 1024) (b : Fin 8) (s : Fin 1024)
    (hb : b.val = win4_6.index t (0 : Fin 3)) (hs : s.val = win4_6.index t (1 : Fin 3) * 256 + p.val) :
    (iblk4 V c 3 t : Vec Ideal S1x256x1024 .f32) (ix3 (0 : Fin 1) p o) = (V c (Pipeline.arrRef spec4 3) : Vec Ideal S8x1024x1024 .f32) (ix3 b s o) := by
  obtain ⟨e0, e1, e2⟩ := block_indices4_3 t
  show V c (Pipeline.arrRef spec4 3) (((cfg4.win 3).blk t).view.emb (ix3 (0 : Fin 1) p o)) = V c (Pipeline.arrRef spec4 3) _
  refine congrArg _ (funext fun a => Fin.ext ?_)
  match a with
  | ⟨0, _⟩ => show win4_3.index t (0 : Fin 3) * 1 + 1 * 0 = b.val; omega
  | ⟨1, _⟩ => show win4_3.index t (1 : Fin 3) * 256 + 1 * p.val = s.val; omega
  | ⟨2, _⟩ => show win4_3.index t (2 : Fin 3) * 1024 + 1 * o.val = o.val; omega

theorem iblk4_4_whole (c : Dev nD) (t : Fin cfg4.N) :
    (iblk4 V c 4 t : Vec Ideal S1x1024 .f32) = V c (Pipeline.arrRef spec4 4) := by
  obtain ⟨e0, e1⟩ := whole_indices4_4 t
  funext y
  show V c (Pipeline.arrRef spec4 4) (((cfg4.win 4).blk t).view.emb y) = V c (Pipeline.arrRef spec4 4) y
  refine congrArg _ (funext fun a => Fin.ext ?_)
  match a with
  | ⟨0, _⟩ => show win4_4.index t (0 : Fin 2) * 1 + 1 * (y 0).val = (y 0).val; omega
  | ⟨1, _⟩ => show win4_4.index t (1 : Fin 2) * 1024 + 1 * (y 1).val = (y 1).val; omega

theorem iblk4_5_whole (c : Dev nD) (t : Fin cfg4.N) :
    (iblk4 V c 5 t : Vec Ideal S1x1024 .f32) = V c (Pipeline.arrRef spec4 5) := by
  obtain ⟨e0, e1⟩ := whole_indices4_5 t
  funext y
  show V c (Pipeline.arrRef spec4 5) (((cfg4.win 5).blk t).view.emb y) = V c (Pipeline.arrRef spec4 5) y
  refine congrArg _ (funext fun a => Fin.ext ?_)
  match a with
  | ⟨0, _⟩ => show win4_5.index t (0 : Fin 2) * 1 + 1 * (y 0).val = (y 0).val; omega
  | ⟨1, _⟩ => show win4_5.index t (1 : Fin 2) * 1024 + 1 * (y 1).val = (y 1).val; omega

set_option maxHeartbeats 1600000 in
/-- What point `t` writes back is its block of the cross-attention stage of the arrays as the region finds them. -/
theorem flushed4_6_eq (c : Dev nD) (t : Fin cfg4.N) :
    (dat4 V sh c).flushed 6 t = ((cfg4.win 6).blk t).view.read (Elt Ideal)
      (crossAttnNorm4 (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5))) := by
  show (cfg4.win 6).cut (grid4.coords t) ((dat4 V sh c).after 6 t) = _
  rw [after4_6]
  obtain ⟨l0, l1, e62⟩ := block_indices4_6 t
  funext j
  obtain ⟨u, p, e, rfl⟩ : ∃ (u : Fin 1) (p : Fin 256) (e : Fin 1024), j = ix3 u p e := ⟨j 0, j 1, j 2, eq_ix3 j⟩
  refine (out4_6_apply (iblk4 V c 0 t) (iblk4 V c 1 t) (iblk4 V c 2 t) (iblk4 V c 3 t) (iblk4 V c 4 t) (iblk4 V c 5 t) u p e).trans ?_
  rw [iblk4_4_whole V c t, iblk4_5_whole V c t]
  show _ = crossAttnNorm4 (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5))
        (((cfg4.win 6).blk t).view.emb (ix3 u p e))
  unfold crossAttnNorm4 scores4
  have hu : u.val = 0 := by omega
  have hb : ((((cfg4.win 6).blk t).view.emb (ix3 u p e)) 0).val = win4_6.index t (0 : Fin 3) := by
    show win4_6.index t (0 : Fin 3) * 1 + 1 * u.val = _; omega
  have hs : ((((cfg4.win 6).blk t).view.emb (ix3 u p e)) 1).val = win4_6.index t (1 : Fin 3) * 256 + p.val := by
    show win4_6.index t (1 : Fin 3) * 256 + 1 * p.val = _; omega
  have he : (((cfg4.win 6).blk t).view.emb (ix3 u p e)) 2 = e := Fin.ext (by
    show win4_6.index t (2 : Fin 3) * 1024 + 1 * e.val = e.val; omega)
  have hQ : (fun o => (iblk4 V c 0 t : Vec Ideal S1x256x1024 .bf16) (ix3 (0 : Fin 1) p o))
      = fun o => (V c (Pipeline.arrRef spec4 0) : Vec Ideal S8x1024x1024 .bf16)
          (ix3 ((((cfg4.win 6).blk t).view.emb (ix3 u p e)) 0) ((((cfg4.win 6).blk t).view.emb (ix3 u p e)) 1) o) :=
    funext fun o => iblk4_0_apply V c t p o _ _ hb hs
  have hK : (fun y : (⟨2, ![1024, 1024]⟩ : Shape).Idx => (iblk4 V c 1 t : Vec Ideal S1x1024x1024 .bf16) (ix3 (0 : Fin 1) (y 0) (y 1)))
      = fun y => (V c (Pipeline.arrRef spec4 1) : Vec Ideal S8x1024x2048 .bf16)
          (ix3 ((((cfg4.win 6).blk t).view.emb (ix3 u p e)) 0) (y 0) (colK4 (y 1))) :=
    funext fun y => iblk4_1_apply V c t (y 0) (y 1) _ hb
  have hV : (fun y : (⟨2, ![1024, 1024]⟩ : Shape).Idx => (iblk4 V c 2 t : Vec Ideal S1x1024x1024 .bf16) (ix3 (0 : Fin 1) (y 0) (y 1)))
      = fun y => (V c (Pipeline.arrRef spec4 2) : Vec Ideal S8x1024x2048 .bf16)
          (ix3 ((((cfg4.win 6).blk t).view.emb (ix3 u p e)) 0) (y 0) (colV4 (y 1))) :=
    funext fun y => iblk4_2_apply V c t (y 0) (y 1) _ hb
  have hR : (fun o => (iblk4 V c 3 t : Vec Ideal S1x256x1024 .f32) (ix3 (0 : Fin 1) p o))
      = fun o => (V c (Pipeline.arrRef spec4 3) : Vec Ideal S8x1024x1024 .f32)
          (ix3 ((((cfg4.win 6).blk t).view.emb (ix3 u p e)) 0) ((((cfg4.win 6).blk t).view.emb (ix3 u p e)) 1) o) :=
    funext fun o => iblk4_3_apply V c t p o _ _ hb hs
  rw [hQ, hK, hV, hR, he]

/-- An index of the output array is in point `t`'s block iff each coordinate is in the block's range on its axis. -/
theorem mem_blk4_6 (t : Fin cfg4.N) (i : S8x1024x1024.Idx) :
    i ∈ ((cfg4.win 6).blk t).view.set ↔ ∀ a : Fin 3, win4_6.index t a * S1x256x1024.size a ≤ (i a).val ∧ (i a).val < win4_6.index t a * S1x256x1024.size a + S1x256x1024.size a := by
  show i ∈ ((View.whole main_v21).slice (win4_6.rect t)).set ↔ _
  rw [View.set_slice_whole, Rect.mem_set_unit]
  exact Iff.rfl

/-- The output array after the region: the cross-attention stage of the arrays the region read. Row (b, s) is written
    by the point of batch entry b and row block s / 256. -/
theorem arr4_6 (c : Dev nD) :
    (dat4 V sh c).arrAt 6 cfg4.N
      = crossAttnNorm4 (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5)) :=
  (dat4 V sh c).arrAt_eq_of_cover 6 _ (fun t _ => flushed4_6_eq V sh c t) fun i => by
    have hi0 : (i 0).val < 8 := (i 0).isLt
    have hi1 : (i 1).val < 1024 := (i 1).isLt
    have hi2 : (i 2).val < 1024 := (i 2).isLt
    obtain ⟨t, ht0, ht1⟩ := block_onto4 ⟨(i 0).val, hi0⟩ ⟨(i 1).val / 256, by omega⟩
    obtain ⟨_, _, e62⟩ := block_indices4_6 t
    refine ⟨t, flush4_6 t, ?_⟩
    rw [mem_blk4_6]
    intro a
    match a with
    | ⟨0, _⟩ => show win4_6.index t (0 : Fin 3) * 1 ≤ (i 0).val ∧ (i 0).val < win4_6.index t (0 : Fin 3) * 1 + 1; simp only at ht0; omega
    | ⟨1, _⟩ => show win4_6.index t (1 : Fin 3) * 256 ≤ (i 1).val ∧ (i 1).val < win4_6.index t (1 : Fin 3) * 256 + 256; simp only at ht1; omega
    | ⟨2, _⟩ => show win4_6.index t (2 : Fin 3) * 1024 ≤ (i 2).val ∧ (i 2).val < win4_6.index t (2 : Fin 3) * 1024 + 1024; omega

end Cert.KernelIdeal.Val

end
-- ==== Proof.KVal2.lean ====
/-
  The middle third of the idealized kernel read off the chain of contents: what the cross-attention region leaves is,
  row by row, the attention stage of the rows of its arrays; its query array is the query projection of the first
  stage's output, its key and value arrays are the two column blocks of the packed context projection, its residual is
  the first stage's output, carried unchanged, and its scale and shift are the two normalisation vectors as single
  rows. So, given that those three are arrays Q, K, V and the first stage left x, the region's output is the
  specification's attention of Q, K, V, plus x, layer-normalised.
-/
import proofs.«105197_j1417339207765_2_alg».proof.Proof.Chain
import proofs.«105197_j1417339207765_2_alg».proof.Proof.Value4
import proofs.«105197_j1417339207765_2_alg».proof.Proof.ValueSpecAttn
import proofs.«105197_j1417339207765_2_alg».proof.Proof.LibBatchRows
import proofs.«105197_j1417339207765_2_alg».proof.Proof.Spec
import proofs.«105197_j1417339207765_2_alg».proof.Proof.KVal3
import proofs.«105197_j1417339207765_2_alg».proof.Proof.KProj
import Idealize.ShloMosaic.Lib.StableHlo.Run

set_option maxRecDepth 16384

noncomputable section

namespace Cert.KernelIdeal.Val

open Cert.KernelIdeal Cert.KernelIdeal.Gen Cert.LibBatchRows
open Idealize.ShloMosaic Idealize.ShloMosaic.TcCoe Idealize.ShloMosaic.ValueIdx Idealize.SL.Sem Idealize.ShloMosaic.StableHlo
open scoped BigOperators

variable (m : (ℓ : Loc nD τ sig) → Buf (Elt Ideal) ℓ)

/-! ## What the cross-attention region found, carried unchanged -/

/-- The first stage's output. -/
theorem at9_v14 (c : Dev nD) : B9 m c main_v14 = B4 m c main_v14 :=
  (B9_of m c main_v14 (by decide)).trans <| (B8_of m c main_v14 (by decide)).trans <| (B7_of m c main_v14 (by decide)).trans <|
    (B6_of m c main_v14 (by decide)).trans <| (B5_of m c main_v14 (by decide))
/-- The scale row and the shift row, as the first stretch wrote them. -/
theorem at9_v0 (c : Dev nD) : B9 m c main_v0 = B1 m c main_v0 :=
  (B9_of m c main_v0 (by decide)).trans <| (B8_of m c main_v0 (by decide)).trans <| (B7_of m c main_v0 (by decide)).trans <|
    (B6_of m c main_v0 (by decide)).trans <| (B5_of m c main_v0 (by decide)).trans <| (B4_of m c main_v0 (by decide)).trans <|
    (B3_of m c main_v0 (by decide)).trans <| (B2_of m c main_v0 (by decide))
theorem at9_v1 (c : Dev nD) : B9 m c main_v1 = B1 m c main_v1 :=
  (B9_of m c main_v1 (by decide)).trans <| (B8_of m c main_v1 (by decide)).trans <| (B7_of m c main_v1 (by decide)).trans <|
    (B6_of m c main_v1 (by decide)).trans <| (B5_of m c main_v1 (by decide)).trans <| (B4_of m c main_v1 (by decide)).trans <|
    (B3_of m c main_v1 (by decide)).trans <| (B2_of m c main_v1 (by decide))

/-! ## The second stage, over the query array and the two column blocks -/

/-- If the query array is Q, the packed context projection's column blocks 0, 1 are K, V, and the first stage left
    x, the region's output array is the specification's attention of Q, K, V, plus x, layer-normalised. -/
theorem stage2_val_of (c : Dev nD) (x1 Q K Vv : Cert.Spec.Act) (hx : (B4 m c main_v14 : Cert.Spec.Act) = x1)
    (hq : ∀ (b : Fin 8) (s o : Fin 1024),
      (B9 m c main_v20 : (⟨S8x1024x1024, .bf16⟩ : BufTy).Contents (Elt Ideal)) (ix3 b s o) = Q (ix3 b s o))
    (hk : ∀ (b : Fin 8) (s o : Fin 1024),
      (B9 m c main_v17 : (⟨S8x1024x2048, .bf16⟩ : BufTy).Contents (Elt Ideal)) (ix3 b s (colK4 o)) = K (ix3 b s o))
    (hv : ∀ (b : Fin 8) (s o : Fin 1024),
      (B9 m c main_v17 : (⟨S8x1024x2048, .bf16⟩ : BufTy).Contents (Elt Ideal)) (ix3 b s (colV4 o)) = Vv (ix3 b s o)) :
    (B10 m c main_v21 : Cert.Spec.Act)
      = Cert.Spec.layerNorm (Cert.Spec.add (Cert.Spec.attnOut (Cert.Spec.softmax (Cert.Spec.scores Q K)) Vv) x1)
          (m ((c : Thread nD τ).loc main_arg12) : Cert.Spec.Vec) (m ((c : Thread nD τ).loc main_arg13) : Cert.Spec.Vec) := by
  funext i
  obtain ⟨b, s, e, rfl⟩ : ∃ (b : Fin 8) (s : Fin 1024) (e : Fin 1024), i = ix3 b s e := ⟨i 0, i 1, i 2, eq_ix3 i⟩
  rw [stage2_row, B10_out, arr4_6]
  unfold crossAttnNorm4
  have hQ : (fun o : Fin 1024 => E9 m c (Pipeline.arrRef spec4 0) (ix3 b s o)) = fun o => Q (ix3 b s o) :=
    funext fun o => hq b s o
  have hK : (fun y : (⟨2, ![1024, 1024]⟩ : Shape).Idx => E9 m c (Pipeline.arrRef spec4 1) (ix3 b (y 0) (colK4 (y 1))))
      = fun y => K (ix3 b (y 0) (y 1)) := funext fun y => hk b (y 0) (y 1)
  have hV : (fun y : (⟨2, ![1024, 1024]⟩ : Shape).Idx => E9 m c (Pipeline.arrRef spec4 2) (ix3 b (y 0) (colV4 (y 1))))
      = fun y => Vv (ix3 b (y 0) (y 1)) := funext fun y => hv b (y 0) (y 1)
  have hR : (fun e' : Fin 1024 => E9 m c (Pipeline.arrRef spec4 3) (ix3 b s e')) = fun e' => x1 (ix3 b s e') := by
    funext e'; show (B9 m c main_v14 : Cert.Spec.Act) (ix3 b s e') = _; rw [at9_v14, hx]
  have hg : (fun j : Fin 1024 => E9 m c (Pipeline.arrRef spec4 4) (ix2 (0 : Fin 1) j))
      = fun j => (m ((c : Thread nD τ).loc main_arg12) : Cert.Spec.Vec) (ix1 j) := by
    funext j; show (B9 m c main_v0 : (⟨S1x1024, .f32⟩ : BufTy).Contents (Elt Ideal)) (ix2 (0 : Fin 1) j) = _
    rw [at9_v0, v0_read]; exact cast_to_one_row_apply _ _ 0 j
  have hbt : (fun j : Fin 1024 => E9 m c (Pipeline.arrRef spec4 5) (ix2 (0 : Fin 1) j))
      = fun j => (m ((c : Thread nD τ).loc main_arg13) : Cert.Spec.Vec) (ix1 j) := by
    funext j; show (B9 m c main_v1 : (⟨S1x1024, .f32⟩ : BufTy).Contents (Elt Ideal)) (ix2 (0 : Fin 1) j) = _
    rw [at9_v1, v1_read]; exact cast_to_one_row_apply _ _ 0 j
  rw [hQ, hK, hV, hR, hg, hbt]

/-! ## The second stage -/

/-- What the cross-attention region leaves is the specification's second stage of the first stage's output and the
    context: its query array is the query projection of that output, and the two column blocks of the packed context
    projection are the key and value projections of the context. -/
theorem stage2_val (c : Dev nD) (x1 : Cert.Spec.Act) (hx : (B4 m c main_v14 : Cert.Spec.Act) = x1) :
    (B10 m c main_v21 : Cert.Spec.Act)
      = Cert.Spec.stage2 x1 (m ((c : Thread nD τ).loc main_arg1) : Cert.Spec.Act) (m ((c : Thread nD τ).loc main_arg5) : Cert.Spec.Mat)
          (m ((c : Thread nD τ).loc main_arg6) : Cert.Spec.Mat) (m ((c : Thread nD τ).loc main_arg7) : Cert.Spec.Mat)
          (m ((c : Thread nD τ).loc main_arg12) : Cert.Spec.Vec) (m ((c : Thread nD τ).loc main_arg13) : Cert.Spec.Vec) :=
  stage2_val_of m c x1 _ _ _ hx (q2_at m c x1 hx) (k2_at m c) (v2_at m c)

end Cert.KernelIdeal.Val

end
-- ==== Proof.KResult.lean ====
/-
  The idealized kernel's result: the three stages composed. The first attention region leaves the specification's first stage
  of the inputs; the second leaves the second stage of that and the context; the feed-forward region and the last reshape
  leave the third stage of that, rectified. That composition is the specification's block.
-/
import proofs.«105197_j1417339207765_2_alg».proof.Proof.KVal1
import proofs.«105197_j1417339207765_2_alg».proof.Proof.KVal2
import proofs.«105197_j1417339207765_2_alg».proof.Proof.KVal3
import Idealize.ShloMosaic.Lib.StableHlo.Run

set_option maxRecDepth 16384

noncomputable section

namespace Cert.KernelIdeal.Val

open Cert.KernelIdeal Cert.KernelIdeal.Gen Cert.LibBatchRows
open Idealize.ShloMosaic Idealize.ShloMosaic.TcCoe Idealize.ShloMosaic.ValueIdx Idealize.SL.Sem Idealize.ShloMosaic.StableHlo
open scoped BigOperators

variable (m : (ℓ : Loc nD τ sig) → Buf (Elt Ideal) ℓ)

/-- The result array's final contents are the specification's block of the fourteen argument arrays. -/
theorem result_eq (c : Dev nD) : (B13 m c main_v24 : Cert.Spec.Act) = Cert.Spec.block (m ((c : Thread nD τ).loc main_arg0) : Cert.Spec.Act) (m ((c : Thread nD τ).loc main_arg1) : Cert.Spec.Act) (m ((c : Thread nD τ).loc main_arg2) : Cert.Spec.Mat) (m ((c : Thread nD τ).loc main_arg3) : Cert.Spec.Mat) (m ((c : Thread nD τ).loc main_arg4) : Cert.Spec.Mat) (m ((c : Thread nD τ).loc main_arg5) : Cert.Spec.Mat) (m ((c : Thread nD τ).loc main_arg6) : Cert.Spec.Mat) (m ((c : Thread nD τ).loc main_arg7) : Cert.Spec.Mat) (m ((c : Thread nD τ).loc main_arg8) : Cert.Spec.Mat) (m ((c : Thread nD τ).loc main_arg9) : Cert.Spec.Vec) (m ((c : Thread nD τ).loc main_arg10) : Cert.Spec.Mat) (m ((c : Thread nD τ).loc main_arg11) : Cert.Spec.Vec) (m ((c : Thread nD τ).loc main_arg12) : Cert.Spec.Vec) (m ((c : Thread nD τ).loc main_arg13) : Cert.Spec.Vec) :=
  stage3_val m c _ (stage2_val m c _ (stage1_val m c))

end Cert.KernelIdeal.Val

end
-- ==== Proof.RefSpecLib.lean ====
/-
  Host operations read in coordinates, once, for the shapes of this block (8 × 1024 × 1024 activations, 1024 × 1024
  weights): a contraction as a sum over the contracted coordinate, a row reduction over the last axis as a sum or a
  running maximum over that coordinate, and the signed comparison of two position numbers below 1024 as the order of
  the positions. No program is imported: these are facts about the operations, used to read the reference.
-/
import proofs.«105197_j1417339207765_2_alg».proof.Proof.Spec
import Idealize.ShloMosaic.PureOps.Reduce

noncomputable section

open scoped BigOperators

namespace Cert.RefLib

open Idealize.ShloMosaic Idealize.ShloMosaic.ValueIdx

/-- An index function given by cases on the axis is the index built from the coordinates (rank 3, 2, 1). -/
macro "idx3" : tactic => `(tactic| (funext a; match a with | ⟨0, _⟩ => rfl | ⟨1, _⟩ => rfl | ⟨2, _⟩ => rfl))
macro "idx2" : tactic => `(tactic| (funext a; match a with | ⟨0, _⟩ => rfl | ⟨1, _⟩ => rfl))
macro "idx1" : tactic => `(tactic| (funext a; match a with | ⟨0, _⟩ => rfl))

/-! ## Position numbers as 32-bit words -/

/-- A number below 1024, written as a 32-bit word and read back signed, is itself. -/
theorem toInt_ofNat_small (q : Nat) (hq : q < 1024) : (BitVec.ofNat 32 q).toInt = (q : Int) := by
  rw [BitVec.toInt_eq_toNat_cond, BitVec.toNat_ofNat]
  have e : q % 2 ^ 32 = q := Nat.mod_eq_of_lt (by omega)
  rw [e, if_pos (by omega)]

/-- The signed order of two such words is the order of the numbers. -/
theorem slt_ofNat (q k : Nat) (hq : q < 1024) (hk : k < 1024) :
    (BitVec.ofNat 32 q).slt (BitVec.ofNat 32 k) = decide (q < k) := by
  rw [BitVec.slt_eq_decide, toInt_ofNat_small q hq, toInt_ofNat_small k hk]
  simp only [Nat.cast_lt]

/-- Selecting on "key position > query position" (signed, on the positions' words) is the "if" on q < k. -/
theorem select_sgt_ofNat {α : Type} (q k : Fin 1024) (A B : α) :
    Scalar.select (IntOp.cmpi .sgt (BitVec.ofNat 32 k.val) (BitVec.ofNat 32 q.val)) A B = if q.val < k.val then A else B := by
  unfold Scalar.select IntOp.cmpi
  simp only
  rw [slt_ofNat q.val k.val q.isLt k.isLt]
  by_cases h : q.val < k.val
  · simp [h]
  · simp [h]

/-! ## Reductions over the last axis -/

/-- The reduced index (b, q) with coordinate k put back on the last axis is (b, q, k). -/
theorem lift_ix3 (h : (⟨3, ![8, 1024, 1024]⟩ : Shape).Reduces [2] (⟨2, ![8, 1024]⟩ : Shape)) (j : (⟨2, ![8, 1024]⟩ : Shape).Idx)
    (k : Fin ((⟨3, ![8, 1024, 1024]⟩ : Shape).size 2)) : h.lift j k = ix3 (j 0) (j 1) (⟨k.val, k.isLt⟩ : Fin 1024) := by
  funext c; apply Fin.ext
  fin_cases c <;> rfl

/-- The host's reduction with a maximum body over the last axis: at (b, q) the running maximum, from the initial
    value, of the row's entries. -/
theorem hostRowMax (x : Spec.Act) (c : (⟨0, ![]⟩ : Shape).Idx → EReal)
    (h' : (⟨3, ![8, 1024, 1024]⟩ : Shape).ReducesTo [2] (⟨2, ![8, 1024]⟩ : Shape)) (hu : 0 < (⟨0, ![]⟩ : Shape).numel)
    (j : (⟨2, ![8, 1024]⟩ : Shape).Idx) :
    Host.reduce (FloatOps.maximumf (F := Ideal) (φ := .f32)) x c h' hu j
      = (Finset.univ : Finset (Fin 1024)).fold max (c (Shape.Idx.first hu)) (fun k => x (ix3 (j 0) (j 1) k)) := by
  have h : (⟨3, ![8, 1024, 1024]⟩ : Shape).Reduces [2] (⟨2, ![8, 1024]⟩ : Shape) := by decide
  refine (Host.reduce_eq_fold_single (FloatOps.maximumf (F := Ideal) (φ := .f32)) x c h' h hu j).trans ?_
  have hf : (x ∘ h.lift j) = fun k : Fin 1024 => x (ix3 (j 0) (j 1) k) := funext fun k => congrArg x (lift_ix3 h j k)
  exact congrArg (fun f => Finset.fold max (c (Shape.Idx.first hu)) f (Finset.univ : Finset (Fin 1024))) hf

/-- A row sum that starts from the zero word, over an index function that is (b, q, k) by cases: the plain sum of
    the row's entries. -/
theorem rowSum_of (x : Spec.Act) (idx : (⟨2, ![8, 1024]⟩ : Shape).Idx → Fin 1024 → (⟨3, ![8, 1024, 1024]⟩ : Shape).Idx)
    (hidx : ∀ j k, idx j k = ix3 (j 0) (j 1) k) (j : (⟨2, ![8, 1024]⟩ : Shape).Idx) :
    Ideal.ofBits .f32 0x00000000#32 + ∑ k : Fin 1024, x (idx j k) = ∑ k : Fin 1024, x (ix3 (j 0) (j 1) k) := by
  rw [Ideal.ofBits_zero_f32, zero_add]
  exact Finset.sum_congr rfl fun k _ => congrArg x (hidx j k)

/-! ## Contractions -/

/-- A product of an activation array with a weight matrix, given as a sum over index functions that are (b, s, e) and
    (e, o) by cases, is the projection. -/
theorem proj_of (x : Spec.Act) (w : Spec.Mat) (y : Spec.Act)
    (l : (⟨3, ![8, 1024, 1024]⟩ : Shape).Idx → Fin 1024 → (⟨3, ![8, 1024, 1024]⟩ : Shape).Idx)
    (r : (⟨3, ![8, 1024, 1024]⟩ : Shape).Idx → Fin 1024 → (⟨2, ![1024, 1024]⟩ : Shape).Idx)
    (hy : ∀ i, y i = ∑ k : Fin 1024, x (l i k) * w (r i k))
    (hl : ∀ i k, l i k = ix3 (i 0) (i 1) k) (hr : ∀ i k, r i k = ix2 k (i 2)) : y = Spec.proj x w := by
  funext i
  rw [hy]
  show _ = ∑ e : Fin 1024, x (ix3 (i 0) (i 1) e) * w (ix2 e (i 2))
  exact Finset.sum_congr rfl fun k _ => congrArg₂ (· * ·) (congrArg x (hl i k)) (congrArg w (hr i k))

/-- A batched product contracting the feature axis of both operands, given as a sum over index functions that are
    (b, q, o) and (b, k, o) by cases, is the unscaled scores. -/
theorem rawScores_of (Q K y : Spec.Act)
    (l r : (⟨3, ![8, 1024, 1024]⟩ : Shape).Idx → Fin 1024 → (⟨3, ![8, 1024, 1024]⟩ : Shape).Idx)
    (hy : ∀ i, y i = ∑ k : Fin 1024, Q (l i k) * K (r i k))
    (hl : ∀ i k, l i k = ix3 (i 0) (i 1) k) (hr : ∀ i k, r i k = ix3 (i 0) (i 2) k) : y = Spec.rawScores Q K := by
  funext i
  rw [hy]
  show _ = ∑ o : Fin 1024, Q (ix3 (i 0) (i 1) o) * K (ix3 (i 0) (i 2) o)
  exact Finset.sum_congr rfl fun k _ => congrArg₂ (· * ·) (congrArg Q (hl i k)) (congrArg K (hr i k))

/-- A batched product contracting the key axis, given as a sum over index functions that are (b, q, k) and (b, k, o)
    by cases, is the attention output. -/
theorem attnOut_of (p V y : Spec.Act)
    (l r : (⟨3, ![8, 1024, 1024]⟩ : Shape).Idx → Fin 1024 → (⟨3, ![8, 1024, 1024]⟩ : Shape).Idx)
    (hy : ∀ i, y i = ∑ k : Fin 1024, p (l i k) * V (r i k))
    (hl : ∀ i k, l i k = ix3 (i 0) (i 1) k) (hr : ∀ i k, r i k = ix3 (i 0) k (i 2)) : y = Spec.attnOut p V := by
  funext i
  rw [hy]
  show _ = ∑ k : Fin 1024, p (ix3 (i 0) (i 1) k) * V (ix3 (i 0) k (i 2))
  exact Finset.sum_congr rfl fun k _ => congrArg₂ (· * ·) (congrArg p (hl i k)) (congrArg V (hr i k))

end Cert.RefLib
-- ==== Proof.RefSpecAttn1.lean ====
/-
  The reference's first sublayer read stage by stage against the specification: the three projections of the inputs,
  the scores divided by 32, the causal mask (a comparison of position numbers) added, the row softmax as the reference
  computes it, the attention output, the residual sum and the layer normalisation. Each lemma says that one stage of
  the reference, as a function of the arguments, is one named piece of the specification applied to earlier stages;
  the last one composes them into the specification's first stage.
-/
import proofs.«105197_j1417339207765_2_alg».proof.Proof.RefReadP
import proofs.«105197_j1417339207765_2_alg».proof.Proof.RefSpecLib

noncomputable section

open scoped BigOperators

namespace Cert.ReferenceIdeal.RefValue

open Cert.ReferenceIdeal Cert.ReferenceIdeal.Gen Cert.ReferenceIdeal.ReadP Idealize.ShloMosaic Idealize.ShloMosaic.ValueIdx Cert.RefLib

-- The reference's arguments: two activation arrays, nine weight matrices and biases, the normalisation's gain and offset.
variable (x0 x1 : (⟨S8x1024x1024, .f32⟩ : BufTy).Contents (Elt Ideal)) (x2 x3 x4 x5 x6 x7 x8 : (⟨S1024x1024, .f32⟩ : BufTy).Contents (Elt Ideal)) (x9 : (⟨S1024, .f32⟩ : BufTy).Contents (Elt Ideal))
  (x10 : (⟨S1024x1024, .f32⟩ : BufTy).Contents (Elt Ideal)) (x11 x12 x13 : (⟨S1024, .f32⟩ : BufTy).Contents (Elt Ideal))

/-! ## The three projections of the inputs -/

/-- The keys: the inputs times the key weights. -/
theorem v0_eq : (val_main_v0 (F := Ideal) x0 x3) = Spec.proj x0 x3 :=
  proj_of x0 x3 _ lidx_main_v0 ridx_main_v0 (val_main_v0_apply x0 x3) (fun i k => by idx3) (fun i k => by idx2)

/-- The values: the inputs times the value weights. -/
theorem v1_eq : (val_main_v1 (F := Ideal) x0 x4) = Spec.proj x0 x4 :=
  proj_of x0 x4 _ lidx_main_v1 ridx_main_v1 (val_main_v1_apply x0 x4) (fun i k => by idx3) (fun i k => by idx2)

/-- The queries: the inputs times the query weights. -/
theorem v2_eq : (val_main_v2 (F := Ideal) x0 x2) = Spec.proj x0 x2 :=
  proj_of x0 x2 _ lidx_main_v2 ridx_main_v2 (val_main_v2_apply x0 x2) (fun i k => by idx3) (fun i k => by idx2)

/-! ## The masked scores -/

/-- Queries against keys, contracted over the feature axis. -/
theorem v3_eq : (val_main_v3 (F := Ideal) x0 x2 x3) = Spec.rawScores (val_main_v2 (F := Ideal) x0 x2) (val_main_v0 (F := Ideal) x0 x3) :=
  rawScores_of (val_main_v2 (F := Ideal) x0 x2) (val_main_v0 (F := Ideal) x0 x3) _ lidx_main_v3 ridx_main_v3 (val_main_v3_apply x0 x2 x3) (fun i k => by idx3) (fun i k => by idx3)

/-- Divided by the word of 32. -/
theorem v5_eq : (val_main_v5 (F := Ideal) x0 x2 x3) = Spec.scores (val_main_v2 (F := Ideal) x0 x2) (val_main_v0 (F := Ideal) x0 x3) := by
  funext i
  rw [val_main_v5_apply, val_main_v4_apply, val_main_cst_apply, v3_eq]
  generalize (val_main_v2 (F := Ideal) x0 x2) = q
  generalize (val_main_v0 (F := Ideal) x0 x3) = k
  rfl

/-- The mask array: −∞ where the key position (the column's number) exceeds the query position (the row's number) as
    signed words, else zero; both numbers are below 1024, so this is the order of the positions. -/
theorem v16_eq (i : S8x1024x1024.Idx) : (val_main_v16 (F := Ideal)) i = Spec.causalMask (i 1) (i 2) := by
  rw [val_main_v16_apply, val_main_v15_apply, val_main_v14_apply, val_main_v13_apply, val_main_v12_apply,
    val_main_v11_apply, val_main_v10_apply, val_main_v9_apply, val_main_v8_apply, val_main_v7_apply, val_main_v6_apply,
    val_main_call0_v0_apply, val_main_call0_v1_apply, val_main_cst_0_apply, val_main_cst_1_apply]
  refine (select_sgt_ofNat (i 1) (i 2) _ _).trans ?_
  show (if (i 1).val < (i 2).val then Ideal.ofBits .f32 0xFF800000#32 else Ideal.ofBits .f32 0x00000000#32)
    = if (i 1).val < (i 2).val then Spec.negInf else 0
  rw [Ideal.ofBits_zero_f32]

/-- The mask added to the scores. -/
theorem v17_eq : (val_main_v17 (F := Ideal) x0 x2 x3) = Spec.maskedScores (val_main_v5 (F := Ideal) x0 x2 x3) := by
  funext i
  rw [val_main_v17_apply, v16_eq]
  generalize (val_main_v5 (F := Ideal) x0 x2 x3) = s
  rfl

/-! ## The softmax over the key positions -/

/-- The row maximum of the masked scores: the reference takes the maximum of −∞ and the running maximum from −∞. -/
theorem v20_eq : (val_main_v20 (F := Ideal) x0 x2 x3) = fun j => Spec.rowMax (val_main_v17 (F := Ideal) x0 x2 x3) (j 0) (j 1) := by
  funext j
  rw [val_main_v20_apply, val_main_v19_apply, val_main_cst_3_apply]
  unfold val_main_v18
  generalize (val_main_v17 (F := Ideal) x0 x2 x3) = s
  refine (congrArg (fun t => max (Ideal.ofBits .f32 0xFF800000#32) t) (hostRowMax s _ _ _ j)).trans ?_
  exact Spec.max_fold_max_self _ _ _

/-- The exponential of each score less its row's maximum. -/
theorem v24_eq : (val_main_v24 (F := Ideal) x0 x2 x3) = Spec.expShift (val_main_v17 (F := Ideal) x0 x2 x3) := by
  funext i
  rw [val_main_v24_apply, val_main_v23_apply, val_main_v22_apply, val_main_v21_apply, v20_eq]
  generalize (val_main_v17 (F := Ideal) x0 x2 x3) = s
  rfl

/-- The row sums of those exponentials (the sum's zero start dropped). -/
theorem v25_eq : (val_main_v25 (F := Ideal) x0 x2 x3) = fun j => Spec.expSum (val_main_v17 (F := Ideal) x0 x2 x3) (j 0) (j 1) := by
  funext j
  rw [val_main_v25_apply, val_main_cst_4_apply, v24_eq]
  generalize (val_main_v17 (F := Ideal) x0 x2 x3) = s
  exact rowSum_of (Spec.expShift s) idx_main_v25 (fun j k => by idx3) j

/-- The softmax of the masked scores. -/
theorem v28_eq : (val_main_v28 (F := Ideal) x0 x2 x3) = Spec.softmax (val_main_v17 (F := Ideal) x0 x2 x3) := by
  funext i
  rw [val_main_v28_apply, val_main_v27_apply, val_main_v26_apply, v25_eq, v24_eq]
  generalize (val_main_v17 (F := Ideal) x0 x2 x3) = s
  rfl

/-! ## The attention output and the residual -/

/-- The softmax weights against the values, contracted over the key positions. -/
theorem v29_eq : (val_main_v29 (F := Ideal) x0 x2 x3 x4) = Spec.attnOut (val_main_v28 (F := Ideal) x0 x2 x3) (val_main_v1 (F := Ideal) x0 x4) :=
  attnOut_of (val_main_v28 (F := Ideal) x0 x2 x3) (val_main_v1 (F := Ideal) x0 x4) _ lidx_main_v29 ridx_main_v29 (val_main_v29_apply x0 x2 x3 x4) (fun i k => by idx3) (fun i k => by idx3)

/-- Plus the inputs. -/
theorem v30_eq : (val_main_v30 (F := Ideal) x0 x2 x3 x4) = Spec.add (val_main_v29 (F := Ideal) x0 x2 x3 x4) x0 := by
  funext i
  rw [val_main_v30_apply]
  generalize (val_main_v29 (F := Ideal) x0 x2 x3 x4) = s
  rfl

/-! ## The first layer normalisation -/

/-- The row sums of the first residual sum (the sum's zero start dropped). -/
theorem v31_eq : (val_main_v31 (F := Ideal) x0 x2 x3 x4) = fun j => ∑ k : Fin 1024, (val_main_v30 (F := Ideal) x0 x2 x3 x4) (ix3 (j 0) (j 1) k) := by
  funext j
  rw [val_main_v31_apply, val_main_cst_5_apply]
  generalize (val_main_v30 (F := Ideal) x0 x2 x3 x4) = s
  exact rowSum_of s idx_main_v31 (fun j k => by idx3) j

/-- The row means. -/
theorem v34_eq : (val_main_v34 (F := Ideal) x0 x2 x3 x4) = fun j => Spec.rowMean (val_main_v30 (F := Ideal) x0 x2 x3 x4) (j 0) (j 1) := by
  funext j
  rw [val_main_v34_apply, val_main_v33_apply, val_main_cst_6_apply, val_main_v32_apply, v31_eq]
  generalize (val_main_v30 (F := Ideal) x0 x2 x3 x4) = s
  rfl

/-- The squared deviations from the row mean. -/
theorem v37_eq : (val_main_v37 (F := Ideal) x0 x2 x3 x4) = fun i => ((val_main_v30 (F := Ideal) x0 x2 x3 x4) i - Spec.rowMean (val_main_v30 (F := Ideal) x0 x2 x3 x4) (i 0) (i 1)) * ((val_main_v30 (F := Ideal) x0 x2 x3 x4) i - Spec.rowMean (val_main_v30 (F := Ideal) x0 x2 x3 x4) (i 0) (i 1)) := by
  funext i
  rw [val_main_v37_apply, val_main_v36_apply, val_main_v35_apply, v34_eq]
  generalize (val_main_v30 (F := Ideal) x0 x2 x3 x4) = s
  rfl

/-- Their row sums. -/
theorem v38_eq : (val_main_v38 (F := Ideal) x0 x2 x3 x4) = fun j => ∑ k : Fin 1024, ((val_main_v30 (F := Ideal) x0 x2 x3 x4) (ix3 (j 0) (j 1) k) - Spec.rowMean (val_main_v30 (F := Ideal) x0 x2 x3 x4) (j 0) (j 1)) * ((val_main_v30 (F := Ideal) x0 x2 x3 x4) (ix3 (j 0) (j 1) k) - Spec.rowMean (val_main_v30 (F := Ideal) x0 x2 x3 x4) (j 0) (j 1)) := by
  funext j
  rw [val_main_v38_apply, val_main_cst_7_apply, v37_eq]
  generalize (val_main_v30 (F := Ideal) x0 x2 x3 x4) = s
  exact rowSum_of (fun i => (s i - Spec.rowMean s (i 0) (i 1)) * (s i - Spec.rowMean s (i 0) (i 1))) idx_main_v38 (fun j k => by idx3) j

/-- The row variances. -/
theorem v41_eq : (val_main_v41 (F := Ideal) x0 x2 x3 x4) = fun j => Spec.rowVar (val_main_v30 (F := Ideal) x0 x2 x3 x4) (j 0) (j 1) := by
  funext j
  rw [val_main_v41_apply, val_main_v40_apply, val_main_cst_8_apply, val_main_v39_apply, v38_eq]
  generalize (val_main_v30 (F := Ideal) x0 x2 x3 x4) = s
  rfl

/-- The layer normalisation of the first residual sum. -/
theorem v54_eq : (val_main_v54 (F := Ideal) x0 x2 x3 x4 x12 x13) = Spec.layerNorm (val_main_v30 (F := Ideal) x0 x2 x3 x4) x12 x13 := by
  funext i
  rw [val_main_v54_apply, val_main_v53_apply, val_main_v52_apply, val_main_v51_apply, val_main_v50_apply, val_main_v49_apply,
    val_main_v48_apply, val_main_v47_apply, val_main_v46_apply, val_main_v45_apply, val_main_v44_apply, val_main_cst_9_apply,
    v41_eq, val_main_v43_apply, val_main_v42_apply, v34_eq]
  generalize (val_main_v30 (F := Ideal) x0 x2 x3 x4) = s
  have hg : idx_main_v49 (idx_main_v50 i) = ix1 (i 2) := by idx1
  have hb : idx_main_v52 (idx_main_v53 i) = ix1 (i 2) := by idx1
  rw [hg, hb]
  rfl

/-! ## The first sublayer -/

/-- The stage holding x after the first layer normalisation is the specification's first stage of the inputs. -/
theorem stage1_eq : (val_main_v54 (F := Ideal) x0 x2 x3 x4 x12 x13) = Spec.stage1 x0 x2 x3 x4 x12 x13 := by
  rw [v54_eq, v30_eq, v29_eq, v28_eq, v17_eq, v5_eq, v2_eq, v0_eq, v1_eq]
  rfl

end Cert.ReferenceIdeal.RefValue
-- ==== Proof.RefSpecAttn2.lean ====
/-
  The reference's second sublayer read stage by stage against the specification: keys and values projected from the
  context, queries from x (the stage after the first layer normalisation), the scores divided by 32 with no mask, the
  row softmax, the attention output, the residual sum with x and the layer normalisation. Every stage is a function of
  the arguments, so x appears as the reference's own stage; the first sublayer's lemma identifies it later.
-/
import proofs.«105197_j1417339207765_2_alg».proof.Proof.RefReadP
import proofs.«105197_j1417339207765_2_alg».proof.Proof.RefSpecLib

noncomputable section

open scoped BigOperators

namespace Cert.ReferenceIdeal.RefValue

open Cert.ReferenceIdeal Cert.ReferenceIdeal.Gen Cert.ReferenceIdeal.ReadP Idealize.ShloMosaic Idealize.ShloMosaic.ValueIdx Cert.RefLib

-- The reference's arguments: two activation arrays, nine weight matrices and biases, the normalisation's gain and offset.
variable (x0 x1 : (⟨S8x1024x1024, .f32⟩ : BufTy).Contents (Elt Ideal)) (x2 x3 x4 x5 x6 x7 x8 : (⟨S1024x1024, .f32⟩ : BufTy).Contents (Elt Ideal)) (x9 : (⟨S1024, .f32⟩ : BufTy).Contents (Elt Ideal))
  (x10 : (⟨S1024x1024, .f32⟩ : BufTy).Contents (Elt Ideal)) (x11 x12 x13 : (⟨S1024, .f32⟩ : BufTy).Contents (Elt Ideal))

/-! ## The projections: keys and values from the context, queries from x -/

/-- The keys: the context times the key weights. -/
theorem v55_eq : (val_main_v55 (F := Ideal) x1 x6) = Spec.proj x1 x6 :=
  proj_of x1 x6 _ lidx_main_v55 ridx_main_v55 (val_main_v55_apply x1 x6) (fun i k => by idx3) (fun i k => by idx2)

/-- The values: the context times the value weights. -/
theorem v56_eq : (val_main_v56 (F := Ideal) x1 x7) = Spec.proj x1 x7 :=
  proj_of x1 x7 _ lidx_main_v56 ridx_main_v56 (val_main_v56_apply x1 x7) (fun i k => by idx3) (fun i k => by idx2)

/-- The queries: x (the first sublayer's result) times the query weights. -/
theorem v57_eq : (val_main_v57 (F := Ideal) x0 x2 x3 x4 x5 x12 x13) = Spec.proj (val_main_v54 (F := Ideal) x0 x2 x3 x4 x12 x13) x5 :=
  proj_of (val_main_v54 (F := Ideal) x0 x2 x3 x4 x12 x13) x5 _ lidx_main_v57 ridx_main_v57 (val_main_v57_apply x0 x2 x3 x4 x5 x12 x13) (fun i k => by idx3) (fun i k => by idx2)

/-! ## The scores (no mask) -/

/-- Queries against keys, contracted over the feature axis. -/
theorem v58_eq : (val_main_v58 (F := Ideal) x0 x1 x2 x3 x4 x5 x6 x12 x13) = Spec.rawScores (val_main_v57 (F := Ideal) x0 x2 x3 x4 x5 x12 x13) (val_main_v55 (F := Ideal) x1 x6) :=
  rawScores_of (val_main_v57 (F := Ideal) x0 x2 x3 x4 x5 x12 x13) (val_main_v55 (F := Ideal) x1 x6) _ lidx_main_v58 ridx_main_v58 (val_main_v58_apply x0 x1 x2 x3 x4 x5 x6 x12 x13) (fun i k => by idx3) (fun i k => by idx3)

/-- Divided by the word of 32. -/
theorem v60_eq : (val_main_v60 (F := Ideal) x0 x1 x2 x3 x4 x5 x6 x12 x13) = Spec.scores (val_main_v57 (F := Ideal) x0 x2 x3 x4 x5 x12 x13) (val_main_v55 (F := Ideal) x1 x6) := by
  funext i
  rw [val_main_v60_apply, val_main_v59_apply, val_main_cst_10_apply, v58_eq]
  generalize (val_main_v57 (F := Ideal) x0 x2 x3 x4 x5 x12 x13) = q
  generalize (val_main_v55 (F := Ideal) x1 x6) = k
  rfl

/-! ## The softmax over the key positions -/

/-- The row maximum of the cross-attention scores: the reference takes the maximum of −∞ and the running maximum from −∞. -/
theorem v63_eq : (val_main_v63 (F := Ideal) x0 x1 x2 x3 x4 x5 x6 x12 x13) = fun j => Spec.rowMax (val_main_v60 (F := Ideal) x0 x1 x2 x3 x4 x5 x6 x12 x13) (j 0) (j 1) := by
  funext j
  rw [val_main_v63_apply, val_main_v62_apply, val_main_cst_12_apply]
  unfold val_main_v61
  generalize (val_main_v60 (F := Ideal) x0 x1 x2 x3 x4 x5 x6 x12 x13) = s
  refine (congrArg (fun t => max (Ideal.ofBits .f32 0xFF800000#32) t) (hostRowMax s _ _ _ j)).trans ?_
  exact Spec.max_fold_max_self _ _ _

/-- The exponential of each score less its row's maximum. -/
theorem v67_eq : (val_main_v67 (F := Ideal) x0 x1 x2 x3 x4 x5 x6 x12 x13) = Spec.expShift (val_main_v60 (F := Ideal) x0 x1 x2 x3 x4 x5 x6 x12 x13) := by
  funext i
  rw [val_main_v67_apply, val_main_v66_apply, val_main_v65_apply, val_main_v64_apply, v63_eq]
  generalize (val_main_v60 (F := Ideal) x0 x1 x2 x3 x4 x5 x6 x12 x13) = s
  rfl

/-- The row sums of those exponentials (the sum's zero start dropped). -/
theorem v68_eq : (val_main_v68 (F := Ideal) x0 x1 x2 x3 x4 x5 x6 x12 x13) = fun j => Spec.expSum (val_main_v60 (F := Ideal) x0 x1 x2 x3 x4 x5 x6 x12 x13) (j 0) (j 1) := by
  funext j
  rw [val_main_v68_apply, val_main_cst_13_apply, v67_eq]
  generalize (val_main_v60 (F := Ideal) x0 x1 x2 x3 x4 x5 x6 x12 x13) = s
  exact rowSum_of (Spec.expShift s) idx_main_v68 (fun j k => by idx3) j

/-- The softmax of the cross-attention scores. -/
theorem v71_eq : (val_main_v71 (F := Ideal) x0 x1 x2 x3 x4 x5 x6 x12 x13) = Spec.softmax (val_main_v60 (F := Ideal) x0 x1 x2 x3 x4 x5 x6 x12 x13) := by
  funext i
  rw [val_main_v71_apply, val_main_v70_apply, val_main_v69_apply, v68_eq, v67_eq]
  generalize (val_main_v60 (F := Ideal) x0 x1 x2 x3 x4 x5 x6 x12 x13) = s
  rfl

/-! ## The attention output and the residual -/

/-- The softmax weights against the values, contracted over the key positions. -/
theorem v72_eq : (val_main_v72 (F := Ideal) x0 x1 x2 x3 x4 x5 x6 x7 x12 x13) = Spec.attnOut (val_main_v71 (F := Ideal) x0 x1 x2 x3 x4 x5 x6 x12 x13) (val_main_v56 (F := Ideal) x1 x7) :=
  attnOut_of (val_main_v71 (F := Ideal) x0 x1 x2 x3 x4 x5 x6 x12 x13) (val_main_v56 (F := Ideal) x1 x7) _ lidx_main_v72 ridx_main_v72 (val_main_v72_apply x0 x1 x2 x3 x4 x5 x6 x7 x12 x13) (fun i k => by idx3) (fun i k => by idx3)

/-- Plus x. -/
theorem v73_eq : (val_main_v73 (F := Ideal) x0 x1 x2 x3 x4 x5 x6 x7 x12 x13) = Spec.add (val_main_v72 (F := Ideal) x0 x1 x2 x3 x4 x5 x6 x7 x12 x13) (val_main_v54 (F := Ideal) x0 x2 x3 x4 x12 x13) := by
  funext i
  rw [val_main_v73_apply]
  generalize (val_main_v72 (F := Ideal) x0 x1 x2 x3 x4 x5 x6 x7 x12 x13) = s
  generalize (val_main_v54 (F := Ideal) x0 x2 x3 x4 x12 x13) = t
  rfl

/-! ## The second layer normalisation -/

/-- The row sums of the second residual sum (the sum's zero start dropped). -/
theorem v74_eq : (val_main_v74 (F := Ideal) x0 x1 x2 x3 x4 x5 x6 x7 x12 x13) = fun j => ∑ k : Fin 1024, (val_main_v73 (F := Ideal) x0 x1 x2 x3 x4 x5 x6 x7 x12 x13) (ix3 (j 0) (j 1) k) := by
  funext j
  rw [val_main_v74_apply, val_main_cst_14_apply]
  generalize (val_main_v73 (F := Ideal) x0 x1 x2 x3 x4 x5 x6 x7 x12 x13) = s
  exact rowSum_of s idx_main_v74 (fun j k => by idx3) j

/-- The row means. -/
theorem v77_eq : (val_main_v77 (F := Ideal) x0 x1 x2 x3 x4 x5 x6 x7 x12 x13) = fun j => Spec.rowMean (val_main_v73 (F := Ideal) x0 x1 x2 x3 x4 x5 x6 x7 x12 x13) (j 0) (j 1) := by
  funext j
  rw [val_main_v77_apply, val_main_v76_apply, val_main_cst_15_apply, val_main_v75_apply, v74_eq]
  generalize (val_main_v73 (F := Ideal) x0 x1 x2 x3 x4 x5 x6 x7 x12 x13) = s
  rfl

/-- The squared deviations from the row mean. -/
theorem v80_eq : (val_main_v80 (F := Ideal) x0 x1 x2 x3 x4 x5 x6 x7 x12 x13) = fun i => ((val_main_v73 (F := Ideal) x0 x1 x2 x3 x4 x5 x6 x7 x12 x13) i - Spec.rowMean (val_main_v73 (F := Ideal) x0 x1 x2 x3 x4 x5 x6 x7 x12 x13) (i 0) (i 1)) * ((val_main_v73 (F := Ideal) x0 x1 x2 x3 x4 x5 x6 x7 x12 x13) i - Spec.rowMean (val_main_v73 (F := Ideal) x0 x1 x2 x3 x4 x5 x6 x7 x12 x13) (i 0) (i 1)) := by
  funext i
  rw [val_main_v80_apply, val_main_v79_apply, val_main_v78_apply, v77_eq]
  generalize (val_main_v73 (F := Ideal) x0 x1 x2 x3 x4 x5 x6 x7 x12 x13) = s
  rfl

/-- Their row sums. -/
theorem v81_eq : (val_main_v81 (F := Ideal) x0 x1 x2 x3 x4 x5 x6 x7 x12 x13) = fun j => ∑ k : Fin 1024, ((val_main_v73 (F := Ideal) x0 x1 x2 x3 x4 x5 x6 x7 x12 x13) (ix3 (j 0) (j 1) k) - Spec.rowMean (val_main_v73 (F := Ideal) x0 x1 x2 x3 x4 x5 x6 x7 x12 x13) (j 0) (j 1)) * ((val_main_v73 (F := Ideal) x0 x1 x2 x3 x4 x5 x6 x7 x12 x13) (ix3 (j 0) (j 1) k) - Spec.rowMean (val_main_v73 (F := Ideal) x0 x1 x2 x3 x4 x5 x6 x7 x12 x13) (j 0) (j 1)) := by
  funext j
  rw [val_main_v81_apply, val_main_cst_16_apply, v80_eq]
  generalize (val_main_v73 (F := Ideal) x0 x1 x2 x3 x4 x5 x6 x7 x12 x13) = s
  exact rowSum_of (fun i => (s i - Spec.rowMean s (i 0) (i 1)) * (s i - Spec.rowMean s (i 0) (i 1))) idx_main_v81 (fun j k => by idx3) j

/-- The row variances. -/
theorem v84_eq : (val_main_v84 (F := Ideal) x0 x1 x2 x3 x4 x5 x6 x7 x12 x13) = fun j => Spec.rowVar (val_main_v73 (F := Ideal) x0 x1 x2 x3 x4 x5 x6 x7 x12 x13) (j 0) (j 1) := by
  funext j
  rw [val_main_v84_apply, val_main_v83_apply, val_main_cst_17_apply, val_main_v82_apply, v81_eq]
  generalize (val_main_v73 (F := Ideal) x0 x1 x2 x3 x4 x5 x6 x7 x12 x13) = s
  rfl

/-- The layer normalisation of the second residual sum. -/
theorem v97_eq : (val_main_v97 (F := Ideal) x0 x1 x2 x3 x4 x5 x6 x7 x12 x13) = Spec.layerNorm (val_main_v73 (F := Ideal) x0 x1 x2 x3 x4 x5 x6 x7 x12 x13) x12 x13 := by
  funext i
  rw [val_main_v97_apply, val_main_v96_apply, val_main_v95_apply, val_main_v94_apply, val_main_v93_apply, val_main_v92_apply,
    val_main_v91_apply, val_main_v90_apply, val_main_v89_apply, val_main_v88_apply, val_main_v87_apply, val_main_cst_18_apply,
    v84_eq, val_main_v86_apply, val_main_v85_apply, v77_eq]
  generalize (val_main_v73 (F := Ideal) x0 x1 x2 x3 x4 x5 x6 x7 x12 x13) = s
  have hg : idx_main_v92 (idx_main_v93 i) = ix1 (i 2) := by idx1
  have hb : idx_main_v95 (idx_main_v96 i) = ix1 (i 2) := by idx1
  rw [hg, hb]
  rfl

/-! ## The second sublayer -/

/-- The stage holding x after the second layer normalisation is the specification's second stage of the stage after
    the first. -/
theorem stage2_eq : (val_main_v97 (F := Ideal) x0 x1 x2 x3 x4 x5 x6 x7 x12 x13) = Spec.stage2 (val_main_v54 (F := Ideal) x0 x2 x3 x4 x12 x13) x1 x5 x6 x7 x12 x13 := by
  rw [v97_eq, v73_eq, v72_eq, v71_eq, v60_eq, v57_eq, v55_eq, v56_eq]
  rfl

end Cert.ReferenceIdeal.RefValue
-- ==== Proof.RefSpecFfn.lean ====
/-
  The reference's third sublayer read stage by stage against the specification: the two dense layers with the
  maximum with zero between them, the residual sum with x (the stage after the second layer normalisation), the layer
  normalisation, and the final maximum with zero.
-/
import proofs.«105197_j1417339207765_2_alg».proof.Proof.RefReadP
import proofs.«105197_j1417339207765_2_alg».proof.Proof.RefSpecLib

noncomputable section

open scoped BigOperators

namespace Cert.ReferenceIdeal.RefValue

open Cert.ReferenceIdeal Cert.ReferenceIdeal.Gen Cert.ReferenceIdeal.ReadP Idealize.ShloMosaic Idealize.ShloMosaic.ValueIdx Cert.RefLib

-- The reference's arguments: two activation arrays, nine weight matrices and biases, the normalisation's gain and offset.
variable (x0 x1 : (⟨S8x1024x1024, .f32⟩ : BufTy).Contents (Elt Ideal)) (x2 x3 x4 x5 x6 x7 x8 : (⟨S1024x1024, .f32⟩ : BufTy).Contents (Elt Ideal)) (x9 : (⟨S1024, .f32⟩ : BufTy).Contents (Elt Ideal))
  (x10 : (⟨S1024x1024, .f32⟩ : BufTy).Contents (Elt Ideal)) (x11 x12 x13 : (⟨S1024, .f32⟩ : BufTy).Contents (Elt Ideal))

/-! ## The feed-forward network -/

/-- x (the second sublayer's result) times the first layer's weights. -/
theorem v98_eq : (val_main_v98 (F := Ideal) x0 x1 x2 x3 x4 x5 x6 x7 x8 x12 x13) = Spec.proj (val_main_v97 (F := Ideal) x0 x1 x2 x3 x4 x5 x6 x7 x12 x13) x8 :=
  proj_of (val_main_v97 (F := Ideal) x0 x1 x2 x3 x4 x5 x6 x7 x12 x13) x8 _ lidx_main_v98 ridx_main_v98 (val_main_v98_apply x0 x1 x2 x3 x4 x5 x6 x7 x8 x12 x13) (fun i k => by idx3) (fun i k => by idx2)

/-- Plus the first bias: the first dense layer. -/
theorem v101_eq : (val_main_v101 (F := Ideal) x0 x1 x2 x3 x4 x5 x6 x7 x8 x9 x12 x13) = Spec.dense (val_main_v97 (F := Ideal) x0 x1 x2 x3 x4 x5 x6 x7 x12 x13) x8 x9 := by
  funext i
  rw [val_main_v101_apply, val_main_v100_apply, val_main_v99_apply, v98_eq]
  generalize (val_main_v97 (F := Ideal) x0 x1 x2 x3 x4 x5 x6 x7 x12 x13) = s
  have hb : idx_main_v99 (idx_main_v100 i) = ix1 (i 2) := by idx1
  rw [hb]
  rfl

/-- The maximum with zero (the zero word read as 0). -/
theorem v102_eq : (val_main_v102 (F := Ideal) x0 x1 x2 x3 x4 x5 x6 x7 x8 x9 x12 x13) = Spec.relu (val_main_v101 (F := Ideal) x0 x1 x2 x3 x4 x5 x6 x7 x8 x9 x12 x13) := by
  funext i
  rw [val_main_v102_apply, val_main_call1_v0_apply, val_main_call1_cst_apply]
  generalize (val_main_v101 (F := Ideal) x0 x1 x2 x3 x4 x5 x6 x7 x8 x9 x12 x13) = s
  show max (s i) (Ideal.ofBits .f32 0x00000000#32) = max (s i) 0
  rw [Ideal.ofBits_zero_f32]

/-- That times the second layer's weights. -/
theorem v103_eq : (val_main_v103 (F := Ideal) x0 x1 x2 x3 x4 x5 x6 x7 x8 x9 x10 x12 x13) = Spec.proj (val_main_v102 (F := Ideal) x0 x1 x2 x3 x4 x5 x6 x7 x8 x9 x12 x13) x10 :=
  proj_of (val_main_v102 (F := Ideal) x0 x1 x2 x3 x4 x5 x6 x7 x8 x9 x12 x13) x10 _ lidx_main_v103 ridx_main_v103 (val_main_v103_apply x0 x1 x2 x3 x4 x5 x6 x7 x8 x9 x10 x12 x13) (fun i k => by idx3) (fun i k => by idx2)

/-- Plus the second bias: the second dense layer. -/
theorem v106_eq : (val_main_v106 (F := Ideal) x0 x1 x2 x3 x4 x5 x6 x7 x8 x9 x10 x11 x12 x13) = Spec.dense (val_main_v102 (F := Ideal) x0 x1 x2 x3 x4 x5 x6 x7 x8 x9 x12 x13) x10 x11 := by
  funext i
  rw [val_main_v106_apply, val_main_v105_apply, val_main_v104_apply, v103_eq]
  generalize (val_main_v102 (F := Ideal) x0 x1 x2 x3 x4 x5 x6 x7 x8 x9 x12 x13) = s
  have hb : idx_main_v104 (idx_main_v105 i) = ix1 (i 2) := by idx1
  rw [hb]
  rfl

/-- Plus x. -/
theorem v107_eq : (val_main_v107 (F := Ideal) x0 x1 x2 x3 x4 x5 x6 x7 x8 x9 x10 x11 x12 x13) = Spec.add (val_main_v106 (F := Ideal) x0 x1 x2 x3 x4 x5 x6 x7 x8 x9 x10 x11 x12 x13) (val_main_v97 (F := Ideal) x0 x1 x2 x3 x4 x5 x6 x7 x12 x13) := by
  funext i
  rw [val_main_v107_apply]
  generalize (val_main_v106 (F := Ideal) x0 x1 x2 x3 x4 x5 x6 x7 x8 x9 x10 x11 x12 x13) = s
  generalize (val_main_v97 (F := Ideal) x0 x1 x2 x3 x4 x5 x6 x7 x12 x13) = t
  rfl

/-! ## The third layer normalisation -/

/-- The row sums of the third residual sum (the sum's zero start dropped). -/
theorem v108_eq : (val_main_v108 (F := Ideal) x0 x1 x2 x3 x4 x5 x6 x7 x8 x9 x10 x11 x12 x13) = fun j => ∑ k : Fin 1024, (val_main_v107 (F := Ideal) x0 x1 x2 x3 x4 x5 x6 x7 x8 x9 x10 x11 x12 x13) (ix3 (j 0) (j 1) k) := by
  funext j
  rw [val_main_v108_apply, val_main_cst_19_apply]
  generalize (val_main_v107 (F := Ideal) x0 x1 x2 x3 x4 x5 x6 x7 x8 x9 x10 x11 x12 x13) = s
  exact rowSum_of s idx_main_v108 (fun j k => by idx3) j

/-- The row means. -/
theorem v111_eq : (val_main_v111 (F := Ideal) x0 x1 x2 x3 x4 x5 x6 x7 x8 x9 x10 x11 x12 x13) = fun j => Spec.rowMean (val_main_v107 (F := Ideal) x0 x1 x2 x3 x4 x5 x6 x7 x8 x9 x10 x11 x12 x13) (j 0) (j 1) := by
  funext j
  rw [val_main_v111_apply, val_main_v110_apply, val_main_cst_20_apply, val_main_v109_apply, v108_eq]
  generalize (val_main_v107 (F := Ideal) x0 x1 x2 x3 x4 x5 x6 x7 x8 x9 x10 x11 x12 x13) = s
  rfl

/-- The squared deviations from the row mean. -/
theorem v114_eq : (val_main_v114 (F := Ideal) x0 x1 x2 x3 x4 x5 x6 x7 x8 x9 x10 x11 x12 x13) = fun i => ((val_main_v107 (F := Ideal) x0 x1 x2 x3 x4 x5 x6 x7 x8 x9 x10 x11 x12 x13) i - Spec.rowMean (val_main_v107 (F := Ideal) x0 x1 x2 x3 x4 x5 x6 x7 x8 x9 x10 x11 x12 x13) (i 0) (i 1)) * ((val_main_v107 (F := Ideal) x0 x1 x2 x3 x4 x5 x6 x7 x8 x9 x10 x11 x12 x13) i - Spec.rowMean (val_main_v107 (F := Ideal) x0 x1 x2 x3 x4 x5 x6 x7 x8 x9 x10 x11 x12 x13) (i 0) (i 1)) := by
  funext i
  rw [val_main_v114_apply, val_main_v113_apply, val_main_v112_apply, v111_eq]
  generalize (val_main_v107 (F := Ideal) x0 x1 x2 x3 x4 x5 x6 x7 x8 x9 x10 x11 x12 x13) = s
  rfl

/-- Their row sums. -/
theorem v115_eq : (val_main_v115 (F := Ideal) x0 x1 x2 x3 x4 x5 x6 x7 x8 x9 x10 x11 x12 x13) = fun j => ∑ k : Fin 1024, ((val_main_v107 (F := Ideal) x0 x1 x2 x3 x4 x5 x6 x7 x8 x9 x10 x11 x12 x13) (ix3 (j 0) (j 1) k) - Spec.rowMean (val_main_v107 (F := Ideal) x0 x1 x2 x3 x4 x5 x6 x7 x8 x9 x10 x11 x12 x13) (j 0) (j 1)) * ((val_main_v107 (F := Ideal) x0 x1 x2 x3 x4 x5 x6 x7 x8 x9 x10 x11 x12 x13) (ix3 (j 0) (j 1) k) - Spec.rowMean (val_main_v107 (F := Ideal) x0 x1 x2 x3 x4 x5 x6 x7 x8 x9 x10 x11 x12 x13) (j 0) (j 1)) := by
  funext j
  rw [val_main_v115_apply, val_main_cst_21_apply, v114_eq]
  generalize (val_main_v107 (F := Ideal) x0 x1 x2 x3 x4 x5 x6 x7 x8 x9 x10 x11 x12 x13) = s
  exact rowSum_of (fun i => (s i - Spec.rowMean s (i 0) (i 1)) * (s i - Spec.rowMean s (i 0) (i 1))) idx_main_v115 (fun j k => by idx3) j

/-- The row variances. -/
theorem v118_eq : (val_main_v118 (F := Ideal) x0 x1 x2 x3 x4 x5 x6 x7 x8 x9 x10 x11 x12 x13) = fun j => Spec.rowVar (val_main_v107 (F := Ideal) x0 x1 x2 x3 x4 x5 x6 x7 x8 x9 x10 x11 x12 x13) (j 0) (j 1) := by
  funext j
  rw [val_main_v118_apply, val_main_v117_apply, val_main_cst_22_apply, val_main_v116_apply, v115_eq]
  generalize (val_main_v107 (F := Ideal) x0 x1 x2 x3 x4 x5 x6 x7 x8 x9 x10 x11 x12 x13) = s
  rfl

/-- The layer normalisation of the third residual sum. -/
theorem v131_eq : (val_main_v131 (F := Ideal) x0 x1 x2 x3 x4 x5 x6 x7 x8 x9 x10 x11 x12 x13) = Spec.layerNorm (val_main_v107 (F := Ideal) x0 x1 x2 x3 x4 x5 x6 x7 x8 x9 x10 x11 x12 x13) x12 x13 := by
  funext i
  rw [val_main_v131_apply, val_main_v130_apply, val_main_v129_apply, val_main_v128_apply, val_main_v127_apply, val_main_v126_apply,
    val_main_v125_apply, val_main_v124_apply, val_main_v123_apply, val_main_v122_apply, val_main_v121_apply, val_main_cst_23_apply,
    v118_eq, val_main_v120_apply, val_main_v119_apply, v111_eq]
  generalize (val_main_v107 (F := Ideal) x0 x1 x2 x3 x4 x5 x6 x7 x8 x9 x10 x11 x12 x13) = s
  have hg : idx_main_v126 (idx_main_v127 i) = ix1 (i 2) := by idx1
  have hb : idx_main_v129 (idx_main_v130 i) = ix1 (i 2) := by idx1
  rw [hg, hb]
  rfl

/-! ## The third sublayer and the final maximum with zero -/

/-- The stage after the third layer normalisation is the specification's third stage of the stage after the second. -/
theorem stage3_eq : (val_main_v131 (F := Ideal) x0 x1 x2 x3 x4 x5 x6 x7 x8 x9 x10 x11 x12 x13) = Spec.stage3 (val_main_v97 (F := Ideal) x0 x1 x2 x3 x4 x5 x6 x7 x12 x13) x8 x9 x10 x11 x12 x13 := by
  rw [v131_eq, v107_eq, v106_eq, v102_eq, v101_eq]
  rfl

/-- The result: the maximum with zero of that. -/
theorem v132_eq : (val_main_v132 (F := Ideal) x0 x1 x2 x3 x4 x5 x6 x7 x8 x9 x10 x11 x12 x13) = Spec.relu (val_main_v131 (F := Ideal) x0 x1 x2 x3 x4 x5 x6 x7 x8 x9 x10 x11 x12 x13) := by
  funext i
  rw [val_main_v132_apply, val_main_call2_v0_apply, val_main_call2_cst_apply]
  generalize (val_main_v131 (F := Ideal) x0 x1 x2 x3 x4 x5 x6 x7 x8 x9 x10 x11 x12 x13) = s
  show max (s i) (Ideal.ofBits .f32 0x00000000#32) = max (s i) 0
  rw [Ideal.ofBits_zero_f32]

end Cert.ReferenceIdeal.RefValue
-- ==== Proof.RefSpec.lean ====
/-
  The reference is the specification: the value the reference's run leaves in its result, as a function of the fourteen
  arguments, is the block of the specification. The three sublayers' lemmas are composed from the last stage back to
  the arguments: the result is the maximum with zero of the third stage, which is the third sublayer of the second
  stage, which is the second sublayer of the first stage and the context, which is the first sublayer of the inputs.
-/
import proofs.«105197_j1417339207765_2_alg».proof.Proof.RefSpecAttn1
import proofs.«105197_j1417339207765_2_alg».proof.Proof.RefSpecAttn2
import proofs.«105197_j1417339207765_2_alg».proof.Proof.RefSpecFfn

noncomputable section

open scoped BigOperators

namespace Cert.ReferenceIdeal.RefValue

open Cert.ReferenceIdeal Cert.ReferenceIdeal.Gen Cert.ReferenceIdeal.ReadP Idealize.ShloMosaic Idealize.ShloMosaic.ValueIdx Cert.RefLib

-- The reference's arguments: two activation arrays, nine weight matrices and biases, the normalisation's gain and offset.
variable (x0 x1 : (⟨S8x1024x1024, .f32⟩ : BufTy).Contents (Elt Ideal)) (x2 x3 x4 x5 x6 x7 x8 : (⟨S1024x1024, .f32⟩ : BufTy).Contents (Elt Ideal)) (x9 : (⟨S1024, .f32⟩ : BufTy).Contents (Elt Ideal))
  (x10 : (⟨S1024x1024, .f32⟩ : BufTy).Contents (Elt Ideal)) (x11 x12 x13 : (⟨S1024, .f32⟩ : BufTy).Contents (Elt Ideal))

/-- The reference's last stage, as a function of its arguments, is the specification's block of them. -/
theorem ref_block : (val_main_v132 (F := Ideal) x0 x1 x2 x3 x4 x5 x6 x7 x8 x9 x10 x11 x12 x13) = Spec.block x0 x1 x2 x3 x4 x5 x6 x7 x8 x9 x10 x11 x12 x13 := by
  rw [v132_eq, stage3_eq, stage2_eq, stage1_eq]
  rfl

end Cert.ReferenceIdeal.RefValue
-- ==== Proof.RefSpecRun.lean ====
/-
  The reference's run ends at the specification: on every device, every weakly fair execution of the reference
  terminates with its result buffer holding the specification's block of the fourteen argument arrays as they were
  at launch, and with the arguments unchanged. This is the reference's run (which leaves the last stage of the
  operations, as a function of the arguments) followed by the identification of that stage with the block.
-/
import proofs.«105197_j1417339207765_2_alg».proof.Proof.RefRunP
import proofs.«105197_j1417339207765_2_alg».proof.Proof.RefSpec

noncomputable section

namespace Cert.ReferenceIdeal.RefValue

open Cert.ReferenceIdeal Cert.ReferenceIdeal.Gen Idealize.ShloMosaic Idealize.ShloMosaic.TcCoe Idealize.SL.Sem Idealize.ShloMosaic.StableHlo

/-- Every weakly fair execution of the reference, at the extended reals, ends with the result at the block of the
    arguments' launch contents and the arguments unchanged. -/
theorem run_block (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v132) = Spec.block (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c).1.trans (ref_block _ _ _ _ _ _ _ _ _ _ _ _ _ _), (h c).2⟩)
    (Cert.ReferenceIdeal.ValueP.run (F := Ideal) m ρ)

end Cert.ReferenceIdeal.RefValue
-- ==== Proof.Claims.lean ====
/-
  The five claims. The printed kernel and its idealization run to the end with their arguments unchanged (the run of their
  thirteen items); the reference does (its host operations' run). The idealization differs from the printed kernel in one
  constant: the finite fill of the causal mask is read as −∞, which is what the certificate's table gives it. At the ideal
  instance the kernel's result and the reference's are both the specification's block of the argument arrays: masked
  self-attention, cross-attention with the context and the feed-forward layer, each followed by the residual and the layer
  normalisation, and a final rectifier.
-/
import proofs.«105197_j1417339207765_2_alg».proof.Defs
import proofs.«105197_j1417339207765_2_alg».proof.Proof.Gen.Pre_finite_inputs
import proofs.«105197_j1417339207765_2_alg».proof.Proof.Frames
import proofs.«105197_j1417339207765_2_alg».proof.Proof.KFrames
import proofs.«105197_j1417339207765_2_alg».proof.Proof.KResult
import proofs.«105197_j1417339207765_2_alg».proof.Proof.RefSpecRun

noncomputable section

open Idealize.ShloMosaic Idealize.ShloMosaic.TcCoe Idealize.SL.Sem

namespace Cert.Proof.Claims

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefValue.run_block m ρ)

/-- The one rewrite of the idealization: the mask's finite fill is named, and the name's value is −∞. -/
theorem preserves : Cert.preserves_Kernel_KernelIdeal :=
  IdealRules.named_const.statement Cert.KernelIdeal.κ "neg_big" .f32 0xFF333332#32 ⊥ rfl

/-- From memories agreeing on the arguments both idealized programs end with the specification's block of the arguments in
    their result arrays. -/
theorem algebraic : Cert.algebraic_KernelIdeal_ReferenceIdeal := by
  intro m ρ m' ρ' _ hagree
  refine ⟨fun c => Cert.Spec.block (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono (fun r h c => ⟨(h c).1.trans (Cert.KernelIdeal.Val.result_eq m c), (h c).2⟩)
      (Cert.KernelIdeal.Gen.run_result m ρ)
  · refine (θ_run Cert.ReferenceIdeal.defs _ _).mono (fun r h c => ⟨(h c).1.trans ?_, (h c).2⟩)
      (Cert.ReferenceIdeal.RefValue.run_block m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]

end Cert.Proof.Claims

end
-- ==== Proof.lean ====
/-
  A transformer block — masked self-attention, cross-attention with an encoder context, and a feed-forward layer, each
  followed by the residual and a layer normalisation, with a final rectifier — computed by six kernel launches (three
  packed projections, two attention-and-normalise launches, one fused feed-forward launch) against its plain reference.
  The claim's five parts are proved in Proof/Claims.lean: the three programs run to the end and leave their arguments
  unchanged; the idealized kernel differs from the printed one only in reading the causal mask's finite fill as −∞; and
  at the ideal instance, where a float is an extended real and a change of format is the identity, both programs end with
  one and the same function of the fourteen argument arrays in their result.
-/
import proofs.«105197_j1417339207765_2_alg».proof.Defs
import proofs.«105197_j1417339207765_2_alg».proof.Proof.Gen.Kernel
import proofs.«105197_j1417339207765_2_alg».proof.Proof.Gen.Kernel.Skeleton
import proofs.«105197_j1417339207765_2_alg».proof.Proof.Gen.Kernel.Launch
import proofs.«105197_j1417339207765_2_alg».proof.Proof.Gen.Kernel.Regions
import proofs.«105197_j1417339207765_2_alg».proof.Proof.Gen.Kernel.Points
import proofs.«105197_j1417339207765_2_alg».proof.Proof.Gen.KernelIdeal
import proofs.«105197_j1417339207765_2_alg».proof.Proof.Gen.KernelIdeal.Skeleton
import proofs.«105197_j1417339207765_2_alg».proof.Proof.Gen.KernelIdeal.Launch
import proofs.«105197_j1417339207765_2_alg».proof.Proof.Gen.KernelIdeal.Regions
import proofs.«105197_j1417339207765_2_alg».proof.Proof.Gen.KernelIdeal.Points
import proofs.«105197_j1417339207765_2_alg».proof.Proof.Gen.ReferenceIdeal
import proofs.«105197_j1417339207765_2_alg».proof.Proof.Gen.Pre_finite_inputs
import proofs.«105197_j1417339207765_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_p, Cert.Proof.Claims.frame_pi, Cert.Proof.Claims.frame_ri, Cert.Proof.Claims.preserves, Cert.Proof.Claims.algebraic⟩

end Cert.Proof

end
